-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v7)) (v2 : (c : Dev Cert.KernelIdeal.nD) → Buf (Elt Ideal) ((c.tc : Thread Cert.KernelIdeal.nD Cert.KernelIdeal.τ).loc Cert.KernelIdeal.main_v7)) (v3 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_v7) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_v7) = v1 c
          ∧ r.2.mem ((c.tc : Thread Cert.ReferenceIdeal.nD Cert.ReferenceIdeal.τ).loc Cert.ReferenceIdeal.main_v7) = v2 c
          ∧ r.2.mem ((c.tc : Thread Cert.ReferenceIdeal.nD Cert.ReferenceIdeal.τ).loc Cert.ReferenceIdeal.main_v7) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S64x50x10000 : Shape := ⟨3, ![64, 50, 10000]⟩
abbrev S0 : Shape := ⟨1, ![0]⟩
abbrev S64x50 : Shape := ⟨2, ![64, 50]⟩
abbrev S_ : Shape := ⟨0, ![]⟩

class Facts : Prop where
  bcast_S_S64x50x10000 : S_.BroadcastsInDim S64x50x10000 (![] : Fin 0 → Fin S64x50x10000.rank)
  reducesTo_S64x50x10000_S_d0_1_2 : S64x50x10000.ReducesTo [0, 1, 2] S_
  h_S_ : 0 < S_.numel
  bcast_S_S0 : S_.BroadcastsInDim S0 (![] : Fin 0 → Fin S0.rank)
  reducesTo_S0_S_d0 : S0.ReducesTo [0] S_
  bcast_S_S64x50 : S_.BroadcastsInDim S64x50 (![] : Fin 0 → Fin S64x50.rank)
  reducesTo_S64x50_S_d0_1 : S64x50.ReducesTo [0, 1] S_

variable [Facts]

def fn_part3 {F : FTy → Type} [FloatOps F] (main_arg5 : IVec S64x50 32) (main_v48 : IVec S_ 1) (main_v50 : IVec S64x50 1) : IVec S_ 1 :=
  let main_c_19 : IVec S_ 32 := constantI S_ 32 9999#32
  let main_v51 : IVec S64x50 32 := broadcastInDim S64x50 ![] bcast_S_S64x50 main_c_19
  let main_v52 : IVec S64x50 1 := cmpi .sle main_arg5 main_v51
  let main_v53 : IVec S64x50 1 := andi main_v50 main_v52
  let main_c_20 : IVec S_ 1 := constantI S_ 1 1#1
  let main_v54 : IVec S_ 1 := (fun x v => Host.reduce IntOp.andi x v reducesTo_S64x50_S_d0_1 h_S_) main_v53 main_c_20
  let main_v55 : IVec S_ 1 := andi main_v48 main_v54
  main_v55

def fn_part2 {F : FTy → Type} [FloatOps F] (main_arg5 : IVec S64x50 32) (main_arg8 : FVec F S0 .f32) (main_arg9 : FVec F S0 .f32) (main_arg10 : FVec F S0 .f32) (main_v33 : IVec S_ 1) : IVec S_ 1 :=
  let main_v34 : FVec F S0 .f32 := Host.absf main_arg8
  let main_cst_12 : FVec F S_ .f32 := constant S_ .f32 0x7F800000#32
  let main_v35 : FVec F S0 .f32 := broadcastInDim S0 ![] bcast_S_S0 main_cst_12
  let main_v36 : IVec S0 1 := cmpf .olt main_v34 main_v35
  let main_c_13 : IVec S_ 1 := constantI S_ 1 1#1
  let main_v37 : IVec S_ 1 := (fun x v => Host.reduce IntOp.andi x v reducesTo_S0_S_d0 h_S_) main_v36 main_c_13
  let main_v38 : IVec S_ 1 := andi main_v33 main_v37
  let main_v39 : FVec F S0 .f32 := Host.absf main_arg9
  let main_cst_14 : FVec F S_ .f32 := constant S_ .f32 0x7F800000#32
  let main_v40 : FVec F S0 .f32 := broadcastInDim S0 ![] bcast_S_S0 main_cst_14
  let main_v41 : IVec S0 1 := cmpf .olt main_v39 main_v40
  let main_c_15 : IVec S_ 1 := constantI S_ 1 1#1
  let main_v42 : IVec S_ 1 := (fun x v => Host.reduce IntOp.andi x v reducesTo_S0_S_d0 h_S_) main_v41 main_c_15
  let main_v43 : IVec S_ 1 := andi main_v38 main_v42
  let main_v44 : FVec F S0 .f32 := Host.absf main_arg10
  let main_cst_16 : FVec F S_ .f32 := constant S_ .f32 0x7F800000#32
  let main_v45 : FVec F S0 .f32 := broadcastInDim S0 ![] bcast_S_S0 main_cst_16
  let main_v46 : IVec S0 1 := cmpf .olt main_v44 main_v45
  let main_c_17 : IVec S_ 1 := constantI S_ 1 1#1
  let main_v47 : IVec S_ 1 := (fun x v => Host.reduce IntOp.andi x v reducesTo_S0_S_d0 h_S_) main_v46 main_c_17
  let main_v48 : IVec S_ 1 := andi main_v43 main_v47
  let main_c_18 : IVec S_ 32 := constantI S_ 32 0#32
  let main_v49 : IVec S64x50 32 := broadcastInDim S64x50 ![] bcast_S_S64x50 main_c_18
  let main_v50 : IVec S64x50 1 := cmpi .sge main_arg5 main_v49
  fn_part3 (F := F) main_arg5 main_v48 main_v50

def fn_part1 {F : FTy → Type} [FloatOps F] (main_arg4 : FVec F S0 .f32) (main_arg5 : IVec S64x50 32) (main_arg6 : FVec F S64x50 .f32) (main_arg7 : FVec F S0 .f32) (main_arg8 : FVec F S0 .f32) (main_arg9 : FVec F S0 .f32) (main_arg10 : FVec F S0 .f32) (main_v13 : IVec S_ 1) (main_v16 : IVec S0 1) : IVec S_ 1 :=
  let main_c_5 : IVec S_ 1 := constantI S_ 1 1#1
  let main_v17 : IVec S_ 1 := (fun x v => Host.reduce IntOp.andi x v reducesTo_S0_S_d0 h_S_) main_v16 main_c_5
  let main_v18 : IVec S_ 1 := andi main_v13 main_v17
  let main_v19 : FVec F S0 .f32 := Host.absf main_arg4
  let main_cst_6 : FVec F S_ .f32 := constant S_ .f32 0x7F800000#32
  let main_v20 : FVec F S0 .f32 := broadcastInDim S0 ![] bcast_S_S0 main_cst_6
  let main_v21 : IVec S0 1 := cmpf .olt main_v19 main_v20
  let main_c_7 : IVec S_ 1 := constantI S_ 1 1#1
  let main_v22 : IVec S_ 1 := (fun x v => Host.reduce IntOp.andi x v reducesTo_S0_S_d0 h_S_) main_v21 main_c_7
  let main_v23 : IVec S_ 1 := andi main_v18 main_v22
  let main_v24 : FVec F S64x50 .f32 := Host.absf main_arg6
  let main_cst_8 : FVec F S_ .f32 := constant S_ .f32 0x7F800000#32
  let main_v25 : FVec F S64x50 .f32 := broadcastInDim S64x50 ![] bcast_S_S64x50 main_cst_8
  let main_v26 : IVec S64x50 1 := cmpf .olt main_v24 main_v25
  let main_c_9 : IVec S_ 1 := constantI S_ 1 1#1
  let main_v27 : IVec S_ 1 := (fun x v => Host.reduce IntOp.andi x v reducesTo_S64x50_S_d0_1 h_S_) main_v26 main_c_9
  let main_v28 : IVec S_ 1 := andi main_v23 main_v27
  let main_v29 : FVec F S0 .f32 := Host.absf main_arg7
  let main_cst_10 : FVec F S_ .f32 := constant S_ .f32 0x7F800000#32
  let main_v30 : FVec F S0 .f32 := broadcastInDim S0 ![] bcast_S_S0 main_cst_10
  let main_v31 : IVec S0 1 := cmpf .olt main_v29 main_v30
  let main_c_11 : IVec S_ 1 := constantI S_ 1 1#1
  let main_v32 : IVec S_ 1 := (fun x v => Host.reduce IntOp.andi x v reducesTo_S0_S_d0 h_S_) main_v31 main_c_11
  let main_v33 : IVec S_ 1 := andi main_v28 main_v32
  fn_part2 (F := F) main_arg5 main_arg8 main_arg9 main_arg10 main_v33

def fn {F : FTy → Type} [FloatOps F] (main_arg0 : FVec F S64x50x10000 .f32) (main_arg1 : FVec F S0 .f32) (main_arg2 : FVec F S0 .f32) (main_arg3 : FVec F S0 .f32) (main_arg4 : FVec F S0 .f32) (main_arg5 : IVec S64x50 32) (main_arg6 : FVec F S64x50 .f32) (main_arg7 : FVec F S0 .f32) (main_arg8 : FVec F S0 .f32) (main_arg9 : FVec F S0 .f32) (main_arg10 : FVec F S0 .f32) : IVec S_ 1 :=
  let main_v0 : FVec F S64x50x10000 .f32 := Host.absf main_arg0
  let main_cst : FVec F S_ .f32 := constant S_ .f32 0x7F800000#32
  let main_v1 : FVec F S64x50x10000 .f32 := broadcastInDim S64x50x10000 ![] bcast_S_S64x50x10000 main_cst
  let main_v2 : IVec S64x50x10000 1 := cmpf .olt main_v0 main_v1
  let main_c : IVec S_ 1 := constantI S_ 1 1#1
  let main_v3 : IVec S_ 1 := (fun x v => Host.reduce IntOp.andi x v reducesTo_S64x50x10000_S_d0_1_2 h_S_) main_v2 main_c
  let main_v4 : FVec F S0 .f32 := Host.absf main_arg1
  let main_cst_0 : FVec F S_ .f32 := constant S_ .f32 0x7F800000#32
  let main_v5 : FVec F S0 .f32 := broadcastInDim S0 ![] bcast_S_S0 main_cst_0
  let main_v6 : IVec S0 1 := cmpf .olt main_v4 main_v5
  let main_c_1 : IVec S_ 1 := constantI S_ 1 1#1
  let main_v7 : IVec S_ 1 := (fun x v => Host.reduce IntOp.andi x v reducesTo_S0_S_d0 h_S_) main_v6 main_c_1
  let main_v8 : IVec S_ 1 := andi main_v3 main_v7
  let main_v9 : FVec F S0 .f32 := Host.absf main_arg2
  let main_cst_2 : FVec F S_ .f32 := constant S_ .f32 0x7F800000#32
  let main_v10 : FVec F S0 .f32 := broadcastInDim S0 ![] bcast_S_S0 main_cst_2
  let main_v11 : IVec S0 1 := cmpf .olt main_v9 main_v10
  let main_c_3 : IVec S_ 1 := constantI S_ 1 1#1
  let main_v12 : IVec S_ 1 := (fun x v => Host.reduce IntOp.andi x v reducesTo_S0_S_d0 h_S_) main_v11 main_c_3
  let main_v13 : IVec S_ 1 := andi main_v8 main_v12
  let main_v14 : FVec F S0 .f32 := Host.absf main_arg3
  let main_cst_4 : FVec F S_ .f32 := constant S_ .f32 0x7F800000#32
  let main_v15 : FVec F S0 .f32 := broadcastInDim S0 ![] bcast_S_S0 main_cst_4
  let main_v16 : IVec S0 1 := cmpf .olt main_v14 main_v15
  fn_part1 (F := F) main_arg4 main_arg5 main_arg6 main_arg7 main_arg8 main_arg9 main_arg10 main_v13 main_v16
-- ==== Kernel.lean ====
abbrev S64x50x10000 : Shape := ⟨3, ![64, 50, 10000]⟩
abbrev S0 : Shape := ⟨1, ![0]⟩
abbrev S64x50 : Shape := ⟨2, ![64, 50]⟩
abbrev S32000000 : Shape := ⟨1, ![32000000]⟩
abbrev S3200 : Shape := ⟨1, ![3200]⟩
abbrev S_ : Shape := ⟨0, ![]⟩
abbrev S3584 : Shape := ⟨1, ![3584]⟩
abbrev S2x32x16 : Shape := ⟨3, ![2, 32, 16]⟩
abbrev S112 : Shape := ⟨1, ![112]⟩
abbrev S16 : Shape := ⟨1, ![16]⟩
abbrev S1x1x16 : Shape := ⟨3, ![1, 1, 16]⟩
abbrev S1 : Shape := ⟨1, ![1]⟩
abbrev S1x32x16 : Shape := ⟨3, ![1, 32, 16]⟩
abbrev S32x16 : Shape := ⟨2, ![32, 16]⟩
abbrev S1x1x1 : Shape := ⟨3, ![1, 1, 1]⟩

abbrev nBuf : Table → Nat
  | .hbm => 23
  | .local .tc .vmem => 1
  | .local .tc .smem => 1
  | .local .scVector .vmem => 6
  | _ => 0

abbrev bufTy : (tb : Table) → Fin (nBuf tb) → BufTy
  | .hbm, ⟨0, _⟩ => ⟨S64x50x10000, .f32⟩
  | .hbm, ⟨1, _⟩ => ⟨S0, .f32⟩
  | .hbm, ⟨2, _⟩ => ⟨S0, .f32⟩
  | .hbm, ⟨3, _⟩ => ⟨S0, .f32⟩
  | .hbm, ⟨4, _⟩ => ⟨S0, .f32⟩
  | .hbm, ⟨5, _⟩ => ⟨S64x50, .i32⟩
  | .hbm, ⟨6, _⟩ => ⟨S64x50, .f32⟩
  | .hbm, ⟨7, _⟩ => ⟨S0, .f32⟩
  | .hbm, ⟨8, _⟩ => ⟨S0, .f32⟩
  | .hbm, ⟨9, _⟩ => ⟨S0, .f32⟩
  | .hbm, ⟨10, _⟩ => ⟨S0, .f32⟩
  | .hbm, ⟨11, _⟩ => ⟨S32000000, .f32⟩
  | .hbm, ⟨12, _⟩ => ⟨S3200, .i32⟩
  | .hbm, ⟨13, _⟩ => ⟨S_, .i32⟩
  | .hbm, ⟨14, _⟩ => ⟨S_, .i32⟩
  | .hbm, ⟨15, _⟩ => ⟨S3584, .i32⟩
  | .hbm, ⟨16, _⟩ => ⟨S3200, .f32⟩
  | .hbm, ⟨17, _⟩ => ⟨S_, .i32⟩
  | .hbm, ⟨18, _⟩ => ⟨S_, .f32⟩
  | .hbm, ⟨19, _⟩ => ⟨S3584, .f32⟩
  | .hbm, ⟨20, _⟩ => ⟨S2x32x16, .f32⟩
  | .hbm, ⟨21, _⟩ => ⟨S1, .f32⟩
  | .hbm, ⟨22, _⟩ => ⟨S_, .f32⟩
  | .local .tc .vmem, ⟨0, _⟩ => ⟨S2x32x16, .f32⟩
  | .local .tc .smem, ⟨0, _⟩ => ⟨S1, .f32⟩
  | .local .scVector .vmem, ⟨0, _⟩ => ⟨S112, .i32⟩
  | .local .scVector .vmem, ⟨1, _⟩ => ⟨S112, .i32⟩
  | .local .scVector .vmem, ⟨2, _⟩ => ⟨S112, .f32⟩
  | .local .scVector .vmem, ⟨3, _⟩ => ⟨S112, .f32⟩
  | .local .scVector .vmem, ⟨4, _⟩ => ⟨S16, .f32⟩
  | .local .scVector .vmem, ⟨5, _⟩ => ⟨S16, .f32⟩
  | _, _ => ⟨S64x50x10000, .f32⟩

abbrev bufScoped : (cs : CoreSpace) → Fin (nBuf (.local .tc cs)) → Bool
  | .vmem, ⟨0, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 7 → Bool
  | ⟨0, _⟩ => false
  | ⟨1, _⟩ => false
  | ⟨2, _⟩ => false
  | ⟨3, _⟩ => false
  | ⟨4, _⟩ => false
  | ⟨5, _⟩ => true
  | ⟨6, _⟩ => true
  | _ => false

abbrev sig : RefSig :=
  ofTables nBuf rfl bufTy 4 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_call0_v0 : Ref sig .tc := ⟨.hbm, 14, rfl⟩
abbrev main_v2 : Ref sig .tc := ⟨.hbm, 15, rfl⟩
abbrev main_v3 : Ref sig .tc := ⟨.hbm, 16, rfl⟩
abbrev main_c_0 : Ref sig .tc := ⟨.hbm, 17, rfl⟩
abbrev main_call1_v0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v0_scv : Ref sig .scVector := ⟨.hbm, 11, rfl⟩
abbrev main_v2_scv : Ref sig .scVector := ⟨.hbm, 15, rfl⟩
abbrev main_v4_scv : Ref sig .scVector := ⟨.hbm, 19, rfl⟩
abbrev main_v5_scv : Ref sig .scVector := ⟨.hbm, 20, rfl⟩
abbrev cc1_stg0_0 : Ref sig .tc := ⟨.vmem, 0, rfl⟩
abbrev cc1_stg1_0 : Ref sig .tc := ⟨.smem, 0, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc1_sem0_0 : DmaSem sig := 5
abbrev cc1_sem1_0 : DmaSem sig := 6
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c112_i32 : BitVec 32 := 112#32
  let v2 : BitVec 32 := Scalar.muli v1 c112_i32
  ![v2.toNat]
def k0_off2 (i : grid0.Coords) : Fin 3 → Nat :=
  let c0_i32_42 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_43_r3 : BitVec 32 := 0#32
  ![0, v1.toNat, 0]
def k0_off3 (i : grid0.Coords) : Fin 3 → Nat :=
  let c1_i32 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_43_r4 : BitVec 32 := 0#32
  ![1, v1.toNat, 0]
abbrev grid1 : Pipeline.Grid := .none

abbrev stage1_0 : Fin 1 → Memref sig .tc .vmem S2x32x16 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .smem S1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S64x50x10000_S32000000 : S64x50x10000.ShapeCasts S32000000
  shapeCasts_S64x50_S3200 : S64x50.ShapeCasts S3200
  pads_S3200_S3584_03840 : S3200.Pads (![0] : Fin 1 → Nat) ![384] ![0] S3584
  h_S_ : 0 < S_.numel
  iota_S16_d0_w32_scVector : S16.Iotas .scVector 32 [0]
  inb_S112_S16_0 : ∀ a, (![0] : Fin 1 → Nat) a + S16.size a ≤ S112.size a
  h_S16 : 0 < S16.numel
  shapeCasts_S16_S16 : S16.ShapeCasts S16
  inb_S112_S16_16 : ∀ a, (![16] : Fin 1 → Nat) a + S16.size a ≤ S112.size a
  inb_S112_S16_32 : ∀ a, (![32] : Fin 1 → Nat) a + S16.size a ≤ S112.size a
  inb_S112_S16_48 : ∀ a, (![48] : Fin 1 → Nat) a + S16.size a ≤ S112.size a
  inb_S112_S16_64 : ∀ a, (![64] : Fin 1 → Nat) a + S16.size a ≤ S112.size a
  inb_S112_S16_80 : ∀ a, (![80] : Fin 1 → Nat) a + S16.size a ≤ S112.size a
  inb_S112_S16_96 : ∀ a, (![96] : Fin 1 → Nat) a + S16.size a ≤ S112.size a
  inb_S32000000_S32000000_0 : ∀ a, (![0] : Fin 1 → Nat) a + S32000000.size a ≤ S32000000.size a
  gathers_S32000000_S112 : S32000000.Gathers 0 S112
  inb_S16_S16_0 : ∀ a, (![0] : Fin 1 → Nat) a + S16.size a ≤ S16.size a
  squeezes_S1x1x16_S16 : S1x1x16.Squeezes S16
  inb_S2x32x16_S1x32x16_0_0_0 : ∀ a, (![0, 0, 0] : Fin 3 → Nat) a + S1x32x16.size a ≤ S2x32x16.size a
  h_S1x32x16 : 0 < S1x32x16.numel
  shapeCasts_S1x32x16_S32x16 : S1x32x16.ShapeCasts S32x16
  shapeCasts_S32x16_S1x32x16 : S32x16.ShapeCasts S1x32x16
  reduces_S1x32x16_S1 : S1x32x16.Reduces [1, 2] S1
  shapeCasts_S1_S1x1x1 : S1.ShapeCasts S1x1x1
  inpos_S1x1x1_p0_0_0 : ∀ a, (![0, 0, 0] : Fin 3 → Nat) a < S1x1x1.size a
  inb_S2x32x16_S1x32x16_1_0_0 : ∀ a, (![1, 0, 0] : Fin 3 → Nat) a + S1x32x16.size a ≤ S2x32x16.size a
  inb_S1_S1_0 : ∀ a, (![0] : Fin 1 → Nat) a + S1.size a ≤ S1.size a
  numel1_S1 : S1.numel = 1
  shapeCasts_S1_S_ : S1.ShapeCasts S_
  hcc0_scoped0 : 0 + S_.numel ≤ 7
  hcc0_scoped1 : 1 + S_.numel ≤ 7
  hcc0_scoped2 : 2 + S_.numel ≤ 7
  hcc0_scoped3 : 3 + S_.numel ≤ 7
  hcc0_scoped4 : 4 + S_.numel ≤ 7
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S112.size a ≤ S3584.size a
  k0_off2_inb : ∀ i : grid0.Coords, ∀ a, (k0_off2 i) a + S1x1x16.size a ≤ S2x32x16.size a
  k0_off3_inb : ∀ i : grid0.Coords, ∀ a, (k0_off3 i) a + S1x1x16.size a ≤ S2x32x16.size a
  hstage1_0 : ∀ j, (stage1_0 j).IsWhole
  hstage1_1 : ∀ j, (stage1_1 j).IsWhole

variable [Facts₀]

abbrev cc0_scoped0 : DmaSems sig S_ := SemArray.consecutive 0 S_ hcc0_scoped0
abbrev cc0_scoped1 : DmaSems sig S_ := SemArray.consecutive 1 S_ hcc0_scoped1
abbrev cc0_scoped2 : DmaSems sig S_ := SemArray.consecutive 2 S_ hcc0_scoped2
abbrev cc0_scoped3 : DmaSems sig S_ := SemArray.consecutive 3 S_ hcc0_scoped3
abbrev cc0_scoped4 : DmaSems sig S_ := SemArray.consecutive 4 S_ hcc0_scoped4

abbrev win1_0 : Pipeline.Window sig grid1 :=
  Pipeline.Window.whole (Memref.whole main_v5) false false (stage1_0 0) (sem1_0 0) (Memref.isWhole_whole _) (hstage1_0 0)

abbrev win1_1 : Pipeline.Window sig grid1 :=
  Pipeline.Window.whole (Memref.whole main_v6) true false (stage1_1 0) (sem1_1 0) (Memref.isWhole_whole _) (hstage1_1 0)

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S64x50x10000 : Shape := ⟨3, ![64, 50, 10000]⟩
abbrev S0 : Shape := ⟨1, ![0]⟩
abbrev S64x50 : Shape := ⟨2, ![64, 50]⟩
abbrev S64x50x1 : Shape := ⟨3, ![64, 50, 1]⟩
abbrev S_ : Shape := ⟨0, ![]⟩
abbrev S64x50x1x1 : Shape := ⟨4, ![64, 50, 1, 1]⟩
abbrev S1 : Shape := ⟨1, ![1]⟩
abbrev S1x1x1x1 : Shape := ⟨4, ![1, 1, 1, 1]⟩

abbrev nBuf : Space → Nat
  | .hbm => 42
  | .vmem => 0
  | .smem => 0
  | _ => 0

abbrev bufTy : (tb : Table) → Fin (tcTables nBuf tb) → BufTy
  | .hbm, ⟨0, _⟩ => ⟨S64x50x10000, .f32⟩
  | .hbm, ⟨1, _⟩ => ⟨S0, .f32⟩
  | .hbm, ⟨2, _⟩ => ⟨S0, .f32⟩
  | .hbm, ⟨3, _⟩ => ⟨S0, .f32⟩
  | .hbm, ⟨4, _⟩ => ⟨S0, .f32⟩
  | .hbm, ⟨5, _⟩ => ⟨S64x50, .i32⟩
  | .hbm, ⟨6, _⟩ => ⟨S64x50, .f32⟩
  | .hbm, ⟨7, _⟩ => ⟨S0, .f32⟩
  | .hbm, ⟨8, _⟩ => ⟨S0, .f32⟩
  | .hbm, ⟨9, _⟩ => ⟨S0, .f32⟩
  | .hbm, ⟨10, _⟩ => ⟨S0, .f32⟩
  | .hbm, ⟨11, _⟩ => ⟨S64x50x1, .i32⟩
  | .hbm, ⟨12, _⟩ => ⟨S_, .i32⟩
  | .hbm, ⟨13, _⟩ => ⟨S64x50x1, .i32⟩
  | .hbm, ⟨14, _⟩ => ⟨S64x50x1, .i1⟩
  | .hbm, ⟨15, _⟩ => ⟨S_, .i32⟩
  | .hbm, ⟨16, _⟩ => ⟨S64x50x1, .i32⟩
  | .hbm, ⟨17, _⟩ => ⟨S64x50x1, .i32⟩
  | .hbm, ⟨18, _⟩ => ⟨S64x50x1, .i32⟩
  | .hbm, ⟨19, _⟩ => ⟨S64x50x1x1, .i32⟩
  | .hbm, ⟨20, _⟩ => ⟨S1, .i32⟩
  | .hbm, ⟨21, _⟩ => ⟨S_, .i32⟩
  | .hbm, ⟨22, _⟩ => ⟨S64x50x1x1, .i32⟩
  | .hbm, ⟨23, _⟩ => ⟨S64x50x1x1, .i1⟩
  | .hbm, ⟨24, _⟩ => ⟨S1x1x1x1, .i32⟩
  | .hbm, ⟨25, _⟩ => ⟨S64x50x1x1, .i32⟩
  | .hbm, ⟨26, _⟩ => ⟨S64x50x1x1, .i1⟩
  | .hbm, ⟨27, _⟩ => ⟨S64x50x1x1, .i1⟩
  | .hbm, ⟨28, _⟩ => ⟨S_, .i1⟩
  | .hbm, ⟨29, _⟩ => ⟨S64x50x1, .i1⟩
  | .hbm, ⟨30, _⟩ => ⟨S64x50x1, .f32⟩
  | .hbm, ⟨31, _⟩ => ⟨S_, .f32⟩
  | .hbm, ⟨32, _⟩ => ⟨S64x50x1, .f32⟩
  | .hbm, ⟨33, _⟩ => ⟨S64x50x1, .f32⟩
  | .hbm, ⟨34, _⟩ => ⟨S64x50, .f32⟩
  | .hbm, ⟨35, _⟩ => ⟨S64x50, .f32⟩
  | .hbm, ⟨36, _⟩ => ⟨S64x50, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | _, _ => ⟨S64x50x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_cst : Ref sig .tc := ⟨.hbm, 31, rfl⟩
abbrev main_call0_v14 : Ref sig .tc := ⟨.hbm, 32, rfl⟩
abbrev main_v1 : Ref sig .tc := ⟨.hbm, 33, rfl⟩
abbrev main_v2 : Ref sig .tc := ⟨.hbm, 34, rfl⟩
abbrev main_v3 : Ref sig .tc := ⟨.hbm, 35, rfl⟩
abbrev main_v4 : Ref sig .tc := ⟨.hbm, 36, rfl⟩
abbrev main_cst : Ref sig .tc := ⟨.hbm, 37, rfl⟩
abbrev main_v5 : Ref sig .tc := ⟨.hbm, 38, rfl⟩
abbrev main_cst_0 : Ref sig .tc := ⟨.hbm, 39, rfl⟩
abbrev main_v6 : Ref sig .tc := ⟨.hbm, 40, rfl⟩
abbrev main_v7 : Ref sig .tc := ⟨.hbm, 41, rfl⟩

abbrev nD : Nat := 1
abbrev τ : Topo := Topo.v7x

variable {F : FTy → Type} [FloatOps F]

class Facts₀ : Prop where
  bcast_S64x50_S64x50x1_0_1 : S64x50.BroadcastsInDim S64x50x1 (![0, 1] : Fin 2 → Fin S64x50x1.rank)
  bcast_S_S64x50x1 : S_.BroadcastsInDim S64x50x1 (![] : Fin 0 → Fin S64x50x1.rank)
  shapeCasts_S64x50x1_S64x50x1x1 : S64x50x1.ShapeCasts S64x50x1x1
  bcast_S_S64x50x1x1 : S_.BroadcastsInDim S64x50x1x1 (![] : Fin 0 → Fin S64x50x1x1.rank)
  bcast_S1_S1x1x1x1_3 : S1.BroadcastsInDim S1x1x1x1 (![3] : Fin 1 → Fin S1x1x1x1.rank)
  bcast_S1x1x1x1_S64x50x1x1_0_1_2_3 : S1x1x1x1.BroadcastsInDim S64x50x1x1 (![0, 1, 2, 3] : Fin 4 → Fin S64x50x1x1.rank)
  reducesTo_S64x50x1x1_S64x50x1_d3 : S64x50x1x1.ReducesTo [3] S64x50x1
  h_S_ : 0 < S_.numel
  shapeCasts_S64x50x1_S64x50 : S64x50x1.ShapeCasts S64x50
  reducesTo_S64x50_S_d0_1 : S64x50.ReducesTo [0, 1] S_
  gather_S64x50x10000_S64x50x1x1_S64x50x1_n_2_01_01_2_3_111_wf : GatherDims.WF S64x50x10000 S64x50x1x1 S64x50x1 [] [2] [0, 1] [2] [0, 1] 3 ![1, 1, 1]

variable [Facts₀]

def gather_S64x50x10000_S64x50x1x1_S64x50x1_n_2_01_01_2_3_111 : GatherDims S64x50x10000 S64x50x1x1 S64x50x1 where
  offsetDims := []
  collapsedSliceDims := [2]
  operandBatchingDims := [0, 1]
  startIndicesBatchingDims := [0, 1]
  startIndexMap := [2]
  indexVectorDim := 3
  sliceSizes := ![1, 1, 1]
  wf := gather_S64x50x10000_S64x50x1x1_S64x50x1_n_2_01_01_2_3_111_wf

class Facts : Prop extends Facts₀ where

variable [Facts]
-- ==== Proof.Spec.lean ====
/-
  What one vector subcore computes, as pure functions of the contents of its scratch rows (any float instance).
  A subcore holds 112 consecutive positions g = 112·w + k (k < 112) of the padded target and mask arrays, seven
  blocks of sixteen lanes. From the targets it forms the flat positions min(10000·g + target g, 31999999) of the
  flattened input (`idxRow`), fetches those 112 entries, and leaves per lane l the two partial sums
  Σ_j value(16j + l) · mask(16j + l) (`accRow`) and Σ_j mask(16j + l) (`maccRow`), each added left to right.
-/
import proofs.«209899_g60301340836213_cont_9to1c4b_660_2_alg».proof.Proof.Gen.KernelIdeal.Skeleton
import Idealize.ShloMosaic.Lib.ValueIdx

noncomputable section

namespace Cert.KernelIdeal.Spec

open Idealize.ShloMosaic Cert.KernelIdeal Cert.KernelIdeal.Gen

variable {F : FTy → Type} [FloatOps F]

/-- Lane `y` of the block of sixteen lanes that starts at `o`, as a position of the 112-row. -/
def lane (o : Nat) (ho : o + 16 ≤ 112) (y : S16.Idx) : S112.Idx :=
  ValueIdx.ix1 ⟨o + (y 0).val, by have h : (y 0).val < 16 := (y 0).isLt; omega⟩

/-- The block of sixteen lanes of a 112-row that starts at `o`. -/
def chunk {α : Type} (o : Nat) (ho : o + 16 ≤ 112) (f : S112.Idx → α) : S16.Idx → α := fun y => f (lane o ho y)

/-- A 112-row with the block of sixteen lanes at `o` replaced by `w`. -/
def put {α : Type} (o : Nat) (ho : o + 16 ≤ 112) (f : S112.Idx → α) (w : S16.Idx → α) : S112.Idx → α := fun i =>
  if h : o ≤ (i 0).val ∧ (i 0).val < o + 16 then w (ValueIdx.ix1 ⟨(i 0).val - o, by omega⟩) else f i

/-- The first position of subcore `L`'s row, as the kernel computes it: 112 · (2 · subcore + core). -/
def base (L : grid0.Coords) : BitVec 32 :=
  Scalar.muli (Scalar.addi (Scalar.muli (BitVec.ofNat 32 (L 1).val) 2#32) (BitVec.ofNat 32 (L 0).val)) 112#32

/-- The lane numbers 0 … 15. -/
def lanes : IVec S16 32 := iota .scVector S16 32 [0] iota_S16_d0_w32_scVector

/-- The flat positions subcore `L` forms from its 112 targets `tr`, block by block over the row's earlier
    contents `i0` (all of which are replaced). -/
def idxRow (L : grid0.Coords) (i0 tr : Vec F S112 .i32) : Vec F S112 .i32 :=
  let r0 := put 0 (by omega) i0 (k0_pay3 (F := F) L (chunk 0 (by omega) tr))
  let r1 := put 16 (by omega) r0 (k0_pay4 (F := F) L (chunk 16 (by omega) tr))
  let r2 := put 32 (by omega) r1 (k0_pay5 (F := F) lanes (Scalar.addi (base L) 32#32) (chunk 32 (by omega) tr))
  let r3 := put 48 (by omega) r2 (k0_pay6 (F := F) (base L) lanes (chunk 48 (by omega) tr))
  let r4 := put 64 (by omega) r3 (k0_pay7 (F := F) (base L) lanes (chunk 64 (by omega) tr))
  let r5 := put 80 (by omega) r4 (k0_pay9 (F := F) (k0_pay8 (base L) lanes) 10000#32 (chunk 80 (by omega) tr))
  put 96 (by omega) r5 (k0_pay10 (F := F) (base L) lanes (chunk 96 (by omega) tr))

/-- Per lane, the sum over the seven blocks of fetched value times mask, added left to right. -/
def accRow (vals mrow : Vec F S112 .f32) : FVec F S16 .f32 :=
  k0_pay1 (k0_pay15
    (k0_pay12 (chunk 0 (by omega) vals) (chunk 0 (by omega) mrow) (chunk 16 (by omega) vals) (chunk 16 (by omega) mrow))
    (chunk 32 (by omega) vals) (chunk 32 (by omega) mrow) (chunk 48 (by omega) vals) (chunk 48 (by omega) mrow)
    (chunk 64 (by omega) vals) (chunk 64 (by omega) mrow) (chunk 80 (by omega) vals) (chunk 80 (by omega) mrow)
    (chunk 96 (by omega) vals) (chunk 96 (by omega) mrow))

/-- Per lane, the sum over the seven blocks of the mask, added left to right. -/
def maccRow (mrow : Vec F S112 .f32) : FVec F S16 .f32 :=
  k0_pay2 (k0_pay14 (k0_pay11 (chunk 0 (by omega) mrow)) (k0_pay13 (chunk 16 (by omega) mrow))
      (chunk 32 (by omega) mrow) (chunk 48 (by omega) mrow) (chunk 64 (by omega) mrow) (chunk 80 (by omega) mrow))
    (k0_pay16 (chunk 96 (by omega) mrow))

end Cert.KernelIdeal.Spec

end
-- ==== Proof.Common.lean ====
/-
  The setting shared by the modules about the program's run: the machine's resource algebra, the four arrays the
  vector subcores work on, how they are divided among the thirty-two subcores, and what travels with each
  handshake. Subcore (core c, tile i) is worker w = 2·i + c: it reads positions 112·w … 112·w + 111 of the padded
  targets and mask, any entry of the flattened input, and writes the sixteen lanes (0, w, ·) and (1, w, ·) of the
  partial-sum array.
-/
import proofs.«209899_g60301340836213_cont_9to1c4b_660_2_alg».proof.Defs
import proofs.«209899_g60301340836213_cont_9to1c4b_660_2_alg».proof.Proof.Spec
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«209899_g60301340836213_cont_9to1c4b_660_2_alg».proof.Proof.Gen.KernelIdeal
import proofs.«209899_g60301340836213_cont_9to1c4b_660_2_alg».proof.Proof.Gen.KernelIdeal.Skeleton

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the region's staging cells' rounds, the transfers' counters -/

abbrev UH : Type := URounds (GSem nD τ sig) ℕ
abbrev UP : Type := UR sig nD τ
abbrev UU : Type := UH × (UP × Counters)

local notation "𝕄" => MT nD τ sig (HIx 1) (Elt F) ℕ UU ℕ

abbrev EH : Emb UH (MT nD τ sig (HIx 1) (Elt F) ℕ UU ℕ) := embL
abbrev EP : Emb UP (MT nD τ sig (HIx 1) (Elt F) ℕ UU ℕ) := (Emb.inl : Emb UP (UP × Counters)).trans embR

/-! ## The arrays -/

abbrev xLoc (d : Dev nD) : Loc nD τ sig := (SparseCore.T d).loc main_v0
abbrev tLoc (d : Dev nD) : Loc nD τ sig := (SparseCore.T d).loc main_v2
abbrev kLoc (d : Dev nD) : Loc nD τ sig := (SparseCore.T d).loc main_v4
abbrev oLoc (d : Dev nD) : Loc nD τ sig := (SparseCore.T d).loc main_v5

/-- Worker number of (core, tile). -/
def wOf (c : Fin 2) (i : Fin 16) : Fin 32 := ⟨2 * i.val + c.val, by omega⟩

/-- A subcore's grid coordinates from its core and tile numbers. -/
def coordsV (c : Fin (grid0.bound 0)) (s : Fin (grid0.bound 1)) : grid0.Coords :=
  fun | 0 => c | 1 => s | ⟨_ + 2, h⟩ => absurd h (Nat.not_lt.2 (Nat.le_add_left _ _))

/-- The worker number 2 · tile + core of the subcore at grid coordinates `L`. -/
def wL (L : grid0.Coords) : Fin 32 :=
  ⟨2 * (L 1).val + (L 0).val, by
    have h0 : (L 0).val < 2 := (L 0).isLt
    have h1 : (L 1).val < 16 := (L 1).isLt
    omega⟩

abbrev cV (L : grid0.Coords) : Fin τ.nSC := (L 0).castLE hcore0
abbrev jV (L : grid0.Coords) : Fin τ.nSub := (L 1).castLE hsub0

/-- The sixteen lanes (a, w, ·) of the partial-sum array. -/
def oSet (a : Fin 2) (w : Fin 32) : Finset S2x32x16.Idx := Finset.univ.filter fun j => (j 0).val = a.val ∧ (j 1).val = w.val

/-- Lane `y` of row (a, w) of the partial-sum array. -/
def oIx (a : Fin 2) (w : Fin 32) (y : S16.Idx) : S2x32x16.Idx := ValueIdx.ix3 a w (y 0)

/-- The 112 entries a worker holds of a padded array. -/
def rowOf {α : Type} (w : Fin 32) (a : S3584.Idx → α) : S112.Idx → α :=
  fun k => a (ValueIdx.ix1 ⟨112 * w.val + (k 0).val, by have h : (k 0).val < 112 := (k 0).isLt; have := w.isLt; omega⟩)

variable [FloatOps F]

/-- Entry `n` of the flattened input (entry 0 beyond its end, which no worker asks for). -/
def xfAt (xf : S32000000.Idx → Elt F .f32) (n : Nat) : Elt F .f32 :=
  if h : n < 32000000 then xf (ValueIdx.ix1 ⟨n, h⟩) else xf (ValueIdx.ix1 ⟨0, by omega⟩)

/-- The entries of the flattened input at a row of flat positions. -/
def fetched (xf : S32000000.Idx → Elt F .f32) (idx : S112.Idx → Elt F .i32) : S112.Idx → Elt F .f32 := fun k => xfAt xf (idx k).toNat

/-- Worker `(L 0, L 1)`'s sixteen partial sums of value times mask (the row's earlier contents `i0` play no part). -/
def accOut (L : grid0.Coords) (w : Fin 32) (xf : S32000000.Idx → Elt F .f32) (tp : S3584.Idx → Elt F .i32) (mp : S3584.Idx → Elt F .f32)
    (i0 : S112.Idx → Elt F .i32) : S16.Idx → Elt F .f32 :=
  Spec.accRow (F := F) (fetched xf (Spec.idxRow (F := F) L i0 (rowOf w tp))) (rowOf w mp)
/-- and of the mask. -/
def maccOut (w : Fin 32) (mp : S3584.Idx → Elt F .f32) : S16.Idx → Elt F .f32 := Spec.maccRow (F := F) (rowOf w mp)

end Cert.Proof.KI

end
-- ==== Proof.Launch.lean ====
/-
  What travels with each handshake of the one SparseCore call, and how the arrays divide among the subcores.
  Each of the thirty-two workers reads the flattened input and the two padded arrays through a read share of the
  whole array (one token of the full share per worker, the remainder staying with the TensorCore) and owns the two
  rows (0, w, ·) and (1, w, ·) of the partial-sum array outright; a SparseCore's operands are its sixteen workers'
  side by side, so the sequencer's split is the identity.
-/
import proofs.«209899_g60301340836213_cont_9to1c4b_660_2_alg».proof.Proof.Common

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- Worker `w`'s read share of a whole array. -/
abbrev sh (w : Fin 32) : PosShare TreeShare := Transfers.shareTok fullShare 32 w

/-- The grid coordinates of core `c`, tile `i` of the call. -/
def LV (c : Fin ((K (F := F)).nCore 0)) (i : Fin ((K (F := F)).nSub 0)) : grid0.Coords :=
  coordsV ⟨c.val, c.isLt⟩ ⟨i.val, i.isLt⟩

section Payloads

variable (xf : (d : Dev nD) → Buf (Elt F) (xLoc d)) (tp : (d : Dev nD) → Buf (Elt F) (tLoc d))
  (mp : (d : Dev nD) → Buf (Elt F) (kLoc d)) (o0 : (d : Dev nD) → Buf (Elt F) (oLoc d))

/-- What a worker is handed: its read shares and its two rows at the launch contents. -/
def goA (d : Dev nD) (w : Fin 32) : sProp 𝕄 :=
  iprop((xLoc d ↦{sh w} xf d) ∗ (tLoc d ↦{sh w} tp d) ∗ (kLoc d ↦{sh w} mp d)
    ∗ (oLoc d ↦[oSet 0 w]{fullShare} o0 d) ∗ (oLoc d ↦[oSet 1 w]{fullShare} o0 d))

/-- What it hands back: the shares, and its two rows at the partial sums. -/
def tdA (d : Dev nD) (L : grid0.Coords) (w : Fin 32) : sProp 𝕄 :=
  iprop((xLoc d ↦{sh w} xf d) ∗ (tLoc d ↦{sh w} tp d) ∗ (kLoc d ↦{sh w} mp d)
    ∗ (∃ f, ⌜∃ i0, ∀ y : S16.Idx, f (oIx 0 w y) = accOut L w (xf d) (tp d) (mp d) i0 y⌝ ∗ oLoc d ↦[oSet 0 w]{fullShare} f)
    ∗ (∃ f, ⌜∀ y : S16.Idx, f (oIx 1 w y) = maccOut w (mp d) y⌝ ∗ oLoc d ↦[oSet 1 w]{fullShare} f))

/-- The one call's payloads. -/
def P : (K (F := F)).Pay (nD := nD) (Val := Elt F) (Name := ℕ) (U := UU) where
  st := fun q d c => match q with | 0 => bigSep Finset.univ fun i : Fin ((K (F := F)).nSub 0) => goA xf tp mp o0 d (wL (LV c i))
  dn := fun q d c => match q with | 0 => bigSep Finset.univ fun i : Fin ((K (F := F)).nSub 0) => tdA xf tp mp d (LV c i) (wL (LV c i))
  go := fun q d c i => match q with | 0 => goA xf tp mp o0 d (wL (LV c i))
  td := fun q d c i => match q with | 0 => tdA xf tp mp d (LV c i) (wL (LV c i))
  x := fun _ _ => iprop(emp)

instance goA_storable (d : Dev nD) (w : Fin 32) : BI.Storable (upEmb : UEmb _ 𝕄) (goA xf tp mp o0 d w) := by
  unfold goA; infer_instance
instance tdA_storable (d : Dev nD) (L : grid0.Coords) (w : Fin 32) : BI.Storable (upEmb : UEmb _ 𝕄) (tdA xf tp mp d L w) := by
  unfold tdA; infer_instance

instance P_storable : (P (F := F) xf tp mp o0).IsStorable where
  st q d c := match q with
    | 0 => (inferInstance : BI.Storable (upEmb : UEmb _ 𝕄) (bigSep Finset.univ fun i : Fin ((K (F := F)).nSub 0) => goA xf tp mp o0 d (wL (LV c i))))
  dn q d c := match q with
    | 0 => (inferInstance : BI.Storable (upEmb : UEmb _ 𝕄) (bigSep Finset.univ fun i : Fin ((K (F := F)).nSub 0) => tdA xf tp mp d (LV c i) (wL (LV c i))))
  go q d c i := match q with
    | 0 => (inferInstance : BI.Storable (upEmb : UEmb _ 𝕄) (goA xf tp mp o0 d (wL (LV c i))))
  td q d c i := match q with
    | 0 => (inferInstance : BI.Storable (upEmb : UEmb _ 𝕄) (tdA xf tp mp d (LV c i) (wL (LV c i))))

/-- The sequencer's split: a SparseCore's operands ARE its workers', its results theirs. -/
theorem vecSplit : (K (F := F)).VecSplit' (P xf tp mp o0) 0 := by
  intro d c
  show (bigSep Finset.univ fun i : Fin ((K (F := F)).nSub 0) => goA xf tp mp o0 d (wL (LV c i))) ⊢ |={Set.univ}=> iprop(
      (bigSep Finset.univ fun i : Fin ((K (F := F)).nSub 0) => goA xf tp mp o0 d (wL (LV c i)))
      ∗ ((bigSep Finset.univ fun i : Fin ((K (F := F)).nSub 0) => tdA xf tp mp d (LV c i) (wL (LV c i)))
          -∗ (bigSep Finset.univ fun i : Fin ((K (F := F)).nSub 0) => tdA xf tp mp d (LV c i) (wL (LV c i)))))
  iintro H; imodintro
  isplitl [H]; · iexact H
  iintro H; iexact H

end Payloads

end Cert.Proof.KI

end
-- ==== Proof.HostLine.lean ====
/-
  The TensorCore's program around the SparseCore call: seven host operations (the input flattened, the targets and
  the mask flattened and padded with zeros to 3584 entries) as one straight line, then the call, the finishing
  region and the last reshape. What the line leaves in each array is named here once.
-/
import proofs.«209899_g60301340836213_cont_9to1c4b_660_2_alg».proof.Proof.Launch

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The host operations before the SparseCore call, in order. -/
def hostOps : List (HloOp τ sig (Elt F)) :=
  [StableHlo.reshape main_arg0 main_v0 rfl shapeCasts_S64x50x10000_S32000000,
   StableHlo.reshape main_arg5 main_v1 rfl shapeCasts_S64x50_S3200,
   StableHlo.nullary main_c (constantI S_ 32 0#32),
   StableHlo.TRef.unary (.of main_c : StableHlo.TRef sig ⟨S_, .i32⟩) main_call0.v0 id,
   StableHlo.TRef.binary (.of main_v1 : StableHlo.TRef sig ⟨S3200, .i32⟩) main_call0.v0 main_call0.v1 (fun x v => pad S3584 ![0] ![384] ![0] x v pads_S3200_S3584_03840 h_S_),
   StableHlo.reshape main_arg6 main_v3 rfl shapeCasts_S64x50_S3200,
   StableHlo.nullary main_c_0 (constantI S_ 32 0#32),
   StableHlo.TRef.unary (.of main_c_0 : StableHlo.TRef sig ⟨S_, .i32⟩) main_call1.v0 (sitofp .f32),
   StableHlo.TRef.binary (.of main_v3 : StableHlo.TRef sig ⟨S3200, .f32⟩) main_call1.v0 main_call1.v1 (fun x v => pad S3584 ![0] ![384] ![0] x v pads_S3200_S3584_03840 h_S_)]

/-- What follows them. -/
def mainTail (d : Dev nD) : Prog (TpuEff nD τ sig (Elt F) (SparseCore.Sig (ΛP (F := F)) 1) .tc) PUnit := do
  sc.run d 0
  Prog.lift (.customCall (SparseCore.inner (Pipeline.entry 0)) ())
  hlo rfl (StableHlo.reshape main_v6 main_v7 rfl shapeCasts_S1_S_) (fun _ => .ret ⟨⟩)
  pure ⟨⟩

theorem main_eq (d : Dev nD) : main (F := F) d = (StableHlo.seq hostOps >>= fun _ => mainTail d) := by
  simp only [main, fn_pad.body, fn_pad_0.body, hostOps, StableHlo.seq, mainTail, bind_assoc, pure_bind]
  try rfl

end Cert.Proof.KI

end
-- ==== Proof.Deal.lean ====
/-
  Dealing the four arrays to the thirty-two workers and gathering them back. A read-only array goes out as one
  read token of its full share per worker, the remainder kept; the partial-sum array goes out row by row — its
  sixty-four rows (a, w, ·) are pairwise disjoint and cover it — and comes back joined at one valuation that agrees
  with each worker's on that worker's rows.
-/
import proofs.«209899_g60301340836213_cont_9to1c4b_660_2_alg».proof.Proof.Launch

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The grid coordinates of worker `w`: core w mod 2, tile w div 2. -/
def Lw (w : Fin 32) : grid0.Coords := coordsV ⟨w.val % 2, Nat.mod_lt _ (by decide)⟩ ⟨w.val / 2, by have := w.isLt; show w.val / 2 < 16; omega⟩

omit [FloatOps F] in
theorem wL_Lw (w : Fin 32) : wL (Lw w) = w := by
  apply Fin.ext; show 2 * (w.val / 2) + w.val % 2 = w.val; omega

omit [FloatOps F] in
theorem Lw_wL (c : Fin ((K (F := F)).nCore 0)) (i : Fin ((K (F := F)).nSub 0)) : Lw (wL (LV c i)) = LV c i := by
  have hc : c.val < 2 := c.isLt
  have hi : i.val < 16 := i.isLt
  funext a
  match a with
  | ⟨0, _⟩ => apply Fin.ext; show (2 * i.val + c.val) % 2 = c.val; omega
  | ⟨1, _⟩ => apply Fin.ext; show (2 * i.val + c.val) / 2 = i.val; omega

omit [FloatOps F] in
/-- Over the workers is over the cores, then the tiles. -/
theorem bigSep_workers (Φ : Fin 32 → sProp 𝕄) :
    bigSep Finset.univ Φ = bigSep Finset.univ fun c : Fin ((K (F := F)).nCore 0) =>
      bigSep Finset.univ fun i : Fin ((K (F := F)).nSub 0) => Φ (wL (LV c i)) := by
  show bigSep Finset.univ Φ = bigSep (Finset.univ : Finset (Fin 2)) fun c => bigSep (Finset.univ : Finset (Fin 16)) fun i => Φ (wL (LV (F := F) c i))
  rw [bigSep_univ_equiv ((Equiv.prodComm (Fin 2) (Fin 16)).trans finProdFinEquiv) Φ, bigSep_univ_prod]
  refine bigSep_congr fun c _ => bigSep_congr fun i _ => congrArg Φ (Fin.ext ?_)
  have h : (((Equiv.prodComm (Fin 2) (Fin 16)).trans finProdFinEquiv) (c, i)).val = c.val + 2 * i.val := by
    simp [finProdFinEquiv]
  rw [h]; show c.val + 2 * i.val = 2 * i.val + c.val; omega

/-! ## The partial-sum array, row by row -/

omit [FloatOps F] in
theorem oSet_disjoint : ∀ p ∈ (Finset.univ : Finset (Fin 2 × Fin 32)), ∀ p' ∈ (Finset.univ : Finset (Fin 2 × Fin 32)), p ≠ p' →
    Disjoint (oSet p.1 p.2) (oSet p'.1 p'.2) := by
  intro p _ p' _ h
  rw [Finset.disjoint_left]; intro j hj hj'
  simp only [oSet, Finset.mem_filter, Finset.mem_univ, true_and] at hj hj'
  exact h (Prod.ext (Fin.ext (hj.1.symm.trans hj'.1)) (Fin.ext (hj.2.symm.trans hj'.2)))

omit [FloatOps F] in
theorem oSet_cover : (Finset.univ : Finset (Fin 2 × Fin 32)).biUnion (fun p => oSet p.1 p.2) = Finset.univ := by
  ext j
  simp only [Finset.mem_biUnion, Finset.mem_univ, true_and, iff_true, oSet, Finset.mem_filter]
  exact ⟨(⟨(j 0).val, (j 0).isLt⟩, ⟨(j 1).val, (j 1).isLt⟩), rfl, rfl⟩

omit [FloatOps F] in
theorem oPts_pairs (d : Dev nD) (f : Buf (Elt F) (oLoc d)) :
    (oLoc d ↦{fullShare} f : sProp 𝕄) = bigSep Finset.univ fun p : Fin 2 × Fin 32 => oLoc d ↦[oSet p.1 p.2]{fullShare} f := by
  rw [← pointsTo_biUnion Finset.univ (ℓ := oLoc d) (fun p : Fin 2 × Fin 32 => oSet p.1 p.2) oSet_disjoint, oSet_cover]

omit [FloatOps F] in
theorem oPts_rows (d : Dev nD) (f : Buf (Elt F) (oLoc d)) :
    (oLoc d ↦{fullShare} f : sProp 𝕄)
      = bigSep Finset.univ fun w : Fin 32 => iprop((oLoc d ↦[oSet 0 w]{fullShare} f) ∗ (oLoc d ↦[oSet 1 w]{fullShare} f)) := by
  rw [oPts_pairs, bigSep_univ_prod, bigSep_univ_two, bigSep_sep']

/-! ## Dealing and gathering -/

section Arrays

variable (xf : (d : Dev nD) → Buf (Elt F) (xLoc d)) (tp : (d : Dev nD) → Buf (Elt F) (tLoc d))
  (mp : (d : Dev nD) → Buf (Elt F) (kLoc d)) (o0 : (d : Dev nD) → Buf (Elt F) (oLoc d))

/-- What the TensorCore keeps of the three read-only arrays while the workers hold their tokens. -/
def kept (d : Dev nD) : sProp 𝕄 :=
  iprop((xLoc d ↦{Transfers.shareDrop fullShare 32} xf d) ∗ (tLoc d ↦{Transfers.shareDrop fullShare 32} tp d)
    ∗ (kLoc d ↦{Transfers.shareDrop fullShare 32} mp d))

theorem goA_all (d : Dev nD) :
    (bigSep Finset.univ fun w : Fin 32 => goA xf tp mp o0 d w)
      = iprop((bigSep Finset.univ fun w : Fin 32 => xLoc d ↦{sh w} xf d) ∗ (bigSep Finset.univ fun w : Fin 32 => tLoc d ↦{sh w} tp d)
          ∗ (bigSep Finset.univ fun w : Fin 32 => kLoc d ↦{sh w} mp d)
          ∗ bigSep Finset.univ fun w : Fin 32 => iprop((oLoc d ↦[oSet 0 w]{fullShare} o0 d) ∗ (oLoc d ↦[oSet 1 w]{fullShare} o0 d))) := by
  unfold goA
  rw [bigSep_sep', bigSep_sep', bigSep_sep']

theorem st_all (d : Dev nD) :
    (bigSep Finset.univ fun c : Fin ((K (F := F)).nCore 0) => (P xf tp mp o0).st 0 d c)
      = bigSep Finset.univ fun w : Fin 32 => goA xf tp mp o0 d w :=
  (bigSep_workers (F := F) (fun w => goA xf tp mp o0 d w)).symm

/-- The four arrays, whole, are the remainders and every worker's hand. -/
theorem deal (d : Dev nD) :
    iprop((xLoc d ↦{fullShare} xf d) ∗ (tLoc d ↦{fullShare} tp d) ∗ (kLoc d ↦{fullShare} mp d) ∗ (oLoc d ↦{fullShare} o0 d))
      ⊢ iprop(kept xf tp mp d ∗ bigSep Finset.univ fun c : Fin ((K (F := F)).nCore 0) => (P xf tp mp o0).st 0 d c) := by
  rw [st_all, goA_all, oPts_rows]
  iintro ⟨Hx, Ht, Hk, Ho⟩
  ihave Hx' := (Transfers.pointsTo_toks fullShare 32).1 $$ Hx
  ihave Ht' := (Transfers.pointsTo_toks fullShare 32).1 $$ Ht
  ihave Hk' := (Transfers.pointsTo_toks fullShare 32).1 $$ Hk
  icases Hx' with ⟨Hxr, Hx⟩
  icases Ht' with ⟨Htr, Ht⟩
  icases Hk' with ⟨Hkr, Hk⟩
  isplitl [Hxr Htr Hkr]
  · unfold kept
    isplitl [Hxr]; · iexact Hxr
    isplitl [Htr]; · iexact Htr
    iexact Hkr
  isplitl [Hx]; · iexact Hx
  isplitl [Ht]; · iexact Ht
  isplitl [Hk]; · iexact Hk
  iexact Ho

/-- A valuation of the partial-sum array that holds every worker's sums on that worker's rows. -/
def agree (d : Dev nD) (g : Buf (Elt F) (oLoc d)) : Prop :=
  ∀ w : Fin 32, (∃ i0, ∀ y : S16.Idx, g (oIx 0 w y) = accOut (Lw w) w (xf d) (tp d) (mp d) i0 y)
    ∧ (∀ y : S16.Idx, g (oIx 1 w y) = maccOut w (mp d) y)

theorem dn_all (d : Dev nD) :
    (bigSep Finset.univ fun c : Fin ((K (F := F)).nCore 0) => (P xf tp mp o0).dn 0 d c)
      = bigSep Finset.univ fun w : Fin 32 => tdA xf tp mp d (Lw w) w := by
  rw [bigSep_workers (F := F) (fun w => tdA xf tp mp d (Lw w) w)]
  refine bigSep_congr fun c _ => ?_
  show (bigSep Finset.univ fun i : Fin ((K (F := F)).nSub 0) => tdA xf tp mp d (LV c i) (wL (LV c i))) = _
  refine bigSep_congr fun i _ => ?_
  rw [Lw_wL]

omit [FloatOps F] in
theorem oIx_mem (a : Fin 2) (w : Fin 32) (y : S16.Idx) : oIx a w y ∈ oSet a w := by
  simp only [oSet, Finset.mem_filter, Finset.mem_univ, true_and]
  exact ⟨rfl, rfl⟩

/-- The rows come back joined. -/
theorem rows_join (d : Dev nD) :
    iprop((bigSep Finset.univ fun w : Fin 32 =>
        iprop(∃ f, ⌜∃ i0, ∀ y : S16.Idx, f (oIx 0 w y) = accOut (Lw w) w (xf d) (tp d) (mp d) i0 y⌝ ∗ oLoc d ↦[oSet 0 w]{fullShare} f))
      ∗ (bigSep Finset.univ fun w : Fin 32 =>
        iprop(∃ f, ⌜∀ y : S16.Idx, f (oIx 1 w y) = maccOut w (mp d) y⌝ ∗ oLoc d ↦[oSet 1 w]{fullShare} f)))
      ⊢ (iprop(∃ g, ⌜agree xf tp mp d g⌝ ∗ oLoc d ↦{fullShare} g) : sProp 𝕄) := by
  have f₀ : Buf (Elt F) (oLoc d) := fun _ => xf d (ValueIdx.ix1 ⟨0, by decide⟩)
  haveI : Nonempty (Buf (Elt F) (oLoc d)) := ⟨f₀⟩
  iintro ⟨HA, HB⟩
  ihave HA1 := (bigSep_exists_pi Finset.univ (fun (w : Fin 32) (f : Buf (Elt F) (oLoc d)) =>
    iprop(⌜∃ i0, ∀ y : S16.Idx, f (oIx 0 w y) = accOut (Lw w) w (xf d) (tp d) (mp d) i0 y⌝ ∗ oLoc d ↦[oSet 0 w]{fullShare} f))) $$ HA
  icases HA1 with ⟨%fa, HA2⟩
  ihave HA3 := (bigSep_pure_sep Finset.univ _ _) $$ HA2
  icases HA3 with ⟨%ha, HA⟩
  ihave HB1 := (bigSep_exists_pi Finset.univ (fun (w : Fin 32) (f : Buf (Elt F) (oLoc d)) =>
    iprop(⌜∀ y : S16.Idx, f (oIx 1 w y) = maccOut w (mp d) y⌝ ∗ oLoc d ↦[oSet 1 w]{fullShare} f))) $$ HB
  icases HB1 with ⟨%fb, HB2⟩
  ihave HB3 := (bigSep_pure_sep Finset.univ _ _) $$ HB2
  icases HB3 with ⟨%hb, HB⟩
  ihave H := (show iprop((bigSep Finset.univ fun w : Fin 32 => oLoc d ↦[oSet 0 w]{fullShare} fa w)
        ∗ (bigSep Finset.univ fun w : Fin 32 => oLoc d ↦[oSet 1 w]{fullShare} fb w))
      ⊢ (bigSep Finset.univ fun p : Fin 2 × Fin 32 => oLoc d ↦[oSet p.1 p.2]{fullShare} (if p.1 = 0 then fa p.2 else fb p.2) : sProp 𝕄) from by
    rw [bigSep_univ_prod, bigSep_univ_two]
    exact BI.Entails.refl _) $$ [HA HB]
  · isplitl [HA]; · iexact HA
    iexact HB
  ihave H' := (pointsTo_biUnion_join (ℓ := oLoc d) (q := fullShare) (Val := Elt F) Finset.univ (fun p : Fin 2 × Fin 32 => oSet p.1 p.2)
    (fun p => if p.1 = 0 then fa p.2 else fb p.2) f₀ oSet_disjoint) $$ H
  icases H' with ⟨%g, %hg, Hg⟩
  rw [oSet_cover]
  iexists g
  isplitr
  · ipureintro
    intro w
    refine ⟨?_, ?_⟩
    · obtain ⟨i0, hi0⟩ := ha w (Finset.mem_univ w)
      exact ⟨i0, fun y => (hg (0, w) (Finset.mem_univ _) _ (oIx_mem 0 w y)).trans (hi0 y)⟩
    · exact fun y => (hg (1, w) (Finset.mem_univ _) _ (oIx_mem 1 w y)).trans (hb w (Finset.mem_univ w) y)
  · iexact Hg

/-- Every worker's hand back and the remainders are the four arrays, whole. -/
theorem gather (d : Dev nD) :
    iprop(kept xf tp mp d ∗ bigSep Finset.univ fun c : Fin ((K (F := F)).nCore 0) => (P xf tp mp o0).dn 0 d c)
      ⊢ iprop((xLoc d ↦{fullShare} xf d) ∗ (tLoc d ↦{fullShare} tp d) ∗ (kLoc d ↦{fullShare} mp d)
          ∗ ∃ g, ⌜agree xf tp mp d g⌝ ∗ oLoc d ↦{fullShare} g) := by
  rw [dn_all]
  unfold tdA kept
  rw [bigSep_sep', bigSep_sep', bigSep_sep', bigSep_sep']
  iintro ⟨⟨Hxr, Htr, Hkr⟩, Hx, Ht, Hk, HA, HB⟩
  isplitl [Hxr Hx]
  · iapply (Transfers.pointsTo_toks fullShare 32).2
    isplitl [Hxr]; · iexact Hxr
    iexact Hx
  isplitl [Htr Ht]
  · iapply (Transfers.pointsTo_toks fullShare 32).2
    isplitl [Htr]; · iexact Htr
    iexact Ht
  isplitl [Hkr Hk]
  · iapply (Transfers.pointsTo_toks fullShare 32).2
    isplitl [Hkr]; · iexact Hkr
    iexact Hk
  iapply (rows_join xf tp mp d)
  isplitl [HA]; · iexact HA
  iexact HB

end Arrays

end Cert.Proof.KI

end
-- ==== Proof.MainRun.lean ====
/-
  The TensorCore's run of @main inside the launch theorem: the host line over every unscoped buffer at once, the
  arrays dealt to the thirty-two workers and gathered back, the finishing region, the last reshape; and how the final
  memory reads: the eleven arguments unchanged, the result at the finishing body's value of the joined partial sums.
-/
import proofs.«209899_g60301340836213_cont_9to1c4b_660_2_alg».proof.Proof.HostLine
import proofs.«209899_g60301340836213_cont_9to1c4b_660_2_alg».proof.Proof.Deal

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-- A TensorCore reference as a device buffer. -/
abbrev dr (b : Ref sig .tc) : DevRef τ sig := Proc.devRef .tc b

/-- The buffers at launch, and after the host line. -/
abbrev V0 (d : Dev nD) : Valuation τ sig (Elt F) := StableHlo.launchContents m d
abbrev V1 (d : Dev nD) : Valuation τ sig (Elt F) := StableHlo.after (hostOps (F := F)) (V0 m d)

/-- The flattened input, the padded targets and the padded mask, as the host line leaves them. -/
def Xf (d : Dev nD) : Buf (Elt F) (xLoc d) := V1 m d (dr main_v0)
def Tp (d : Dev nD) : Buf (Elt F) (tLoc d) := V1 m d (dr main_v2)
def Mp (d : Dev nD) : Buf (Elt F) (kLoc d) := V1 m d (dr main_v4)
def O0 (d : Dev nD) : Buf (Elt F) (oLoc d) := V1 m d (dr main_v5)

abbrev PP : (K (F := F)).Pay (nD := nD) (Val := Elt F) (Name := ℕ) (U := UU) := P (Xf m) (Tp m) (Mp m) (O0 m)

/-- Every unscoped buffer of the TensorCore. -/
def refsAll : List (Ref sig .tc) := [main_arg0, main_arg1, main_arg2, main_arg3, main_arg4, main_arg5, main_arg6, main_arg7, main_arg8, main_arg9, main_arg10, main_v0, main_v1, main_c, main_call0_v0, main_v2, main_v3, main_c_0, main_call1_v0, main_v4, main_v5, main_v6, main_v7]
def Sall : Finset (DevRef τ sig) :=
  (Finset.univ.filter fun b : Ref sig .tc => ¬ b.isScoped).map ⟨Proc.devRef (τ := τ) .tc, Proc.devRef_injective _⟩

theorem unscoped_list : (Finset.univ.filter fun b : Ref sig .tc => ¬ b.isScoped) = refsAll.toFinset := by decide

omit [FloatOps F] in
/-- They are held whole at a valuation exactly when each is. -/
theorem held_all (d : Dev nD) (W : Valuation τ sig (Elt F)) :
    (StableHlo.held (SparseCore.T d) Sall W : sProp 𝕄)
      = bigSepL refsAll fun b => ((SparseCore.T d).loc b) ↦{fullShare} W (dr b) := by
  unfold StableHlo.held Sall
  rw [BI.bigSep_map]
  exact bigSep_eq_bigSepL_of_eq refsAll unscoped_list (by decide) _

omit [FloatOps F] in
/-- The same, buffer by buffer. -/
theorem held_chain (d : Dev nD) (W : Valuation τ sig (Elt F)) :
    (StableHlo.held (SparseCore.T d) Sall W : sProp 𝕄)
      = iprop((((SparseCore.T d).loc main_arg0) ↦{fullShare} W (dr main_arg0))
        ∗ (((SparseCore.T d).loc main_arg1) ↦{fullShare} W (dr main_arg1))
        ∗ (((SparseCore.T d).loc main_arg2) ↦{fullShare} W (dr main_arg2))
        ∗ (((SparseCore.T d).loc main_arg3) ↦{fullShare} W (dr main_arg3))
        ∗ (((SparseCore.T d).loc main_arg4) ↦{fullShare} W (dr main_arg4))
        ∗ (((SparseCore.T d).loc main_arg5) ↦{fullShare} W (dr main_arg5))
        ∗ (((SparseCore.T d).loc main_arg6) ↦{fullShare} W (dr main_arg6))
        ∗ (((SparseCore.T d).loc main_arg7) ↦{fullShare} W (dr main_arg7))
        ∗ (((SparseCore.T d).loc main_arg8) ↦{fullShare} W (dr main_arg8))
        ∗ (((SparseCore.T d).loc main_arg9) ↦{fullShare} W (dr main_arg9))
        ∗ (((SparseCore.T d).loc main_arg10) ↦{fullShare} W (dr main_arg10))
        ∗ (((SparseCore.T d).loc main_v0) ↦{fullShare} W (dr main_v0))
        ∗ (((SparseCore.T d).loc main_v1) ↦{fullShare} W (dr main_v1))
        ∗ (((SparseCore.T d).loc main_c) ↦{fullShare} W (dr main_c))
        ∗ (((SparseCore.T d).loc main_call0_v0) ↦{fullShare} W (dr main_call0_v0))
        ∗ (((SparseCore.T d).loc main_v2) ↦{fullShare} W (dr main_v2))
        ∗ (((SparseCore.T d).loc main_v3) ↦{fullShare} W (dr main_v3))
        ∗ (((SparseCore.T d).loc main_c_0) ↦{fullShare} W (dr main_c_0))
        ∗ (((SparseCore.T d).loc main_call1_v0) ↦{fullShare} W (dr main_call1_v0))
        ∗ (((SparseCore.T d).loc main_v4) ↦{fullShare} W (dr main_v4))
        ∗ (((SparseCore.T d).loc main_v5) ↦{fullShare} W (dr main_v5))
        ∗ (((SparseCore.T d).loc main_v6) ↦{fullShare} W (dr main_v6))
        ∗ (((SparseCore.T d).loc main_v7) ↦{fullShare} W (dr main_v7))) :=
  (held_all d W).trans rfl

omit [FloatOps F] in
theorem unscoped_held (d : Dev nD) :
    (unscopedBufs d (fun b => m ((SparseCore.T d).loc b)) : sProp 𝕄) = StableHlo.held (SparseCore.T d) Sall (V0 m d) := by
  unfold unscopedBufs StableHlo.held Sall
  rw [BI.bigSep_map]
  rfl

omit [FloatOps F] in
theorem mem_Sall {b : Ref sig .tc} (h : ¬ b.isScoped) : dr b ∈ Sall :=
  Finset.mem_map_of_mem _ (Finset.mem_filter.mpr ⟨Finset.mem_univ _, h⟩)
omit [FloatOps F] in
theorem sub1 {a : Ref sig .tc} (ha : ¬ a.isScoped) : ({dr a} : Finset (DevRef τ sig)) ⊆ Sall :=
  Finset.singleton_subset_iff.mpr (mem_Sall ha)
omit [FloatOps F] in
theorem sub2 {a b : Ref sig .tc} (ha : ¬ a.isScoped) (hb : ¬ b.isScoped) : ({dr a, dr b} : Finset (DevRef τ sig)) ⊆ Sall :=
  Finset.insert_subset_iff.mpr ⟨mem_Sall ha, sub1 hb⟩
omit [FloatOps F] in
theorem sub3 {a b c : Ref sig .tc} (ha : ¬ a.isScoped) (hb : ¬ b.isScoped) (hc : ¬ c.isScoped) :
    ({dr a, dr b, dr c} : Finset (DevRef τ sig)) ⊆ Sall :=
  Finset.insert_subset_iff.mpr ⟨mem_Sall ha, sub2 hb hc⟩

theorem hostOps_bufs : ∀ op ∈ (hostOps (F := F)), op.bufs ⊆ Sall := by
  intro op hop
  simp only [hostOps, List.mem_cons, List.mem_nil_iff, or_false] at hop
  rcases hop with rfl | rfl | rfl | rfl | rfl | rfl | rfl | rfl | rfl
  · exact sub2 (a := main_arg0) (b := main_v0) (by decide) (by decide)
  · exact sub2 (a := main_arg5) (b := main_v1) (by decide) (by decide)
  · exact sub1 (a := main_c) (by decide)
  · exact sub2 (a := main_c) (b := main_call0_v0) (by decide) (by decide)
  · exact sub3 (a := main_v1) (b := main_call0_v0) (c := main_v2) (by decide) (by decide) (by decide)
  · exact sub2 (a := main_arg6) (b := main_v3) (by decide) (by decide)
  · exact sub1 (a := main_c_0) (by decide)
  · exact sub2 (a := main_c_0) (b := main_call1_v0) (by decide) (by decide)
  · exact sub3 (a := main_v3) (b := main_call1_v0) (c := main_v4) (by decide) (by decide) (by decide)

theorem hostOps_fresh : ∀ op ∈ (hostOps (F := F)), op.fresh = ∅ := by
  intro op hop
  simp only [hostOps, List.mem_cons, List.mem_nil_iff, or_false] at hop
  rcases hop with rfl | rfl | rfl | rfl | rfl | rfl | rfl | rfl | rfl <;> rfl

/-! ## What the host line leaves where it does not write -/

theorem V1_keep (d : Dev nD) {b : Ref sig .tc} (h0 : b ≠ main_v0) (h1 : b ≠ main_v1) (h2 : b ≠ main_c) (h3 : b ≠ main_call0_v0) (h4 : b ≠ main_v2) (h5 : b ≠ main_v3) (h6 : b ≠ main_c_0) (h7 : b ≠ main_call1_v0) (h8 : b ≠ main_v4) :
    V1 m d (dr b) = m ((SparseCore.T d).loc b) := by
  refine StableHlo.after_of_forall_not_mem _ _ fun op hop => ?_
  simp only [hostOps, List.mem_cons, List.mem_nil_iff, or_false] at hop
  rcases hop with rfl | rfl | rfl | rfl | rfl | rfl | rfl | rfl | rfl
  · exact fun hm => h0 (Proc.devRef_injective _ (Finset.mem_singleton.mp hm))
  · exact fun hm => h1 (Proc.devRef_injective _ (Finset.mem_singleton.mp hm))
  · exact fun hm => h2 (Proc.devRef_injective _ (Finset.mem_singleton.mp hm))
  · exact fun hm => h3 (Proc.devRef_injective _ (Finset.mem_singleton.mp hm))
  · exact fun hm => h4 (Proc.devRef_injective _ (Finset.mem_singleton.mp hm))
  · exact fun hm => h5 (Proc.devRef_injective _ (Finset.mem_singleton.mp hm))
  · exact fun hm => h6 (Proc.devRef_injective _ (Finset.mem_singleton.mp hm))
  · exact fun hm => h7 (Proc.devRef_injective _ (Finset.mem_singleton.mp hm))
  · exact fun hm => h8 (Proc.devRef_injective _ (Finset.mem_singleton.mp hm))

/-- After the host line: the arguments at their launch contents, the line's own buffers at what it computed. -/
theorem held_V1 (d : Dev nD) :
    (StableHlo.held (SparseCore.T d) Sall (V1 m d) : sProp 𝕄)
      = iprop((((SparseCore.T d).loc main_arg0) ↦{fullShare} m ((SparseCore.T d).loc main_arg0))
        ∗ (((SparseCore.T d).loc main_arg1) ↦{fullShare} m ((SparseCore.T d).loc main_arg1))
        ∗ (((SparseCore.T d).loc main_arg2) ↦{fullShare} m ((SparseCore.T d).loc main_arg2))
        ∗ (((SparseCore.T d).loc main_arg3) ↦{fullShare} m ((SparseCore.T d).loc main_arg3))
        ∗ (((SparseCore.T d).loc main_arg4) ↦{fullShare} m ((SparseCore.T d).loc main_arg4))
        ∗ (((SparseCore.T d).loc main_arg5) ↦{fullShare} m ((SparseCore.T d).loc main_arg5))
        ∗ (((SparseCore.T d).loc main_arg6) ↦{fullShare} m ((SparseCore.T d).loc main_arg6))
        ∗ (((SparseCore.T d).loc main_arg7) ↦{fullShare} m ((SparseCore.T d).loc main_arg7))
        ∗ (((SparseCore.T d).loc main_arg8) ↦{fullShare} m ((SparseCore.T d).loc main_arg8))
        ∗ (((SparseCore.T d).loc main_arg9) ↦{fullShare} m ((SparseCore.T d).loc main_arg9))
        ∗ (((SparseCore.T d).loc main_arg10) ↦{fullShare} m ((SparseCore.T d).loc main_arg10))
        ∗ (((SparseCore.T d).loc main_v0) ↦{fullShare} V1 m d (dr main_v0))
        ∗ (((SparseCore.T d).loc main_v1) ↦{fullShare} V1 m d (dr main_v1))
        ∗ (((SparseCore.T d).loc main_c) ↦{fullShare} V1 m d (dr main_c))
        ∗ (((SparseCore.T d).loc main_call0_v0) ↦{fullShare} V1 m d (dr main_call0_v0))
        ∗ (((SparseCore.T d).loc main_v2) ↦{fullShare} V1 m d (dr main_v2))
        ∗ (((SparseCore.T d).loc main_v3) ↦{fullShare} V1 m d (dr main_v3))
        ∗ (((SparseCore.T d).loc main_c_0) ↦{fullShare} V1 m d (dr main_c_0))
        ∗ (((SparseCore.T d).loc main_call1_v0) ↦{fullShare} V1 m d (dr main_call1_v0))
        ∗ (((SparseCore.T d).loc main_v4) ↦{fullShare} V1 m d (dr main_v4))
        ∗ (((SparseCore.T d).loc main_v5) ↦{fullShare} V1 m d (dr main_v5))
        ∗ (((SparseCore.T d).loc main_v6) ↦{fullShare} V1 m d (dr main_v6))
        ∗ (((SparseCore.T d).loc main_v7) ↦{fullShare} V1 m d (dr main_v7))) := by
  rw [held_chain,
    V1_keep m d (b := main_arg0) (by decide) (by decide) (by decide) (by decide) (by decide) (by decide) (by decide) (by decide) (by decide),
    V1_keep m d (b := main_arg1) (by decide) (by decide) (by decide) (by decide) (by decide) (by decide) (by decide) (by decide) (by decide),
    V1_keep m d (b := main_arg2) (by decide) (by decide) (by decide) (by decide) (by decide) (by decide) (by decide) (by decide) (by decide),
    V1_keep m d (b := main_arg3) (by decide) (by decide) (by decide) (by decide) (by decide) (by decide) (by decide) (by decide) (by decide),
    V1_keep m d (b := main_arg4) (by decide) (by decide) (by decide) (by decide) (by decide) (by decide) (by decide) (by decide) (by decide),
    V1_keep m d (b := main_arg5) (by decide) (by decide) (by decide) (by decide) (by decide) (by decide) (by decide) (by decide) (by decide),
    V1_keep m d (b := main_arg6) (by decide) (by decide) (by decide) (by decide) (by decide) (by decide) (by decide) (by decide) (by decide),
    V1_keep m d (b := main_arg7) (by decide) (by decide) (by decide) (by decide) (by decide) (by decide) (by decide) (by decide) (by decide),
    V1_keep m d (b := main_arg8) (by decide) (by decide) (by decide) (by decide) (by decide) (by decide) (by decide) (by decide) (by decide),
    V1_keep m d (b := main_arg9) (by decide) (by decide) (by decide) (by decide) (by decide) (by decide) (by decide) (by decide) (by decide),
    V1_keep m d (b := main_arg10) (by decide) (by decide) (by decide) (by decide) (by decide) (by decide) (by decide) (by decide) (by decide)]

/-! ## The result -/

abbrev v6Loc (d : Dev nD) : Loc nD τ sig := (SparseCore.T d).loc main_v6
abbrev v7Loc (d : Dev nD) : Loc nD τ sig := (SparseCore.T d).loc main_v7

/-- The finishing body's value of a partial-sum array: (0 − Σ row 0) / Σ row 1. -/
def finishOf (g : S2x32x16.Idx → Elt F .f32) : Elt F .f32 :=
  k1_pay1 (F := F) (fun i => g (ValueIdx.ix3 (0 : Fin 2) (⟨(i 1).val, (i 1).isLt⟩ : Fin 32) (⟨(i 2).val, (i 2).isLt⟩ : Fin 16)))
    (fun i => g (ValueIdx.ix3 (1 : Fin 2) (⟨(i 1).val, (i 1).isLt⟩ : Fin 32) (⟨(i 2).val, (i 2).isLt⟩ : Fin 16)))

/-- The scalar result after the last reshape. -/
def res7 (d : Dev nD) (g : Buf (Elt F) (oLoc d)) : Buf (Elt F) (v7Loc d) :=
  fun i => shapeCast S_ (fun _ : S1.Idx => finishOf (F := F) g) shapeCasts_S1_S_ i

/-- The eleven arguments at their launch contents. -/
def ARGS (d : Dev nD) : sProp 𝕄 :=
  iprop((((SparseCore.T d).loc main_arg0) ↦{fullShare} m ((SparseCore.T d).loc main_arg0))
    ∗ (((SparseCore.T d).loc main_arg1) ↦{fullShare} m ((SparseCore.T d).loc main_arg1))
    ∗ (((SparseCore.T d).loc main_arg2) ↦{fullShare} m ((SparseCore.T d).loc main_arg2))
    ∗ (((SparseCore.T d).loc main_arg3) ↦{fullShare} m ((SparseCore.T d).loc main_arg3))
    ∗ (((SparseCore.T d).loc main_arg4) ↦{fullShare} m ((SparseCore.T d).loc main_arg4))
    ∗ (((SparseCore.T d).loc main_arg5) ↦{fullShare} m ((SparseCore.T d).loc main_arg5))
    ∗ (((SparseCore.T d).loc main_arg6) ↦{fullShare} m ((SparseCore.T d).loc main_arg6))
    ∗ (((SparseCore.T d).loc main_arg7) ↦{fullShare} m ((SparseCore.T d).loc main_arg7))
    ∗ (((SparseCore.T d).loc main_arg8) ↦{fullShare} m ((SparseCore.T d).loc main_arg8))
    ∗ (((SparseCore.T d).loc main_arg9) ↦{fullShare} m ((SparseCore.T d).loc main_arg9))
    ∗ (((SparseCore.T d).loc main_arg10) ↦{fullShare} m ((SparseCore.T d).loc main_arg10)))

/-- What the TensorCore ends with: the arguments as launched, the result at the finishing value of some array that
    holds every worker's partial sums. -/
def FIN (d : Dev nD) : sProp 𝕄 :=
  iprop(ARGS m d ∗ ∃ g, ⌜agree (Xf m) (Tp m) (Mp m) d g⌝ ∗ v7Loc d ↦{fullShare} res7 d g)

/-- The finishing region as one step of @main: from the partial-sum array and the result's one-entry buffer, the
    buffer at the finishing value. -/
def RegionStep (G : Dev nD → sProp 𝕄) : Prop :=
  ∀ (κ : GSem nD τ sig → ℕ) (d : Dev nD) (f5 : Buf (Elt F) (oLoc d)) (f6 : Buf (Elt F) (v6Loc d)) (Φ : PUnit → sProp 𝕄),
    iprop((K (F := F)).ctx EH (PP m) κ ∗ (K (F := F)).tcSt EH d 1 ∗ G d ∗ boundary (SparseCore.T d)
        ∗ (oLoc d ↦{fullShare} f5) ∗ (v6Loc d ↦{fullShare} f6)
        ∗ (((K (F := F)).tcSt EH d 1 ∗ boundary (SparseCore.T d) ∗ (oLoc d ↦{fullShare} f5)
            ∗ (v6Loc d ↦{fullShare} fun _ => finishOf (F := F) f5)) -∗ Φ ⟨⟩))
      ⊢ wp frame (wpE ((K (F := F)).defs (D (F := F))) 𝒱 (SparseCore.T d) none) Set.univ
          (Prog.lift (.customCall (SparseCore.inner (Pipeline.entry 0)) ())) Φ

/-- The last reshape. -/
abbrev opLast : HloOp τ sig (Elt F) := StableHlo.reshape main_v6 main_v7 rfl shapeCasts_S1_S_

/-- @main on device `d`'s TensorCore. -/
theorem hmain (G : Dev nD → sProp 𝕄) (hreg : RegionStep m G) (κ : GSem nD τ sig → ℕ) (d : Dev nD) :
    iprop((K (F := F)).ctx EH (PP m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [main_eq, unscoped_held]
  iintro ⟨#Hctx, Hst, ⟨Hb, Hheld, -, -⟩, HG⟩
  iapply (StableHlo.wp_seq 𝒱 none Set.univ d Sall (fun _ => mainTail d) hostOps hostOps_bufs hostOps_fresh (V0 m d)) $$ [Hb Hheld]
  · isplitl [Hb]; · iexact Hb
    iexact Hheld
  iintro ⟨Hb, Hheld⟩
  ihave Hall := (Entails.of_eq (held_V1 m d)) $$ Hheld
  icases Hall with ⟨Harg0, Harg1, Harg2, Harg3, Harg4, Harg5, Harg6, Harg7, Harg8, Harg9, Harg10, Hv0, Hv1, Hc, Hcall0v0, Hv2, Hv3, Hc0, Hcall1v0, Hv4, Hv5, Hv6, Hv7⟩
  -- the call: the four arrays dealt to the workers, gathered back
  ihave Hd := (deal (Xf m) (Tp m) (Mp m) (O0 m) d) $$ [Hv0 Hv2 Hv4 Hv5]
  · isplitl [Hv0]; · iexact Hv0
    isplitl [Hv2]; · iexact Hv2
    isplitl [Hv4]; · iexact Hv4
    iexact Hv5
  icases Hd with ⟨Hkept, Hst0⟩
  unfold mainTail
  simp only [wp_bind]
  iapply ((K (F := F)).wp_run (D (F := F)) 𝒱 (EH := EH) (P := PP m) κ d 0) $$ [Hst Hst0 Hkept HG Hb Hv6 Hv7 Harg0 Harg1 Harg2 Harg3 Harg4 Harg5 Harg6 Harg7 Harg8 Harg9 Harg10]
  isplitr; · iexact Hctx
  isplitl [Hst]; · iexact Hst
  isplitl [Hst0]; · iexact Hst0
  iintro ⟨Hst, Hdn⟩
  ihave Hg := (gather (Xf m) (Tp m) (Mp m) (O0 m) d) $$ [Hkept Hdn]
  · isplitl [Hkept]; · iexact Hkept
    iexact Hdn
  icases Hg with ⟨-, -, -, %g, %hg, Ho⟩
  -- the finishing region
  iapply (hreg κ d g (V1 m d (dr main_v6)) _) $$ [Hst HG Hb Ho Hv6 Hv7 Harg0 Harg1 Harg2 Harg3 Harg4 Harg5 Harg6 Harg7 Harg8 Harg9 Harg10]
  isplitr; · iexact Hctx
  isplitl [Hst]; · iexact Hst
  isplitl [HG]; · iexact HG
  isplitl [Hb]; · iexact Hb
  isplitl [Ho]; · iexact Ho
  isplitl [Hv6]; · iexact Hv6
  iintro ⟨Hst, Hb, -, Hv6⟩
  -- the last reshape
  let W : Valuation τ sig (Elt F) := Function.update (V1 m d) (dr main_v6) (fun _ => finishOf (F := F) g)
  have hne : dr main_v7 ≠ dr main_v6 := StableHlo.devRef_ne_of_ne (by decide)
  have hW6 : W (dr main_v6) = fun _ => finishOf (F := F) g := Function.update_self _ _ _
  have hW7 : W (dr main_v7) = V1 m d (dr main_v7) := Function.update_of_ne hne _ _
  have hbufs : (opLast (F := F)).bufs = {dr main_v6, dr main_v7} := rfl
  have hnm : dr main_v6 ∉ ({dr main_v7} : Finset (DevRef τ sig)) := Finset.notMem_singleton.mpr hne.symm
  iapply (wp_hlo 𝒱 (SparseCore.T d) none Set.univ (op := opLast (F := F)) (q := fun _ => fullShare) (F := W) (fun _ _ => rfl)) $$ [Hb Hv6 Hv7]
  · isplitl [Hb]; · iexact Hb
    rw [hbufs, SparseCore.bigSep_insert' hnm, bigSep_singleton, hW6, hW7]
    isplitl [Hv6]; · iexact Hv6
    iexact Hv7
  rw [hbufs, SparseCore.bigSep_insert' hnm, bigSep_singleton,
    show (opLast (F := F)).result W (dr main_v7) = res7 d g from
      (StableHlo.reshape_result main_v6 main_v7 rfl shapeCasts_S1_S_ _ _ W).trans (by rw [hW6]; rfl)]
  iintro ⟨-, -, Hv7⟩
  rw [wp_ret]; imodintro
  simp only [wp_pure]
  imodintro
  isplitl [Hst]; · iexact Hst
  unfold FIN ARGS
  isplitl [Harg0 Harg1 Harg2 Harg3 Harg4 Harg5 Harg6 Harg7 Harg8 Harg9 Harg10]
  · isplitl [Harg0]; · iexact Harg0
    isplitl [Harg1]; · iexact Harg1
    isplitl [Harg2]; · iexact Harg2
    isplitl [Harg3]; · iexact Harg3
    isplitl [Harg4]; · iexact Harg4
    isplitl [Harg5]; · iexact Harg5
    isplitl [Harg6]; · iexact Harg6
    isplitl [Harg7]; · iexact Harg7
    isplitl [Harg8]; · iexact Harg8
    isplitl [Harg9]; · iexact Harg9
    iexact Harg10
  iexists g
  isplitr
  · ipureintro; exact hg
  iexact Hv7

end Cert.Proof.KI

end
-- ==== Proof.Run.lean ====
/-
  The program's run from the launch theorem: the launch element of the ghost state (the handshakes' rounds, the
  finishing region's cells, the transfers' counters), how the final memory reads the claim, and the run itself, given
  one worker's body and the finishing region as a step.
-/
import proofs.«209899_g60301340836213_cont_9to1c4b_660_2_alg».proof.Proof.MainRun

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-- What the claim reads of device `d`'s final state. -/
def fq (d : Dev nD) (s' : Phys nD τ sig (Elt F)) : Prop :=
  (s'.mem.mem ((SparseCore.T d).loc main_arg0) = m ((SparseCore.T d).loc main_arg0)
    ∧ s'.mem.mem ((SparseCore.T d).loc main_arg1) = m ((SparseCore.T d).loc main_arg1)
    ∧ s'.mem.mem ((SparseCore.T d).loc main_arg2) = m ((SparseCore.T d).loc main_arg2)
    ∧ s'.mem.mem ((SparseCore.T d).loc main_arg3) = m ((SparseCore.T d).loc main_arg3)
    ∧ s'.mem.mem ((SparseCore.T d).loc main_arg4) = m ((SparseCore.T d).loc main_arg4)
    ∧ s'.mem.mem ((SparseCore.T d).loc main_arg5) = m ((SparseCore.T d).loc main_arg5)
    ∧ s'.mem.mem ((SparseCore.T d).loc main_arg6) = m ((SparseCore.T d).loc main_arg6)
    ∧ s'.mem.mem ((SparseCore.T d).loc main_arg7) = m ((SparseCore.T d).loc main_arg7)
    ∧ s'.mem.mem ((SparseCore.T d).loc main_arg8) = m ((SparseCore.T d).loc main_arg8)
    ∧ s'.mem.mem ((SparseCore.T d).loc main_arg9) = m ((SparseCore.T d).loc main_arg9)
    ∧ s'.mem.mem ((SparseCore.T d).loc main_arg10) = m ((SparseCore.T d).loc main_arg10))
    ∧ ∃ g, agree (Xf m) (Tp m) (Mp m) d g ∧ s'.mem.mem (v7Loc d) = res7 d g

set_option maxRecDepth 16384 in
theorem hfin (d : Dev nD) (s' : Phys nD τ sig (Elt F)) : iprop(FIN m d ∗ SI s') ⊢ (⌜fq m d s'⌝ : sProp 𝕄) := by
  unfold FIN ARGS
  iintro ⟨⟨⟨Harg0, Harg1, Harg2, Harg3, Harg4, Harg5, Harg6, Harg7, Harg8, Harg9, Harg10⟩, %g, %hg, Hv7⟩, HSI0⟩
  ihave A0 := (persistent_entails_right (SI_pointsTo_agree (st := s') (ℓ := ((SparseCore.T d).loc main_arg0)) (I := Finset.univ) (q := fullShare) (f := m ((SparseCore.T d).loc main_arg0)))) $$ [HSI0 Harg0]
  · isplitl [HSI0] <;> iassumption
  icases A0 with ⟨%h0, HSI1, -⟩
  ihave A1 := (persistent_entails_right (SI_pointsTo_agree (st := s') (ℓ := ((SparseCore.T d).loc main_arg1)) (I := Finset.univ) (q := fullShare) (f := m ((SparseCore.T d).loc main_arg1)))) $$ [HSI1 Harg1]
  · isplitl [HSI1] <;> iassumption
  icases A1 with ⟨%h1, HSI2, -⟩
  ihave A2 := (persistent_entails_right (SI_pointsTo_agree (st := s') (ℓ := ((SparseCore.T d).loc main_arg2)) (I := Finset.univ) (q := fullShare) (f := m ((SparseCore.T d).loc main_arg2)))) $$ [HSI2 Harg2]
  · isplitl [HSI2] <;> iassumption
  icases A2 with ⟨%h2, HSI3, -⟩
  ihave A3 := (persistent_entails_right (SI_pointsTo_agree (st := s') (ℓ := ((SparseCore.T d).loc main_arg3)) (I := Finset.univ) (q := fullShare) (f := m ((SparseCore.T d).loc main_arg3)))) $$ [HSI3 Harg3]
  · isplitl [HSI3] <;> iassumption
  icases A3 with ⟨%h3, HSI4, -⟩
  ihave A4 := (persistent_entails_right (SI_pointsTo_agree (st := s') (ℓ := ((SparseCore.T d).loc main_arg4)) (I := Finset.univ) (q := fullShare) (f := m ((SparseCore.T d).loc main_arg4)))) $$ [HSI4 Harg4]
  · isplitl [HSI4] <;> iassumption
  icases A4 with ⟨%h4, HSI5, -⟩
  ihave A5 := (persistent_entails_right (SI_pointsTo_agree (st := s') (ℓ := ((SparseCore.T d).loc main_arg5)) (I := Finset.univ) (q := fullShare) (f := m ((SparseCore.T d).loc main_arg5)))) $$ [HSI5 Harg5]
  · isplitl [HSI5] <;> iassumption
  icases A5 with ⟨%h5, HSI6, -⟩
  ihave A6 := (persistent_entails_right (SI_pointsTo_agree (st := s') (ℓ := ((SparseCore.T d).loc main_arg6)) (I := Finset.univ) (q := fullShare) (f := m ((SparseCore.T d).loc main_arg6)))) $$ [HSI6 Harg6]
  · isplitl [HSI6] <;> iassumption
  icases A6 with ⟨%h6, HSI7, -⟩
  ihave A7 := (persistent_entails_right (SI_pointsTo_agree (st := s') (ℓ := ((SparseCore.T d).loc main_arg7)) (I := Finset.univ) (q := fullShare) (f := m ((SparseCore.T d).loc main_arg7)))) $$ [HSI7 Harg7]
  · isplitl [HSI7] <;> iassumption
  icases A7 with ⟨%h7, HSI8, -⟩
  ihave A8 := (persistent_entails_right (SI_pointsTo_agree (st := s') (ℓ := ((SparseCore.T d).loc main_arg8)) (I := Finset.univ) (q := fullShare) (f := m ((SparseCore.T d).loc main_arg8)))) $$ [HSI8 Harg8]
  · isplitl [HSI8] <;> iassumption
  icases A8 with ⟨%h8, HSI9, -⟩
  ihave A9 := (persistent_entails_right (SI_pointsTo_agree (st := s') (ℓ := ((SparseCore.T d).loc main_arg9)) (I := Finset.univ) (q := fullShare) (f := m ((SparseCore.T d).loc main_arg9)))) $$ [HSI9 Harg9]
  · isplitl [HSI9] <;> iassumption
  icases A9 with ⟨%h9, HSI10, -⟩
  ihave A10 := (persistent_entails_right (SI_pointsTo_agree (st := s') (ℓ := ((SparseCore.T d).loc main_arg10)) (I := Finset.univ) (q := fullShare) (f := m ((SparseCore.T d).loc main_arg10)))) $$ [HSI10 Harg10]
  · isplitl [HSI10] <;> iassumption
  icases A10 with ⟨%h10, HSI11, -⟩
  ihave A11 := (SI_pointsTo_agree (st := s') (ℓ := v7Loc d) (I := Finset.univ) (q := fullShare) (f := res7 d g)) $$ [HSI11 Hv7]
  · isplitl [HSI11] <;> iassumption
  icases A11 with %h11
  ipureintro
  exact ⟨⟨funext fun i => h0 i (Finset.mem_univ i), funext fun i => h1 i (Finset.mem_univ i), funext fun i => h2 i (Finset.mem_univ i), funext fun i => h3 i (Finset.mem_univ i), funext fun i => h4 i (Finset.mem_univ i), funext fun i => h5 i (Finset.mem_univ i), funext fun i => h6 i (Finset.mem_univ i), funext fun i => h7 i (Finset.mem_univ i), funext fun i => h8 i (Finset.mem_univ i), funext fun i => h9 i (Finset.mem_univ i), funext fun i => h10 i (Finset.mem_univ i)⟩, g, hg, funext fun i => h11 i (Finset.mem_univ i)⟩

/-! ## The launch element -/

def u₀ (uP : UP) : UU := (initOf (K (F := F)).hsCells (K (F := F)).hsToks, (uP, 1))

omit [FloatOps F] in
theorem bigSep_emp' {I : Type} (s : Finset I) : (bigSep s fun _ => iprop(emp)) = (iprop(emp) : sProp 𝕄) := bigSep_emp_const s

theorem hu₀ (G : Dev nD → sProp 𝕄) (uP : UP) (hfund : (BI.own (EP uP) : sProp 𝕄) ⊢ |={Set.univ}=> bigSep Finset.univ G) :
    (ownU (u₀ (F := F) uP) : sProp 𝕄)
      ⊢ |={Set.univ}=> iprop(BI.own (EH (initOf (K (F := F)).hsCells (K (F := F)).hsToks)) ∗ (bigSep Finset.univ G)
          ∗ bigSep Finset.univ fun thr : Thread nD τ => bigSep Finset.univ fun q : Fin 1 => (PP m).x q thr) := by
  unfold u₀
  iintro Hu
  ihave H := (ownU_pair (initOf (K (F := F)).hsCells (K (F := F)).hsToks) ((uP, 1) : UP × Counters)) $$ Hu
  icases H with ⟨HH, HR⟩
  ihave HR' := (own_pair_emb (embR : Emb (UP × Counters) 𝕄) uP (1 : Counters)) $$ HR
  icases HR' with ⟨HP, -⟩
  imod (hfund) $$ HP with HG
  imodintro
  isplitl [HH]; · iexact HH
  isplitl [HG]; · iexact HG
  rw [show (bigSep Finset.univ fun thr : Thread nD τ => bigSep Finset.univ fun q : Fin 1 => (PP (F := F) m).x q thr) = bigSep Finset.univ fun _ => iprop(emp) from
    bigSep_congr fun _ _ => bigSep_univ_of_subsingleton (0 : Fin 1), bigSep_emp']
  iempintro

/-! ## The run -/

/-- The run's post: on every device the arguments unchanged and the result at the finishing value. -/
def QC : PUnit × MemSt nD τ sig (Elt F) → Prop := fun r => ∀ c : Dev nD,
  (r.2.mem ((SparseCore.T c).loc main_arg0) = m ((SparseCore.T c).loc main_arg0)
    ∧ r.2.mem ((SparseCore.T c).loc main_arg1) = m ((SparseCore.T c).loc main_arg1)
    ∧ r.2.mem ((SparseCore.T c).loc main_arg2) = m ((SparseCore.T c).loc main_arg2)
    ∧ r.2.mem ((SparseCore.T c).loc main_arg3) = m ((SparseCore.T c).loc main_arg3)
    ∧ r.2.mem ((SparseCore.T c).loc main_arg4) = m ((SparseCore.T c).loc main_arg4)
    ∧ r.2.mem ((SparseCore.T c).loc main_arg5) = m ((SparseCore.T c).loc main_arg5)
    ∧ r.2.mem ((SparseCore.T c).loc main_arg6) = m ((SparseCore.T c).loc main_arg6)
    ∧ r.2.mem ((SparseCore.T c).loc main_arg7) = m ((SparseCore.T c).loc main_arg7)
    ∧ r.2.mem ((SparseCore.T c).loc main_arg8) = m ((SparseCore.T c).loc main_arg8)
    ∧ r.2.mem ((SparseCore.T c).loc main_arg9) = m ((SparseCore.T c).loc main_arg9)
    ∧ r.2.mem ((SparseCore.T c).loc main_arg10) = m ((SparseCore.T c).loc main_arg10))
    ∧ ∃ g, agree (Xf m) (Tp m) (Mp m) c g ∧ r.2.mem (v7Loc c) = res7 c g

theorem run_main [∀ e, Nonempty (Elt F e)] (G : Dev nD → sProp 𝕄) (uP : UP)
    (hfund : (BI.own (EP uP) : sProp 𝕄) ⊢ |={Set.univ}=> bigSep Finset.univ G) (hreg : RegionStep m G)
    (htile : (K (F := F)).TileObl (D (F := F)) 𝒱 (PP m) v₀ 0) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := PP m) facts v₀
    (fun q hq => match q with | 0 => nomatch hq)
    (fun q _ => match q with | 0 => htile)
    (fun q _ => match q with | 0 => SparseCore.Cfg.VecSplit.of_plain (vecSplit (Xf m) (Tp m) (Mp m) (O0 m)))
    m ρ main G (FIN m) (u₀ (F := F) uP) (sep_elim_left.trans (hu₀ m G uP hfund)) (hmain m ρ G hreg) (fq m) (hfin m) (QC m) (fun _ h => h)

end Cert.Proof.KI

end
-- ==== Proof.Tile.lean ====
/-
  One vector subcore's body, once, at a symbolic grid point, for any float instance. The subcore copies its 112
  entries of the padded targets and of the padded mask into scratch rows, forms from the targets the row of flat
  positions of the flattened input (seven blocks of sixteen lanes), fetches the input's entries at those positions,
  and leaves per lane the sum of value times mask and the sum of the mask, which it copies to its two rows of sixteen
  lanes of the partial-sum array. The arrays it only reads come back as they were; the two output rows come back
  holding `accOut` and `maccOut` of the arrays.
-/
import proofs.«209899_g60301340836213_cont_9to1c4b_660_2_alg».proof.Proof.Common

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## One vector subcore's place and its views of the arrays -/

local notation "xV" => (Memref.whole Cert.KernelIdeal.main_v0_scv : Memref Cert.KernelIdeal.sig Kind.scVector Space.hbm Cert.KernelIdeal.S32000000 EltTy.f32)
local notation "tV" => (Memref.whole Cert.KernelIdeal.main_v2_scv : Memref Cert.KernelIdeal.sig Kind.scVector Space.hbm Cert.KernelIdeal.S3584 EltTy.i32)
local notation "kV" => (Memref.whole Cert.KernelIdeal.main_v4_scv : Memref Cert.KernelIdeal.sig Kind.scVector Space.hbm Cert.KernelIdeal.S3584 EltTy.f32)
local notation "oV" => (Memref.whole Cert.KernelIdeal.main_v5_scv : Memref Cert.KernelIdeal.sig Kind.scVector Space.hbm Cert.KernelIdeal.S2x32x16 EltTy.f32)
local notation "s0V" => (Memref.whole Cert.KernelIdeal.cc0_scratch0 : Memref Cert.KernelIdeal.sig Kind.scVector Space.vmem Cert.KernelIdeal.S112 EltTy.i32)
local notation "s1V" => (Memref.whole Cert.KernelIdeal.cc0_scratch1 : Memref Cert.KernelIdeal.sig Kind.scVector Space.vmem Cert.KernelIdeal.S112 EltTy.i32)
local notation "s2V" => (Memref.whole Cert.KernelIdeal.cc0_scratch2 : Memref Cert.KernelIdeal.sig Kind.scVector Space.vmem Cert.KernelIdeal.S112 EltTy.f32)
local notation "s3V" => (Memref.whole Cert.KernelIdeal.cc0_scratch3 : Memref Cert.KernelIdeal.sig Kind.scVector Space.vmem Cert.KernelIdeal.S112 EltTy.f32)
local notation "s4V" => (Memref.whole Cert.KernelIdeal.cc0_scratch4 : Memref Cert.KernelIdeal.sig Kind.scVector Space.vmem Cert.KernelIdeal.S16 EltTy.f32)
local notation "s5V" => (Memref.whole Cert.KernelIdeal.cc0_scratch5 : Memref Cert.KernelIdeal.sig Kind.scVector Space.vmem Cert.KernelIdeal.S16 EltTy.f32)

/-- The subcore's 112 positions of the padded targets, of the padded mask; all of the flattened input; its two
    rows of sixteen lanes of the partial-sum array, squeezed: as the body addresses them. -/
abbrev tRowK (L : grid0.Coords) : Memref sig .scVector .hbm S112 .i32 := (tV).slice (Rect.unit (s := S3584) (k0_off1 L) S112.size (k0_off1_inb L)) (fun _ => rfl)
abbrev kRowK (L : grid0.Coords) : Memref sig .scVector .hbm S112 .f32 := (kV).slice (Rect.unit (s := S3584) (k0_off1 L) S112.size (k0_off1_inb L)) (fun _ => rfl)
abbrev xAllK : Memref sig .scVector .hbm S32000000 .f32 := (xV).slice (Rect.unit (s := S32000000) ![0] S32000000.size inb_S32000000_S32000000_0) (fun _ => rfl)
abbrev o0RowK (L : grid0.Coords) : Memref sig .scVector .hbm S16 .f32 :=
  ((oV).slice (Rect.unit (s := S2x32x16) (k0_off2 L) S1x1x16.size (k0_off2_inb L)) (fun _ => rfl)).squeeze S16 squeezes_S1x1x16_S16
abbrev o1RowK (L : grid0.Coords) : Memref sig .scVector .hbm S16 .f32 :=
  ((oV).slice (Rect.unit (s := S2x32x16) (k0_off3 L) S1x1x16.size (k0_off3_inb L)) (fun _ => rfl)).squeeze S16 squeezes_S1x1x16_S16

theorem pts_xV (d : Dev nD) (L : grid0.Coords) (q : PosShare TreeShare) (f : Buf (Elt F) (xLoc d)) :
    ((xV).view.loc (V d (cV L) (jV L)) ↦{q} f : sProp 𝕄) = xLoc d ↦{q} f := rfl
theorem pts_tV (d : Dev nD) (L : grid0.Coords) (q : PosShare TreeShare) (f : Buf (Elt F) (tLoc d)) :
    ((tV).view.loc (V d (cV L) (jV L)) ↦{q} f : sProp 𝕄) = tLoc d ↦{q} f := rfl
theorem pts_kV (d : Dev nD) (L : grid0.Coords) (q : PosShare TreeShare) (f : Buf (Elt F) (kLoc d)) :
    ((kV).view.loc (V d (cV L) (jV L)) ↦{q} f : sProp 𝕄) = kLoc d ↦{q} f := rfl

/-! ## The subcore's own semaphores and scratch rows among its scoped resources -/

abbrev cell0 (d : Dev nD) (c : Fin τ.nSC) (i : Fin τ.nSub) : GSem nD τ sig := (V d c i, .dma cc0_scoped0.sem)
abbrev cell1 (d : Dev nD) (c : Fin τ.nSC) (i : Fin τ.nSub) : GSem nD τ sig := (V d c i, .dma cc0_scoped1.sem)
abbrev cell2 (d : Dev nD) (c : Fin τ.nSC) (i : Fin τ.nSub) : GSem nD τ sig := (V d c i, .dma cc0_scoped2.sem)
abbrev cell3 (d : Dev nD) (c : Fin τ.nSC) (i : Fin τ.nSub) : GSem nD τ sig := (V d c i, .dma cc0_scoped3.sem)
abbrev cell4 (d : Dev nD) (c : Fin τ.nSC) (i : Fin τ.nSub) : GSem nD τ sig := (V d c i, .dma cc0_scoped4.sem)

theorem cell_ne {d : Dev nD} {c : Fin τ.nSC} {i : Fin τ.nSub} {a b : SemLoc sig} (h : a ≠ b) :
    ((V d c i, a) : GSem nD τ sig) ≠ (V d c i, b) := fun e => h (congrArg Prod.snd e)

theorem cell_mem {d : Dev nD} {c : Fin τ.nSC} {i : Fin τ.nSub} {a : SemLoc sig} (h : a.isScoped .scVector = true) :
    ((V d c i, a) : GSem nD τ sig) ∈ ownCells (V d c i) := (mem_ownCells (g := (V d c i, a))).mpr ⟨rfl, h⟩

theorem ownSems0_V (d : Dev nD) (L : grid0.Coords) :
    (ownSems0 (V d (cV L) (jV L)) : sProp 𝕄)
      = iprop(semVal (cell0 d (cV L) (jV L)) 0 ∗ semVal (cell1 d (cV L) (jV L)) 0 ∗ semVal (cell2 d (cV L) (jV L)) 0
          ∗ semVal (cell3 d (cV L) (jV L)) 0 ∗ semVal (cell4 d (cV L) (jV L)) 0
          ∗ bigSep ((((((ownCells (V d (cV L) (jV L))).erase (cell0 d (cV L) (jV L))).erase (cell1 d (cV L) (jV L))).erase (cell2 d (cV L) (jV L))).erase
              (cell3 d (cV L) (jV L))).erase (cell4 d (cV L) (jV L))) fun g => semVal g 0) := by
  unfold SparseCore.Cfg.ownSems0
  have m0 := cell_mem (d := d) (c := cV L) (i := jV L) (a := .dma cc0_scoped0.sem) (by decide)
  have m1 := cell_mem (d := d) (c := cV L) (i := jV L) (a := .dma cc0_scoped1.sem) (by decide)
  have m2 := cell_mem (d := d) (c := cV L) (i := jV L) (a := .dma cc0_scoped2.sem) (by decide)
  have m3 := cell_mem (d := d) (c := cV L) (i := jV L) (a := .dma cc0_scoped3.sem) (by decide)
  have m4 := cell_mem (d := d) (c := cV L) (i := jV L) (a := .dma cc0_scoped4.sem) (by decide)
  rw [SparseCore.bigSep_erase' m0,
    SparseCore.bigSep_erase' (Finset.mem_erase_of_ne_of_mem (cell_ne (by decide)) m1),
    SparseCore.bigSep_erase' (Finset.mem_erase_of_ne_of_mem (cell_ne (by decide)) (Finset.mem_erase_of_ne_of_mem (cell_ne (by decide)) m2)),
    SparseCore.bigSep_erase' (Finset.mem_erase_of_ne_of_mem (cell_ne (by decide)) (Finset.mem_erase_of_ne_of_mem (cell_ne (by decide))
      (Finset.mem_erase_of_ne_of_mem (cell_ne (by decide)) m3))),
    SparseCore.bigSep_erase' (Finset.mem_erase_of_ne_of_mem (cell_ne (by decide)) (Finset.mem_erase_of_ne_of_mem (cell_ne (by decide))
      (Finset.mem_erase_of_ne_of_mem (cell_ne (by decide)) (Finset.mem_erase_of_ne_of_mem (cell_ne (by decide)) m4))))]

abbrev bref (L : grid0.Coords) (b : Ref sig .scVector) : DevRef τ sig := (Proc.scVector (cV L) (jV L)).devRef b

theorem bref_ne (L : grid0.Coords) {a b : Ref sig .scVector} (h : a ≠ b) : bref L a ≠ bref L b :=
  fun e => h (Proc.devRef_injective _ e)
theorem bref_mem (L : grid0.Coords) (b : Ref sig .scVector) (h : (bref L b).owner = .proc (.scVector (cV L) (jV L))) :
    bref L b ∈ ownRefs (τ := τ) (sig := sig) (.scVector (cV L) (jV L)) :=
  SparseCore.Cfg.mem_ownRefs_of_owner (p := Proc.scVector (cV L) (jV L)) (b := bref L b) h

/-- The six scratch rows are among the subcore's own: they are them, at some contents, and the rest. -/
theorem ownBufs_V (d : Dev nD) (L : grid0.Coords) :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ (∃ f, (V d (cV L) (jV L)).loc cc0_scratch3 ↦{fullShare} f)
          ∗ (∃ f, (V d (cV L) (jV L)).loc cc0_scratch4 ↦{fullShare} f) ∗ (∃ f, (V d (cV L) (jV L)).loc cc0_scratch5 ↦{fullShare} f)
          ∗ bigSep (((((((ownRefs (τ := τ) (.scVector (cV L) (jV L))).erase (bref L cc0_scratch0)).erase (bref L cc0_scratch1)).erase (bref L cc0_scratch2)).erase
              (bref L cc0_scratch3)).erase (bref L cc0_scratch4)).erase (bref L cc0_scratch5))
              fun b => iprop(∃ f, ((d, b) : Loc nD τ sig) ↦{fullShare} f)) := by
  unfold SparseCore.Cfg.ownBufs
  have m0 := bref_mem L cc0_scratch0 rfl
  have m1 := bref_mem L cc0_scratch1 rfl
  have m2 := bref_mem L cc0_scratch2 rfl
  have m3 := bref_mem L cc0_scratch3 rfl
  have m4 := bref_mem L cc0_scratch4 rfl
  have m5 := bref_mem L cc0_scratch5 rfl
  refine (SparseCore.bigSep_erase' m0).trans ?_
  rw [SparseCore.bigSep_erase' (Finset.mem_erase_of_ne_of_mem (bref_ne L (by decide)) m1),
    SparseCore.bigSep_erase' (Finset.mem_erase_of_ne_of_mem (bref_ne L (by decide)) (Finset.mem_erase_of_ne_of_mem (bref_ne L (by decide)) m2)),
    SparseCore.bigSep_erase' (Finset.mem_erase_of_ne_of_mem (bref_ne L (by decide)) (Finset.mem_erase_of_ne_of_mem (bref_ne L (by decide))
      (Finset.mem_erase_of_ne_of_mem (bref_ne L (by decide)) m3))),
    SparseCore.bigSep_erase' (Finset.mem_erase_of_ne_of_mem (bref_ne L (by decide)) (Finset.mem_erase_of_ne_of_mem (bref_ne L (by decide))
      (Finset.mem_erase_of_ne_of_mem (bref_ne L (by decide)) (Finset.mem_erase_of_ne_of_mem (bref_ne L (by decide)) m4)))),
    SparseCore.bigSep_erase' (Finset.mem_erase_of_ne_of_mem (bref_ne L (by decide)) (Finset.mem_erase_of_ne_of_mem (bref_ne L (by decide))
      (Finset.mem_erase_of_ne_of_mem (bref_ne L (by decide)) (Finset.mem_erase_of_ne_of_mem (bref_ne L (by decide))
        (Finset.mem_erase_of_ne_of_mem (bref_ne L (by decide)) m5)))))]

theorem pts_s0 (d : Dev nD) (L : grid0.Coords) (f : Buf (Elt F) ((V d (cV L) (jV L)).loc cc0_scratch0)) :
    ((s0V).view.loc (V d (cV L) (jV L)) ↦{fullShare} f : sProp 𝕄) = (V d (cV L) (jV L)).loc cc0_scratch0 ↦{fullShare} f := rfl
theorem pts_s1 (d : Dev nD) (L : grid0.Coords) (f : Buf (Elt F) ((V d (cV L) (jV L)).loc cc0_scratch1)) :
    ((s1V).view.loc (V d (cV L) (jV L)) ↦{fullShare} f : sProp 𝕄) = (V d (cV L) (jV L)).loc cc0_scratch1 ↦{fullShare} f := rfl
theorem pts_s2 (d : Dev nD) (L : grid0.Coords) (f : Buf (Elt F) ((V d (cV L) (jV L)).loc cc0_scratch2)) :
    ((s2V).view.loc (V d (cV L) (jV L)) ↦{fullShare} f : sProp 𝕄) = (V d (cV L) (jV L)).loc cc0_scratch2 ↦{fullShare} f := rfl
theorem pts_s3 (d : Dev nD) (L : grid0.Coords) (f : Buf (Elt F) ((V d (cV L) (jV L)).loc cc0_scratch3)) :
    ((s3V).view.loc (V d (cV L) (jV L)) ↦{fullShare} f : sProp 𝕄) = (V d (cV L) (jV L)).loc cc0_scratch3 ↦{fullShare} f := rfl
theorem pts_s4 (d : Dev nD) (L : grid0.Coords) (f : Buf (Elt F) ((V d (cV L) (jV L)).loc cc0_scratch4)) :
    ((s4V).view.loc (V d (cV L) (jV L)) ↦{fullShare} f : sProp 𝕄) = (V d (cV L) (jV L)).loc cc0_scratch4 ↦{fullShare} f := rfl
theorem pts_s5 (d : Dev nD) (L : grid0.Coords) (f : Buf (Elt F) ((V d (cV L) (jV L)).loc cc0_scratch5)) :
    ((s5V).view.loc (V d (cV L) (jV L)) ↦{fullShare} f : sProp 𝕄) = (V d (cV L) (jV L)).loc cc0_scratch5 ↦{fullShare} f := rfl

/-! ## The two output rows as sets of lanes -/

theorem mem_oSet {a : Fin 2} {w : Fin 32} {j : S2x32x16.Idx} : j ∈ oSet a w ↔ (j 0).val = a.val ∧ (j 1).val = w.val := by
  simp [oSet]

theorem set_o0RowK (L : grid0.Coords) : (o0RowK L).view.set = oSet 0 (wL L) := by
  show (((View.whole (main_v5_scv : Ref sig .scVector)).slice (Rect.unit (s := S2x32x16) (k0_off2 L) S1x1x16.size (k0_off2_inb L))).reshape S16
    squeezes_S1x1x16_S16.numel_eq).set = _
  rw [View.set_reshape, View.set_slice_whole]
  ext j
  rw [Rect.mem_set_unit, k0_off2_eq]
  refine Iff.trans ?_ (mem_oSet (j := j)).symm
  simp only [wL]
  constructor
  · intro h
    have h0 := h 0; have h1 := h 1
    simp at h0 h1
    constructor <;> omega
  · intro ⟨h0, h1⟩ a
    have h2 : ((j 2 : Fin 16) : Nat) < 16 := (j 2).isLt
    match a with
    | 0 => simp; omega
    | 1 => simp; omega
    | 2 => simp; omega
theorem set_o1RowK (L : grid0.Coords) : (o1RowK L).view.set = oSet 1 (wL L) := by
  show (((View.whole (main_v5_scv : Ref sig .scVector)).slice (Rect.unit (s := S2x32x16) (k0_off3 L) S1x1x16.size (k0_off3_inb L))).reshape S16
    squeezes_S1x1x16_S16.numel_eq).set = _
  rw [View.set_reshape, View.set_slice_whole]
  ext j
  rw [Rect.mem_set_unit, k0_off3_eq]
  refine Iff.trans ?_ (mem_oSet (j := j)).symm
  simp only [wL]
  constructor
  · intro h
    have h0 := h 0; have h1 := h 1
    simp at h0 h1
    constructor <;> omega
  · intro ⟨h0, h1⟩ a
    have h2 : ((j 2 : Fin 16) : Nat) < 16 := (j 2).isLt
    match a with
    | 0 => simp; omega
    | 1 => simp; omega
    | 2 => simp; omega

theorem pts_o0RowK (d : Dev nD) (L : grid0.Coords) (f : Buf (Elt F) (oLoc d)) :
    ((o0RowK L).view.loc (V d (cV L) (jV L)) ↦[(o0RowK L).view.set]{fullShare} f : sProp 𝕄) = oLoc d ↦[oSet 0 (wL L)]{fullShare} f := by
  rw [set_o0RowK]
theorem pts_o1RowK (d : Dev nD) (L : grid0.Coords) (f : Buf (Elt F) (oLoc d)) :
    ((o1RowK L).view.loc (V d (cV L) (jV L)) ↦[(o1RowK L).view.set]{fullShare} f : sProp 𝕄) = oLoc d ↦[oSet 1 (wL L)]{fullShare} f := by
  rw [set_o1RowK]

theorem pts_univ_set {ℓ : Loc nD τ sig} {I : Finset (Idx ℓ)} (h : I = Finset.univ) (q : PosShare TreeShare) (f : Buf (Elt F) ℓ) :
    (ℓ ↦{q} f : sProp 𝕄) = ℓ ↦[I]{q} f := by rw [h]

/-! ## Blocks of sixteen lanes: what a load reads and a store writes -/

theorem lane_val (o : Nat) (ho : o + 16 ≤ 112) (y : S16.Idx) : ((Spec.lane o ho y) 0).val = o + (y 0).val := rfl

theorem put_lane {α : Type} (o : Nat) (ho : o + 16 ≤ 112) (f : S112.Idx → α) (w : S16.Idx → α) (y : S16.Idx) :
    Spec.put o ho f w (Spec.lane o ho y) = w y := by
  have hy : (y 0).val < 16 := (y 0).isLt
  have hc : o ≤ ((Spec.lane o ho y) 0).val ∧ ((Spec.lane o ho y) 0).val < o + 16 := by
    rw [lane_val]; omega
  unfold Spec.put
  rw [dif_pos hc]
  refine congrArg w ?_
  funext a
  match a with
  | ⟨0, _⟩ => exact Fin.ext (by show o + (y 0).val - o = (y 0).val; omega)

/-- The index a unit-stride block of sixteen of a 112-row names is the block's lane. -/
theorem idx_unit16 (o : Nat) (inb : ∀ a, (![o] : Fin 1 → Nat) a + S16.size a ≤ S112.size a) (ho : o + 16 ≤ 112) (y : S16.Idx) :
    (Rect.unit (s := S112) ![o] S16.size inb).toLoadRect.idx y = Spec.lane o ho y := by
  funext a
  match a with
  | ⟨0, _⟩ => exact Fin.ext (by show o + 1 * (y 0).val = o + (y 0).val; omega)

theorem emb_unit16 (o : Nat) (inb : ∀ a, (![o] : Fin 1 → Nat) a + S16.size a ≤ S112.size a) (ho : o + 16 ≤ 112) (y : S16.Idx) :
    (Rect.unit (s := S112) ![o] S16.size inb).emb y = Spec.lane o ho y := idx_unit16 o inb ho y

/-- A block of sixteen loaded through a view of a 112-row is the chunk of what the view reads. -/
theorem readAt_chunk {κ : Kind} {sp : Space} {e : EltTy} (v : View sig κ sp S112 e) (o : Nat)
    (inb : ∀ a, (![o] : Fin 1 → Nat) a + S16.size a ≤ S112.size a) (ho : o + 16 ≤ 112) (f : v.ty.Contents (Elt F)) :
    v.readAt (Elt F) (Rect.unit (s := S112) ![o] S16.size inb).toLoadRect f = Spec.chunk o ho (v.read (Elt F) f) := by
  funext y
  rw [View.readAt_apply, idx_unit16 o inb ho y]; rfl

/-- A block of sixteen stored through a view of a 112-row puts it into what the view reads. -/
theorem read_write_put {κ : Kind} {sp : Space} {e : EltTy} (v : View sig κ sp S112 e) (o : Nat)
    (inb : ∀ a, (![o] : Fin 1 → Nat) a + S16.size a ≤ S112.size a) (ho : o + 16 ≤ 112) (f : v.ty.Contents (Elt F)) (w : S16.Idx → Elt F e) :
    v.read (Elt F) ((v.slice (Rect.unit (s := S112) ![o] S16.size inb)).write (Elt F) f w Finset.univ) = Spec.put o ho (v.read (Elt F) f) w := by
  funext i
  by_cases hc : o ≤ (i 0).val ∧ (i 0).val < o + 16
  · have hi : i = (Rect.unit (s := S112) ![o] S16.size inb).emb (ValueIdx.ix1 ⟨(i 0).val - o, by omega⟩) := by
      rw [emb_unit16 o inb ho]
      funext a
      match a with
      | ⟨0, _⟩ => exact Fin.ext (by show (i 0).val = o + ((i 0).val - o); omega)
    have e1 : Spec.put o ho (v.read (Elt F) f) w i = w (ValueIdx.ix1 ⟨(i 0).val - o, by omega⟩) := by
      unfold Spec.put; rw [dif_pos hc]
    rw [e1]
    conv_lhs => rw [hi]
    exact View.read_slice_write_emb (Rect.unit (s := S112) ![o] S16.size inb) f w (Finset.mem_univ _)
  · have e1 : Spec.put o ho (v.read (Elt F) f) w i = v.read (Elt F) f i := by
      unfold Spec.put; rw [dif_neg hc]
    rw [e1]
    refine View.read_slice_write_of_not_mem (Rect.unit (s := S112) ![o] S16.size inb) f w Finset.univ ?_
    rw [Rect.map_emb_univ, Rect.mem_set_unit]
    intro h
    have h0 := h 0
    exact hc ⟨h0.1, h0.2⟩

/-! ## The subcore's row of a padded array, and the fetched entries -/

theorem read_tRowK (L : grid0.Coords) (tp : S3584.Idx → Elt F .i32) : (tRowK L).view.read (Elt F) tp = rowOf (wL L) tp := by
  funext k
  rw [View.read_apply]
  show tp ((tRowK L).view.emb k) = _
  unfold rowOf
  refine congrArg tp ?_
  funext a
  match a with
  | ⟨0, _⟩ =>
    refine Fin.ext ?_
    show (k0_off1 L) 0 + 1 * (k 0).val = 112 * (wL L).val + (k 0).val
    rw [k0_off1_eq]
    show 224 * (L 1).val + 112 * (L 0).val + 1 * (k 0).val = 112 * (2 * (L 1).val + (L 0).val) + (k 0).val
    omega

theorem read_kRowK (L : grid0.Coords) (mp : S3584.Idx → Elt F .f32) : (kRowK L).view.read (Elt F) mp = rowOf (wL L) mp := by
  funext k
  rw [View.read_apply]
  show mp ((kRowK L).view.emb k) = _
  unfold rowOf
  refine congrArg mp ?_
  funext a
  match a with
  | ⟨0, _⟩ =>
    refine Fin.ext ?_
    show (k0_off1 L) 0 + 1 * (k 0).val = 112 * (wL L).val + (k 0).val
    rw [k0_off1_eq]
    show 224 * (L 1).val + 112 * (L 0).val + 1 * (k 0).val = 112 * (2 * (L 1).val + (L 0).val) + (k 0).val
    omega

variable [FloatOps F]

/-- What the gather delivers: the flattened input at the row of flat positions. -/
theorem gatherPayload_fetched (xf : S32000000.Idx → Elt F .f32) (idx : S112.Idx → Elt F .i32)
    (hn : S112.numel = S112.size gathers_S32000000_S112.axis')
    (hin : ∀ x, (idx x).toNat < S32000000.size gathers_S32000000_S112.axis) :
    SparseCore.gatherPayload gathers_S32000000_S112 xf (SparseCore.rows idx hn hin) = fetched xf idx := by
  funext k
  unfold SparseCore.gatherPayload fetched xfAt
  have hk : (idx k).toNat < 32000000 := hin k
  rw [dif_pos hk]
  refine congrArg xf ?_
  funext a
  match a with
  | ⟨0, _⟩ =>
    refine Fin.ext ?_
    rw [Shape.Gathers.idx_axis]
    show (idx (S112.rowMajor.symm ((k 0).cast _))).toNat = (idx k).toNat
    congr 2
    rw [Equiv.symm_apply_eq]
    exact Fin.ext (Shape.rowMajor_val_one k).symm

/-- The row of flat positions as the seven stores leave it, over any earlier contents. -/
theorem read_idx_writes {κ : Kind} {sp : Space} (v : View sig κ sp S112 .i32) (L : grid0.Coords) (f : v.ty.Contents (Elt F)) (tr : S112.Idx → Elt F .i32) :
    v.read (Elt F) (v.writes (Elt F) f
      [⟨Rect.unit (s := S112) ![96] S16.size inb_S112_S16_96, k0_pay10 (F := F) (Spec.base L) Spec.lanes (Spec.chunk 96 (by omega) tr)⟩,
       ⟨Rect.unit (s := S112) ![80] S16.size inb_S112_S16_80, k0_pay9 (F := F) (k0_pay8 (Spec.base L) Spec.lanes) 10000#32 (Spec.chunk 80 (by omega) tr)⟩,
       ⟨Rect.unit (s := S112) ![64] S16.size inb_S112_S16_64, k0_pay7 (F := F) (Spec.base L) Spec.lanes (Spec.chunk 64 (by omega) tr)⟩,
       ⟨Rect.unit (s := S112) ![48] S16.size inb_S112_S16_48, k0_pay6 (F := F) (Spec.base L) Spec.lanes (Spec.chunk 48 (by omega) tr)⟩,
       ⟨Rect.unit (s := S112) ![32] S16.size inb_S112_S16_32, k0_pay5 (F := F) Spec.lanes (Scalar.addi (Spec.base L) 32#32) (Spec.chunk 32 (by omega) tr)⟩,
       ⟨Rect.unit (s := S112) ![16] S16.size inb_S112_S16_16, k0_pay4 (F := F) L (Spec.chunk 16 (by omega) tr)⟩,
       ⟨Rect.unit (s := S112) ![0] S16.size inb_S112_S16_0, k0_pay3 (F := F) L (Spec.chunk 0 (by omega) tr)⟩])
      = Spec.idxRow (F := F) L (v.read (Elt F) f) tr := by
  simp only [View.writes_cons, View.writes_nil]
  rw [read_write_put v 96 inb_S112_S16_96 (by omega), read_write_put v 80 inb_S112_S16_80 (by omega), read_write_put v 64 inb_S112_S16_64 (by omega),
    read_write_put v 48 inb_S112_S16_48 (by omega), read_write_put v 32 inb_S112_S16_32 (by omega), read_write_put v 16 inb_S112_S16_16 (by omega),
    read_write_put v 0 inb_S112_S16_0 (by omega)]
  rfl

/-- The same with each block of targets as a load through a view of the targets' row. -/
theorem read_idx_writes' {κ κ' : Kind} {sp sp' : Space} (v : View sig κ sp S112 .i32) (L : grid0.Coords) (f : v.ty.Contents (Elt F))
    (v1 : View sig κ' sp' S112 .i32) (g : v1.ty.Contents (Elt F)) :
    v.read (Elt F) (v.writes (Elt F) f
      [⟨Rect.unit (s := S112) ![96] S16.size inb_S112_S16_96, k0_pay10 (F := F) (Spec.base L) Spec.lanes (v1.readAt (Elt F) (Rect.unit (s := S112) ![96] S16.size inb_S112_S16_96).toLoadRect g)⟩,
       ⟨Rect.unit (s := S112) ![80] S16.size inb_S112_S16_80, k0_pay9 (F := F) (k0_pay8 (Spec.base L) Spec.lanes) 10000#32 (v1.readAt (Elt F) (Rect.unit (s := S112) ![80] S16.size inb_S112_S16_80).toLoadRect g)⟩,
       ⟨Rect.unit (s := S112) ![64] S16.size inb_S112_S16_64, k0_pay7 (F := F) (Spec.base L) Spec.lanes (v1.readAt (Elt F) (Rect.unit (s := S112) ![64] S16.size inb_S112_S16_64).toLoadRect g)⟩,
       ⟨Rect.unit (s := S112) ![48] S16.size inb_S112_S16_48, k0_pay6 (F := F) (Spec.base L) Spec.lanes (v1.readAt (Elt F) (Rect.unit (s := S112) ![48] S16.size inb_S112_S16_48).toLoadRect g)⟩,
       ⟨Rect.unit (s := S112) ![32] S16.size inb_S112_S16_32, k0_pay5 (F := F) Spec.lanes (Scalar.addi (Spec.base L) 32#32) (v1.readAt (Elt F) (Rect.unit (s := S112) ![32] S16.size inb_S112_S16_32).toLoadRect g)⟩,
       ⟨Rect.unit (s := S112) ![16] S16.size inb_S112_S16_16, k0_pay4 (F := F) L (v1.readAt (Elt F) (Rect.unit (s := S112) ![16] S16.size inb_S112_S16_16).toLoadRect g)⟩,
       ⟨Rect.unit (s := S112) ![0] S16.size inb_S112_S16_0, k0_pay3 (F := F) L (v1.readAt (Elt F) (Rect.unit (s := S112) ![0] S16.size inb_S112_S16_0).toLoadRect g)⟩])
      = Spec.idxRow (F := F) L (v.read (Elt F) f) (v1.read (Elt F) g) := by
  rw [readAt_chunk v1 96 inb_S112_S16_96 (by omega), readAt_chunk v1 80 inb_S112_S16_80 (by omega), readAt_chunk v1 64 inb_S112_S16_64 (by omega),
    readAt_chunk v1 48 inb_S112_S16_48 (by omega), readAt_chunk v1 32 inb_S112_S16_32 (by omega), readAt_chunk v1 16 inb_S112_S16_16 (by omega),
    readAt_chunk v1 0 inb_S112_S16_0 (by omega)]
  exact read_idx_writes v L f _

theorem read_xAllK (xf : S32000000.Idx → Elt F .f32) : (xAllK).view.read (Elt F) xf = xf := by
  funext k
  rw [View.read_apply]
  show xf ((xAllK).view.emb k) = xf k
  refine congrArg xf ?_
  funext a
  match a with
  | ⟨0, _⟩ => exact Fin.ext (by show 0 + 1 * (k 0).val = (k 0).val; omega)

/-- The sum of value times mask over the seven blocks, each block a load through a view of its row. -/
theorem accRow_of_loads {κ κ' : Kind} {sp sp' : Space} (v3 : View sig κ sp S112 .f32) (g3 : v3.ty.Contents (Elt F))
    (v2 : View sig κ' sp' S112 .f32) (g2 : v2.ty.Contents (Elt F)) :
    k0_pay1 (F := F) (k0_pay15
      (k0_pay12 (v3.readAt (Elt F) (Rect.unit (s := S112) ![0] S16.size inb_S112_S16_0).toLoadRect g3)
        (v2.readAt (Elt F) (Rect.unit (s := S112) ![0] S16.size inb_S112_S16_0).toLoadRect g2)
        (v3.readAt (Elt F) (Rect.unit (s := S112) ![16] S16.size inb_S112_S16_16).toLoadRect g3)
        (v2.readAt (Elt F) (Rect.unit (s := S112) ![16] S16.size inb_S112_S16_16).toLoadRect g2))
      (v3.readAt (Elt F) (Rect.unit (s := S112) ![32] S16.size inb_S112_S16_32).toLoadRect g3)
      (v2.readAt (Elt F) (Rect.unit (s := S112) ![32] S16.size inb_S112_S16_32).toLoadRect g2)
      (v3.readAt (Elt F) (Rect.unit (s := S112) ![48] S16.size inb_S112_S16_48).toLoadRect g3)
      (v2.readAt (Elt F) (Rect.unit (s := S112) ![48] S16.size inb_S112_S16_48).toLoadRect g2)
      (v3.readAt (Elt F) (Rect.unit (s := S112) ![64] S16.size inb_S112_S16_64).toLoadRect g3)
      (v2.readAt (Elt F) (Rect.unit (s := S112) ![64] S16.size inb_S112_S16_64).toLoadRect g2)
      (v3.readAt (Elt F) (Rect.unit (s := S112) ![80] S16.size inb_S112_S16_80).toLoadRect g3)
      (v2.readAt (Elt F) (Rect.unit (s := S112) ![80] S16.size inb_S112_S16_80).toLoadRect g2)
      (v3.readAt (Elt F) (Rect.unit (s := S112) ![96] S16.size inb_S112_S16_96).toLoadRect g3)
      (v2.readAt (Elt F) (Rect.unit (s := S112) ![96] S16.size inb_S112_S16_96).toLoadRect g2))
      = Spec.accRow (F := F) (v3.read (Elt F) g3) (v2.read (Elt F) g2) := by
  rw [readAt_chunk v3 0 inb_S112_S16_0 (by omega), readAt_chunk v3 16 inb_S112_S16_16 (by omega), readAt_chunk v3 32 inb_S112_S16_32 (by omega),
    readAt_chunk v3 48 inb_S112_S16_48 (by omega), readAt_chunk v3 64 inb_S112_S16_64 (by omega), readAt_chunk v3 80 inb_S112_S16_80 (by omega),
    readAt_chunk v3 96 inb_S112_S16_96 (by omega),
    readAt_chunk v2 0 inb_S112_S16_0 (by omega), readAt_chunk v2 16 inb_S112_S16_16 (by omega), readAt_chunk v2 32 inb_S112_S16_32 (by omega),
    readAt_chunk v2 48 inb_S112_S16_48 (by omega), readAt_chunk v2 64 inb_S112_S16_64 (by omega), readAt_chunk v2 80 inb_S112_S16_80 (by omega),
    readAt_chunk v2 96 inb_S112_S16_96 (by omega)]
  rfl

/-- The sum of the mask over the seven blocks, each block a load through a view of its row. -/
theorem maccRow_of_loads {κ' : Kind} {sp' : Space} (v2 : View sig κ' sp' S112 .f32) (g2 : v2.ty.Contents (Elt F)) :
    k0_pay2 (F := F) (k0_pay14
        (k0_pay11 (v2.readAt (Elt F) (Rect.unit (s := S112) ![0] S16.size inb_S112_S16_0).toLoadRect g2))
        (k0_pay13 (v2.readAt (Elt F) (Rect.unit (s := S112) ![16] S16.size inb_S112_S16_16).toLoadRect g2))
        (v2.readAt (Elt F) (Rect.unit (s := S112) ![32] S16.size inb_S112_S16_32).toLoadRect g2)
        (v2.readAt (Elt F) (Rect.unit (s := S112) ![48] S16.size inb_S112_S16_48).toLoadRect g2)
        (v2.readAt (Elt F) (Rect.unit (s := S112) ![64] S16.size inb_S112_S16_64).toLoadRect g2)
        (v2.readAt (Elt F) (Rect.unit (s := S112) ![80] S16.size inb_S112_S16_80).toLoadRect g2))
      (k0_pay16 (v2.readAt (Elt F) (Rect.unit (s := S112) ![96] S16.size inb_S112_S16_96).toLoadRect g2))
      = Spec.maccRow (F := F) (v2.read (Elt F) g2) := by
  rw [readAt_chunk v2 0 inb_S112_S16_0 (by omega), readAt_chunk v2 16 inb_S112_S16_16 (by omega), readAt_chunk v2 32 inb_S112_S16_32 (by omega),
    readAt_chunk v2 48 inb_S112_S16_48 (by omega), readAt_chunk v2 64 inb_S112_S16_64 (by omega), readAt_chunk v2 80 inb_S112_S16_80 (by omega),
    readAt_chunk v2 96 inb_S112_S16_96 (by omega)]
  rfl

/-! ## Where the lanes of an output row lie -/

theorem emb_o0RowK (L : grid0.Coords) (y : S16.Idx) : (o0RowK L).view.emb y = oIx 0 (wL L) y := by
  have hy : (y 0).val < 16 := (y 0).isLt
  have hr : Shape.reshapeEquiv squeezes_S1x1x16_S16.numel_eq y = (ValueIdx.ix3 (0 : Fin 1) (0 : Fin 1) (y 0) : S1x1x16.Idx) :=
    Shape.reshapeEquiv_eq_of_rowMajor _ (by
      rw [Shape.rowMajor_val_one, Shape.rowMajor_val_three]; simp)
  show (Rect.unit (s := S2x32x16) (k0_off2 L) S1x1x16.size (k0_off2_inb L)).emb (Shape.reshapeEquiv squeezes_S1x1x16_S16.numel_eq y) = _
  rw [hr]
  funext a
  refine Fin.ext ?_
  show (k0_off2 L) a + 1 * ((ValueIdx.ix3 (0 : Fin 1) (0 : Fin 1) (y 0) : S1x1x16.Idx) a).val = ((oIx 0 (wL L) y) a).val
  rw [k0_off2_eq]
  match a with
  | ⟨0, _⟩ => rfl
  | ⟨1, _⟩ => show 2 * (L 1).val + (L 0).val + 1 * 0 = 2 * (L 1).val + (L 0).val; omega
  | ⟨2, _⟩ => show 0 + 1 * (y 0).val = (y 0).val; omega

theorem emb_o1RowK (L : grid0.Coords) (y : S16.Idx) : (o1RowK L).view.emb y = oIx 1 (wL L) y := by
  have hy : (y 0).val < 16 := (y 0).isLt
  have hr : Shape.reshapeEquiv squeezes_S1x1x16_S16.numel_eq y = (ValueIdx.ix3 (0 : Fin 1) (0 : Fin 1) (y 0) : S1x1x16.Idx) :=
    Shape.reshapeEquiv_eq_of_rowMajor _ (by
      rw [Shape.rowMajor_val_one, Shape.rowMajor_val_three]; simp)
  show (Rect.unit (s := S2x32x16) (k0_off3 L) S1x1x16.size (k0_off3_inb L)).emb (Shape.reshapeEquiv squeezes_S1x1x16_S16.numel_eq y) = _
  rw [hr]
  funext a
  refine Fin.ext ?_
  show (k0_off3 L) a + 1 * ((ValueIdx.ix3 (0 : Fin 1) (0 : Fin 1) (y 0) : S1x1x16.Idx) a).val = ((oIx 1 (wL L) y) a).val
  rw [k0_off3_eq]
  match a with
  | ⟨0, _⟩ => rfl
  | ⟨1, _⟩ => show 2 * (L 1).val + (L 0).val + 1 * 0 = 2 * (L 1).val + (L 0).val; omega
  | ⟨2, _⟩ => show 0 + 1 * (y 0).val = (y 0).val; omega

/-- An output row written whole holds the written lanes. -/
theorem o0_written (L : grid0.Coords) (f : S2x32x16.Idx → Elt F .f32) (w : S16.Idx → Elt F .f32) (y : S16.Idx) :
    ((o0RowK L).view.writes (Elt F) f [⟨Rect.whole S16, w⟩]) (oIx 0 (wL L) y) = w y := by
  have h := View.read_writes_cons_emb (o0RowK L).view f (Rect.whole S16) w [] y
  rw [Rect.emb_whole_apply, View.read_apply, emb_o0RowK] at h
  exact h
theorem o1_written (L : grid0.Coords) (f : S2x32x16.Idx → Elt F .f32) (w : S16.Idx → Elt F .f32) (y : S16.Idx) :
    ((o1RowK L).view.writes (Elt F) f [⟨Rect.whole S16, w⟩]) (oIx 1 (wL L) y) = w y := by
  have h := View.read_writes_cons_emb (o1RowK L).view f (Rect.whole S16) w [] y
  rw [Rect.emb_whole_apply, View.read_apply, emb_o1RowK] at h
  exact h

/-- A sixteen-lane scratch row stored whole reads back what was stored. -/
theorem read_writes_s16 {κ : Kind} {sp : Space} (v : View sig κ sp S16 .f32) (f : v.ty.Contents (Elt F)) (w : S16.Idx → Elt F .f32) :
    v.read (Elt F) (v.writes (Elt F) f [⟨Rect.unit (s := S16) ![0] ![16] inb_S16_S16_0, w⟩]) = w := by
  funext y
  have h := View.read_writes_cons_emb v f (Rect.unit (s := S16) ![0] ![16] inb_S16_S16_0) w [] y
  have e : (Rect.unit (s := S16) ![0] ![16] inb_S16_S16_0).emb y = y := by
    funext a
    match a with
    | ⟨0, _⟩ => exact Fin.ext (by show 0 + 1 * (y 0).val = (y 0).val; omega)
  rw [e] at h
  exact h

set_option maxHeartbeats 4000000 in
set_option maxRecDepth 16384 in
/-- The body on the vector subcore at grid point `L` of device `d`: the two copies in and their waits, the seven
    blocks of flat positions, the fetch of the input's entries at them and its wait, the two rows of partial sums and
    their copies out. The arrays it reads come back unchanged; its two output rows come back holding the sums. -/
theorem tile_body (hF : (K (F := F)).Facts) (d : Dev nD) (L : grid0.Coords)
    (xf : Buf (Elt F) (xLoc d)) (tp : Buf (Elt F) (tLoc d)) (mp : Buf (Elt F) (kLoc d)) (o0 : Buf (Elt F) (oLoc d))
    (qx qt qk : PosShare TreeShare)
    (hin : ∀ (i0 : S112.Idx → Elt F .i32) (k : S112.Idx), (Spec.idxRow (F := F) L i0 (rowOf (wL L) tp) k).toNat < 32000000)
    (O : CellTallies nD τ sig (HIx 1)) (W : Waits sig (HIx 1)) (hO : ∀ g, O g none = 0) :
    (iprop(levAts (K (F := F)).L (K (F := F)).lev ∗ emp
        ∗ ((xLoc d ↦{qx} xf) ∗ (tLoc d ↦{qt} tp) ∗ (kLoc d ↦{qk} mp) ∗ (oLoc d ↦[oSet 0 (wL L)]{fullShare} o0) ∗ (oLoc d ↦[oSet 1 (wL L)]{fullShare} o0))
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc0_k L xV (Memref.isWhole_whole _) tV (Memref.isWhole_whole _) kV (Memref.isWhole_whole _) oV (Memref.isWhole_whole _)
            s0V (Memref.isWhole_whole _) s1V (Memref.isWhole_whole _) s2V (Memref.isWhole_whole _) s3V (Memref.isWhole_whole _)
            s4V (Memref.isWhole_whole _) s5V (Memref.isWhole_whole _) cc0_scoped0 cc0_scoped1 cc0_scoped2 cc0_scoped3 cc0_scoped4)
          fun _ => iprop(((xLoc d ↦{qx} xf) ∗ (tLoc d ↦{qt} tp) ∗ (kLoc d ↦{qk} mp)
              ∗ (∃ f, ⌜∃ i0, ∀ y : S16.Idx, f (oIx 0 (wL L) y) = accOut L (wL L) xf tp mp i0 y⌝ ∗ oLoc d ↦[oSet 0 (wL L)]{fullShare} f)
              ∗ (∃ f, ⌜∀ y : S16.Idx, f (oIx 1 (wL L) y) = maccOut (wL L) mp y⌝ ∗ oLoc d ↦[oSet 1 (wL L)]{fullShare} f))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_k_eq_skeleton]; unfold cc0_k_skel
  simp only [k0_part1_eq_skeleton, k0_part2_eq_skeleton, k0_part3_eq_skeleton, k0_part4_eq_skeleton]
  unfold k0_part1_skel k0_part2_skel k0_part3_skel k0_part4_skel
  rw [(K (F := F)).scopedBufs_V hF d (cV L) (jV L), SparseCore.Cfg.scopedSems0_V (Val := Elt F) d (cV L) (jV L), ownSems0_V, ownBufs_V]
  iintro ⟨#Hlv, -, ⟨Hx, Ht, Hk, Ho0, Ho1⟩, ⟨⟨%f0, Hs0⟩, ⟨%f1, Hs1⟩, ⟨%f2, Hs2⟩, ⟨%f3, Hs3⟩, ⟨%f4, Hs4⟩, ⟨%f5, Hs5⟩, Hbufs⟩,
    ⟨Hsem0, Hsem1, Hsem2, Hsem3, Hsem4, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hx' := (Entails.of_eq (pts_xV (F := F) d L _ _).symm) $$ Hx
  ihave Ht' := (Entails.of_eq (pts_tV (F := F) d L _ _).symm) $$ Ht
  ihave Hk' := (Entails.of_eq (pts_kV (F := F) d L _ _).symm) $$ Hk
  ihave Ho0' := (Entails.of_eq (pts_o0RowK (F := F) d L _).symm) $$ Ho0
  ihave Ho1' := (Entails.of_eq (pts_o1RowK (F := F) d L _).symm) $$ Ho1
  ihave Hs0' := (Entails.of_eq (pts_s0 (F := F) d L _).symm) $$ Hs0
  ihave Hs1' := (Entails.of_eq (pts_s1 (F := F) d L _).symm) $$ Hs1
  ihave Hs2' := (Entails.of_eq (pts_s2 (F := F) d L _).symm) $$ Hs2
  ihave Hs3' := (Entails.of_eq (pts_s3 (F := F) d L _).symm) $$ Hs3
  ihave Hs4' := (Entails.of_eq (pts_s4 (F := F) d L _).symm) $$ Hs4
  ihave Hs5' := (Entails.of_eq (pts_s5 (F := F) d L _).symm) $$ Hs5
  sl_exec
  -- the gather of the flattened input at the row of flat positions
  ihave Hxs := (pointsTo_split_subset (q := qx) (f := xf) (S := Finset.univ) (Finset.subset_univ (xAllK).view.set)).1 $$ Hx'
  icases Hxs with ⟨Hxs, Hxr⟩
  have hs3 : (s3V).view.set = Finset.univ := View.set_whole _
  have hs0 : (s0V).view.set = Finset.univ := View.set_whole _
  ihave Hs3'' := (Entails.of_eq (pts_univ_set (F := F) hs3 _ _)) $$ Hs3'
  ihave Hs0'' := (Entails.of_eq (pts_univ_set (F := F) hs0 _ _)) $$ Hs0'
  have hN : ∀ h : S32000000.Gathers 0 S112, ∑ j, ((s3V).slice (S112.rowRect h.axis' j) (S112.stride_rowRect h.axis' j)).view.dmaCredit
      = (s3V).view.dmaCredit := by decide
  have hread : (s0V).view.read (Elt F) ((s0V).view.writes (Elt F) (s0V).view.junk (tile_body.sl.Hs0'_7 d L tp f1))
      = Spec.idxRow (F := F) L ((s0V).view.read (Elt F) (s0V).view.junk) (rowOf (wL L) tp) :=
    (read_idx_writes' (F := F) (s0V).view L (s0V).view.junk (s1V).view
        (View.write (Elt F) (s1V).view f1 (tile_body.sl.dma0 d L tp) Finset.univ)).trans
      (by rw [View.read_write_univ]; exact congrArg _ (read_tRowK (F := F) L tp))
  have hin' : ∀ x, ((s0V).view.read (Elt F) ((s0V).view.writes (Elt F) (s0V).view.junk (tile_body.sl.Hs0'_7 d L tp f1)) x).toNat
      < S32000000.size gathers_S32000000_S112.axis := fun x => by
    rw [hread]; exact hin _ x
  iapply (SparseCore.wp_indirectGatherLocal countersEmb 𝒱₀ (V d (cV L) (jV L)) none (hg := gathers_S32000000_S112) (default : HIx 1)
      (s3V).view.dmaCredit (hN _) (by decide) hin') $$ [Hxs Hs3'' Hs0'' Hsem2]
  · isplitl [Hxs]; · iexact Hxs
    isplitl [Hs3'']; · iexact Hs3''
    isplitl [Hs0'']; · iexact Hs0''
    iexact Hsem2
  iintro Hfl
  sl_exec
  iapply (Transfers.wp_waitLocalO countersEmb 𝒱₀ (V d (cV L) (jV L)) none (default : HIx 1) (rfl : (s3V).view.dmaCredit = _)) $$ [Hfl HO]
  · isplitl [Hfl]; · iexact Hfl
    isplitl [HO]; · iexact HO
    iapply (Transfers.MayWaits.elim (SemLoc.dma cc0_scoped2.sem)) $$ Hmw
  iintro ⟨⟨Hs3', Hxs, Hs0'⟩, Hsem2, HO⟩
  ihave Hx' := (pointsTo_split_subset (q := qx) (f := xf) (S := Finset.univ) (Finset.subset_univ (xAllK).view.set)).2 $$ [Hxs Hxr]; · isplitl [Hxs] <;> iassumption
  ihave Hs3a := (Entails.of_eq (pts_univ_set (F := F) hs3 _ _).symm) $$ Hs3'
  ihave Hs0a := (Entails.of_eq (pts_univ_set (F := F) hs0 _ _).symm) $$ Hs0'
  sl_exec
  -- what the two output rows hold
  have hn' : S112.numel = S112.size gathers_S32000000_S112.axis' := by decide
  have hB : (s2V).view.read (Elt F) (View.write (Elt F) (s2V).view f2 (tile_body.sl.dma0_1 d L mp) Finset.univ) = rowOf (wL L) mp :=
    (View.read_write_univ _ _).trans (read_kRowK (F := F) L mp)
  have hv0 : ∀ y : S16.Idx, ((o0RowK L).view.writes (Elt F) o0 [⟨Rect.whole S16, tile_body.sl.dma25 d L xf tp mp f1 f2 f3 f4 hin'⟩]) (oIx 0 (wL L) y)
      = accOut L (wL L) xf tp mp ((s0V).view.read (Elt F) (s0V).view.junk) y := by
    intro y
    have e1 : tile_body.sl.dma25 d L xf tp mp f1 f2 f3 f4 hin'
        = Spec.accRow (F := F)
            ((s3V).view.read (Elt F) (View.write (Elt F) (s3V).view f3
              (SparseCore.gatherPayload gathers_S32000000_S112 ((xAllK).view.read (Elt F) xf)
                (SparseCore.rows ((s0V).view.read (Elt F) ((s0V).view.writes (Elt F) (s0V).view.junk (tile_body.sl.Hs0'_7 d L tp f1))) hn' hin'))
              Finset.univ))
            ((s2V).view.read (Elt F) (View.write (Elt F) (s2V).view f2 (tile_body.sl.dma0_1 d L mp) Finset.univ)) := by
      unfold tile_body.sl.dma25 tile_body.sl.Hs4'_1 tile_body.sl.v95 tile_body.sl.v102 tile_body.sl.v111 tile_body.sl.v120 tile_body.sl.v129
        tile_body.sl.v138 tile_body.sl.v147
      rw [ReadAs.apply_same, read_writes_s16]
      dsimp only
      exact accRow_of_loads (F := F) (s3V).view _ (s2V).view _
    rw [o0_written, e1, hB, View.read_write_univ, read_xAllK, gatherPayload_fetched, hread]
    rfl
  have hv1 : ∀ y : S16.Idx, ((o1RowK L).view.writes (Elt F) o0 [⟨Rect.whole S16, tile_body.sl.dma25_1 d L xf tp mp f1 f2 f3 f5 hin'⟩]) (oIx 1 (wL L) y)
      = maccOut (wL L) mp y := by
    intro y
    have e2 : tile_body.sl.dma25_1 d L xf tp mp f1 f2 f3 f5 hin'
        = Spec.maccRow (F := F) ((s2V).view.read (Elt F) (View.write (Elt F) (s2V).view f2 (tile_body.sl.dma0_1 d L mp) Finset.univ)) := by
      unfold tile_body.sl.dma25_1 tile_body.sl.Hs5'_1
      rw [ReadAs.apply_same, read_writes_s16]
      dsimp only
      exact maccRow_of_loads (F := F) (s2V).view _
    rw [o1_written, e2, hB]
    rfl
  sl_step
  isplitl [Hx' Ht' Hk' Ho0' Ho1']
  · isplitl [Hx']; · iexact Hx'
    isplitl [Ht']; · iexact Ht'
    isplitl [Hk']; · iexact Hk'
    isplitl [Ho0']
    · iexists _; isplitr
      · ipureintro; exact ⟨_, hv0⟩
      · iapply (Entails.of_eq (pts_o0RowK (F := F) d L _)); iexact Ho0'
    · iexists _; isplitr
      · ipureintro; exact hv1
      · iapply (Entails.of_eq (pts_o1RowK (F := F) d L _)); iexact Ho1'
  isplitl [Hs0a Hs1' Hs2' Hs3a Hs4' Hs5' Hbufs]
  · isplitl [Hs0a]; · iexists _; iexact Hs0a
    isplitl [Hs1']; · iexists _; iexact Hs1'
    isplitl [Hs2']; · iexists _; iexact Hs2'
    isplitl [Hs3a]; · iexists _; iexact Hs3a
    isplitl [Hs4']; · iexists _; iexact Hs4'
    isplitl [Hs5']; · iexists _; iexact Hs5'
    iexact Hbufs
  isplitl [Hsem0 Hsem1 Hsem2 Hsem3 Hsem4 Hsems]
  · isplitl [Hsem0]; · iexact Hsem0
    isplitl [Hsem1]; · iexact Hsem1
    isplitl [Hsem2]; · iexact Hsem2
    isplitl [Hsem3]; · iexact Hsem3
    isplitl [Hsem4]; · iexact Hsem4
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

/-- The same with the two rows' contents forgotten. -/
theorem tile_body_frame (hF : (K (F := F)).Facts) (d : Dev nD) (L : grid0.Coords)
    (xf : Buf (Elt F) (xLoc d)) (tp : Buf (Elt F) (tLoc d)) (mp : Buf (Elt F) (kLoc d)) (o0 : Buf (Elt F) (oLoc d))
    (qx qt qk : PosShare TreeShare)
    (hin : ∀ (i0 : S112.Idx → Elt F .i32) (k : S112.Idx), (Spec.idxRow (F := F) L i0 (rowOf (wL L) tp) k).toNat < 32000000)
    (O : CellTallies nD τ sig (HIx 1)) (W : Waits sig (HIx 1)) (hO : ∀ g, O g none = 0) :
    (iprop(levAts (K (F := F)).L (K (F := F)).lev ∗ emp
        ∗ ((xLoc d ↦{qx} xf) ∗ (tLoc d ↦{qt} tp) ∗ (kLoc d ↦{qk} mp) ∗ (oLoc d ↦[oSet 0 (wL L)]{fullShare} o0) ∗ (oLoc d ↦[oSet 1 (wL L)]{fullShare} o0))
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc0_k L xV (Memref.isWhole_whole _) tV (Memref.isWhole_whole _) kV (Memref.isWhole_whole _) oV (Memref.isWhole_whole _)
            s0V (Memref.isWhole_whole _) s1V (Memref.isWhole_whole _) s2V (Memref.isWhole_whole _) s3V (Memref.isWhole_whole _)
            s4V (Memref.isWhole_whole _) s5V (Memref.isWhole_whole _) cc0_scoped0 cc0_scoped1 cc0_scoped2 cc0_scoped3 cc0_scoped4)
          fun _ => iprop(((xLoc d ↦{qx} xf) ∗ (tLoc d ↦{qt} tp) ∗ (kLoc d ↦{qk} mp)
              ∗ (∃ f, oLoc d ↦[oSet 0 (wL L)]{fullShare} f)
              ∗ (∃ f, oLoc d ↦[oSet 1 (wL L)]{fullShare} f))
            ∗ scopedBufs (V d (cV L) (jV L)) ∗ scopedSems0 (V d (cV L) (jV L))
            ∗ ∃ W', ⌜∀ p ∈ W', p ∈ W ∨ p.2 = none⌝ ∗ owes (V d (cV L) (jV L)) O W') :=
  (tile_body hF d L xf tp mp o0 qx qt qk hin O W hO).trans (wp_mono frame _ _ fun _ => by
    iintro ⟨⟨Hx, Ht, Hk, ⟨%f, %_hf, Ho0⟩, ⟨%g, %_hg, Ho1⟩⟩, Hb, Hs, HW⟩
    isplitl [Hx Ht Hk Ho0 Ho1]
    · isplitl [Hx]; · iexact Hx
      isplitl [Ht]; · iexact Ht
      isplitl [Hk]; · iexact Hk
      isplitl [Ho0]
      · iexists f; iexact Ho0
      · iexists g; iexact Ho1
    isplitl [Hb]; · iexact Hb
    isplitl [Hs]; · iexact Hs
    iexact HW)

end Cert.Proof.KI

end
-- ==== Proof.IndexRow.lean ====
/-
  The flat positions a vector subcore forms, as natural numbers: entry k of the index row of worker
  w = 2·tile + core is min(10000·(112·w + k) + target k, 31999999). All 32-bit arithmetic stays below 2^31
  (the largest value is 10000·3583 + 9999 = 35839999), so the words' natural-number values add and multiply
  without wrapping and the signed minimum is the minimum of the values.
-/
import proofs.«209899_g60301340836213_cont_9to1c4b_660_2_alg».proof.Proof.Spec
import Idealize.ShloMosaic.Lib.Pipeline.Value

noncomputable section

namespace Cert.KernelIdeal.Spec

open Idealize.ShloMosaic Idealize.ShloMosaic.ValueIdx Cert.KernelIdeal Cert.KernelIdeal.Gen

variable {F : FTy → Type} [FloatOps F]

/-- The signed minimum of two words below 2^31 is the minimum of their values. -/
theorem minsi_toNat (x y : BitVec 32) (hx : x.toNat < 2 ^ 31) (hy : y.toNat < 2 ^ 31) :
    (IntOp.minsi x y).toNat = min x.toNat y.toNat := by
  unfold IntOp.minsi
  have hxi : x.toInt = (x.toNat : Int) := by rw [BitVec.toInt_eq_toNat_cond]; split <;> omega
  have hyi : y.toInt = (y.toNat : Int) := by rw [BitVec.toInt_eq_toNat_cond]; split <;> omega
  by_cases h : x.slt y
  · rw [if_pos h]
    have : x.toInt < y.toInt := by simpa [BitVec.slt] using h
    omega
  · rw [if_neg h]
    have : ¬ x.toInt < y.toInt := by simpa [BitVec.slt] using h
    omega

/-- One entry of a block of the index row: the block starts at row position `o`, the lane is `yv`, the target `t`. -/
def entry (b t : BitVec 32) (yv : Nat) : BitVec 32 :=
  IntOp.minsi (IntOp.addi (IntOp.muli (IntOp.addi b (BitVec.ofNat 32 yv)) 10000#32) t) 31999999#32

/-- The value of the first position of a subcore's row. -/
theorem base_toNat (L : grid0.Coords) : (base L).toNat = 112 * (2 * (L 1).val + (L 0).val) := by
  have h0 : (L 0).val < 2 := (L 0).isLt
  have h1 : (L 1).val < 16 := (L 1).isLt
  unfold base Scalar.muli Scalar.addi IntOp.muli IntOp.addi
  simp only [BitVec.toNat_mul, BitVec.toNat_add, BitVec.toNat_ofNat]
  omega

/-- The value of one entry. -/
theorem entry_toNat (b t : BitVec 32) (o yv : Nat) (B : Nat) (hb : b.toNat = B) (hB : B ≤ 3472) (ho : o ≤ 96) (hy : yv < 16)
    (ht : t.toNat ≤ 9999) :
    (entry (IntOp.addi b (BitVec.ofNat 32 o)) t yv).toNat = min (10000 * (B + o + yv) + t.toNat) 31999999 := by
  unfold entry
  have e : (IntOp.addi (IntOp.muli (IntOp.addi (IntOp.addi b (BitVec.ofNat 32 o)) (BitVec.ofNat 32 yv)) 10000#32) t).toNat
      = 10000 * (B + o + yv) + t.toNat := by
    unfold IntOp.muli IntOp.addi
    simp only [BitVec.toNat_mul, BitVec.toNat_add, BitVec.toNat_ofNat, hb]
    omega
  rw [minsi_toNat _ _ (by rw [e]; omega) (by decide), e]
  rfl

/-! ## The seven blocks' payloads at a lane -/

theorem lanes_apply (y : S16.Idx) : lanes y = BitVec.ofNat 32 (y 0).val := by
  unfold lanes; exact iota_single_apply _ _ _ _ _ y

theorem pay3_apply (L : grid0.Coords) (v : Vec F S16 .i32) (y : S16.Idx) :
    k0_pay3 (F := F) L v y = entry (IntOp.addi (base L) (BitVec.ofNat 32 0)) (v y) (y 0).val := by
  simp only [k0_pay3, shapeCast_self]
  show IntOp.minsi (IntOp.addi (IntOp.muli (IntOp.addi _ (iota .scVector S16 32 [0] iota_S16_d0_w32_scVector y)) _) _) _ = _
  rw [iota_single_apply]; rfl

theorem pay4_apply (L : grid0.Coords) (v : Vec F S16 .i32) (y : S16.Idx) :
    k0_pay4 (F := F) L v y = entry (IntOp.addi (base L) (BitVec.ofNat 32 16)) (v y) (y 0).val := by
  simp only [k0_pay4, shapeCast_self]
  show IntOp.minsi (IntOp.addi (IntOp.muli (IntOp.addi _ (iota .scVector S16 32 [0] iota_S16_d0_w32_scVector y)) _) _) _ = _
  rw [iota_single_apply]; rfl

theorem pay5_apply (L : grid0.Coords) (v : Vec F S16 .i32) (y : S16.Idx) :
    k0_pay5 (F := F) lanes (Scalar.addi (base L) 32#32) v y = entry (IntOp.addi (base L) (BitVec.ofNat 32 32)) (v y) (y 0).val := by
  simp only [k0_pay5, shapeCast_self]
  show IntOp.minsi (IntOp.addi (IntOp.muli (IntOp.addi _ (lanes y)) _) _) _ = _
  rw [lanes_apply]; rfl

theorem pay6_apply (L : grid0.Coords) (v : Vec F S16 .i32) (y : S16.Idx) :
    k0_pay6 (F := F) (base L) lanes v y = entry (IntOp.addi (base L) (BitVec.ofNat 32 48)) (v y) (y 0).val := by
  simp only [k0_pay6, shapeCast_self]
  show IntOp.minsi (IntOp.addi (IntOp.muli (IntOp.addi _ (lanes y)) _) _) _ = _
  rw [lanes_apply]; rfl

theorem pay7_apply (L : grid0.Coords) (v : Vec F S16 .i32) (y : S16.Idx) :
    k0_pay7 (F := F) (base L) lanes v y = entry (IntOp.addi (base L) (BitVec.ofNat 32 64)) (v y) (y 0).val := by
  simp only [k0_pay7, shapeCast_self]
  show IntOp.minsi (IntOp.addi (IntOp.muli (IntOp.addi _ (lanes y)) _) _) _ = _
  rw [lanes_apply]; rfl

theorem pay9_apply (L : grid0.Coords) (v : Vec F S16 .i32) (y : S16.Idx) :
    k0_pay9 (F := F) (k0_pay8 (base L) lanes) 10000#32 v y = entry (IntOp.addi (base L) (BitVec.ofNat 32 80)) (v y) (y 0).val := by
  simp only [k0_pay9, k0_pay8, shapeCast_self]
  show IntOp.minsi (IntOp.addi (IntOp.muli (IntOp.addi _ (lanes y)) _) _) _ = _
  rw [lanes_apply]; rfl

theorem pay10_apply (L : grid0.Coords) (v : Vec F S16 .i32) (y : S16.Idx) :
    k0_pay10 (F := F) (base L) lanes v y = entry (IntOp.addi (base L) (BitVec.ofNat 32 96)) (v y) (y 0).val := by
  simp only [k0_pay10, shapeCast_self]
  show IntOp.minsi (IntOp.addi (IntOp.muli (IntOp.addi _ (lanes y)) _) _) _ = _
  rw [lanes_apply]; rfl

/-- A block of a row read at a lane is the row at the block's start plus the lane. -/
theorem chunk_sub {α : Type} (o : Nat) (ho : o + 16 ≤ 112) (f : S112.Idx → α) (k : S112.Idx) (h1 : o ≤ (k 0).val)
    (h2 : (k 0).val < o + 16) : chunk o ho f (ix1 ⟨(k 0).val - o, by omega⟩) = f k := by
  unfold chunk lane
  refine congrArg f (funext fun d => ?_)
  match d with
  | ⟨0, _⟩ => exact Fin.ext (by show o + ((k 0).val - o) = (k 0).val; omega)

/-- Entry `k` of the index row, as a natural number. -/
theorem idxRow_toNat (L : grid0.Coords) (i0 tr : Vec F S112 .i32) (ht : ∀ k, (tr k).toNat ≤ 9999) (k : S112.Idx) :
    (idxRow (F := F) L i0 tr k).toNat
      = min (10000 * (112 * (2 * (L 1).val + (L 0).val) + (k 0).val) + (tr k).toNat) 31999999 := by
  have h0 : (L 0).val < 2 := (L 0).isLt
  have h1 : (L 1).val < 16 := (L 1).isLt
  have hk : (k 0).val < 112 := (k 0).isLt
  have hB := base_toNat L
  have key : ∀ (o : Nat) (ho : o + 16 ≤ 112) (h1 : o ≤ (k 0).val) (h2 : (k 0).val < o + 16),
      (entry (IntOp.addi (base L) (BitVec.ofNat 32 o)) (chunk o ho tr (ix1 ⟨(k 0).val - o, by omega⟩)) ((k 0).val - o)).toNat
        = min (10000 * (112 * (2 * (L 1).val + (L 0).val) + (k 0).val) + (tr k).toNat) 31999999 := by
    intro o ho h1 h2
    rw [chunk_sub o ho tr k h1 h2, entry_toNat (base L) (tr k) o ((k 0).val - o) _ hB (by omega) (by omega) (by omega) (ht k)]
    congr 2
    omega
  unfold idxRow
  simp only [put]
  split_ifs with c6 c5 c4 c3 c2 c1 c0
  · rw [pay10_apply]; exact key 96 (by omega) c6.1 c6.2
  · rw [pay9_apply]; exact key 80 (by omega) c5.1 c5.2
  · rw [pay7_apply]; exact key 64 (by omega) c4.1 c4.2
  · rw [pay6_apply]; exact key 48 (by omega) c3.1 c3.2
  · rw [pay5_apply]; exact key 32 (by omega) c2.1 c2.2
  · rw [pay4_apply]; exact key 16 (by omega) c1.1 c1.2
  · rw [pay3_apply]; exact key 0 (by omega) c0.1 c0.2
  · exfalso; omega

/-- Every entry of the index row is a position of the flattened input. -/
theorem idxRow_lt (L : grid0.Coords) (i0 tr : Vec F S112 .i32) (ht : ∀ k, (tr k).toNat ≤ 9999) (k : S112.Idx) :
    (idxRow (F := F) L i0 tr k).toNat < 32000000 := by
  rw [idxRow_toNat L i0 tr ht k]; omega

end Cert.KernelIdeal.Spec

end
-- ==== Proof.HostArrays.lean ====
/-
  The arrays the host prepares, read at a position: the flattened input is the input at the position's three
  coordinates; a padded 3200-array is the 64 × 50 array at the position's two coordinates below 3200 and the padding
  value from there on.
-/
import proofs.«209899_g60301340836213_cont_9to1c4b_660_2_alg».proof.Proof.Gen.KernelIdeal.Skeleton
import Idealize.ShloMosaic.Lib.KernelVsHost

noncomputable section

namespace Cert.KernelIdeal.Spec

open Idealize.ShloMosaic Idealize.ShloMosaic.ValueIdx Cert.KernelIdeal Cert.KernelIdeal.Gen

variable {α : Type}

/-- Entry `n` of the flattened input. -/
theorem flat_apply (x : S64x50x10000.Idx → α) (n : Nat) (hn : n < 32000000) :
    shapeCast S32000000 x shapeCasts_S64x50x10000_S32000000 (ix1 ⟨n, hn⟩)
      = x (ix3 (⟨n / 500000, by omega⟩ : Fin 64) (⟨n / 10000 % 50, by omega⟩ : Fin 50) (⟨n % 10000, by omega⟩ : Fin 10000)) := by
  refine shapeCast_apply x _ _ _ ?_
  rw [Shape.rowMajor_val_three, Shape.rowMajor_val_one]
  show (n / 500000 * 50 + n / 10000 % 50) * 10000 + n % 10000 = n
  omega

/-- Entry `g` of a flattened 64 × 50 array. -/
theorem flat2_apply (t : S64x50.Idx → α) (g : Nat) (hg : g < 3200) :
    shapeCast S3200 t shapeCasts_S64x50_S3200 (ix1 ⟨g, hg⟩) = t (ix2 (⟨g / 50, by omega⟩ : Fin 64) (⟨g % 50, by omega⟩ : Fin 50)) := by
  refine shapeCast_apply t _ _ _ ?_
  rw [Shape.rowMajor_val_two, Shape.rowMajor_val_one]
  show g / 50 * 50 + g % 50 = g
  omega

/-- Entry `g` of a 64 × 50 array flattened and padded to 3584 entries with the one entry of `c`. -/
theorem padded_apply (t : S64x50.Idx → α) (c : S_.Idx → α) (g : Nat) (hg : g < 3584) :
    pad S3584 ![0] ![384] ![0] (shapeCast S3200 t shapeCasts_S64x50_S3200) c pads_S3200_S3584_03840 h_S_ (ix1 ⟨g, hg⟩)
      = if h : g < 3200 then t (ix2 (⟨g / 50, by omega⟩ : Fin 64) (⟨g % 50, by omega⟩ : Fin 50)) else c ix0 := by
  by_cases h : g < 3200
  · rw [dif_pos h, ← flat2_apply t g h]
    refine pad_apply_of_inside _ _ _ _ c _ _ _ (ix1 (⟨g, h⟩ : Fin 3200)) fun a => ?_
    match a with
    | ⟨0, _⟩ => show g = 0 + g * (0 + 1); omega
  · rw [dif_neg h]
    refine (pad_apply_of_not_inside _ _ _ _ c pads_S3200_S3584_03840 h_S_ _ (0 : Fin 1) ?_).trans (congrArg c (eq_ix0 _))
    show ¬(0 ≤ g ∧ (g - 0) % (0 + 1) = 0 ∧ (g - 0) / (0 + 1) < 3200)
    omega

/-- The targets' padding value is the zero word. -/
theorem padWord_apply : id (constantI S_ 32 0#32) ix0 = 0#32 := rfl

end Cert.KernelIdeal.Spec

end
-- ==== Proof.HostValues.lean ====
/-
  What the host line leaves in the three arrays the workers read: the input flattened, the targets and the mask
  flattened and padded to 3584 entries with zeros.
-/
import proofs.«209899_g60301340836213_cont_9to1c4b_660_2_alg».proof.Proof.MainRun

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ)

theorem Xf_eq (d : Dev nD) :
    Xf m d = shapeCast S32000000 (m ((SparseCore.T d).loc main_arg0)) shapeCasts_S64x50x10000_S32000000 := by
  show StableHlo.after (hostOps (F := F)) (V0 m d) (Proc.devRef .tc main_v0) = _
  unfold hostOps
  after_results
  rfl

theorem Tp_eq (d : Dev nD) :
    Tp m d = pad S3584 ![0] ![384] ![0] (shapeCast S3200 (m ((SparseCore.T d).loc main_arg5)) shapeCasts_S64x50_S3200)
      (id (constantI S_ 32 0#32)) pads_S3200_S3584_03840 h_S_ := by
  show StableHlo.after (hostOps (F := F)) (V0 m d) (Proc.devRef .tc main_v2) = _
  unfold hostOps
  after_results
  rfl

theorem Mp_eq (d : Dev nD) :
    Mp m d = pad S3584 ![0] ![384] ![0] (shapeCast S3200 (m ((SparseCore.T d).loc main_arg6)) shapeCasts_S64x50_S3200)
      (sitofp .f32 (constantI S_ 32 0#32)) pads_S3200_S3584_03840 h_S_ := by
  show StableHlo.after (hostOps (F := F)) (V0 m d) (Proc.devRef .tc main_v4) = _
  unfold hostOps
  after_results
  rfl

end Cert.Proof.KI

end
-- ==== Proof.Region.lean ====
/-
  The one step of the main program that runs on the TensorCore after the vector subcores have finished: a
  kernel region without a grid. Its single input window brings the whole partial-sum array (2 × 32 × 16)
  into vector memory, the body adds up each of its two halves, stores (0 − first sum) / second sum into a
  one-word scalar buffer, and the single output window writes that word back to a one-element array.
  Stated here: what the region needs of the launch element (the two staging cells' ghost state and duty
  tokens), the funding of it, and the step itself: from the partial-sum array and the result array held
  whole, the region boundary and the core's account of what it owes, the region call runs to the same
  holdings with the result array at the computed word.
-/
import proofs.«209899_g60301340836213_cont_9to1c4b_660_2_alg».proof.Proof.Common
import proofs.«209899_g60301340836213_cont_9to1c4b_660_2_alg».proof.Proof.Gen.KernelIdeal.Launch
import proofs.«209899_g60301340836213_cont_9to1c4b_660_2_alg».proof.Proof.Gen.KernelIdeal.Points
import Idealize.ShloMosaic.Lib.Pipeline.Regions

noncomputable section

namespace Cert.Proof.KI

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 1) (Elt F) ℕ UU ℕ

/-! ## The body, run once at symbolic contents -/

/-- Memref `M`'s buffer on core `c`: its contents type, and it held whole at `f`. -/
abbrev tcBf (c : Dev nD) {sp : Space} {S : Shape} {e : EltTy} (M : Memref sig .tc sp S e) : Type := Buf (Elt F) (M.view.loc (c : Thread nD τ))
abbrev tcPt (c : Dev nD) {sp : Space} {S : Shape} {e : EltTy} (M : Memref sig .tc sp S e) (f : tcBf (F := F) c M) : sProp 𝕄 :=
  M.view.loc (c : Thread nD τ) ↦{fullShare} f

/-- The word the body computes from the staged array: (0 − Σ half 0) / Σ half 1, the halves as the two loads read them. -/
def tcOut (c : Dev nD) (g : tcBf (F := F) c (Memref.whole cc1_stg0_0)) : Elt F .f32 :=
  k1_pay1 (F := F)
    (View.readAt (Elt F) (Memref.whole cc1_stg0_0).view (Rect.unit (s := S2x32x16) ![0, 0, 0] S1x32x16.size inb_S2x32x16_S1x32x16_0_0_0).toLoadRect g)
    (View.readAt (Elt F) (Memref.whole cc1_stg0_0).view (Rect.unit (s := S2x32x16) ![1, 0, 0] S1x32x16.size inb_S2x32x16_S1x32x16_1_0_0).toLoadRect g)

/-- A one-word buffer written whole holds the word written, whatever it held. -/
theorem writes_word (c : Dev nD) (g6 : tcBf (F := F) c (Memref.whole cc1_stg1_0)) (v : Elt F .f32) :
    (Memref.whole cc1_stg1_0).view.writes (Elt F) g6 [⟨Rect.unit (s := S1) ![0] S1.size inb_S1_S1_0, fun _ => v⟩] = fun _ => v := by
  have hall : ∀ i : S1.Idx, i ∈ (Rect.unit (s := S1) ![0] S1.size inb_S1_S1_0).set := by decide
  funext i
  obtain ⟨x, rfl⟩ := (Rect.unit (s := S1) ![0] S1.size inb_S1_S1_0).exists_idx_of_mem (hall i)
  have h := View.read_writes_cons_emb (Memref.whole cc1_stg1_0).view g6 (Rect.unit (s := S1) ![0] S1.size inb_S1_S1_0) (fun _ => v) [] x
  simp only [Memref.view_whole, View.read_whole] at h
  exact h

/-- From the staged array and the one-word buffer held whole: the body runs to its return, the array as it was, the
    word at what it computes. -/
theorem tcBodyRun (c : Dev nD) (g5 : tcBf (F := F) c (Memref.whole cc1_stg0_0)) (g6 : tcBf (F := F) c (Memref.whole cc1_stg1_0)) (Q : PUnit → sProp 𝕄) :
    iprop(tcPt c (Memref.whole cc1_stg0_0) g5 ∗ tcPt c (Memref.whole cc1_stg1_0) g6
      ∗ (iprop(tcPt c (Memref.whole cc1_stg0_0) g5 ∗ tcPt c (Memref.whole cc1_stg1_0) (fun _ => tcOut c g5)) -∗ Q ⟨⟩))
    ⊢ wp frame (wpE (defs₀ (F := F)) Variants.none c none) Set.univ
        (cc1_body (F := F) (Memref.whole cc1_stg0_0) (hstage1_0 0) (Memref.whole cc1_stg1_0) (hstage1_1 0)) Q := by
  iintro ⟨H5, H6, Hk⟩
  rw [cc1_body_eq_skeleton]; unfold cc1_body_skel
  sl_exec
  sl_step
  iapply Hk
  isplitl [H5]; · iexact H5
  rw [← writes_word c g6 (tcOut c g5)]; unfold tcOut
  iexact H6

/-! ## The proof data -/

/-- No prefetched table. -/
abbrev tcAdm : (p : Fin 1) → (pcfgs (F := F) p).Adm := fun p => (cfgs p).toPCfg_adm

/-- What the fetch stages: the partial-sum array's block, which is all of it. -/
abbrev stg5 (c : Dev nD) (f : Buf (Elt F) (oLoc c)) : (cfg1.win 0).block.Idx → Elt F (cfg1.win 0).elt :=
  ((cfg1.win 0).blk t1_0).view.read (Elt F) f

/-- The result array's location. -/
abbrev resLoc (d : Dev nD) : Loc nD τ sig := (SparseCore.T d).loc main_v6

/-- The proof data on core `c`: the two arrays at their entry contents; after the body the input's staging buffer as
    fetched and the output's at the word computed; no invariant of the body's own; nothing owed; every recorded wait at
    or below the level the handshakes of the one call left them. -/
def tcDats (f5 : (c : Dev nD) → Buf (Elt F) (oLoc c)) (f6 : (c : Dev nD) → Buf (Elt F) (resLoc c))
    (_ : Fin 1) (c : Dev nD) : Dat τ (Elt F) (HIx 1) ℕ UU ℕ cfg1 c where
  A w := match w with
    | ⟨0, _⟩ => f5 c
    | ⟨1, _⟩ => f6 c
    | ⟨_ + 2, h⟩ => absurd h (Nat.not_lt.2 (Nat.le_add_left _ _))
  after w _ := match w with
    | ⟨0, _⟩ => stg5 c (f5 c)
    | ⟨1, _⟩ => fun _ => tcOut c (stg5 c (f5 c))
    | ⟨_ + 2, h⟩ => absurd h (Nat.not_lt.2 (Nat.le_add_left _ _))
  Φ _ := iprop(emp)
  q _ := fullShare
  owed _ := 0
  recorded _ := {p | (K (F := F)).lev (SparseCore.T c, p.1) p.2 ≤ 8}

variable (f5 : (c : Dev nD) → Buf (Elt F) (oLoc c)) (f6 : (c : Dev nD) → Buf (Elt F) (resLoc c))

/-- The fetched window's buffer holds the array's block when the body runs. -/
theorem tcBefore_in (c : Dev nD) (d : (cfg1.win 0).block.Idx → Elt F (cfg1.win 0).elt) :
    (tcDats f5 f6 0 c).before 0 t1_0 d = stg5 c (f5 c) := by
  unfold Dat.before; rw [if_pos (by decide)]; rfl

/-- At the region's one point: from the fetched block in the input's staging buffer and anything in the output's, the
    body runs to the block unchanged and the word computed, owing and recording nothing new. -/
theorem tcBody_obligation (c : Dev nD) : BodyObligation (tcDats f5 f6 0 c) (defs₀ (F := F)) 𝒱₀ (none : HIx 1) Set.univ := fun t => by
  obtain rfl := fin_N1 t
  rw [bigSep_W1, bigSep_W1]
  simp only [owns_whole_eq]
  rw [show (tcDats f5 f6 0 c).Φ t1_0.castSucc = iprop(emp) from rfl, show (tcDats f5 f6 0 c).Φ t1_0.succ = iprop(emp) from rfl]
  unfold Dat.owesAt Pipeline.owesWithin
  iintro ⟨-, ⟨%W, %hW, HO⟩, ⟨%d0, %g5, %hg5, H5⟩, ⟨%d1, %g6, %hg6, H6⟩⟩
  rw [tcBefore_in] at hg5
  subst hg5
  iapply (tcBodyRun c (stg5 c (f5 c)) g6 _)
  isplitl [H5]; · iexact H5
  isplitl [H6]; · iexact H6
  iintro ⟨H5, H6⟩
  isplitr; · iempintro
  isplitl [HO]
  · iexists W; isplitr; · ipureintro; exact hW
    iexact HO
  isplitl [H5]
  · iexists _; isplitr; swap; (· iexact H5); ipureintro; dsimp only [tcDats]
  · iexists _; isplitr; swap; (· iexact H6); ipureintro; rfl

/-! ## The region -/

/-- After the one handshake call the core owes nothing more. -/
theorem Otc_one (d : Dev nD) : (K (F := F)).Otc (nD := nD) d 1 = 0 := by
  unfold SparseCore.Cfg.Otc
  exact Finset.sum_eq_zero fun q _ => if_neg (by have := q.isLt; omega)

/-- What the core owes, and the bound on the waits it has recorded, as the handshakes of the one call leave them. -/
abbrev owesTc (d : Dev nD) : sProp 𝕄 :=
  iprop(∃ W, ⌜(K (F := F)).WBelow (SparseCore.T d) W (8 * 1)⌝ ∗ owes (SparseCore.T d) ((K (F := F)).Otc d 1) W)

/-- What the result array holds after the region: its entry contents overwritten by the one write-back. -/
abbrev res6 (c : Dev nD) : Buf (Elt F) (resLoc c) := (tcDats f5 f6 0 c).arrAt (1 : Fin 2) cfg1.N

/-- The core has no scoped buffer besides the two staging buffers. -/
theorem scopedRest_pin (c : Dev nD) :
    (Pipeline.scopedRest (Ix := HIx 1) (Name := ℕ) (U := UU) (Lvl := ℕ) (Val := Elt F) (Pipeline.pin (pcfgs (F := F)) tcAdm 0).spec c : sProp 𝕄) = BI.emp :=
  scopedRest1_eq c

set_option backward.isDefEq.respectTransparency.types false in
/-- The region's record: its windows' layout, no semaphore of the body's own, the body's triple at its one point, and how
    the two arrays and the core's account enter the region and leave it. -/
def tcReg (lv : GSem nD τ sig → HIx 1 → ℕ) : Pipeline.RegionSeg (pcfgs (F := F)) tcAdm (tcDats f5 f6) (none : HIx 1) defs₀ 𝒱₀ (K (F := F)).L lv 0 where
  win := launch1.win.to₀
  block_pos := launch1.block_pos
  stage_whole := launch1.stage_whole
  K := PEmpty
  osem k := k.elim
  ho := Pipeline.OwnSemFacts.none _
  hbody c := (tcBody_obligation f5 f6 c).loose
  hwaits := Pipeline.hwaits_of_owed_zero _ _ _ _ (K (F := F)).L lv 0 fun _ _ => rfl
  pre c := iprop((oLoc c ↦{fullShare} f5 c) ∗ (resLoc c ↦{fullShare} f6 c) ∗ owesTc c)
  post c := iprop((oLoc c ↦{fullShare} f5 c) ∗ (resLoc c ↦{fullShare} res6 f5 f6 c) ∗ owesTc c)
  X _ := iprop(emp)
  Y _ := iprop(emp)
  Z _ := iprop(emp)
  hentry c := by
    rw [Pipeline.arrays_eq (Pipeline.pin (pcfgs (F := F)) tcAdm) (tcDats f5 f6) 0 c launch1.arr_whole ((tcDats f5 f6 0 c).share_full fun _ => rfl), bigSep_W1]
    iintro ⟨⟨H5, H6, HO⟩, -, -⟩
    imodintro
    isplitl [H5 H6]
    · isplitl [H5]; · iexact H5
      iexact H6
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩
      rw [Otc_one]
      iexists W; isplitr
      · ipureintro; intro p hp; exact Or.inl (hW p (Finset.mem_coe.mp hp))
      iexact HO
    isplitr <;> iempintro
  hin c := by
    rw [show (tcDats f5 f6 0 c).Φ 0 = iprop(emp) from rfl]
    iintro -; iempintro
  hout c := by
    rw [Pipeline.ownSems0_none, scopedRest_pin]
    iintro -
    isplitr; · iempintro
    isplitr <;> iempintro
  hexit c := by
    rw [Pipeline.arrays_eq (Pipeline.pin (pcfgs (F := F)) tcAdm) (tcDats f5 f6) 0 c launch1.arr_whole ((tcDats f5 f6 0 c).share_full fun _ => rfl), bigSep_W1]
    iintro ⟨⟨H5, H6⟩, HO, -, -⟩
    imodintro
    isplitl [H5]
    · rw [(tcDats f5 f6 0 c).arrAt_in 0 rfl]
      iexact H5
    isplitl [H6]; · iexact H6
    unfold Pipeline.Dat.owesAt Pipeline.owesWithin
    icases HO with ⟨%W, %hW, HO⟩
    unfold owesTc
    rw [Otc_one]; iexists W; isplitr
    · ipureintro; intro p hp
      rcases hW (Finset.mem_coe.mpr hp) with h | ⟨w, s, rfl⟩
      · exact h
      · exact Nat.zero_le _
    iexact HO

/-! ## What the region needs of the launch element, and its funding -/

/-- The launch element of the region's component of the algebra: the two staging cells at round zero, and a duty token
    for each of the two transfers the region issues (the fetch and the write-back). -/
def uP : UP := initOf (Pipeline.cells cfgs cellOf_inj) (Pipeline.launchToks cfgs cellOf_inj)

/-- What the region on device `d` needs of it: its staging cells' ghost state and its transfers' duty tokens. -/
def G (d : Dev nD) : sProp 𝕄 :=
  iprop(Pipeline.cellsGhost (Pipeline.pin (pcfgs (F := F)) tcAdm) (EP (F := F)) 0 d
    ∗ Pipeline.toksInit (Pipeline.pin (pcfgs (F := F)) tcAdm) (EP (F := F)) 0 d)

theorem fund_G : (BI.own ((EP (F := F)) uP) : sProp 𝕄) ⊢ |={Set.univ}=> bigSep Finset.univ (G (F := F)) := by
  have h1 : ∀ Φ : Dev nD → Fin 1 → sProp 𝕄, (bigSep Finset.univ fun c => bigSep Finset.univ fun p => Φ c p) = bigSep Finset.univ fun c => Φ c 0 :=
    fun Φ => bigSep_congr fun c _ => bigSep_univ_eq_bigSepL [(0 : Fin 1)] (by decide) (by decide) (Φ c)
  have hg : iprop((bigSep Finset.univ fun c : Dev nD => bigSep Finset.univ fun p => Pipeline.cellsGhost cfgs (EP (F := F)) p c)
        ∗ (bigSep Finset.univ fun c : Dev nD => bigSep Finset.univ fun p => (Pipeline.toksInit cfgs (EP (F := F)) p c : sProp 𝕄)))
      ⊢ bigSep Finset.univ (G (F := F)) := by
    unfold G; rw [bigSep_sep']
    exact BI.sep_mono (Entails.of_eq (h1 _)) (Entails.of_eq (h1 _))
  unfold uP
  iintro Hu
  imod (Pipeline.fund_ghost cfgs (EP (F := F)) cellOf_inj) $$ Hu with H
  imodintro
  iapply hg; iexact H

/-! ## The step -/

/-- The region call, under a continuation, is the lifted call of the region's entry followed by the continuation. -/
theorem call_eq {α : Type} (k : PUnit → Prog (TpuEff nD τ sig (Elt F) (SparseCore.Sig (ΛP (F := F)) 1) .tc) α) :
    (Prog.op (.customCall (SparseCore.inner (Pipeline.entry 0)) ()) k : Prog (TpuEff nD τ sig (Elt F) (SparseCore.Sig (ΛP (F := F)) 1) .tc) α)
      = (SparseCore.liftProg (Q := 1) (Prog.op (.customCall (Pipeline.entry 0) ()) (fun _ => Prog.ret ⟨⟩) : Prog (TpuEff nD τ sig (Elt F) (ΛP (F := F)) .tc) PUnit)) >>= k := rfl

set_option backward.isDefEq.respectTransparency.types false in
/-- The region call as a step of the main program on the TensorCore of `d`, under any continuation `k`: from the
    handshakes' context, the region's share of the launch element, the region boundary, the partial-sum array and the
    result array held whole and the core's account, it runs, and the continuation is entered with the boundary, the
    partial-sum array as it was, the result array at what the one write-back leaves, and the account again. -/
theorem region_step (P : (K (F := F)).Pay (nD := nD) (Val := Elt F) (Name := ℕ) (U := UU)) (κ : GSem nD τ sig → ℕ) (lv : GSem nD τ sig → HIx 1 → ℕ) (d : Dev nD)
    {α : Type} (k : PUnit → Prog (TpuEff nD τ sig (Elt F) (SparseCore.Sig (ΛP (F := F)) 1) .tc) α) (Φ : α → sProp 𝕄) :
    iprop((K (F := F)).ctx EH P κ lv ∗ G d ∗ boundary (SparseCore.T d) ∗ (oLoc d ↦{fullShare} f5 d) ∗ (resLoc d ↦{fullShare} f6 d) ∗ owesTc d
      ∗ (iprop(boundary (SparseCore.T d) ∗ (oLoc d ↦{fullShare} f5 d) ∗ (resLoc d ↦{fullShare} res6 f5 f6 d) ∗ owesTc d)
          -∗ wp frame (wpE ((K (F := F)).defs (D (F := F))) 𝒱 (SparseCore.T d) none) Set.univ (k ⟨⟩) Φ))
    ⊢ wp frame (wpE ((K (F := F)).defs (D (F := F))) 𝒱 (SparseCore.T d) none) Set.univ
        (.op (.customCall (SparseCore.inner (Pipeline.entry 0)) ()) k) Φ := by
  rw [call_eq k, wp_bind]
  iintro ⟨#Hctx, HG, Hbd, H5, H6, HO, Hk⟩
  iapply ((K (F := F)).wp_liftProg (D (F := F)) 𝒱 (SparseCore.T d) Set.univ none _ _)
  ihave #Hla := (SparseCore.Cfg.ctx_levAts κ) $$ Hctx
  unfold G; icases HG with ⟨Hg, Ht⟩
  have hR := Pipeline.RegionSeg.wp (pcfgs (F := F)) tcAdm (tcDats f5 f6) (none : HIx 1) cellOf_inj (EP (F := F)) defs₀ 𝒱₀ (K (F := F)).L lv
    (tcReg f5 f6 lv) d none (fun _ h => nomatch h) (fun _ => Prog.ret ⟨⟩)
    (fun a => wp frame (wpE ((K (F := F)).defs (D (F := F))) 𝒱 (SparseCore.T d) none) Set.univ (k a) Φ)
  rw [show (tcReg f5 f6 lv).post d = iprop((oLoc d ↦{fullShare} f5 d) ∗ (resLoc d ↦{fullShare} res6 f5 f6 d) ∗ owesTc d) from rfl,
    show (tcReg f5 f6 lv).pre d = iprop((oLoc d ↦{fullShare} f5 d) ∗ (resLoc d ↦{fullShare} f6 d) ∗ owesTc d) from rfl] at hR
  iapply hR
  isplitl [Hk]
  · iintro ⟨Hbd, H5, H6, HO⟩
    rw [wp_ret]
    imodintro
    iapply Hk
    isplitl [Hbd]; · iexact Hbd
    isplitl [H5]; · iexact H5
    isplitl [H6]; · iexact H6
    iexact HO
  isplitl [Hbd]; · iexact Hbd
  isplitl [H5 H6 HO]
  · isplitl [H5]; · iexact H5
    isplitl [H6]; · iexact H6
    iexact HO
  isplitr; · iexact Hla
  isplitl [Hg]; · iexact Hg
  iexact Ht

/-! ## The value -/

/-- The staged block is the array itself. -/
theorem stg5_eq (c : Dev nD) (f : Buf (Elt F) (oLoc c)) : stg5 c f = f := by
  funext i
  show (Memref.whole main_v5).view.read (Elt F) f (((cfg1.win 0).rect t1_0).emb i) = f i
  simp only [Memref.view_whole, View.read_whole]
  congr 1
  funext a; apply Fin.ext
  rw [Rect.emb_apply]
  show (cfg1.win 0).index t1_0 a * (cfg1.win 0).size a + 1 * (i a).val = (i a).val
  show 0 * (cfg1.win 0).size a + 1 * (i a).val = (i a).val
  omega

/-- What the one write-back leaves in the result array: the word the body stored. -/
theorem res6_eq (c : Dev nD) : res6 f5 f6 c = fun _ => tcOut c (stg5 c (f5 c)) := by
  have hall : ∀ i : S1.Idx, i ∈ ((cfg1.win 1).rect t1_0).set := by decide
  show (tcDats f5 f6 0 c).arrAt 1 (t1_0.val + 1) = _
  rw [Dat.arrAt_succ (tcDats f5 f6 0 c) 1 t1_0, if_pos (flush1_1 t1_0)]
  funext i
  obtain ⟨x, rfl⟩ := ((cfg1.win 1).rect t1_0).exists_idx_of_mem (hall i)
  have h := View.read_slice_write_emb (v := (Memref.whole main_v6).view) ((cfg1.win 1).rect t1_0) ((tcDats f5 f6 0 c).arrAt 1 t1_0.val) ((tcDats f5 f6 0 c).flushed 1 t1_0) (Finset.mem_univ x)
  simp only [Memref.view_whole, View.read_whole] at h
  exact h

/-- Half `a` of the staged array as the body's load of it reads it. -/
theorem half_eq (c : Dev nD) (g : tcBf (F := F) c (Memref.whole cc1_stg0_0)) :
    View.readAt (Elt F) (Memref.whole cc1_stg0_0).view (Rect.unit (s := S2x32x16) ![0, 0, 0] S1x32x16.size inb_S2x32x16_S1x32x16_0_0_0).toLoadRect g
      = fun i => g (ValueIdx.ix3 0 (i 1) (i 2)) := by
  funext i
  rw [View.readAt_apply]
  simp only [Memref.view_whole, View.read_whole]
  congr 1
  funext a; apply Fin.ext
  have h0 : (i 0).val < 1 := (i 0).isLt
  match a with
  | ⟨0, _⟩ => simp; omega
  | ⟨1, _⟩ => simp
  | ⟨2, _⟩ => simp; rfl

theorem half1_eq (c : Dev nD) (g : tcBf (F := F) c (Memref.whole cc1_stg0_0)) :
    View.readAt (Elt F) (Memref.whole cc1_stg0_0).view (Rect.unit (s := S2x32x16) ![1, 0, 0] S1x32x16.size inb_S2x32x16_S1x32x16_1_0_0).toLoadRect g
      = fun i => g (ValueIdx.ix3 1 (i 1) (i 2)) := by
  funext i
  rw [View.readAt_apply]
  simp only [Memref.view_whole, View.read_whole]
  congr 1
  funext a; apply Fin.ext
  have h0 : (i 0).val < 1 := (i 0).isLt
  match a with
  | ⟨0, _⟩ => simp; omega
  | ⟨1, _⟩ => simp
  | ⟨2, _⟩ => simp; rfl

/-- The word the body computes, over the array's two halves. -/
theorem tcOut_eq (c : Dev nD) (g : tcBf (F := F) c (Memref.whole cc1_stg0_0)) :
    tcOut c g = k1_pay1 (F := F) (fun i => g (ValueIdx.ix3 0 (i 1) (i 2))) (fun i => g (ValueIdx.ix3 1 (i 1) (i 2))) := by
  unfold tcOut; rw [half_eq, half1_eq]; rfl

/-- What the region leaves in the result array, over the partial-sum array it was entered with. -/
theorem res6_val (c : Dev nD) :
    res6 f5 f6 c = fun _ => k1_pay1 (F := F) (fun i => f5 c (ValueIdx.ix3 0 (i 1) (i 2))) (fun i => f5 c (ValueIdx.ix3 1 (i 1) (i 2))) := by
  rw [res6_eq, stg5_eq, tcOut_eq]

/-! ## The step at one device's contents -/

/-- A family of contents, one per device, that is `f` at `d`. -/
def famAt (d : Dev nD) {ℓ : Dev nD → Loc nD τ sig} (f : Buf (Elt F) (ℓ d)) : (c : Dev nD) → Buf (Elt F) (ℓ c) :=
  fun c => if h : c = d then h ▸ f else fun _ => Classical.arbitrary _

theorem famAt_self (d : Dev nD) {ℓ : Dev nD → Loc nD τ sig} (f : Buf (Elt F) (ℓ d)) : famAt d f d = f := by
  unfold famAt; rw [dif_pos rfl]

/-- The step with the two arrays' contents given at the device alone, the result array's final contents spelt out: the
    word (0 − Σ half 0) / Σ half 1 of the partial-sum array. -/
theorem region_step_at (P : (K (F := F)).Pay (nD := nD) (Val := Elt F) (Name := ℕ) (U := UU)) (κ : GSem nD τ sig → ℕ) (lv : GSem nD τ sig → HIx 1 → ℕ) (d : Dev nD)
    (g5 : Buf (Elt F) (oLoc d)) (g6 : Buf (Elt F) (resLoc d))
    {α : Type} (k : PUnit → Prog (TpuEff nD τ sig (Elt F) (SparseCore.Sig (ΛP (F := F)) 1) .tc) α) (Φ : α → sProp 𝕄) :
    iprop((K (F := F)).ctx EH P κ lv ∗ G d ∗ boundary (SparseCore.T d) ∗ (oLoc d ↦{fullShare} g5) ∗ (resLoc d ↦{fullShare} g6) ∗ owesTc d
      ∗ (iprop(boundary (SparseCore.T d) ∗ (oLoc d ↦{fullShare} g5)
            ∗ (resLoc d ↦{fullShare} fun _ => k1_pay1 (F := F) (fun i => g5 (ValueIdx.ix3 0 (i 1) (i 2))) (fun i => g5 (ValueIdx.ix3 1 (i 1) (i 2))))
            ∗ owesTc d)
          -∗ wp frame (wpE ((K (F := F)).defs (D (F := F))) 𝒱 (SparseCore.T d) none) Set.univ (k ⟨⟩) Φ))
    ⊢ wp frame (wpE ((K (F := F)).defs (D (F := F))) 𝒱 (SparseCore.T d) none) Set.univ
        (.op (.customCall (SparseCore.inner (Pipeline.entry 0)) ()) k) Φ := by
  have h := region_step (famAt (ℓ := oLoc) d g5) (famAt (ℓ := resLoc) d g6) P κ lv d k Φ
  rw [res6_val, famAt_self, famAt_self] at h
  exact h

/-- The same, the call written as the main program writes it: the lifted operation bound to its continuation. -/
theorem region_step_bind (P : (K (F := F)).Pay (nD := nD) (Val := Elt F) (Name := ℕ) (U := UU)) (κ : GSem nD τ sig → ℕ) (lv : GSem nD τ sig → HIx 1 → ℕ) (d : Dev nD)
    (g5 : Buf (Elt F) (oLoc d)) (g6 : Buf (Elt F) (resLoc d))
    {α : Type} (k : PUnit → Prog (TpuEff nD τ sig (Elt F) (SparseCore.Sig (ΛP (F := F)) 1) .tc) α) (Φ : α → sProp 𝕄) :
    iprop((K (F := F)).ctx EH P κ lv ∗ G d ∗ boundary (SparseCore.T d) ∗ (oLoc d ↦{fullShare} g5) ∗ (resLoc d ↦{fullShare} g6) ∗ owesTc d
      ∗ (iprop(boundary (SparseCore.T d) ∗ (oLoc d ↦{fullShare} g5)
            ∗ (resLoc d ↦{fullShare} fun _ => k1_pay1 (F := F) (fun i => g5 (ValueIdx.ix3 0 (i 1) (i 2))) (fun i => g5 (ValueIdx.ix3 1 (i 1) (i 2))))
            ∗ owesTc d)
          -∗ wp frame (wpE ((K (F := F)).defs (D (F := F))) 𝒱 (SparseCore.T d) none) Set.univ (k ⟨⟩) Φ))
    ⊢ wp frame (wpE ((K (F := F)).defs (D (F := F))) 𝒱 (SparseCore.T d) none) Set.univ
        (Prog.lift (.customCall (SparseCore.inner (Pipeline.entry 0)) ()) >>= k) Φ :=
  region_step_at P κ lv d g5 g6 k Φ

end Cert.Proof.KI

end
-- ==== Proof.RegionGlue.lean ====
/-
  The finishing region as the step @main's run takes it: the region rule at the core's handshake state after the
  one call, its result array at the finishing value of the partial sums.
-/
import proofs.«209899_g60301340836213_cont_9to1c4b_660_2_alg».proof.Proof.Run
import proofs.«209899_g60301340836213_cont_9to1c4b_660_2_alg».proof.Proof.Region

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-- The core's handshake state after the one call is what it owes and the rest; the region borrows the first. -/
theorem region_frame (κ : GSem nD τ sig → ℕ) (d : Dev nD) (f5 : Buf (Elt F) (oLoc d)) (f6 : Buf (Elt F) (v6Loc d)) (Φ : PUnit → sProp 𝕄) :
    iprop((K (F := F)).ctx EH (PP m) κ ∗ (K (F := F)).tcSt EH d 1 ∗ G d ∗ boundary (SparseCore.T d)
        ∗ (oLoc d ↦{fullShare} f5) ∗ (v6Loc d ↦{fullShare} f6)
        ∗ (((K (F := F)).tcSt EH d 1 ∗ boundary (SparseCore.T d) ∗ (oLoc d ↦{fullShare} f5)
            ∗ (v6Loc d ↦{fullShare} fun _ => finishOf (F := F) f5)) -∗ Φ ⟨⟩))
      ⊢ iprop((K (F := F)).ctx EH (PP m) κ ∗ G d ∗ boundary (SparseCore.T d) ∗ (oLoc d ↦{fullShare} f5) ∗ (resLoc d ↦{fullShare} f6) ∗ owesTc d
      ∗ (iprop(boundary (SparseCore.T d) ∗ (oLoc d ↦{fullShare} f5)
            ∗ (resLoc d ↦{fullShare} fun _ => k1_pay1 (F := F) (fun i => f5 (ValueIdx.ix3 0 (i 1) (i 2))) (fun i => f5 (ValueIdx.ix3 1 (i 1) (i 2))))
            ∗ owesTc d)
          -∗ wp frame (wpE ((K (F := F)).defs (D (F := F))) 𝒱 (SparseCore.T d) none) Set.univ (Prog.ret PUnit.unit) Φ)) := by
  unfold SparseCore.Cfg.tcSt
  iintro ⟨#Hctx, ⟨Howes, Hrest⟩, HG, Hb, Ho, Hv6, Hk⟩
  isplitr; · iexact Hctx
  isplitl [HG]; · iexact HG
  isplitl [Hb]; · iexact Hb
  isplitl [Ho]; · iexact Ho
  isplitl [Hv6]; · iexact Hv6
  isplitl [Howes]; · iexact Howes
  iintro ⟨Hb, Ho, Hv6, Howes⟩
  rw [wp_ret]; imodintro
  iapply Hk
  isplitl [Howes Hrest]
  · isplitl [Howes]; · iexact Howes
    iexact Hrest
  isplitl [Hb]; · iexact Hb
  isplitl [Ho]; · iexact Ho
  iexact Hv6

theorem regionStep : RegionStep m (G (F := F)) := by
  intro κ d f5 f6 Φ
  have h := region_step_bind (F := F) (PP m) κ (K (F := F)).lev d f5 f6 (fun u => Prog.ret u) Φ
  rw [show (Prog.lift (.customCall (SparseCore.inner (Pipeline.entry 0)) ()) >>= fun u => Prog.ret u)
      = (Prog.lift (.customCall (SparseCore.inner (Pipeline.entry 0)) ()) :
          Prog (TpuEff nD τ sig (Elt F) (SparseCore.Sig (ΛP (F := F)) 1) .tc) PUnit) from bind_pure _] at h
  exact (region_frame m κ d f5 f6 Φ).trans h

end Cert.Proof.KI

end
-- ==== Proof.Whole.lean ====
/-
  One worker's body as the launch theorem's obligation, and the program's run. The padded targets stay within
  0 … 9999 (the padding is zero), so every flat position a worker forms is an entry of the flattened input.
-/
import proofs.«209899_g60301340836213_cont_9to1c4b_660_2_alg».proof.Proof.Run
import proofs.«209899_g60301340836213_cont_9to1c4b_660_2_alg».proof.Proof.Tile
import proofs.«209899_g60301340836213_cont_9to1c4b_660_2_alg».proof.Proof.IndexRow
import proofs.«209899_g60301340836213_cont_9to1c4b_660_2_alg».proof.Proof.HostArrays
import proofs.«209899_g60301340836213_cont_9to1c4b_660_2_alg».proof.Proof.HostValues
import proofs.«209899_g60301340836213_cont_9to1c4b_660_2_alg».proof.Proof.RegionGlue

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-- What the run asks of the launch memory: every target is at most 9999 as an unsigned word. -/
def PreOK : Prop := ∀ (d : Dev nD) (j : S64x50.Idx), (m ((SparseCore.T d).loc main_arg5) j).toNat ≤ 9999

theorem Tp_le (hpre : PreOK m) (d : Dev nD) (g : S3584.Idx) : (Tp m d g).toNat ≤ 9999 := by
  rw [Tp_eq]
  obtain ⟨g0, rfl⟩ : ∃ g0 : Fin 3584, g = ValueIdx.ix1 g0 := ⟨g 0, ValueIdx.eq_ix1 g⟩
  rw [show (ValueIdx.ix1 g0 : S3584.Idx) = ValueIdx.ix1 ⟨g0.val, g0.isLt⟩ from rfl, Spec.padded_apply]
  split
  · exact hpre d _
  · rw [Spec.padWord_apply]; decide

theorem defs₀_vector (c : Fin τ.nSC) (s : Fin τ.nSub) :
    defs₀ (F := F) (.scVector c s) 0 ()
      = SparseCore.onTile hcore0 hsub0 (fun c s => cc0_k (coordsV c s)
          (Memref.whole main_v0_scv) (Memref.isWhole_whole _) (Memref.whole main_v2_scv) (Memref.isWhole_whole _)
          (Memref.whole main_v4_scv) (Memref.isWhole_whole _) (Memref.whole main_v5_scv) (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _)
          (Memref.whole cc0_scratch4) (Memref.isWhole_whole _) (Memref.whole cc0_scratch5) (Memref.isWhole_whole _)
          cc0_scoped0 cc0_scoped1 cc0_scoped2 cc0_scoped3 cc0_scoped4) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (PP m) v₀ 0 := by
  intro d c i O W hO _ _
  simp only [show (PP m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body hF d (coordsV ⟨_, hci.1⟩ ⟨_, hci.2⟩) (Xf m d) (Tp m d) (Mp m d) (O0 m d) _ _ _
    (fun i0 k => Spec.idxRow_lt _ i0 _ (fun k' => Tp_le m hpre d _) k) O W hO).trans (wp_mono frame _ _ fun _ => obl_post)

/-- The program's run: every weakly fair execution ends, the arguments unchanged, the result at the finishing value
    of an array holding every worker's partial sums. -/
theorem run [∀ e, Nonempty (Elt F e)] (hpre : PreOK m) :
    θ_run (Cert.KernelIdeal.defs (F := F)) (Cert.KernelIdeal.threads (F := F)) ⟨m, fun _ => 0, ρ⟩ (QC m) :=
  run_main m ρ (G (F := F)) uP fund_G (regionStep m) (tileObl m facts hpre)

end Cert.Proof.KI

end
-- ==== Proof.SpecB.lean ====
/-
  What one vector subcore computes, as pure functions of the contents of its scratch rows (any float instance).
  A subcore holds 112 consecutive positions g = 112·w + k (k < 112) of the padded target and mask arrays, seven
  blocks of sixteen lanes. From the targets it forms the flat positions min(10000·g + target g, 31999999) of the
  flattened input (`idxRow`), fetches those 112 entries, and leaves per lane l the two partial sums
  Σ_j value(16j + l) · mask(16j + l) (`accRow`) and Σ_j mask(16j + l) (`maccRow`), each added left to right.
-/
import proofs.«209899_g60301340836213_cont_9to1c4b_660_2_alg».proof.Proof.Gen.Kernel.Skeleton
import Idealize.ShloMosaic.Lib.ValueIdx

noncomputable section

namespace Cert.Kernel.Spec

open Idealize.ShloMosaic Cert.Kernel Cert.Kernel.Gen

variable {F : FTy → Type} [FloatOps F]

/-- Lane `y` of the block of sixteen lanes that starts at `o`, as a position of the 112-row. -/
def lane (o : Nat) (ho : o + 16 ≤ 112) (y : S16.Idx) : S112.Idx :=
  ValueIdx.ix1 ⟨o + (y 0).val, by have h : (y 0).val < 16 := (y 0).isLt; omega⟩

/-- The block of sixteen lanes of a 112-row that starts at `o`. -/
def chunk {α : Type} (o : Nat) (ho : o + 16 ≤ 112) (f : S112.Idx → α) : S16.Idx → α := fun y => f (lane o ho y)

/-- A 112-row with the block of sixteen lanes at `o` replaced by `w`. -/
def put {α : Type} (o : Nat) (ho : o + 16 ≤ 112) (f : S112.Idx → α) (w : S16.Idx → α) : S112.Idx → α := fun i =>
  if h : o ≤ (i 0).val ∧ (i 0).val < o + 16 then w (ValueIdx.ix1 ⟨(i 0).val - o, by omega⟩) else f i

/-- The first position of subcore `L`'s row, as the kernel computes it: 112 · (2 · subcore + core). -/
def base (L : grid0.Coords) : BitVec 32 :=
  Scalar.muli (Scalar.addi (Scalar.muli (BitVec.ofNat 32 (L 1).val) 2#32) (BitVec.ofNat 32 (L 0).val)) 112#32

/-- The lane numbers 0 … 15. -/
def lanes : IVec S16 32 := iota .scVector S16 32 [0] iota_S16_d0_w32_scVector

/-- The flat positions subcore `L` forms from its 112 targets `tr`, block by block over the row's earlier
    contents `i0` (all of which are replaced). -/
def idxRow (L : grid0.Coords) (i0 tr : Vec F S112 .i32) : Vec F S112 .i32 :=
  let r0 := put 0 (by omega) i0 (k0_pay3 (F := F) L (chunk 0 (by omega) tr))
  let r1 := put 16 (by omega) r0 (k0_pay4 (F := F) L (chunk 16 (by omega) tr))
  let r2 := put 32 (by omega) r1 (k0_pay5 (F := F) lanes (Scalar.addi (base L) 32#32) (chunk 32 (by omega) tr))
  let r3 := put 48 (by omega) r2 (k0_pay6 (F := F) (base L) lanes (chunk 48 (by omega) tr))
  let r4 := put 64 (by omega) r3 (k0_pay7 (F := F) (base L) lanes (chunk 64 (by omega) tr))
  let r5 := put 80 (by omega) r4 (k0_pay9 (F := F) (k0_pay8 (base L) lanes) 10000#32 (chunk 80 (by omega) tr))
  put 96 (by omega) r5 (k0_pay10 (F := F) (base L) lanes (chunk 96 (by omega) tr))

/-- Per lane, the sum over the seven blocks of fetched value times mask, added left to right. -/
def accRow (vals mrow : Vec F S112 .f32) : FVec F S16 .f32 :=
  k0_pay1 (k0_pay15
    (k0_pay12 (chunk 0 (by omega) vals) (chunk 0 (by omega) mrow) (chunk 16 (by omega) vals) (chunk 16 (by omega) mrow))
    (chunk 32 (by omega) vals) (chunk 32 (by omega) mrow) (chunk 48 (by omega) vals) (chunk 48 (by omega) mrow)
    (chunk 64 (by omega) vals) (chunk 64 (by omega) mrow) (chunk 80 (by omega) vals) (chunk 80 (by omega) mrow)
    (chunk 96 (by omega) vals) (chunk 96 (by omega) mrow))

/-- Per lane, the sum over the seven blocks of the mask, added left to right. -/
def maccRow (mrow : Vec F S112 .f32) : FVec F S16 .f32 :=
  k0_pay2 (k0_pay14 (k0_pay11 (chunk 0 (by omega) mrow)) (k0_pay13 (chunk 16 (by omega) mrow))
      (chunk 32 (by omega) mrow) (chunk 48 (by omega) mrow) (chunk 64 (by omega) mrow) (chunk 80 (by omega) mrow))
    (k0_pay16 (chunk 96 (by omega) mrow))

end Cert.Kernel.Spec

end
-- ==== Proof.CommonB.lean ====
/-
  The setting shared by the modules about the program's run: the machine's resource algebra, the four arrays the
  vector subcores work on, how they are divided among the thirty-two subcores, and what travels with each
  handshake. Subcore (core c, tile i) is worker w = 2·i + c: it reads positions 112·w … 112·w + 111 of the padded
  targets and mask, any entry of the flattened input, and writes the sixteen lanes (0, w, ·) and (1, w, ·) of the
  partial-sum array.
-/
import proofs.«209899_g60301340836213_cont_9to1c4b_660_2_alg».proof.Defs
import proofs.«209899_g60301340836213_cont_9to1c4b_660_2_alg».proof.Proof.SpecB
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«209899_g60301340836213_cont_9to1c4b_660_2_alg».proof.Proof.Gen.Kernel
import proofs.«209899_g60301340836213_cont_9to1c4b_660_2_alg».proof.Proof.Gen.Kernel.Skeleton

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the region's staging cells' rounds, the transfers' counters -/

abbrev UH : Type := URounds (GSem nD τ sig) ℕ
abbrev UP : Type := UR sig nD τ
abbrev UU : Type := UH × (UP × Counters)

local notation "𝕄" => MT nD τ sig (HIx 1) (Elt F) ℕ UU ℕ

abbrev EH : Emb UH (MT nD τ sig (HIx 1) (Elt F) ℕ UU ℕ) := embL
abbrev EP : Emb UP (MT nD τ sig (HIx 1) (Elt F) ℕ UU ℕ) := (Emb.inl : Emb UP (UP × Counters)).trans embR

/-! ## The arrays -/

abbrev xLoc (d : Dev nD) : Loc nD τ sig := (SparseCore.T d).loc main_v0
abbrev tLoc (d : Dev nD) : Loc nD τ sig := (SparseCore.T d).loc main_v2
abbrev kLoc (d : Dev nD) : Loc nD τ sig := (SparseCore.T d).loc main_v4
abbrev oLoc (d : Dev nD) : Loc nD τ sig := (SparseCore.T d).loc main_v5

/-- Worker number of (core, tile). -/
def wOf (c : Fin 2) (i : Fin 16) : Fin 32 := ⟨2 * i.val + c.val, by omega⟩

/-- A subcore's grid coordinates from its core and tile numbers. -/
def coordsV (c : Fin (grid0.bound 0)) (s : Fin (grid0.bound 1)) : grid0.Coords :=
  fun | 0 => c | 1 => s | ⟨_ + 2, h⟩ => absurd h (Nat.not_lt.2 (Nat.le_add_left _ _))

/-- The worker number 2 · tile + core of the subcore at grid coordinates `L`. -/
def wL (L : grid0.Coords) : Fin 32 :=
  ⟨2 * (L 1).val + (L 0).val, by
    have h0 : (L 0).val < 2 := (L 0).isLt
    have h1 : (L 1).val < 16 := (L 1).isLt
    omega⟩

abbrev cV (L : grid0.Coords) : Fin τ.nSC := (L 0).castLE hcore0
abbrev jV (L : grid0.Coords) : Fin τ.nSub := (L 1).castLE hsub0

/-- The sixteen lanes (a, w, ·) of the partial-sum array. -/
def oSet (a : Fin 2) (w : Fin 32) : Finset S2x32x16.Idx := Finset.univ.filter fun j => (j 0).val = a.val ∧ (j 1).val = w.val

/-- Lane `y` of row (a, w) of the partial-sum array. -/
def oIx (a : Fin 2) (w : Fin 32) (y : S16.Idx) : S2x32x16.Idx := ValueIdx.ix3 a w (y 0)

/-- The 112 entries a worker holds of a padded array. -/
def rowOf {α : Type} (w : Fin 32) (a : S3584.Idx → α) : S112.Idx → α :=
  fun k => a (ValueIdx.ix1 ⟨112 * w.val + (k 0).val, by have h : (k 0).val < 112 := (k 0).isLt; have := w.isLt; omega⟩)

variable [FloatOps F]

/-- Entry `n` of the flattened input (entry 0 beyond its end, which no worker asks for). -/
def xfAt (xf : S32000000.Idx → Elt F .f32) (n : Nat) : Elt F .f32 :=
  if h : n < 32000000 then xf (ValueIdx.ix1 ⟨n, h⟩) else xf (ValueIdx.ix1 ⟨0, by omega⟩)

/-- The entries of the flattened input at a row of flat positions. -/
def fetched (xf : S32000000.Idx → Elt F .f32) (idx : S112.Idx → Elt F .i32) : S112.Idx → Elt F .f32 := fun k => xfAt xf (idx k).toNat

/-- Worker `(L 0, L 1)`'s sixteen partial sums of value times mask (the row's earlier contents `i0` play no part). -/
def accOut (L : grid0.Coords) (w : Fin 32) (xf : S32000000.Idx → Elt F .f32) (tp : S3584.Idx → Elt F .i32) (mp : S3584.Idx → Elt F .f32)
    (i0 : S112.Idx → Elt F .i32) : S16.Idx → Elt F .f32 :=
  Spec.accRow (F := F) (fetched xf (Spec.idxRow (F := F) L i0 (rowOf w tp))) (rowOf w mp)
/-- and of the mask. -/
def maccOut (w : Fin 32) (mp : S3584.Idx → Elt F .f32) : S16.Idx → Elt F .f32 := Spec.maccRow (F := F) (rowOf w mp)

end Cert.Proof.KB

end
-- ==== Proof.LaunchB.lean ====
/-
  What travels with each handshake of the one SparseCore call, and how the arrays divide among the subcores.
  Each of the thirty-two workers reads the flattened input and the two padded arrays through a read share of the
  whole array (one token of the full share per worker, the remainder staying with the TensorCore) and owns the two
  rows (0, w, ·) and (1, w, ·) of the partial-sum array outright; a SparseCore's operands are its sixteen workers'
  side by side, so the sequencer's split is the identity.
-/
import proofs.«209899_g60301340836213_cont_9to1c4b_660_2_alg».proof.Proof.CommonB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- Worker `w`'s read share of a whole array. -/
abbrev sh (w : Fin 32) : PosShare TreeShare := Transfers.shareTok fullShare 32 w

/-- The grid coordinates of core `c`, tile `i` of the call. -/
def LV (c : Fin ((K (F := F)).nCore 0)) (i : Fin ((K (F := F)).nSub 0)) : grid0.Coords :=
  coordsV ⟨c.val, c.isLt⟩ ⟨i.val, i.isLt⟩

section Payloads

variable (xf : (d : Dev nD) → Buf (Elt F) (xLoc d)) (tp : (d : Dev nD) → Buf (Elt F) (tLoc d))
  (mp : (d : Dev nD) → Buf (Elt F) (kLoc d)) (o0 : (d : Dev nD) → Buf (Elt F) (oLoc d))

/-- What a worker is handed: its read shares and its two rows at the launch contents. -/
def goA (d : Dev nD) (w : Fin 32) : sProp 𝕄 :=
  iprop((xLoc d ↦{sh w} xf d) ∗ (tLoc d ↦{sh w} tp d) ∗ (kLoc d ↦{sh w} mp d)
    ∗ (oLoc d ↦[oSet 0 w]{fullShare} o0 d) ∗ (oLoc d ↦[oSet 1 w]{fullShare} o0 d))

/-- What it hands back: the shares, and its two rows at the partial sums. -/
def tdA (d : Dev nD) (L : grid0.Coords) (w : Fin 32) : sProp 𝕄 :=
  iprop((xLoc d ↦{sh w} xf d) ∗ (tLoc d ↦{sh w} tp d) ∗ (kLoc d ↦{sh w} mp d)
    ∗ (∃ f, ⌜∃ i0, ∀ y : S16.Idx, f (oIx 0 w y) = accOut L w (xf d) (tp d) (mp d) i0 y⌝ ∗ oLoc d ↦[oSet 0 w]{fullShare} f)
    ∗ (∃ f, ⌜∀ y : S16.Idx, f (oIx 1 w y) = maccOut w (mp d) y⌝ ∗ oLoc d ↦[oSet 1 w]{fullShare} f))

/-- The one call's payloads. -/
def P : (K (F := F)).Pay (nD := nD) (Val := Elt F) (Name := ℕ) (U := UU) where
  st := fun q d c => match q with | 0 => bigSep Finset.univ fun i : Fin ((K (F := F)).nSub 0) => goA xf tp mp o0 d (wL (LV c i))
  dn := fun q d c => match q with | 0 => bigSep Finset.univ fun i : Fin ((K (F := F)).nSub 0) => tdA xf tp mp d (LV c i) (wL (LV c i))
  go := fun q d c i => match q with | 0 => goA xf tp mp o0 d (wL (LV c i))
  td := fun q d c i => match q with | 0 => tdA xf tp mp d (LV c i) (wL (LV c i))
  x := fun _ _ => iprop(emp)

instance goA_storable (d : Dev nD) (w : Fin 32) : BI.Storable (upEmb : UEmb _ 𝕄) (goA xf tp mp o0 d w) := by
  unfold goA; infer_instance
instance tdA_storable (d : Dev nD) (L : grid0.Coords) (w : Fin 32) : BI.Storable (upEmb : UEmb _ 𝕄) (tdA xf tp mp d L w) := by
  unfold tdA; infer_instance

instance P_storable : (P (F := F) xf tp mp o0).IsStorable where
  st q d c := match q with
    | 0 => (inferInstance : BI.Storable (upEmb : UEmb _ 𝕄) (bigSep Finset.univ fun i : Fin ((K (F := F)).nSub 0) => goA xf tp mp o0 d (wL (LV c i))))
  dn q d c := match q with
    | 0 => (inferInstance : BI.Storable (upEmb : UEmb _ 𝕄) (bigSep Finset.univ fun i : Fin ((K (F := F)).nSub 0) => tdA xf tp mp d (LV c i) (wL (LV c i))))
  go q d c i := match q with
    | 0 => (inferInstance : BI.Storable (upEmb : UEmb _ 𝕄) (goA xf tp mp o0 d (wL (LV c i))))
  td q d c i := match q with
    | 0 => (inferInstance : BI.Storable (upEmb : UEmb _ 𝕄) (tdA xf tp mp d (LV c i) (wL (LV c i))))

/-- The sequencer's split: a SparseCore's operands ARE its workers', its results theirs. -/
theorem vecSplit : (K (F := F)).VecSplit' (P xf tp mp o0) 0 := by
  intro d c
  show (bigSep Finset.univ fun i : Fin ((K (F := F)).nSub 0) => goA xf tp mp o0 d (wL (LV c i))) ⊢ |={Set.univ}=> iprop(
      (bigSep Finset.univ fun i : Fin ((K (F := F)).nSub 0) => goA xf tp mp o0 d (wL (LV c i)))
      ∗ ((bigSep Finset.univ fun i : Fin ((K (F := F)).nSub 0) => tdA xf tp mp d (LV c i) (wL (LV c i)))
          -∗ (bigSep Finset.univ fun i : Fin ((K (F := F)).nSub 0) => tdA xf tp mp d (LV c i) (wL (LV c i)))))
  iintro H; imodintro
  isplitl [H]; · iexact H
  iintro H; iexact H

end Payloads

end Cert.Proof.KB

end
-- ==== Proof.HostLineB.lean ====
/-
  The TensorCore's program around the SparseCore call: seven host operations (the input flattened, the targets and
  the mask flattened and padded with zeros to 3584 entries) as one straight line, then the call, the finishing
  region and the last reshape. What the line leaves in each array is named here once.
-/
import proofs.«209899_g60301340836213_cont_9to1c4b_660_2_alg».proof.Proof.LaunchB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The host operations before the SparseCore call, in order. -/
def hostOps : List (HloOp τ sig (Elt F)) :=
  [StableHlo.reshape main_arg0 main_v0 rfl shapeCasts_S64x50x10000_S32000000,
   StableHlo.reshape main_arg5 main_v1 rfl shapeCasts_S64x50_S3200,
   StableHlo.nullary main_c (constantI S_ 32 0#32),
   StableHlo.TRef.unary (.of main_c : StableHlo.TRef sig ⟨S_, .i32⟩) main_call0.v0 id,
   StableHlo.TRef.binary (.of main_v1 : StableHlo.TRef sig ⟨S3200, .i32⟩) main_call0.v0 main_call0.v1 (fun x v => pad S3584 ![0] ![384] ![0] x v pads_S3200_S3584_03840 h_S_),
   StableHlo.reshape main_arg6 main_v3 rfl shapeCasts_S64x50_S3200,
   StableHlo.nullary main_c_0 (constantI S_ 32 0#32),
   StableHlo.TRef.unary (.of main_c_0 : StableHlo.TRef sig ⟨S_, .i32⟩) main_call1.v0 (sitofp .f32),
   StableHlo.TRef.binary (.of main_v3 : StableHlo.TRef sig ⟨S3200, .f32⟩) main_call1.v0 main_call1.v1 (fun x v => pad S3584 ![0] ![384] ![0] x v pads_S3200_S3584_03840 h_S_)]

/-- What follows them. -/
def mainTail (d : Dev nD) : Prog (TpuEff nD τ sig (Elt F) (SparseCore.Sig (ΛP (F := F)) 1) .tc) PUnit := do
  sc.run d 0
  Prog.lift (.customCall (SparseCore.inner (Pipeline.entry 0)) ())
  hlo rfl (StableHlo.reshape main_v6 main_v7 rfl shapeCasts_S1_S_) (fun _ => .ret ⟨⟩)
  pure ⟨⟩

theorem main_eq (d : Dev nD) : main (F := F) d = (StableHlo.seq hostOps >>= fun _ => mainTail d) := by
  simp only [main, fn_pad.body, fn_pad_0.body, hostOps, StableHlo.seq, mainTail, bind_assoc, pure_bind]
  try rfl

end Cert.Proof.KB

end
-- ==== Proof.DealB.lean ====
/-
  Dealing the four arrays to the thirty-two workers and gathering them back. A read-only array goes out as one
  read token of its full share per worker, the remainder kept; the partial-sum array goes out row by row — its
  sixty-four rows (a, w, ·) are pairwise disjoint and cover it — and comes back joined at one valuation that agrees
  with each worker's on that worker's rows.
-/
import proofs.«209899_g60301340836213_cont_9to1c4b_660_2_alg».proof.Proof.LaunchB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The grid coordinates of worker `w`: core w mod 2, tile w div 2. -/
def Lw (w : Fin 32) : grid0.Coords := coordsV ⟨w.val % 2, Nat.mod_lt _ (by decide)⟩ ⟨w.val / 2, by have := w.isLt; show w.val / 2 < 16; omega⟩

omit [FloatOps F] in
theorem wL_Lw (w : Fin 32) : wL (Lw w) = w := by
  apply Fin.ext; show 2 * (w.val / 2) + w.val % 2 = w.val; omega

omit [FloatOps F] in
theorem Lw_wL (c : Fin ((K (F := F)).nCore 0)) (i : Fin ((K (F := F)).nSub 0)) : Lw (wL (LV c i)) = LV c i := by
  have hc : c.val < 2 := c.isLt
  have hi : i.val < 16 := i.isLt
  funext a
  match a with
  | ⟨0, _⟩ => apply Fin.ext; show (2 * i.val + c.val) % 2 = c.val; omega
  | ⟨1, _⟩ => apply Fin.ext; show (2 * i.val + c.val) / 2 = i.val; omega

omit [FloatOps F] in
/-- Over the workers is over the cores, then the tiles. -/
theorem bigSep_workers (Φ : Fin 32 → sProp 𝕄) :
    bigSep Finset.univ Φ = bigSep Finset.univ fun c : Fin ((K (F := F)).nCore 0) =>
      bigSep Finset.univ fun i : Fin ((K (F := F)).nSub 0) => Φ (wL (LV c i)) := by
  show bigSep Finset.univ Φ = bigSep (Finset.univ : Finset (Fin 2)) fun c => bigSep (Finset.univ : Finset (Fin 16)) fun i => Φ (wL (LV (F := F) c i))
  rw [bigSep_univ_equiv ((Equiv.prodComm (Fin 2) (Fin 16)).trans finProdFinEquiv) Φ, bigSep_univ_prod]
  refine bigSep_congr fun c _ => bigSep_congr fun i _ => congrArg Φ (Fin.ext ?_)
  have h : (((Equiv.prodComm (Fin 2) (Fin 16)).trans finProdFinEquiv) (c, i)).val = c.val + 2 * i.val := by
    simp [finProdFinEquiv]
  rw [h]; show c.val + 2 * i.val = 2 * i.val + c.val; omega

/-! ## The partial-sum array, row by row -/

omit [FloatOps F] in
theorem oSet_disjoint : ∀ p ∈ (Finset.univ : Finset (Fin 2 × Fin 32)), ∀ p' ∈ (Finset.univ : Finset (Fin 2 × Fin 32)), p ≠ p' →
    Disjoint (oSet p.1 p.2) (oSet p'.1 p'.2) := by
  intro p _ p' _ h
  rw [Finset.disjoint_left]; intro j hj hj'
  simp only [oSet, Finset.mem_filter, Finset.mem_univ, true_and] at hj hj'
  exact h (Prod.ext (Fin.ext (hj.1.symm.trans hj'.1)) (Fin.ext (hj.2.symm.trans hj'.2)))

omit [FloatOps F] in
theorem oSet_cover : (Finset.univ : Finset (Fin 2 × Fin 32)).biUnion (fun p => oSet p.1 p.2) = Finset.univ := by
  ext j
  simp only [Finset.mem_biUnion, Finset.mem_univ, true_and, iff_true, oSet, Finset.mem_filter]
  exact ⟨(⟨(j 0).val, (j 0).isLt⟩, ⟨(j 1).val, (j 1).isLt⟩), rfl, rfl⟩

omit [FloatOps F] in
theorem oPts_pairs (d : Dev nD) (f : Buf (Elt F) (oLoc d)) :
    (oLoc d ↦{fullShare} f : sProp 𝕄) = bigSep Finset.univ fun p : Fin 2 × Fin 32 => oLoc d ↦[oSet p.1 p.2]{fullShare} f := by
  rw [← pointsTo_biUnion Finset.univ (ℓ := oLoc d) (fun p : Fin 2 × Fin 32 => oSet p.1 p.2) oSet_disjoint, oSet_cover]

omit [FloatOps F] in
theorem oPts_rows (d : Dev nD) (f : Buf (Elt F) (oLoc d)) :
    (oLoc d ↦{fullShare} f : sProp 𝕄)
      = bigSep Finset.univ fun w : Fin 32 => iprop((oLoc d ↦[oSet 0 w]{fullShare} f) ∗ (oLoc d ↦[oSet 1 w]{fullShare} f)) := by
  rw [oPts_pairs, bigSep_univ_prod, bigSep_univ_two, bigSep_sep']

/-! ## Dealing and gathering -/

section Arrays

variable (xf : (d : Dev nD) → Buf (Elt F) (xLoc d)) (tp : (d : Dev nD) → Buf (Elt F) (tLoc d))
  (mp : (d : Dev nD) → Buf (Elt F) (kLoc d)) (o0 : (d : Dev nD) → Buf (Elt F) (oLoc d))

/-- What the TensorCore keeps of the three read-only arrays while the workers hold their tokens. -/
def kept (d : Dev nD) : sProp 𝕄 :=
  iprop((xLoc d ↦{Transfers.shareDrop fullShare 32} xf d) ∗ (tLoc d ↦{Transfers.shareDrop fullShare 32} tp d)
    ∗ (kLoc d ↦{Transfers.shareDrop fullShare 32} mp d))

theorem goA_all (d : Dev nD) :
    (bigSep Finset.univ fun w : Fin 32 => goA xf tp mp o0 d w)
      = iprop((bigSep Finset.univ fun w : Fin 32 => xLoc d ↦{sh w} xf d) ∗ (bigSep Finset.univ fun w : Fin 32 => tLoc d ↦{sh w} tp d)
          ∗ (bigSep Finset.univ fun w : Fin 32 => kLoc d ↦{sh w} mp d)
          ∗ bigSep Finset.univ fun w : Fin 32 => iprop((oLoc d ↦[oSet 0 w]{fullShare} o0 d) ∗ (oLoc d ↦[oSet 1 w]{fullShare} o0 d))) := by
  unfold goA
  rw [bigSep_sep', bigSep_sep', bigSep_sep']

theorem st_all (d : Dev nD) :
    (bigSep Finset.univ fun c : Fin ((K (F := F)).nCore 0) => (P xf tp mp o0).st 0 d c)
      = bigSep Finset.univ fun w : Fin 32 => goA xf tp mp o0 d w :=
  (bigSep_workers (F := F) (fun w => goA xf tp mp o0 d w)).symm

/-- The four arrays, whole, are the remainders and every worker's hand. -/
theorem deal (d : Dev nD) :
    iprop((xLoc d ↦{fullShare} xf d) ∗ (tLoc d ↦{fullShare} tp d) ∗ (kLoc d ↦{fullShare} mp d) ∗ (oLoc d ↦{fullShare} o0 d))
      ⊢ iprop(kept xf tp mp d ∗ bigSep Finset.univ fun c : Fin ((K (F := F)).nCore 0) => (P xf tp mp o0).st 0 d c) := by
  rw [st_all, goA_all, oPts_rows]
  iintro ⟨Hx, Ht, Hk, Ho⟩
  ihave Hx' := (Transfers.pointsTo_toks fullShare 32).1 $$ Hx
  ihave Ht' := (Transfers.pointsTo_toks fullShare 32).1 $$ Ht
  ihave Hk' := (Transfers.pointsTo_toks fullShare 32).1 $$ Hk
  icases Hx' with ⟨Hxr, Hx⟩
  icases Ht' with ⟨Htr, Ht⟩
  icases Hk' with ⟨Hkr, Hk⟩
  isplitl [Hxr Htr Hkr]
  · unfold kept
    isplitl [Hxr]; · iexact Hxr
    isplitl [Htr]; · iexact Htr
    iexact Hkr
  isplitl [Hx]; · iexact Hx
  isplitl [Ht]; · iexact Ht
  isplitl [Hk]; · iexact Hk
  iexact Ho

/-- A valuation of the partial-sum array that holds every worker's sums on that worker's rows. -/
def agree (d : Dev nD) (g : Buf (Elt F) (oLoc d)) : Prop :=
  ∀ w : Fin 32, (∃ i0, ∀ y : S16.Idx, g (oIx 0 w y) = accOut (Lw w) w (xf d) (tp d) (mp d) i0 y)
    ∧ (∀ y : S16.Idx, g (oIx 1 w y) = maccOut w (mp d) y)

theorem dn_all (d : Dev nD) :
    (bigSep Finset.univ fun c : Fin ((K (F := F)).nCore 0) => (P xf tp mp o0).dn 0 d c)
      = bigSep Finset.univ fun w : Fin 32 => tdA xf tp mp d (Lw w) w := by
  rw [bigSep_workers (F := F) (fun w => tdA xf tp mp d (Lw w) w)]
  refine bigSep_congr fun c _ => ?_
  show (bigSep Finset.univ fun i : Fin ((K (F := F)).nSub 0) => tdA xf tp mp d (LV c i) (wL (LV c i))) = _
  refine bigSep_congr fun i _ => ?_
  rw [Lw_wL]

omit [FloatOps F] in
theorem oIx_mem (a : Fin 2) (w : Fin 32) (y : S16.Idx) : oIx a w y ∈ oSet a w := by
  simp only [oSet, Finset.mem_filter, Finset.mem_univ, true_and]
  exact ⟨rfl, rfl⟩

/-- The rows come back joined. -/
theorem rows_join (d : Dev nD) :
    iprop((bigSep Finset.univ fun w : Fin 32 =>
        iprop(∃ f, ⌜∃ i0, ∀ y : S16.Idx, f (oIx 0 w y) = accOut (Lw w) w (xf d) (tp d) (mp d) i0 y⌝ ∗ oLoc d ↦[oSet 0 w]{fullShare} f))
      ∗ (bigSep Finset.univ fun w : Fin 32 =>
        iprop(∃ f, ⌜∀ y : S16.Idx, f (oIx 1 w y) = maccOut w (mp d) y⌝ ∗ oLoc d ↦[oSet 1 w]{fullShare} f)))
      ⊢ (iprop(∃ g, ⌜agree xf tp mp d g⌝ ∗ oLoc d ↦{fullShare} g) : sProp 𝕄) := by
  have f₀ : Buf (Elt F) (oLoc d) := fun _ => xf d (ValueIdx.ix1 ⟨0, by decide⟩)
  haveI : Nonempty (Buf (Elt F) (oLoc d)) := ⟨f₀⟩
  iintro ⟨HA, HB⟩
  ihave HA1 := (bigSep_exists_pi Finset.univ (fun (w : Fin 32) (f : Buf (Elt F) (oLoc d)) =>
    iprop(⌜∃ i0, ∀ y : S16.Idx, f (oIx 0 w y) = accOut (Lw w) w (xf d) (tp d) (mp d) i0 y⌝ ∗ oLoc d ↦[oSet 0 w]{fullShare} f))) $$ HA
  icases HA1 with ⟨%fa, HA2⟩
  ihave HA3 := (bigSep_pure_sep Finset.univ _ _) $$ HA2
  icases HA3 with ⟨%ha, HA⟩
  ihave HB1 := (bigSep_exists_pi Finset.univ (fun (w : Fin 32) (f : Buf (Elt F) (oLoc d)) =>
    iprop(⌜∀ y : S16.Idx, f (oIx 1 w y) = maccOut w (mp d) y⌝ ∗ oLoc d ↦[oSet 1 w]{fullShare} f))) $$ HB
  icases HB1 with ⟨%fb, HB2⟩
  ihave HB3 := (bigSep_pure_sep Finset.univ _ _) $$ HB2
  icases HB3 with ⟨%hb, HB⟩
  ihave H := (show iprop((bigSep Finset.univ fun w : Fin 32 => oLoc d ↦[oSet 0 w]{fullShare} fa w)
        ∗ (bigSep Finset.univ fun w : Fin 32 => oLoc d ↦[oSet 1 w]{fullShare} fb w))
      ⊢ (bigSep Finset.univ fun p : Fin 2 × Fin 32 => oLoc d ↦[oSet p.1 p.2]{fullShare} (if p.1 = 0 then fa p.2 else fb p.2) : sProp 𝕄) from by
    rw [bigSep_univ_prod, bigSep_univ_two]
    exact BI.Entails.refl _) $$ [HA HB]
  · isplitl [HA]; · iexact HA
    iexact HB
  ihave H' := (pointsTo_biUnion_join (ℓ := oLoc d) (q := fullShare) (Val := Elt F) Finset.univ (fun p : Fin 2 × Fin 32 => oSet p.1 p.2)
    (fun p => if p.1 = 0 then fa p.2 else fb p.2) f₀ oSet_disjoint) $$ H
  icases H' with ⟨%g, %hg, Hg⟩
  rw [oSet_cover]
  iexists g
  isplitr
  · ipureintro
    intro w
    refine ⟨?_, ?_⟩
    · obtain ⟨i0, hi0⟩ := ha w (Finset.mem_univ w)
      exact ⟨i0, fun y => (hg (0, w) (Finset.mem_univ _) _ (oIx_mem 0 w y)).trans (hi0 y)⟩
    · exact fun y => (hg (1, w) (Finset.mem_univ _) _ (oIx_mem 1 w y)).trans (hb w (Finset.mem_univ w) y)
  · iexact Hg

/-- Every worker's hand back and the remainders are the four arrays, whole. -/
theorem gather (d : Dev nD) :
    iprop(kept xf tp mp d ∗ bigSep Finset.univ fun c : Fin ((K (F := F)).nCore 0) => (P xf tp mp o0).dn 0 d c)
      ⊢ iprop((xLoc d ↦{fullShare} xf d) ∗ (tLoc d ↦{fullShare} tp d) ∗ (kLoc d ↦{fullShare} mp d)
          ∗ ∃ g, ⌜agree xf tp mp d g⌝ ∗ oLoc d ↦{fullShare} g) := by
  rw [dn_all]
  unfold tdA kept
  rw [bigSep_sep', bigSep_sep', bigSep_sep', bigSep_sep']
  iintro ⟨⟨Hxr, Htr, Hkr⟩, Hx, Ht, Hk, HA, HB⟩
  isplitl [Hxr Hx]
  · iapply (Transfers.pointsTo_toks fullShare 32).2
    isplitl [Hxr]; · iexact Hxr
    iexact Hx
  isplitl [Htr Ht]
  · iapply (Transfers.pointsTo_toks fullShare 32).2
    isplitl [Htr]; · iexact Htr
    iexact Ht
  isplitl [Hkr Hk]
  · iapply (Transfers.pointsTo_toks fullShare 32).2
    isplitl [Hkr]; · iexact Hkr
    iexact Hk
  iapply (rows_join xf tp mp d)
  isplitl [HA]; · iexact HA
  iexact HB

end Arrays

end Cert.Proof.KB

end
-- ==== Proof.MainRunB.lean ====
/-
  The TensorCore's run of @main inside the launch theorem: the host line over every unscoped buffer at once, the
  arrays dealt to the thirty-two workers and gathered back, the finishing region, the last reshape; and how the final
  memory reads: the eleven arguments unchanged, the result at the finishing body's value of the joined partial sums.
-/
import proofs.«209899_g60301340836213_cont_9to1c4b_660_2_alg».proof.Proof.HostLineB
import proofs.«209899_g60301340836213_cont_9to1c4b_660_2_alg».proof.Proof.DealB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-- A TensorCore reference as a device buffer. -/
abbrev dr (b : Ref sig .tc) : DevRef τ sig := Proc.devRef .tc b

/-- The buffers at launch, and after the host line. -/
abbrev V0 (d : Dev nD) : Valuation τ sig (Elt F) := StableHlo.launchContents m d
abbrev V1 (d : Dev nD) : Valuation τ sig (Elt F) := StableHlo.after (hostOps (F := F)) (V0 m d)

/-- The flattened input, the padded targets and the padded mask, as the host line leaves them. -/
def Xf (d : Dev nD) : Buf (Elt F) (xLoc d) := V1 m d (dr main_v0)
def Tp (d : Dev nD) : Buf (Elt F) (tLoc d) := V1 m d (dr main_v2)
def Mp (d : Dev nD) : Buf (Elt F) (kLoc d) := V1 m d (dr main_v4)
def O0 (d : Dev nD) : Buf (Elt F) (oLoc d) := V1 m d (dr main_v5)

abbrev PP : (K (F := F)).Pay (nD := nD) (Val := Elt F) (Name := ℕ) (U := UU) := P (Xf m) (Tp m) (Mp m) (O0 m)

/-- Every unscoped buffer of the TensorCore. -/
def refsAll : List (Ref sig .tc) := [main_arg0, main_arg1, main_arg2, main_arg3, main_arg4, main_arg5, main_arg6, main_arg7, main_arg8, main_arg9, main_arg10, main_v0, main_v1, main_c, main_call0_v0, main_v2, main_v3, main_c_0, main_call1_v0, main_v4, main_v5, main_v6, main_v7]
def Sall : Finset (DevRef τ sig) :=
  (Finset.univ.filter fun b : Ref sig .tc => ¬ b.isScoped).map ⟨Proc.devRef (τ := τ) .tc, Proc.devRef_injective _⟩

theorem unscoped_list : (Finset.univ.filter fun b : Ref sig .tc => ¬ b.isScoped) = refsAll.toFinset := by decide

omit [FloatOps F] in
/-- They are held whole at a valuation exactly when each is. -/
theorem held_all (d : Dev nD) (W : Valuation τ sig (Elt F)) :
    (StableHlo.held (SparseCore.T d) Sall W : sProp 𝕄)
      = bigSepL refsAll fun b => ((SparseCore.T d).loc b) ↦{fullShare} W (dr b) := by
  unfold StableHlo.held Sall
  rw [BI.bigSep_map]
  exact bigSep_eq_bigSepL_of_eq refsAll unscoped_list (by decide) _

omit [FloatOps F] in
/-- The same, buffer by buffer. -/
theorem held_chain (d : Dev nD) (W : Valuation τ sig (Elt F)) :
    (StableHlo.held (SparseCore.T d) Sall W : sProp 𝕄)
      = iprop((((SparseCore.T d).loc main_arg0) ↦{fullShare} W (dr main_arg0))
        ∗ (((SparseCore.T d).loc main_arg1) ↦{fullShare} W (dr main_arg1))
        ∗ (((SparseCore.T d).loc main_arg2) ↦{fullShare} W (dr main_arg2))
        ∗ (((SparseCore.T d).loc main_arg3) ↦{fullShare} W (dr main_arg3))
        ∗ (((SparseCore.T d).loc main_arg4) ↦{fullShare} W (dr main_arg4))
        ∗ (((SparseCore.T d).loc main_arg5) ↦{fullShare} W (dr main_arg5))
        ∗ (((SparseCore.T d).loc main_arg6) ↦{fullShare} W (dr main_arg6))
        ∗ (((SparseCore.T d).loc main_arg7) ↦{fullShare} W (dr main_arg7))
        ∗ (((SparseCore.T d).loc main_arg8) ↦{fullShare} W (dr main_arg8))
        ∗ (((SparseCore.T d).loc main_arg9) ↦{fullShare} W (dr main_arg9))
        ∗ (((SparseCore.T d).loc main_arg10) ↦{fullShare} W (dr main_arg10))
        ∗ (((SparseCore.T d).loc main_v0) ↦{fullShare} W (dr main_v0))
        ∗ (((SparseCore.T d).loc main_v1) ↦{fullShare} W (dr main_v1))
        ∗ (((SparseCore.T d).loc main_c) ↦{fullShare} W (dr main_c))
        ∗ (((SparseCore.T d).loc main_call0_v0) ↦{fullShare} W (dr main_call0_v0))
        ∗ (((SparseCore.T d).loc main_v2) ↦{fullShare} W (dr main_v2))
        ∗ (((SparseCore.T d).loc main_v3) ↦{fullShare} W (dr main_v3))
        ∗ (((SparseCore.T d).loc main_c_0) ↦{fullShare} W (dr main_c_0))
        ∗ (((SparseCore.T d).loc main_call1_v0) ↦{fullShare} W (dr main_call1_v0))
        ∗ (((SparseCore.T d).loc main_v4) ↦{fullShare} W (dr main_v4))
        ∗ (((SparseCore.T d).loc main_v5) ↦{fullShare} W (dr main_v5))
        ∗ (((SparseCore.T d).loc main_v6) ↦{fullShare} W (dr main_v6))
        ∗ (((SparseCore.T d).loc main_v7) ↦{fullShare} W (dr main_v7))) :=
  (held_all d W).trans rfl

omit [FloatOps F] in
theorem unscoped_held (d : Dev nD) :
    (unscopedBufs d (fun b => m ((SparseCore.T d).loc b)) : sProp 𝕄) = StableHlo.held (SparseCore.T d) Sall (V0 m d) := by
  unfold unscopedBufs StableHlo.held Sall
  rw [BI.bigSep_map]
  rfl

omit [FloatOps F] in
theorem mem_Sall {b : Ref sig .tc} (h : ¬ b.isScoped) : dr b ∈ Sall :=
  Finset.mem_map_of_mem _ (Finset.mem_filter.mpr ⟨Finset.mem_univ _, h⟩)
omit [FloatOps F] in
theorem sub1 {a : Ref sig .tc} (ha : ¬ a.isScoped) : ({dr a} : Finset (DevRef τ sig)) ⊆ Sall :=
  Finset.singleton_subset_iff.mpr (mem_Sall ha)
omit [FloatOps F] in
theorem sub2 {a b : Ref sig .tc} (ha : ¬ a.isScoped) (hb : ¬ b.isScoped) : ({dr a, dr b} : Finset (DevRef τ sig)) ⊆ Sall :=
  Finset.insert_subset_iff.mpr ⟨mem_Sall ha, sub1 hb⟩
omit [FloatOps F] in
theorem sub3 {a b c : Ref sig .tc} (ha : ¬ a.isScoped) (hb : ¬ b.isScoped) (hc : ¬ c.isScoped) :
    ({dr a, dr b, dr c} : Finset (DevRef τ sig)) ⊆ Sall :=
  Finset.insert_subset_iff.mpr ⟨mem_Sall ha, sub2 hb hc⟩

theorem hostOps_bufs : ∀ op ∈ (hostOps (F := F)), op.bufs ⊆ Sall := by
  intro op hop
  simp only [hostOps, List.mem_cons, List.mem_nil_iff, or_false] at hop
  rcases hop with rfl | rfl | rfl | rfl | rfl | rfl | rfl | rfl | rfl
  · exact sub2 (a := main_arg0) (b := main_v0) (by decide) (by decide)
  · exact sub2 (a := main_arg5) (b := main_v1) (by decide) (by decide)
  · exact sub1 (a := main_c) (by decide)
  · exact sub2 (a := main_c) (b := main_call0_v0) (by decide) (by decide)
  · exact sub3 (a := main_v1) (b := main_call0_v0) (c := main_v2) (by decide) (by decide) (by decide)
  · exact sub2 (a := main_arg6) (b := main_v3) (by decide) (by decide)
  · exact sub1 (a := main_c_0) (by decide)
  · exact sub2 (a := main_c_0) (b := main_call1_v0) (by decide) (by decide)
  · exact sub3 (a := main_v3) (b := main_call1_v0) (c := main_v4) (by decide) (by decide) (by decide)

theorem hostOps_fresh : ∀ op ∈ (hostOps (F := F)), op.fresh = ∅ := by
  intro op hop
  simp only [hostOps, List.mem_cons, List.mem_nil_iff, or_false] at hop
  rcases hop with rfl | rfl | rfl | rfl | rfl | rfl | rfl | rfl | rfl <;> rfl

/-! ## What the host line leaves where it does not write -/

theorem V1_keep (d : Dev nD) {b : Ref sig .tc} (h0 : b ≠ main_v0) (h1 : b ≠ main_v1) (h2 : b ≠ main_c) (h3 : b ≠ main_call0_v0) (h4 : b ≠ main_v2) (h5 : b ≠ main_v3) (h6 : b ≠ main_c_0) (h7 : b ≠ main_call1_v0) (h8 : b ≠ main_v4) :
    V1 m d (dr b) = m ((SparseCore.T d).loc b) := by
  refine StableHlo.after_of_forall_not_mem _ _ fun op hop => ?_
  simp only [hostOps, List.mem_cons, List.mem_nil_iff, or_false] at hop
  rcases hop with rfl | rfl | rfl | rfl | rfl | rfl | rfl | rfl | rfl
  · exact fun hm => h0 (Proc.devRef_injective _ (Finset.mem_singleton.mp hm))
  · exact fun hm => h1 (Proc.devRef_injective _ (Finset.mem_singleton.mp hm))
  · exact fun hm => h2 (Proc.devRef_injective _ (Finset.mem_singleton.mp hm))
  · exact fun hm => h3 (Proc.devRef_injective _ (Finset.mem_singleton.mp hm))
  · exact fun hm => h4 (Proc.devRef_injective _ (Finset.mem_singleton.mp hm))
  · exact fun hm => h5 (Proc.devRef_injective _ (Finset.mem_singleton.mp hm))
  · exact fun hm => h6 (Proc.devRef_injective _ (Finset.mem_singleton.mp hm))
  · exact fun hm => h7 (Proc.devRef_injective _ (Finset.mem_singleton.mp hm))
  · exact fun hm => h8 (Proc.devRef_injective _ (Finset.mem_singleton.mp hm))

/-- After the host line: the arguments at their launch contents, the line's own buffers at what it computed. -/
theorem held_V1 (d : Dev nD) :
    (StableHlo.held (SparseCore.T d) Sall (V1 m d) : sProp 𝕄)
      = iprop((((SparseCore.T d).loc main_arg0) ↦{fullShare} m ((SparseCore.T d).loc main_arg0))
        ∗ (((SparseCore.T d).loc main_arg1) ↦{fullShare} m ((SparseCore.T d).loc main_arg1))
        ∗ (((SparseCore.T d).loc main_arg2) ↦{fullShare} m ((SparseCore.T d).loc main_arg2))
        ∗ (((SparseCore.T d).loc main_arg3) ↦{fullShare} m ((SparseCore.T d).loc main_arg3))
        ∗ (((SparseCore.T d).loc main_arg4) ↦{fullShare} m ((SparseCore.T d).loc main_arg4))
        ∗ (((SparseCore.T d).loc main_arg5) ↦{fullShare} m ((SparseCore.T d).loc main_arg5))
        ∗ (((SparseCore.T d).loc main_arg6) ↦{fullShare} m ((SparseCore.T d).loc main_arg6))
        ∗ (((SparseCore.T d).loc main_arg7) ↦{fullShare} m ((SparseCore.T d).loc main_arg7))
        ∗ (((SparseCore.T d).loc main_arg8) ↦{fullShare} m ((SparseCore.T d).loc main_arg8))
        ∗ (((SparseCore.T d).loc main_arg9) ↦{fullShare} m ((SparseCore.T d).loc main_arg9))
        ∗ (((SparseCore.T d).loc main_arg10) ↦{fullShare} m ((SparseCore.T d).loc main_arg10))
        ∗ (((SparseCore.T d).loc main_v0) ↦{fullShare} V1 m d (dr main_v0))
        ∗ (((SparseCore.T d).loc main_v1) ↦{fullShare} V1 m d (dr main_v1))
        ∗ (((SparseCore.T d).loc main_c) ↦{fullShare} V1 m d (dr main_c))
        ∗ (((SparseCore.T d).loc main_call0_v0) ↦{fullShare} V1 m d (dr main_call0_v0))
        ∗ (((SparseCore.T d).loc main_v2) ↦{fullShare} V1 m d (dr main_v2))
        ∗ (((SparseCore.T d).loc main_v3) ↦{fullShare} V1 m d (dr main_v3))
        ∗ (((SparseCore.T d).loc main_c_0) ↦{fullShare} V1 m d (dr main_c_0))
        ∗ (((SparseCore.T d).loc main_call1_v0) ↦{fullShare} V1 m d (dr main_call1_v0))
        ∗ (((SparseCore.T d).loc main_v4) ↦{fullShare} V1 m d (dr main_v4))
        ∗ (((SparseCore.T d).loc main_v5) ↦{fullShare} V1 m d (dr main_v5))
        ∗ (((SparseCore.T d).loc main_v6) ↦{fullShare} V1 m d (dr main_v6))
        ∗ (((SparseCore.T d).loc main_v7) ↦{fullShare} V1 m d (dr main_v7))) := by
  rw [held_chain,
    V1_keep m d (b := main_arg0) (by decide) (by decide) (by decide) (by decide) (by decide) (by decide) (by decide) (by decide) (by decide),
    V1_keep m d (b := main_arg1) (by decide) (by decide) (by decide) (by decide) (by decide) (by decide) (by decide) (by decide) (by decide),
    V1_keep m d (b := main_arg2) (by decide) (by decide) (by decide) (by decide) (by decide) (by decide) (by decide) (by decide) (by decide),
    V1_keep m d (b := main_arg3) (by decide) (by decide) (by decide) (by decide) (by decide) (by decide) (by decide) (by decide) (by decide),
    V1_keep m d (b := main_arg4) (by decide) (by decide) (by decide) (by decide) (by decide) (by decide) (by decide) (by decide) (by decide),
    V1_keep m d (b := main_arg5) (by decide) (by decide) (by decide) (by decide) (by decide) (by decide) (by decide) (by decide) (by decide),
    V1_keep m d (b := main_arg6) (by decide) (by decide) (by decide) (by decide) (by decide) (by decide) (by decide) (by decide) (by decide),
    V1_keep m d (b := main_arg7) (by decide) (by decide) (by decide) (by decide) (by decide) (by decide) (by decide) (by decide) (by decide),
    V1_keep m d (b := main_arg8) (by decide) (by decide) (by decide) (by decide) (by decide) (by decide) (by decide) (by decide) (by decide),
    V1_keep m d (b := main_arg9) (by decide) (by decide) (by decide) (by decide) (by decide) (by decide) (by decide) (by decide) (by decide),
    V1_keep m d (b := main_arg10) (by decide) (by decide) (by decide) (by decide) (by decide) (by decide) (by decide) (by decide) (by decide)]

/-! ## The result -/

abbrev v6Loc (d : Dev nD) : Loc nD τ sig := (SparseCore.T d).loc main_v6
abbrev v7Loc (d : Dev nD) : Loc nD τ sig := (SparseCore.T d).loc main_v7

/-- The finishing body's value of a partial-sum array: (0 − Σ row 0) / Σ row 1. -/
def finishOf (g : S2x32x16.Idx → Elt F .f32) : Elt F .f32 :=
  k1_pay1 (F := F) (fun i => g (ValueIdx.ix3 (0 : Fin 2) (⟨(i 1).val, (i 1).isLt⟩ : Fin 32) (⟨(i 2).val, (i 2).isLt⟩ : Fin 16)))
    (fun i => g (ValueIdx.ix3 (1 : Fin 2) (⟨(i 1).val, (i 1).isLt⟩ : Fin 32) (⟨(i 2).val, (i 2).isLt⟩ : Fin 16)))

/-- The scalar result after the last reshape. -/
def res7 (d : Dev nD) (g : Buf (Elt F) (oLoc d)) : Buf (Elt F) (v7Loc d) :=
  fun i => shapeCast S_ (fun _ : S1.Idx => finishOf (F := F) g) shapeCasts_S1_S_ i

/-- The eleven arguments at their launch contents. -/
def ARGS (d : Dev nD) : sProp 𝕄 :=
  iprop((((SparseCore.T d).loc main_arg0) ↦{fullShare} m ((SparseCore.T d).loc main_arg0))
    ∗ (((SparseCore.T d).loc main_arg1) ↦{fullShare} m ((SparseCore.T d).loc main_arg1))
    ∗ (((SparseCore.T d).loc main_arg2) ↦{fullShare} m ((SparseCore.T d).loc main_arg2))
    ∗ (((SparseCore.T d).loc main_arg3) ↦{fullShare} m ((SparseCore.T d).loc main_arg3))
    ∗ (((SparseCore.T d).loc main_arg4) ↦{fullShare} m ((SparseCore.T d).loc main_arg4))
    ∗ (((SparseCore.T d).loc main_arg5) ↦{fullShare} m ((SparseCore.T d).loc main_arg5))
    ∗ (((SparseCore.T d).loc main_arg6) ↦{fullShare} m ((SparseCore.T d).loc main_arg6))
    ∗ (((SparseCore.T d).loc main_arg7) ↦{fullShare} m ((SparseCore.T d).loc main_arg7))
    ∗ (((SparseCore.T d).loc main_arg8) ↦{fullShare} m ((SparseCore.T d).loc main_arg8))
    ∗ (((SparseCore.T d).loc main_arg9) ↦{fullShare} m ((SparseCore.T d).loc main_arg9))
    ∗ (((SparseCore.T d).loc main_arg10) ↦{fullShare} m ((SparseCore.T d).loc main_arg10)))

/-- What the TensorCore ends with: the arguments as launched, the result at the finishing value of some array that
    holds every worker's partial sums. -/
def FIN (d : Dev nD) : sProp 𝕄 :=
  iprop(ARGS m d ∗ ∃ g, ⌜agree (Xf m) (Tp m) (Mp m) d g⌝ ∗ v7Loc d ↦{fullShare} res7 d g)

/-- The finishing region as one step of @main: from the partial-sum array and the result's one-entry buffer, the
    buffer at the finishing value. -/
def RegionStep (G : Dev nD → sProp 𝕄) : Prop :=
  ∀ (κ : GSem nD τ sig → ℕ) (d : Dev nD) (f5 : Buf (Elt F) (oLoc d)) (f6 : Buf (Elt F) (v6Loc d)) (Φ : PUnit → sProp 𝕄),
    iprop((K (F := F)).ctx EH (PP m) κ ∗ (K (F := F)).tcSt EH d 1 ∗ G d ∗ boundary (SparseCore.T d)
        ∗ (oLoc d ↦{fullShare} f5) ∗ (v6Loc d ↦{fullShare} f6)
        ∗ (((K (F := F)).tcSt EH d 1 ∗ boundary (SparseCore.T d) ∗ (oLoc d ↦{fullShare} f5)
            ∗ (v6Loc d ↦{fullShare} fun _ => finishOf (F := F) f5)) -∗ Φ ⟨⟩))
      ⊢ wp frame (wpE ((K (F := F)).defs (D (F := F))) 𝒱 (SparseCore.T d) none) Set.univ
          (Prog.lift (.customCall (SparseCore.inner (Pipeline.entry 0)) ())) Φ

/-- The last reshape. -/
abbrev opLast : HloOp τ sig (Elt F) := StableHlo.reshape main_v6 main_v7 rfl shapeCasts_S1_S_

/-- @main on device `d`'s TensorCore. -/
theorem hmain (G : Dev nD → sProp 𝕄) (hreg : RegionStep m G) (κ : GSem nD τ sig → ℕ) (d : Dev nD) :
    iprop((K (F := F)).ctx EH (PP m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [main_eq, unscoped_held]
  iintro ⟨#Hctx, Hst, ⟨Hb, Hheld, -, -⟩, HG⟩
  iapply (StableHlo.wp_seq 𝒱 none Set.univ d Sall (fun _ => mainTail d) hostOps hostOps_bufs hostOps_fresh (V0 m d)) $$ [Hb Hheld]
  · isplitl [Hb]; · iexact Hb
    iexact Hheld
  iintro ⟨Hb, Hheld⟩
  ihave Hall := (Entails.of_eq (held_V1 m d)) $$ Hheld
  icases Hall with ⟨Harg0, Harg1, Harg2, Harg3, Harg4, Harg5, Harg6, Harg7, Harg8, Harg9, Harg10, Hv0, Hv1, Hc, Hcall0v0, Hv2, Hv3, Hc0, Hcall1v0, Hv4, Hv5, Hv6, Hv7⟩
  -- the call: the four arrays dealt to the workers, gathered back
  ihave Hd := (deal (Xf m) (Tp m) (Mp m) (O0 m) d) $$ [Hv0 Hv2 Hv4 Hv5]
  · isplitl [Hv0]; · iexact Hv0
    isplitl [Hv2]; · iexact Hv2
    isplitl [Hv4]; · iexact Hv4
    iexact Hv5
  icases Hd with ⟨Hkept, Hst0⟩
  unfold mainTail
  simp only [wp_bind]
  iapply ((K (F := F)).wp_run (D (F := F)) 𝒱 (EH := EH) (P := PP m) κ d 0) $$ [Hst Hst0 Hkept HG Hb Hv6 Hv7 Harg0 Harg1 Harg2 Harg3 Harg4 Harg5 Harg6 Harg7 Harg8 Harg9 Harg10]
  isplitr; · iexact Hctx
  isplitl [Hst]; · iexact Hst
  isplitl [Hst0]; · iexact Hst0
  iintro ⟨Hst, Hdn⟩
  ihave Hg := (gather (Xf m) (Tp m) (Mp m) (O0 m) d) $$ [Hkept Hdn]
  · isplitl [Hkept]; · iexact Hkept
    iexact Hdn
  icases Hg with ⟨-, -, -, %g, %hg, Ho⟩
  -- the finishing region
  iapply (hreg κ d g (V1 m d (dr main_v6)) _) $$ [Hst HG Hb Ho Hv6 Hv7 Harg0 Harg1 Harg2 Harg3 Harg4 Harg5 Harg6 Harg7 Harg8 Harg9 Harg10]
  isplitr; · iexact Hctx
  isplitl [Hst]; · iexact Hst
  isplitl [HG]; · iexact HG
  isplitl [Hb]; · iexact Hb
  isplitl [Ho]; · iexact Ho
  isplitl [Hv6]; · iexact Hv6
  iintro ⟨Hst, Hb, -, Hv6⟩
  -- the last reshape
  let W : Valuation τ sig (Elt F) := Function.update (V1 m d) (dr main_v6) (fun _ => finishOf (F := F) g)
  have hne : dr main_v7 ≠ dr main_v6 := StableHlo.devRef_ne_of_ne (by decide)
  have hW6 : W (dr main_v6) = fun _ => finishOf (F := F) g := Function.update_self _ _ _
  have hW7 : W (dr main_v7) = V1 m d (dr main_v7) := Function.update_of_ne hne _ _
  have hbufs : (opLast (F := F)).bufs = {dr main_v6, dr main_v7} := rfl
  have hnm : dr main_v6 ∉ ({dr main_v7} : Finset (DevRef τ sig)) := Finset.notMem_singleton.mpr hne.symm
  iapply (wp_hlo 𝒱 (SparseCore.T d) none Set.univ (op := opLast (F := F)) (q := fun _ => fullShare) (F := W) (fun _ _ => rfl)) $$ [Hb Hv6 Hv7]
  · isplitl [Hb]; · iexact Hb
    rw [hbufs, SparseCore.bigSep_insert' hnm, bigSep_singleton, hW6, hW7]
    isplitl [Hv6]; · iexact Hv6
    iexact Hv7
  rw [hbufs, SparseCore.bigSep_insert' hnm, bigSep_singleton,
    show (opLast (F := F)).result W (dr main_v7) = res7 d g from
      (StableHlo.reshape_result main_v6 main_v7 rfl shapeCasts_S1_S_ _ _ W).trans (by rw [hW6]; rfl)]
  iintro ⟨-, -, Hv7⟩
  rw [wp_ret]; imodintro
  simp only [wp_pure]
  imodintro
  isplitl [Hst]; · iexact Hst
  unfold FIN ARGS
  isplitl [Harg0 Harg1 Harg2 Harg3 Harg4 Harg5 Harg6 Harg7 Harg8 Harg9 Harg10]
  · isplitl [Harg0]; · iexact Harg0
    isplitl [Harg1]; · iexact Harg1
    isplitl [Harg2]; · iexact Harg2
    isplitl [Harg3]; · iexact Harg3
    isplitl [Harg4]; · iexact Harg4
    isplitl [Harg5]; · iexact Harg5
    isplitl [Harg6]; · iexact Harg6
    isplitl [Harg7]; · iexact Harg7
    isplitl [Harg8]; · iexact Harg8
    isplitl [Harg9]; · iexact Harg9
    iexact Harg10
  iexists g
  isplitr
  · ipureintro; exact hg
  iexact Hv7

end Cert.Proof.KB

end
-- ==== Proof.RunB.lean ====
/-
  The program's run from the launch theorem: the launch element of the ghost state (the handshakes' rounds, the
  finishing region's cells, the transfers' counters), how the final memory reads the claim, and the run itself, given
  one worker's body and the finishing region as a step.
-/
import proofs.«209899_g60301340836213_cont_9to1c4b_660_2_alg».proof.Proof.MainRunB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-- What the claim reads of device `d`'s final state. -/
def fq (d : Dev nD) (s' : Phys nD τ sig (Elt F)) : Prop :=
  (s'.mem.mem ((SparseCore.T d).loc main_arg0) = m ((SparseCore.T d).loc main_arg0)
    ∧ s'.mem.mem ((SparseCore.T d).loc main_arg1) = m ((SparseCore.T d).loc main_arg1)
    ∧ s'.mem.mem ((SparseCore.T d).loc main_arg2) = m ((SparseCore.T d).loc main_arg2)
    ∧ s'.mem.mem ((SparseCore.T d).loc main_arg3) = m ((SparseCore.T d).loc main_arg3)
    ∧ s'.mem.mem ((SparseCore.T d).loc main_arg4) = m ((SparseCore.T d).loc main_arg4)
    ∧ s'.mem.mem ((SparseCore.T d).loc main_arg5) = m ((SparseCore.T d).loc main_arg5)
    ∧ s'.mem.mem ((SparseCore.T d).loc main_arg6) = m ((SparseCore.T d).loc main_arg6)
    ∧ s'.mem.mem ((SparseCore.T d).loc main_arg7) = m ((SparseCore.T d).loc main_arg7)
    ∧ s'.mem.mem ((SparseCore.T d).loc main_arg8) = m ((SparseCore.T d).loc main_arg8)
    ∧ s'.mem.mem ((SparseCore.T d).loc main_arg9) = m ((SparseCore.T d).loc main_arg9)
    ∧ s'.mem.mem ((SparseCore.T d).loc main_arg10) = m ((SparseCore.T d).loc main_arg10))
    ∧ ∃ g, agree (Xf m) (Tp m) (Mp m) d g ∧ s'.mem.mem (v7Loc d) = res7 d g

set_option maxRecDepth 16384 in
theorem hfin (d : Dev nD) (s' : Phys nD τ sig (Elt F)) : iprop(FIN m d ∗ SI s') ⊢ (⌜fq m d s'⌝ : sProp 𝕄) := by
  unfold FIN ARGS
  iintro ⟨⟨⟨Harg0, Harg1, Harg2, Harg3, Harg4, Harg5, Harg6, Harg7, Harg8, Harg9, Harg10⟩, %g, %hg, Hv7⟩, HSI0⟩
  ihave A0 := (persistent_entails_right (SI_pointsTo_agree (st := s') (ℓ := ((SparseCore.T d).loc main_arg0)) (I := Finset.univ) (q := fullShare) (f := m ((SparseCore.T d).loc main_arg0)))) $$ [HSI0 Harg0]
  · isplitl [HSI0] <;> iassumption
  icases A0 with ⟨%h0, HSI1, -⟩
  ihave A1 := (persistent_entails_right (SI_pointsTo_agree (st := s') (ℓ := ((SparseCore.T d).loc main_arg1)) (I := Finset.univ) (q := fullShare) (f := m ((SparseCore.T d).loc main_arg1)))) $$ [HSI1 Harg1]
  · isplitl [HSI1] <;> iassumption
  icases A1 with ⟨%h1, HSI2, -⟩
  ihave A2 := (persistent_entails_right (SI_pointsTo_agree (st := s') (ℓ := ((SparseCore.T d).loc main_arg2)) (I := Finset.univ) (q := fullShare) (f := m ((SparseCore.T d).loc main_arg2)))) $$ [HSI2 Harg2]
  · isplitl [HSI2] <;> iassumption
  icases A2 with ⟨%h2, HSI3, -⟩
  ihave A3 := (persistent_entails_right (SI_pointsTo_agree (st := s') (ℓ := ((SparseCore.T d).loc main_arg3)) (I := Finset.univ) (q := fullShare) (f := m ((SparseCore.T d).loc main_arg3)))) $$ [HSI3 Harg3]
  · isplitl [HSI3] <;> iassumption
  icases A3 with ⟨%h3, HSI4, -⟩
  ihave A4 := (persistent_entails_right (SI_pointsTo_agree (st := s') (ℓ := ((SparseCore.T d).loc main_arg4)) (I := Finset.univ) (q := fullShare) (f := m ((SparseCore.T d).loc main_arg4)))) $$ [HSI4 Harg4]
  · isplitl [HSI4] <;> iassumption
  icases A4 with ⟨%h4, HSI5, -⟩
  ihave A5 := (persistent_entails_right (SI_pointsTo_agree (st := s') (ℓ := ((SparseCore.T d).loc main_arg5)) (I := Finset.univ) (q := fullShare) (f := m ((SparseCore.T d).loc main_arg5)))) $$ [HSI5 Harg5]
  · isplitl [HSI5] <;> iassumption
  icases A5 with ⟨%h5, HSI6, -⟩
  ihave A6 := (persistent_entails_right (SI_pointsTo_agree (st := s') (ℓ := ((SparseCore.T d).loc main_arg6)) (I := Finset.univ) (q := fullShare) (f := m ((SparseCore.T d).loc main_arg6)))) $$ [HSI6 Harg6]
  · isplitl [HSI6] <;> iassumption
  icases A6 with ⟨%h6, HSI7, -⟩
  ihave A7 := (persistent_entails_right (SI_pointsTo_agree (st := s') (ℓ := ((SparseCore.T d).loc main_arg7)) (I := Finset.univ) (q := fullShare) (f := m ((SparseCore.T d).loc main_arg7)))) $$ [HSI7 Harg7]
  · isplitl [HSI7] <;> iassumption
  icases A7 with ⟨%h7, HSI8, -⟩
  ihave A8 := (persistent_entails_right (SI_pointsTo_agree (st := s') (ℓ := ((SparseCore.T d).loc main_arg8)) (I := Finset.univ) (q := fullShare) (f := m ((SparseCore.T d).loc main_arg8)))) $$ [HSI8 Harg8]
  · isplitl [HSI8] <;> iassumption
  icases A8 with ⟨%h8, HSI9, -⟩
  ihave A9 := (persistent_entails_right (SI_pointsTo_agree (st := s') (ℓ := ((SparseCore.T d).loc main_arg9)) (I := Finset.univ) (q := fullShare) (f := m ((SparseCore.T d).loc main_arg9)))) $$ [HSI9 Harg9]
  · isplitl [HSI9] <;> iassumption
  icases A9 with ⟨%h9, HSI10, -⟩
  ihave A10 := (persistent_entails_right (SI_pointsTo_agree (st := s') (ℓ := ((SparseCore.T d).loc main_arg10)) (I := Finset.univ) (q := fullShare) (f := m ((SparseCore.T d).loc main_arg10)))) $$ [HSI10 Harg10]
  · isplitl [HSI10] <;> iassumption
  icases A10 with ⟨%h10, HSI11, -⟩
  ihave A11 := (SI_pointsTo_agree (st := s') (ℓ := v7Loc d) (I := Finset.univ) (q := fullShare) (f := res7 d g)) $$ [HSI11 Hv7]
  · isplitl [HSI11] <;> iassumption
  icases A11 with %h11
  ipureintro
  exact ⟨⟨funext fun i => h0 i (Finset.mem_univ i), funext fun i => h1 i (Finset.mem_univ i), funext fun i => h2 i (Finset.mem_univ i), funext fun i => h3 i (Finset.mem_univ i), funext fun i => h4 i (Finset.mem_univ i), funext fun i => h5 i (Finset.mem_univ i), funext fun i => h6 i (Finset.mem_univ i), funext fun i => h7 i (Finset.mem_univ i), funext fun i => h8 i (Finset.mem_univ i), funext fun i => h9 i (Finset.mem_univ i), funext fun i => h10 i (Finset.mem_univ i)⟩, g, hg, funext fun i => h11 i (Finset.mem_univ i)⟩

/-! ## The launch element -/

def u₀ (uP : UP) : UU := (initOf (K (F := F)).hsCells (K (F := F)).hsToks, (uP, 1))

omit [FloatOps F] in
theorem bigSep_emp' {I : Type} (s : Finset I) : (bigSep s fun _ => iprop(emp)) = (iprop(emp) : sProp 𝕄) := bigSep_emp_const s

theorem hu₀ (G : Dev nD → sProp 𝕄) (uP : UP) (hfund : (BI.own (EP uP) : sProp 𝕄) ⊢ |={Set.univ}=> bigSep Finset.univ G) :
    (ownU (u₀ (F := F) uP) : sProp 𝕄)
      ⊢ |={Set.univ}=> iprop(BI.own (EH (initOf (K (F := F)).hsCells (K (F := F)).hsToks)) ∗ (bigSep Finset.univ G)
          ∗ bigSep Finset.univ fun thr : Thread nD τ => bigSep Finset.univ fun q : Fin 1 => (PP m).x q thr) := by
  unfold u₀
  iintro Hu
  ihave H := (ownU_pair (initOf (K (F := F)).hsCells (K (F := F)).hsToks) ((uP, 1) : UP × Counters)) $$ Hu
  icases H with ⟨HH, HR⟩
  ihave HR' := (own_pair_emb (embR : Emb (UP × Counters) 𝕄) uP (1 : Counters)) $$ HR
  icases HR' with ⟨HP, -⟩
  imod (hfund) $$ HP with HG
  imodintro
  isplitl [HH]; · iexact HH
  isplitl [HG]; · iexact HG
  rw [show (bigSep Finset.univ fun thr : Thread nD τ => bigSep Finset.univ fun q : Fin 1 => (PP (F := F) m).x q thr) = bigSep Finset.univ fun _ => iprop(emp) from
    bigSep_congr fun _ _ => bigSep_univ_of_subsingleton (0 : Fin 1), bigSep_emp']
  iempintro

/-! ## The run -/

/-- The run's post: on every device the arguments unchanged and the result at the finishing value. -/
def QC : PUnit × MemSt nD τ sig (Elt F) → Prop := fun r => ∀ c : Dev nD,
  (r.2.mem ((SparseCore.T c).loc main_arg0) = m ((SparseCore.T c).loc main_arg0)
    ∧ r.2.mem ((SparseCore.T c).loc main_arg1) = m ((SparseCore.T c).loc main_arg1)
    ∧ r.2.mem ((SparseCore.T c).loc main_arg2) = m ((SparseCore.T c).loc main_arg2)
    ∧ r.2.mem ((SparseCore.T c).loc main_arg3) = m ((SparseCore.T c).loc main_arg3)
    ∧ r.2.mem ((SparseCore.T c).loc main_arg4) = m ((SparseCore.T c).loc main_arg4)
    ∧ r.2.mem ((SparseCore.T c).loc main_arg5) = m ((SparseCore.T c).loc main_arg5)
    ∧ r.2.mem ((SparseCore.T c).loc main_arg6) = m ((SparseCore.T c).loc main_arg6)
    ∧ r.2.mem ((SparseCore.T c).loc main_arg7) = m ((SparseCore.T c).loc main_arg7)
    ∧ r.2.mem ((SparseCore.T c).loc main_arg8) = m ((SparseCore.T c).loc main_arg8)
    ∧ r.2.mem ((SparseCore.T c).loc main_arg9) = m ((SparseCore.T c).loc main_arg9)
    ∧ r.2.mem ((SparseCore.T c).loc main_arg10) = m ((SparseCore.T c).loc main_arg10))
    ∧ ∃ g, agree (Xf m) (Tp m) (Mp m) c g ∧ r.2.mem (v7Loc c) = res7 c g

theorem run_main [∀ e, Nonempty (Elt F e)] (G : Dev nD → sProp 𝕄) (uP : UP)
    (hfund : (BI.own (EP uP) : sProp 𝕄) ⊢ |={Set.univ}=> bigSep Finset.univ G) (hreg : RegionStep m G)
    (htile : (K (F := F)).TileObl (D (F := F)) 𝒱 (PP m) v₀ 0) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := PP m) facts v₀
    (fun q hq => match q with | 0 => nomatch hq)
    (fun q _ => match q with | 0 => htile)
    (fun q _ => match q with | 0 => SparseCore.Cfg.VecSplit.of_plain (vecSplit (Xf m) (Tp m) (Mp m) (O0 m)))
    m ρ main G (FIN m) (u₀ (F := F) uP) (sep_elim_left.trans (hu₀ m G uP hfund)) (hmain m ρ G hreg) (fq m) (hfin m) (QC m) (fun _ h => h)

end Cert.Proof.KB

end
-- ==== Proof.TileB.lean ====
/-
  One vector subcore's body, once, at a symbolic grid point, for any float instance. The subcore copies its 112
  entries of the padded targets and of the padded mask into scratch rows, forms from the targets the row of flat
  positions of the flattened input (seven blocks of sixteen lanes), fetches the input's entries at those positions,
  and leaves per lane the sum of value times mask and the sum of the mask, which it copies to its two rows of sixteen
  lanes of the partial-sum array. The arrays it only reads come back as they were; the two output rows come back
  holding `accOut` and `maccOut` of the arrays.
-/
import proofs.«209899_g60301340836213_cont_9to1c4b_660_2_alg».proof.Proof.CommonB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## One vector subcore's place and its views of the arrays -/

local notation "xV" => (Memref.whole Cert.Kernel.main_v0_scv : Memref Cert.Kernel.sig Kind.scVector Space.hbm Cert.Kernel.S32000000 EltTy.f32)
local notation "tV" => (Memref.whole Cert.Kernel.main_v2_scv : Memref Cert.Kernel.sig Kind.scVector Space.hbm Cert.Kernel.S3584 EltTy.i32)
local notation "kV" => (Memref.whole Cert.Kernel.main_v4_scv : Memref Cert.Kernel.sig Kind.scVector Space.hbm Cert.Kernel.S3584 EltTy.f32)
local notation "oV" => (Memref.whole Cert.Kernel.main_v5_scv : Memref Cert.Kernel.sig Kind.scVector Space.hbm Cert.Kernel.S2x32x16 EltTy.f32)
local notation "s0V" => (Memref.whole Cert.Kernel.cc0_scratch0 : Memref Cert.Kernel.sig Kind.scVector Space.vmem Cert.Kernel.S112 EltTy.i32)
local notation "s1V" => (Memref.whole Cert.Kernel.cc0_scratch1 : Memref Cert.Kernel.sig Kind.scVector Space.vmem Cert.Kernel.S112 EltTy.i32)
local notation "s2V" => (Memref.whole Cert.Kernel.cc0_scratch2 : Memref Cert.Kernel.sig Kind.scVector Space.vmem Cert.Kernel.S112 EltTy.f32)
local notation "s3V" => (Memref.whole Cert.Kernel.cc0_scratch3 : Memref Cert.Kernel.sig Kind.scVector Space.vmem Cert.Kernel.S112 EltTy.f32)
local notation "s4V" => (Memref.whole Cert.Kernel.cc0_scratch4 : Memref Cert.Kernel.sig Kind.scVector Space.vmem Cert.Kernel.S16 EltTy.f32)
local notation "s5V" => (Memref.whole Cert.Kernel.cc0_scratch5 : Memref Cert.Kernel.sig Kind.scVector Space.vmem Cert.Kernel.S16 EltTy.f32)

/-- The subcore's 112 positions of the padded targets, of the padded mask; all of the flattened input; its two
    rows of sixteen lanes of the partial-sum array, squeezed: as the body addresses them. -/
abbrev tRowK (L : grid0.Coords) : Memref sig .scVector .hbm S112 .i32 := (tV).slice (Rect.unit (s := S3584) (k0_off1 L) S112.size (k0_off1_inb L)) (fun _ => rfl)
abbrev kRowK (L : grid0.Coords) : Memref sig .scVector .hbm S112 .f32 := (kV).slice (Rect.unit (s := S3584) (k0_off1 L) S112.size (k0_off1_inb L)) (fun _ => rfl)
abbrev xAllK : Memref sig .scVector .hbm S32000000 .f32 := (xV).slice (Rect.unit (s := S32000000) ![0] S32000000.size inb_S32000000_S32000000_0) (fun _ => rfl)
abbrev o0RowK (L : grid0.Coords) : Memref sig .scVector .hbm S16 .f32 :=
  ((oV).slice (Rect.unit (s := S2x32x16) (k0_off2 L) S1x1x16.size (k0_off2_inb L)) (fun _ => rfl)).squeeze S16 squeezes_S1x1x16_S16
abbrev o1RowK (L : grid0.Coords) : Memref sig .scVector .hbm S16 .f32 :=
  ((oV).slice (Rect.unit (s := S2x32x16) (k0_off3 L) S1x1x16.size (k0_off3_inb L)) (fun _ => rfl)).squeeze S16 squeezes_S1x1x16_S16

theorem pts_xV (d : Dev nD) (L : grid0.Coords) (q : PosShare TreeShare) (f : Buf (Elt F) (xLoc d)) :
    ((xV).view.loc (V d (cV L) (jV L)) ↦{q} f : sProp 𝕄) = xLoc d ↦{q} f := rfl
theorem pts_tV (d : Dev nD) (L : grid0.Coords) (q : PosShare TreeShare) (f : Buf (Elt F) (tLoc d)) :
    ((tV).view.loc (V d (cV L) (jV L)) ↦{q} f : sProp 𝕄) = tLoc d ↦{q} f := rfl
theorem pts_kV (d : Dev nD) (L : grid0.Coords) (q : PosShare TreeShare) (f : Buf (Elt F) (kLoc d)) :
    ((kV).view.loc (V d (cV L) (jV L)) ↦{q} f : sProp 𝕄) = kLoc d ↦{q} f := rfl

/-! ## The subcore's own semaphores and scratch rows among its scoped resources -/

abbrev cell0 (d : Dev nD) (c : Fin τ.nSC) (i : Fin τ.nSub) : GSem nD τ sig := (V d c i, .dma cc0_scoped0.sem)
abbrev cell1 (d : Dev nD) (c : Fin τ.nSC) (i : Fin τ.nSub) : GSem nD τ sig := (V d c i, .dma cc0_scoped1.sem)
abbrev cell2 (d : Dev nD) (c : Fin τ.nSC) (i : Fin τ.nSub) : GSem nD τ sig := (V d c i, .dma cc0_scoped2.sem)
abbrev cell3 (d : Dev nD) (c : Fin τ.nSC) (i : Fin τ.nSub) : GSem nD τ sig := (V d c i, .dma cc0_scoped3.sem)
abbrev cell4 (d : Dev nD) (c : Fin τ.nSC) (i : Fin τ.nSub) : GSem nD τ sig := (V d c i, .dma cc0_scoped4.sem)

theorem cell_ne {d : Dev nD} {c : Fin τ.nSC} {i : Fin τ.nSub} {a b : SemLoc sig} (h : a ≠ b) :
    ((V d c i, a) : GSem nD τ sig) ≠ (V d c i, b) := fun e => h (congrArg Prod.snd e)

theorem cell_mem {d : Dev nD} {c : Fin τ.nSC} {i : Fin τ.nSub} {a : SemLoc sig} (h : a.isScoped .scVector = true) :
    ((V d c i, a) : GSem nD τ sig) ∈ ownCells (V d c i) := (mem_ownCells (g := (V d c i, a))).mpr ⟨rfl, h⟩

theorem ownSems0_V (d : Dev nD) (L : grid0.Coords) :
    (ownSems0 (V d (cV L) (jV L)) : sProp 𝕄)
      = iprop(semVal (cell0 d (cV L) (jV L)) 0 ∗ semVal (cell1 d (cV L) (jV L)) 0 ∗ semVal (cell2 d (cV L) (jV L)) 0
          ∗ semVal (cell3 d (cV L) (jV L)) 0 ∗ semVal (cell4 d (cV L) (jV L)) 0
          ∗ bigSep ((((((ownCells (V d (cV L) (jV L))).erase (cell0 d (cV L) (jV L))).erase (cell1 d (cV L) (jV L))).erase (cell2 d (cV L) (jV L))).erase
              (cell3 d (cV L) (jV L))).erase (cell4 d (cV L) (jV L))) fun g => semVal g 0) := by
  unfold SparseCore.Cfg.ownSems0
  have m0 := cell_mem (d := d) (c := cV L) (i := jV L) (a := .dma cc0_scoped0.sem) (by decide)
  have m1 := cell_mem (d := d) (c := cV L) (i := jV L) (a := .dma cc0_scoped1.sem) (by decide)
  have m2 := cell_mem (d := d) (c := cV L) (i := jV L) (a := .dma cc0_scoped2.sem) (by decide)
  have m3 := cell_mem (d := d) (c := cV L) (i := jV L) (a := .dma cc0_scoped3.sem) (by decide)
  have m4 := cell_mem (d := d) (c := cV L) (i := jV L) (a := .dma cc0_scoped4.sem) (by decide)
  rw [SparseCore.bigSep_erase' m0,
    SparseCore.bigSep_erase' (Finset.mem_erase_of_ne_of_mem (cell_ne (by decide)) m1),
    SparseCore.bigSep_erase' (Finset.mem_erase_of_ne_of_mem (cell_ne (by decide)) (Finset.mem_erase_of_ne_of_mem (cell_ne (by decide)) m2)),
    SparseCore.bigSep_erase' (Finset.mem_erase_of_ne_of_mem (cell_ne (by decide)) (Finset.mem_erase_of_ne_of_mem (cell_ne (by decide))
      (Finset.mem_erase_of_ne_of_mem (cell_ne (by decide)) m3))),
    SparseCore.bigSep_erase' (Finset.mem_erase_of_ne_of_mem (cell_ne (by decide)) (Finset.mem_erase_of_ne_of_mem (cell_ne (by decide))
      (Finset.mem_erase_of_ne_of_mem (cell_ne (by decide)) (Finset.mem_erase_of_ne_of_mem (cell_ne (by decide)) m4))))]

abbrev bref (L : grid0.Coords) (b : Ref sig .scVector) : DevRef τ sig := (Proc.scVector (cV L) (jV L)).devRef b

theorem bref_ne (L : grid0.Coords) {a b : Ref sig .scVector} (h : a ≠ b) : bref L a ≠ bref L b :=
  fun e => h (Proc.devRef_injective _ e)
theorem bref_mem (L : grid0.Coords) (b : Ref sig .scVector) (h : (bref L b).owner = .proc (.scVector (cV L) (jV L))) :
    bref L b ∈ ownRefs (τ := τ) (sig := sig) (.scVector (cV L) (jV L)) :=
  SparseCore.Cfg.mem_ownRefs_of_owner (p := Proc.scVector (cV L) (jV L)) (b := bref L b) h

/-- The six scratch rows are among the subcore's own: they are them, at some contents, and the rest. -/
theorem ownBufs_V (d : Dev nD) (L : grid0.Coords) :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ (∃ f, (V d (cV L) (jV L)).loc cc0_scratch3 ↦{fullShare} f)
          ∗ (∃ f, (V d (cV L) (jV L)).loc cc0_scratch4 ↦{fullShare} f) ∗ (∃ f, (V d (cV L) (jV L)).loc cc0_scratch5 ↦{fullShare} f)
          ∗ bigSep (((((((ownRefs (τ := τ) (.scVector (cV L) (jV L))).erase (bref L cc0_scratch0)).erase (bref L cc0_scratch1)).erase (bref L cc0_scratch2)).erase
              (bref L cc0_scratch3)).erase (bref L cc0_scratch4)).erase (bref L cc0_scratch5))
              fun b => iprop(∃ f, ((d, b) : Loc nD τ sig) ↦{fullShare} f)) := by
  unfold SparseCore.Cfg.ownBufs
  have m0 := bref_mem L cc0_scratch0 rfl
  have m1 := bref_mem L cc0_scratch1 rfl
  have m2 := bref_mem L cc0_scratch2 rfl
  have m3 := bref_mem L cc0_scratch3 rfl
  have m4 := bref_mem L cc0_scratch4 rfl
  have m5 := bref_mem L cc0_scratch5 rfl
  refine (SparseCore.bigSep_erase' m0).trans ?_
  rw [SparseCore.bigSep_erase' (Finset.mem_erase_of_ne_of_mem (bref_ne L (by decide)) m1),
    SparseCore.bigSep_erase' (Finset.mem_erase_of_ne_of_mem (bref_ne L (by decide)) (Finset.mem_erase_of_ne_of_mem (bref_ne L (by decide)) m2)),
    SparseCore.bigSep_erase' (Finset.mem_erase_of_ne_of_mem (bref_ne L (by decide)) (Finset.mem_erase_of_ne_of_mem (bref_ne L (by decide))
      (Finset.mem_erase_of_ne_of_mem (bref_ne L (by decide)) m3))),
    SparseCore.bigSep_erase' (Finset.mem_erase_of_ne_of_mem (bref_ne L (by decide)) (Finset.mem_erase_of_ne_of_mem (bref_ne L (by decide))
      (Finset.mem_erase_of_ne_of_mem (bref_ne L (by decide)) (Finset.mem_erase_of_ne_of_mem (bref_ne L (by decide)) m4)))),
    SparseCore.bigSep_erase' (Finset.mem_erase_of_ne_of_mem (bref_ne L (by decide)) (Finset.mem_erase_of_ne_of_mem (bref_ne L (by decide))
      (Finset.mem_erase_of_ne_of_mem (bref_ne L (by decide)) (Finset.mem_erase_of_ne_of_mem (bref_ne L (by decide))
        (Finset.mem_erase_of_ne_of_mem (bref_ne L (by decide)) m5)))))]

theorem pts_s0 (d : Dev nD) (L : grid0.Coords) (f : Buf (Elt F) ((V d (cV L) (jV L)).loc cc0_scratch0)) :
    ((s0V).view.loc (V d (cV L) (jV L)) ↦{fullShare} f : sProp 𝕄) = (V d (cV L) (jV L)).loc cc0_scratch0 ↦{fullShare} f := rfl
theorem pts_s1 (d : Dev nD) (L : grid0.Coords) (f : Buf (Elt F) ((V d (cV L) (jV L)).loc cc0_scratch1)) :
    ((s1V).view.loc (V d (cV L) (jV L)) ↦{fullShare} f : sProp 𝕄) = (V d (cV L) (jV L)).loc cc0_scratch1 ↦{fullShare} f := rfl
theorem pts_s2 (d : Dev nD) (L : grid0.Coords) (f : Buf (Elt F) ((V d (cV L) (jV L)).loc cc0_scratch2)) :
    ((s2V).view.loc (V d (cV L) (jV L)) ↦{fullShare} f : sProp 𝕄) = (V d (cV L) (jV L)).loc cc0_scratch2 ↦{fullShare} f := rfl
theorem pts_s3 (d : Dev nD) (L : grid0.Coords) (f : Buf (Elt F) ((V d (cV L) (jV L)).loc cc0_scratch3)) :
    ((s3V).view.loc (V d (cV L) (jV L)) ↦{fullShare} f : sProp 𝕄) = (V d (cV L) (jV L)).loc cc0_scratch3 ↦{fullShare} f := rfl
theorem pts_s4 (d : Dev nD) (L : grid0.Coords) (f : Buf (Elt F) ((V d (cV L) (jV L)).loc cc0_scratch4)) :
    ((s4V).view.loc (V d (cV L) (jV L)) ↦{fullShare} f : sProp 𝕄) = (V d (cV L) (jV L)).loc cc0_scratch4 ↦{fullShare} f := rfl
theorem pts_s5 (d : Dev nD) (L : grid0.Coords) (f : Buf (Elt F) ((V d (cV L) (jV L)).loc cc0_scratch5)) :
    ((s5V).view.loc (V d (cV L) (jV L)) ↦{fullShare} f : sProp 𝕄) = (V d (cV L) (jV L)).loc cc0_scratch5 ↦{fullShare} f := rfl

/-! ## The two output rows as sets of lanes -/

theorem mem_oSet {a : Fin 2} {w : Fin 32} {j : S2x32x16.Idx} : j ∈ oSet a w ↔ (j 0).val = a.val ∧ (j 1).val = w.val := by
  simp [oSet]

theorem set_o0RowK (L : grid0.Coords) : (o0RowK L).view.set = oSet 0 (wL L) := by
  show (((View.whole (main_v5_scv : Ref sig .scVector)).slice (Rect.unit (s := S2x32x16) (k0_off2 L) S1x1x16.size (k0_off2_inb L))).reshape S16
    squeezes_S1x1x16_S16.numel_eq).set = _
  rw [View.set_reshape, View.set_slice_whole]
  ext j
  rw [Rect.mem_set_unit, k0_off2_eq]
  refine Iff.trans ?_ (mem_oSet (j := j)).symm
  simp only [wL]
  constructor
  · intro h
    have h0 := h 0; have h1 := h 1
    simp at h0 h1
    constructor <;> omega
  · intro ⟨h0, h1⟩ a
    have h2 : ((j 2 : Fin 16) : Nat) < 16 := (j 2).isLt
    match a with
    | 0 => simp; omega
    | 1 => simp; omega
    | 2 => simp; omega
theorem set_o1RowK (L : grid0.Coords) : (o1RowK L).view.set = oSet 1 (wL L) := by
  show (((View.whole (main_v5_scv : Ref sig .scVector)).slice (Rect.unit (s := S2x32x16) (k0_off3 L) S1x1x16.size (k0_off3_inb L))).reshape S16
    squeezes_S1x1x16_S16.numel_eq).set = _
  rw [View.set_reshape, View.set_slice_whole]
  ext j
  rw [Rect.mem_set_unit, k0_off3_eq]
  refine Iff.trans ?_ (mem_oSet (j := j)).symm
  simp only [wL]
  constructor
  · intro h
    have h0 := h 0; have h1 := h 1
    simp at h0 h1
    constructor <;> omega
  · intro ⟨h0, h1⟩ a
    have h2 : ((j 2 : Fin 16) : Nat) < 16 := (j 2).isLt
    match a with
    | 0 => simp; omega
    | 1 => simp; omega
    | 2 => simp; omega

theorem pts_o0RowK (d : Dev nD) (L : grid0.Coords) (f : Buf (Elt F) (oLoc d)) :
    ((o0RowK L).view.loc (V d (cV L) (jV L)) ↦[(o0RowK L).view.set]{fullShare} f : sProp 𝕄) = oLoc d ↦[oSet 0 (wL L)]{fullShare} f := by
  rw [set_o0RowK]
theorem pts_o1RowK (d : Dev nD) (L : grid0.Coords) (f : Buf (Elt F) (oLoc d)) :
    ((o1RowK L).view.loc (V d (cV L) (jV L)) ↦[(o1RowK L).view.set]{fullShare} f : sProp 𝕄) = oLoc d ↦[oSet 1 (wL L)]{fullShare} f := by
  rw [set_o1RowK]

theorem pts_univ_set {ℓ : Loc nD τ sig} {I : Finset (Idx ℓ)} (h : I = Finset.univ) (q : PosShare TreeShare) (f : Buf (Elt F) ℓ) :
    (ℓ ↦{q} f : sProp 𝕄) = ℓ ↦[I]{q} f := by rw [h]

/-! ## Blocks of sixteen lanes: what a load reads and a store writes -/

theorem lane_val (o : Nat) (ho : o + 16 ≤ 112) (y : S16.Idx) : ((Spec.lane o ho y) 0).val = o + (y 0).val := rfl

theorem put_lane {α : Type} (o : Nat) (ho : o + 16 ≤ 112) (f : S112.Idx → α) (w : S16.Idx → α) (y : S16.Idx) :
    Spec.put o ho f w (Spec.lane o ho y) = w y := by
  have hy : (y 0).val < 16 := (y 0).isLt
  have hc : o ≤ ((Spec.lane o ho y) 0).val ∧ ((Spec.lane o ho y) 0).val < o + 16 := by
    rw [lane_val]; omega
  unfold Spec.put
  rw [dif_pos hc]
  refine congrArg w ?_
  funext a
  match a with
  | ⟨0, _⟩ => exact Fin.ext (by show o + (y 0).val - o = (y 0).val; omega)

/-- The index a unit-stride block of sixteen of a 112-row names is the block's lane. -/
theorem idx_unit16 (o : Nat) (inb : ∀ a, (![o] : Fin 1 → Nat) a + S16.size a ≤ S112.size a) (ho : o + 16 ≤ 112) (y : S16.Idx) :
    (Rect.unit (s := S112) ![o] S16.size inb).toLoadRect.idx y = Spec.lane o ho y := by
  funext a
  match a with
  | ⟨0, _⟩ => exact Fin.ext (by show o + 1 * (y 0).val = o + (y 0).val; omega)

theorem emb_unit16 (o : Nat) (inb : ∀ a, (![o] : Fin 1 → Nat) a + S16.size a ≤ S112.size a) (ho : o + 16 ≤ 112) (y : S16.Idx) :
    (Rect.unit (s := S112) ![o] S16.size inb).emb y = Spec.lane o ho y := idx_unit16 o inb ho y

/-- A block of sixteen loaded through a view of a 112-row is the chunk of what the view reads. -/
theorem readAt_chunk {κ : Kind} {sp : Space} {e : EltTy} (v : View sig κ sp S112 e) (o : Nat)
    (inb : ∀ a, (![o] : Fin 1 → Nat) a + S16.size a ≤ S112.size a) (ho : o + 16 ≤ 112) (f : v.ty.Contents (Elt F)) :
    v.readAt (Elt F) (Rect.unit (s := S112) ![o] S16.size inb).toLoadRect f = Spec.chunk o ho (v.read (Elt F) f) := by
  funext y
  rw [View.readAt_apply, idx_unit16 o inb ho y]; rfl

/-- A block of sixteen stored through a view of a 112-row puts it into what the view reads. -/
theorem read_write_put {κ : Kind} {sp : Space} {e : EltTy} (v : View sig κ sp S112 e) (o : Nat)
    (inb : ∀ a, (![o] : Fin 1 → Nat) a + S16.size a ≤ S112.size a) (ho : o + 16 ≤ 112) (f : v.ty.Contents (Elt F)) (w : S16.Idx → Elt F e) :
    v.read (Elt F) ((v.slice (Rect.unit (s := S112) ![o] S16.size inb)).write (Elt F) f w Finset.univ) = Spec.put o ho (v.read (Elt F) f) w := by
  funext i
  by_cases hc : o ≤ (i 0).val ∧ (i 0).val < o + 16
  · have hi : i = (Rect.unit (s := S112) ![o] S16.size inb).emb (ValueIdx.ix1 ⟨(i 0).val - o, by omega⟩) := by
      rw [emb_unit16 o inb ho]
      funext a
      match a with
      | ⟨0, _⟩ => exact Fin.ext (by show (i 0).val = o + ((i 0).val - o); omega)
    have e1 : Spec.put o ho (v.read (Elt F) f) w i = w (ValueIdx.ix1 ⟨(i 0).val - o, by omega⟩) := by
      unfold Spec.put; rw [dif_pos hc]
    rw [e1]
    conv_lhs => rw [hi]
    exact View.read_slice_write_emb (Rect.unit (s := S112) ![o] S16.size inb) f w (Finset.mem_univ _)
  · have e1 : Spec.put o ho (v.read (Elt F) f) w i = v.read (Elt F) f i := by
      unfold Spec.put; rw [dif_neg hc]
    rw [e1]
    refine View.read_slice_write_of_not_mem (Rect.unit (s := S112) ![o] S16.size inb) f w Finset.univ ?_
    rw [Rect.map_emb_univ, Rect.mem_set_unit]
    intro h
    have h0 := h 0
    exact hc ⟨h0.1, h0.2⟩

/-! ## The subcore's row of a padded array, and the fetched entries -/

theorem read_tRowK (L : grid0.Coords) (tp : S3584.Idx → Elt F .i32) : (tRowK L).view.read (Elt F) tp = rowOf (wL L) tp := by
  funext k
  rw [View.read_apply]
  show tp ((tRowK L).view.emb k) = _
  unfold rowOf
  refine congrArg tp ?_
  funext a
  match a with
  | ⟨0, _⟩ =>
    refine Fin.ext ?_
    show (k0_off1 L) 0 + 1 * (k 0).val = 112 * (wL L).val + (k 0).val
    rw [k0_off1_eq]
    show 224 * (L 1).val + 112 * (L 0).val + 1 * (k 0).val = 112 * (2 * (L 1).val + (L 0).val) + (k 0).val
    omega

theorem read_kRowK (L : grid0.Coords) (mp : S3584.Idx → Elt F .f32) : (kRowK L).view.read (Elt F) mp = rowOf (wL L) mp := by
  funext k
  rw [View.read_apply]
  show mp ((kRowK L).view.emb k) = _
  unfold rowOf
  refine congrArg mp ?_
  funext a
  match a with
  | ⟨0, _⟩ =>
    refine Fin.ext ?_
    show (k0_off1 L) 0 + 1 * (k 0).val = 112 * (wL L).val + (k 0).val
    rw [k0_off1_eq]
    show 224 * (L 1).val + 112 * (L 0).val + 1 * (k 0).val = 112 * (2 * (L 1).val + (L 0).val) + (k 0).val
    omega

variable [FloatOps F]

/-- What the gather delivers: the flattened input at the row of flat positions. -/
theorem gatherPayload_fetched (xf : S32000000.Idx → Elt F .f32) (idx : S112.Idx → Elt F .i32)
    (hn : S112.numel = S112.size gathers_S32000000_S112.axis')
    (hin : ∀ x, (idx x).toNat < S32000000.size gathers_S32000000_S112.axis) :
    SparseCore.gatherPayload gathers_S32000000_S112 xf (SparseCore.rows idx hn hin) = fetched xf idx := by
  funext k
  unfold SparseCore.gatherPayload fetched xfAt
  have hk : (idx k).toNat < 32000000 := hin k
  rw [dif_pos hk]
  refine congrArg xf ?_
  funext a
  match a with
  | ⟨0, _⟩ =>
    refine Fin.ext ?_
    rw [Shape.Gathers.idx_axis]
    show (idx (S112.rowMajor.symm ((k 0).cast _))).toNat = (idx k).toNat
    congr 2
    rw [Equiv.symm_apply_eq]
    exact Fin.ext (Shape.rowMajor_val_one k).symm

/-- The row of flat positions as the seven stores leave it, over any earlier contents. -/
theorem read_idx_writes {κ : Kind} {sp : Space} (v : View sig κ sp S112 .i32) (L : grid0.Coords) (f : v.ty.Contents (Elt F)) (tr : S112.Idx → Elt F .i32) :
    v.read (Elt F) (v.writes (Elt F) f
      [⟨Rect.unit (s := S112) ![96] S16.size inb_S112_S16_96, k0_pay10 (F := F) (Spec.base L) Spec.lanes (Spec.chunk 96 (by omega) tr)⟩,
       ⟨Rect.unit (s := S112) ![80] S16.size inb_S112_S16_80, k0_pay9 (F := F) (k0_pay8 (Spec.base L) Spec.lanes) 10000#32 (Spec.chunk 80 (by omega) tr)⟩,
       ⟨Rect.unit (s := S112) ![64] S16.size inb_S112_S16_64, k0_pay7 (F := F) (Spec.base L) Spec.lanes (Spec.chunk 64 (by omega) tr)⟩,
       ⟨Rect.unit (s := S112) ![48] S16.size inb_S112_S16_48, k0_pay6 (F := F) (Spec.base L) Spec.lanes (Spec.chunk 48 (by omega) tr)⟩,
       ⟨Rect.unit (s := S112) ![32] S16.size inb_S112_S16_32, k0_pay5 (F := F) Spec.lanes (Scalar.addi (Spec.base L) 32#32) (Spec.chunk 32 (by omega) tr)⟩,
       ⟨Rect.unit (s := S112) ![16] S16.size inb_S112_S16_16, k0_pay4 (F := F) L (Spec.chunk 16 (by omega) tr)⟩,
       ⟨Rect.unit (s := S112) ![0] S16.size inb_S112_S16_0, k0_pay3 (F := F) L (Spec.chunk 0 (by omega) tr)⟩])
      = Spec.idxRow (F := F) L (v.read (Elt F) f) tr := by
  simp only [View.writes_cons, View.writes_nil]
  rw [read_write_put v 96 inb_S112_S16_96 (by omega), read_write_put v 80 inb_S112_S16_80 (by omega), read_write_put v 64 inb_S112_S16_64 (by omega),
    read_write_put v 48 inb_S112_S16_48 (by omega), read_write_put v 32 inb_S112_S16_32 (by omega), read_write_put v 16 inb_S112_S16_16 (by omega),
    read_write_put v 0 inb_S112_S16_0 (by omega)]
  rfl

/-- The same with each block of targets as a load through a view of the targets' row. -/
theorem read_idx_writes' {κ κ' : Kind} {sp sp' : Space} (v : View sig κ sp S112 .i32) (L : grid0.Coords) (f : v.ty.Contents (Elt F))
    (v1 : View sig κ' sp' S112 .i32) (g : v1.ty.Contents (Elt F)) :
    v.read (Elt F) (v.writes (Elt F) f
      [⟨Rect.unit (s := S112) ![96] S16.size inb_S112_S16_96, k0_pay10 (F := F) (Spec.base L) Spec.lanes (v1.readAt (Elt F) (Rect.unit (s := S112) ![96] S16.size inb_S112_S16_96).toLoadRect g)⟩,
       ⟨Rect.unit (s := S112) ![80] S16.size inb_S112_S16_80, k0_pay9 (F := F) (k0_pay8 (Spec.base L) Spec.lanes) 10000#32 (v1.readAt (Elt F) (Rect.unit (s := S112) ![80] S16.size inb_S112_S16_80).toLoadRect g)⟩,
       ⟨Rect.unit (s := S112) ![64] S16.size inb_S112_S16_64, k0_pay7 (F := F) (Spec.base L) Spec.lanes (v1.readAt (Elt F) (Rect.unit (s := S112) ![64] S16.size inb_S112_S16_64).toLoadRect g)⟩,
       ⟨Rect.unit (s := S112) ![48] S16.size inb_S112_S16_48, k0_pay6 (F := F) (Spec.base L) Spec.lanes (v1.readAt (Elt F) (Rect.unit (s := S112) ![48] S16.size inb_S112_S16_48).toLoadRect g)⟩,
       ⟨Rect.unit (s := S112) ![32] S16.size inb_S112_S16_32, k0_pay5 (F := F) Spec.lanes (Scalar.addi (Spec.base L) 32#32) (v1.readAt (Elt F) (Rect.unit (s := S112) ![32] S16.size inb_S112_S16_32).toLoadRect g)⟩,
       ⟨Rect.unit (s := S112) ![16] S16.size inb_S112_S16_16, k0_pay4 (F := F) L (v1.readAt (Elt F) (Rect.unit (s := S112) ![16] S16.size inb_S112_S16_16).toLoadRect g)⟩,
       ⟨Rect.unit (s := S112) ![0] S16.size inb_S112_S16_0, k0_pay3 (F := F) L (v1.readAt (Elt F) (Rect.unit (s := S112) ![0] S16.size inb_S112_S16_0).toLoadRect g)⟩])
      = Spec.idxRow (F := F) L (v.read (Elt F) f) (v1.read (Elt F) g) := by
  rw [readAt_chunk v1 96 inb_S112_S16_96 (by omega), readAt_chunk v1 80 inb_S112_S16_80 (by omega), readAt_chunk v1 64 inb_S112_S16_64 (by omega),
    readAt_chunk v1 48 inb_S112_S16_48 (by omega), readAt_chunk v1 32 inb_S112_S16_32 (by omega), readAt_chunk v1 16 inb_S112_S16_16 (by omega),
    readAt_chunk v1 0 inb_S112_S16_0 (by omega)]
  exact read_idx_writes v L f _

theorem read_xAllK (xf : S32000000.Idx → Elt F .f32) : (xAllK).view.read (Elt F) xf = xf := by
  funext k
  rw [View.read_apply]
  show xf ((xAllK).view.emb k) = xf k
  refine congrArg xf ?_
  funext a
  match a with
  | ⟨0, _⟩ => exact Fin.ext (by show 0 + 1 * (k 0).val = (k 0).val; omega)

/-- The sum of value times mask over the seven blocks, each block a load through a view of its row. -/
theorem accRow_of_loads {κ κ' : Kind} {sp sp' : Space} (v3 : View sig κ sp S112 .f32) (g3 : v3.ty.Contents (Elt F))
    (v2 : View sig κ' sp' S112 .f32) (g2 : v2.ty.Contents (Elt F)) :
    k0_pay1 (F := F) (k0_pay15
      (k0_pay12 (v3.readAt (Elt F) (Rect.unit (s := S112) ![0] S16.size inb_S112_S16_0).toLoadRect g3)
        (v2.readAt (Elt F) (Rect.unit (s := S112) ![0] S16.size inb_S112_S16_0).toLoadRect g2)
        (v3.readAt (Elt F) (Rect.unit (s := S112) ![16] S16.size inb_S112_S16_16).toLoadRect g3)
        (v2.readAt (Elt F) (Rect.unit (s := S112) ![16] S16.size inb_S112_S16_16).toLoadRect g2))
      (v3.readAt (Elt F) (Rect.unit (s := S112) ![32] S16.size inb_S112_S16_32).toLoadRect g3)
      (v2.readAt (Elt F) (Rect.unit (s := S112) ![32] S16.size inb_S112_S16_32).toLoadRect g2)
      (v3.readAt (Elt F) (Rect.unit (s := S112) ![48] S16.size inb_S112_S16_48).toLoadRect g3)
      (v2.readAt (Elt F) (Rect.unit (s := S112) ![48] S16.size inb_S112_S16_48).toLoadRect g2)
      (v3.readAt (Elt F) (Rect.unit (s := S112) ![64] S16.size inb_S112_S16_64).toLoadRect g3)
      (v2.readAt (Elt F) (Rect.unit (s := S112) ![64] S16.size inb_S112_S16_64).toLoadRect g2)
      (v3.readAt (Elt F) (Rect.unit (s := S112) ![80] S16.size inb_S112_S16_80).toLoadRect g3)
      (v2.readAt (Elt F) (Rect.unit (s := S112) ![80] S16.size inb_S112_S16_80).toLoadRect g2)
      (v3.readAt (Elt F) (Rect.unit (s := S112) ![96] S16.size inb_S112_S16_96).toLoadRect g3)
      (v2.readAt (Elt F) (Rect.unit (s := S112) ![96] S16.size inb_S112_S16_96).toLoadRect g2))
      = Spec.accRow (F := F) (v3.read (Elt F) g3) (v2.read (Elt F) g2) := by
  rw [readAt_chunk v3 0 inb_S112_S16_0 (by omega), readAt_chunk v3 16 inb_S112_S16_16 (by omega), readAt_chunk v3 32 inb_S112_S16_32 (by omega),
    readAt_chunk v3 48 inb_S112_S16_48 (by omega), readAt_chunk v3 64 inb_S112_S16_64 (by omega), readAt_chunk v3 80 inb_S112_S16_80 (by omega),
    readAt_chunk v3 96 inb_S112_S16_96 (by omega),
    readAt_chunk v2 0 inb_S112_S16_0 (by omega), readAt_chunk v2 16 inb_S112_S16_16 (by omega), readAt_chunk v2 32 inb_S112_S16_32 (by omega),
    readAt_chunk v2 48 inb_S112_S16_48 (by omega), readAt_chunk v2 64 inb_S112_S16_64 (by omega), readAt_chunk v2 80 inb_S112_S16_80 (by omega),
    readAt_chunk v2 96 inb_S112_S16_96 (by omega)]
  rfl

/-- The sum of the mask over the seven blocks, each block a load through a view of its row. -/
theorem maccRow_of_loads {κ' : Kind} {sp' : Space} (v2 : View sig κ' sp' S112 .f32) (g2 : v2.ty.Contents (Elt F)) :
    k0_pay2 (F := F) (k0_pay14
        (k0_pay11 (v2.readAt (Elt F) (Rect.unit (s := S112) ![0] S16.size inb_S112_S16_0).toLoadRect g2))
        (k0_pay13 (v2.readAt (Elt F) (Rect.unit (s := S112) ![16] S16.size inb_S112_S16_16).toLoadRect g2))
        (v2.readAt (Elt F) (Rect.unit (s := S112) ![32] S16.size inb_S112_S16_32).toLoadRect g2)
        (v2.readAt (Elt F) (Rect.unit (s := S112) ![48] S16.size inb_S112_S16_48).toLoadRect g2)
        (v2.readAt (Elt F) (Rect.unit (s := S112) ![64] S16.size inb_S112_S16_64).toLoadRect g2)
        (v2.readAt (Elt F) (Rect.unit (s := S112) ![80] S16.size inb_S112_S16_80).toLoadRect g2))
      (k0_pay16 (v2.readAt (Elt F) (Rect.unit (s := S112) ![96] S16.size inb_S112_S16_96).toLoadRect g2))
      = Spec.maccRow (F := F) (v2.read (Elt F) g2) := by
  rw [readAt_chunk v2 0 inb_S112_S16_0 (by omega), readAt_chunk v2 16 inb_S112_S16_16 (by omega), readAt_chunk v2 32 inb_S112_S16_32 (by omega),
    readAt_chunk v2 48 inb_S112_S16_48 (by omega), readAt_chunk v2 64 inb_S112_S16_64 (by omega), readAt_chunk v2 80 inb_S112_S16_80 (by omega),
    readAt_chunk v2 96 inb_S112_S16_96 (by omega)]
  rfl

/-! ## Where the lanes of an output row lie -/

theorem emb_o0RowK (L : grid0.Coords) (y : S16.Idx) : (o0RowK L).view.emb y = oIx 0 (wL L) y := by
  have hy : (y 0).val < 16 := (y 0).isLt
  have hr : Shape.reshapeEquiv squeezes_S1x1x16_S16.numel_eq y = (ValueIdx.ix3 (0 : Fin 1) (0 : Fin 1) (y 0) : S1x1x16.Idx) :=
    Shape.reshapeEquiv_eq_of_rowMajor _ (by
      rw [Shape.rowMajor_val_one, Shape.rowMajor_val_three]; simp)
  show (Rect.unit (s := S2x32x16) (k0_off2 L) S1x1x16.size (k0_off2_inb L)).emb (Shape.reshapeEquiv squeezes_S1x1x16_S16.numel_eq y) = _
  rw [hr]
  funext a
  refine Fin.ext ?_
  show (k0_off2 L) a + 1 * ((ValueIdx.ix3 (0 : Fin 1) (0 : Fin 1) (y 0) : S1x1x16.Idx) a).val = ((oIx 0 (wL L) y) a).val
  rw [k0_off2_eq]
  match a with
  | ⟨0, _⟩ => rfl
  | ⟨1, _⟩ => show 2 * (L 1).val + (L 0).val + 1 * 0 = 2 * (L 1).val + (L 0).val; omega
  | ⟨2, _⟩ => show 0 + 1 * (y 0).val = (y 0).val; omega

theorem emb_o1RowK (L : grid0.Coords) (y : S16.Idx) : (o1RowK L).view.emb y = oIx 1 (wL L) y := by
  have hy : (y 0).val < 16 := (y 0).isLt
  have hr : Shape.reshapeEquiv squeezes_S1x1x16_S16.numel_eq y = (ValueIdx.ix3 (0 : Fin 1) (0 : Fin 1) (y 0) : S1x1x16.Idx) :=
    Shape.reshapeEquiv_eq_of_rowMajor _ (by
      rw [Shape.rowMajor_val_one, Shape.rowMajor_val_three]; simp)
  show (Rect.unit (s := S2x32x16) (k0_off3 L) S1x1x16.size (k0_off3_inb L)).emb (Shape.reshapeEquiv squeezes_S1x1x16_S16.numel_eq y) = _
  rw [hr]
  funext a
  refine Fin.ext ?_
  show (k0_off3 L) a + 1 * ((ValueIdx.ix3 (0 : Fin 1) (0 : Fin 1) (y 0) : S1x1x16.Idx) a).val = ((oIx 1 (wL L) y) a).val
  rw [k0_off3_eq]
  match a with
  | ⟨0, _⟩ => rfl
  | ⟨1, _⟩ => show 2 * (L 1).val + (L 0).val + 1 * 0 = 2 * (L 1).val + (L 0).val; omega
  | ⟨2, _⟩ => show 0 + 1 * (y 0).val = (y 0).val; omega

/-- An output row written whole holds the written lanes. -/
theorem o0_written (L : grid0.Coords) (f : S2x32x16.Idx → Elt F .f32) (w : S16.Idx → Elt F .f32) (y : S16.Idx) :
    ((o0RowK L).view.writes (Elt F) f [⟨Rect.whole S16, w⟩]) (oIx 0 (wL L) y) = w y := by
  have h := View.read_writes_cons_emb (o0RowK L).view f (Rect.whole S16) w [] y
  rw [Rect.emb_whole_apply, View.read_apply, emb_o0RowK] at h
  exact h
theorem o1_written (L : grid0.Coords) (f : S2x32x16.Idx → Elt F .f32) (w : S16.Idx → Elt F .f32) (y : S16.Idx) :
    ((o1RowK L).view.writes (Elt F) f [⟨Rect.whole S16, w⟩]) (oIx 1 (wL L) y) = w y := by
  have h := View.read_writes_cons_emb (o1RowK L).view f (Rect.whole S16) w [] y
  rw [Rect.emb_whole_apply, View.read_apply, emb_o1RowK] at h
  exact h

/-- A sixteen-lane scratch row stored whole reads back what was stored. -/
theorem read_writes_s16 {κ : Kind} {sp : Space} (v : View sig κ sp S16 .f32) (f : v.ty.Contents (Elt F)) (w : S16.Idx → Elt F .f32) :
    v.read (Elt F) (v.writes (Elt F) f [⟨Rect.unit (s := S16) ![0] ![16] inb_S16_S16_0, w⟩]) = w := by
  funext y
  have h := View.read_writes_cons_emb v f (Rect.unit (s := S16) ![0] ![16] inb_S16_S16_0) w [] y
  have e : (Rect.unit (s := S16) ![0] ![16] inb_S16_S16_0).emb y = y := by
    funext a
    match a with
    | ⟨0, _⟩ => exact Fin.ext (by show 0 + 1 * (y 0).val = (y 0).val; omega)
  rw [e] at h
  exact h

set_option maxHeartbeats 4000000 in
set_option maxRecDepth 16384 in
/-- The body on the vector subcore at grid point `L` of device `d`: the two copies in and their waits, the seven
    blocks of flat positions, the fetch of the input's entries at them and its wait, the two rows of partial sums and
    their copies out. The arrays it reads come back unchanged; its two output rows come back holding the sums. -/
theorem tile_body (hF : (K (F := F)).Facts) (d : Dev nD) (L : grid0.Coords)
    (xf : Buf (Elt F) (xLoc d)) (tp : Buf (Elt F) (tLoc d)) (mp : Buf (Elt F) (kLoc d)) (o0 : Buf (Elt F) (oLoc d))
    (qx qt qk : PosShare TreeShare)
    (hin : ∀ (i0 : S112.Idx → Elt F .i32) (k : S112.Idx), (Spec.idxRow (F := F) L i0 (rowOf (wL L) tp) k).toNat < 32000000)
    (O : CellTallies nD τ sig (HIx 1)) (W : Waits sig (HIx 1)) (hO : ∀ g, O g none = 0) :
    (iprop(levAts (K (F := F)).L (K (F := F)).lev ∗ emp
        ∗ ((xLoc d ↦{qx} xf) ∗ (tLoc d ↦{qt} tp) ∗ (kLoc d ↦{qk} mp) ∗ (oLoc d ↦[oSet 0 (wL L)]{fullShare} o0) ∗ (oLoc d ↦[oSet 1 (wL L)]{fullShare} o0))
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc0_k L xV (Memref.isWhole_whole _) tV (Memref.isWhole_whole _) kV (Memref.isWhole_whole _) oV (Memref.isWhole_whole _)
            s0V (Memref.isWhole_whole _) s1V (Memref.isWhole_whole _) s2V (Memref.isWhole_whole _) s3V (Memref.isWhole_whole _)
            s4V (Memref.isWhole_whole _) s5V (Memref.isWhole_whole _) cc0_scoped0 cc0_scoped1 cc0_scoped2 cc0_scoped3 cc0_scoped4)
          fun _ => iprop(((xLoc d ↦{qx} xf) ∗ (tLoc d ↦{qt} tp) ∗ (kLoc d ↦{qk} mp)
              ∗ (∃ f, ⌜∃ i0, ∀ y : S16.Idx, f (oIx 0 (wL L) y) = accOut L (wL L) xf tp mp i0 y⌝ ∗ oLoc d ↦[oSet 0 (wL L)]{fullShare} f)
              ∗ (∃ f, ⌜∀ y : S16.Idx, f (oIx 1 (wL L) y) = maccOut (wL L) mp y⌝ ∗ oLoc d ↦[oSet 1 (wL L)]{fullShare} f))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_k_eq_skeleton]; unfold cc0_k_skel
  simp only [k0_part1_eq_skeleton, k0_part2_eq_skeleton, k0_part3_eq_skeleton, k0_part4_eq_skeleton]
  unfold k0_part1_skel k0_part2_skel k0_part3_skel k0_part4_skel
  rw [(K (F := F)).scopedBufs_V hF d (cV L) (jV L), SparseCore.Cfg.scopedSems0_V (Val := Elt F) d (cV L) (jV L), ownSems0_V, ownBufs_V]
  iintro ⟨#Hlv, -, ⟨Hx, Ht, Hk, Ho0, Ho1⟩, ⟨⟨%f0, Hs0⟩, ⟨%f1, Hs1⟩, ⟨%f2, Hs2⟩, ⟨%f3, Hs3⟩, ⟨%f4, Hs4⟩, ⟨%f5, Hs5⟩, Hbufs⟩,
    ⟨Hsem0, Hsem1, Hsem2, Hsem3, Hsem4, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hx' := (Entails.of_eq (pts_xV (F := F) d L _ _).symm) $$ Hx
  ihave Ht' := (Entails.of_eq (pts_tV (F := F) d L _ _).symm) $$ Ht
  ihave Hk' := (Entails.of_eq (pts_kV (F := F) d L _ _).symm) $$ Hk
  ihave Ho0' := (Entails.of_eq (pts_o0RowK (F := F) d L _).symm) $$ Ho0
  ihave Ho1' := (Entails.of_eq (pts_o1RowK (F := F) d L _).symm) $$ Ho1
  ihave Hs0' := (Entails.of_eq (pts_s0 (F := F) d L _).symm) $$ Hs0
  ihave Hs1' := (Entails.of_eq (pts_s1 (F := F) d L _).symm) $$ Hs1
  ihave Hs2' := (Entails.of_eq (pts_s2 (F := F) d L _).symm) $$ Hs2
  ihave Hs3' := (Entails.of_eq (pts_s3 (F := F) d L _).symm) $$ Hs3
  ihave Hs4' := (Entails.of_eq (pts_s4 (F := F) d L _).symm) $$ Hs4
  ihave Hs5' := (Entails.of_eq (pts_s5 (F := F) d L _).symm) $$ Hs5
  sl_exec
  -- the gather of the flattened input at the row of flat positions
  ihave Hxs := (pointsTo_split_subset (q := qx) (f := xf) (S := Finset.univ) (Finset.subset_univ (xAllK).view.set)).1 $$ Hx'
  icases Hxs with ⟨Hxs, Hxr⟩
  have hs3 : (s3V).view.set = Finset.univ := View.set_whole _
  have hs0 : (s0V).view.set = Finset.univ := View.set_whole _
  ihave Hs3'' := (Entails.of_eq (pts_univ_set (F := F) hs3 _ _)) $$ Hs3'
  ihave Hs0'' := (Entails.of_eq (pts_univ_set (F := F) hs0 _ _)) $$ Hs0'
  have hN : ∀ h : S32000000.Gathers 0 S112, ∑ j, ((s3V).slice (S112.rowRect h.axis' j) (S112.stride_rowRect h.axis' j)).view.dmaCredit
      = (s3V).view.dmaCredit := by decide
  have hread : (s0V).view.read (Elt F) ((s0V).view.writes (Elt F) (s0V).view.junk (tile_body.sl.Hs0'_7 d L tp f1))
      = Spec.idxRow (F := F) L ((s0V).view.read (Elt F) (s0V).view.junk) (rowOf (wL L) tp) :=
    (read_idx_writes' (F := F) (s0V).view L (s0V).view.junk (s1V).view
        (View.write (Elt F) (s1V).view f1 (tile_body.sl.dma0 d L tp) Finset.univ)).trans
      (by rw [View.read_write_univ]; exact congrArg _ (read_tRowK (F := F) L tp))
  have hin' : ∀ x, ((s0V).view.read (Elt F) ((s0V).view.writes (Elt F) (s0V).view.junk (tile_body.sl.Hs0'_7 d L tp f1)) x).toNat
      < S32000000.size gathers_S32000000_S112.axis := fun x => by
    rw [hread]; exact hin _ x
  iapply (SparseCore.wp_indirectGatherLocal countersEmb 𝒱₀ (V d (cV L) (jV L)) none (hg := gathers_S32000000_S112) (default : HIx 1)
      (s3V).view.dmaCredit (hN _) (by decide) hin') $$ [Hxs Hs3'' Hs0'' Hsem2]
  · isplitl [Hxs]; · iexact Hxs
    isplitl [Hs3'']; · iexact Hs3''
    isplitl [Hs0'']; · iexact Hs0''
    iexact Hsem2
  iintro Hfl
  sl_exec
  iapply (Transfers.wp_waitLocalO countersEmb 𝒱₀ (V d (cV L) (jV L)) none (default : HIx 1) (rfl : (s3V).view.dmaCredit = _)) $$ [Hfl HO]
  · isplitl [Hfl]; · iexact Hfl
    isplitl [HO]; · iexact HO
    iapply (Transfers.MayWaits.elim (SemLoc.dma cc0_scoped2.sem)) $$ Hmw
  iintro ⟨⟨Hs3', Hxs, Hs0'⟩, Hsem2, HO⟩
  ihave Hx' := (pointsTo_split_subset (q := qx) (f := xf) (S := Finset.univ) (Finset.subset_univ (xAllK).view.set)).2 $$ [Hxs Hxr]; · isplitl [Hxs] <;> iassumption
  ihave Hs3a := (Entails.of_eq (pts_univ_set (F := F) hs3 _ _).symm) $$ Hs3'
  ihave Hs0a := (Entails.of_eq (pts_univ_set (F := F) hs0 _ _).symm) $$ Hs0'
  sl_exec
  -- what the two output rows hold
  have hn' : S112.numel = S112.size gathers_S32000000_S112.axis' := by decide
  have hB : (s2V).view.read (Elt F) (View.write (Elt F) (s2V).view f2 (tile_body.sl.dma0_1 d L mp) Finset.univ) = rowOf (wL L) mp :=
    (View.read_write_univ _ _).trans (read_kRowK (F := F) L mp)
  have hv0 : ∀ y : S16.Idx, ((o0RowK L).view.writes (Elt F) o0 [⟨Rect.whole S16, tile_body.sl.dma25 d L xf tp mp f1 f2 f3 f4 hin'⟩]) (oIx 0 (wL L) y)
      = accOut L (wL L) xf tp mp ((s0V).view.read (Elt F) (s0V).view.junk) y := by
    intro y
    have e1 : tile_body.sl.dma25 d L xf tp mp f1 f2 f3 f4 hin'
        = Spec.accRow (F := F)
            ((s3V).view.read (Elt F) (View.write (Elt F) (s3V).view f3
              (SparseCore.gatherPayload gathers_S32000000_S112 ((xAllK).view.read (Elt F) xf)
                (SparseCore.rows ((s0V).view.read (Elt F) ((s0V).view.writes (Elt F) (s0V).view.junk (tile_body.sl.Hs0'_7 d L tp f1))) hn' hin'))
              Finset.univ))
            ((s2V).view.read (Elt F) (View.write (Elt F) (s2V).view f2 (tile_body.sl.dma0_1 d L mp) Finset.univ)) := by
      unfold tile_body.sl.dma25 tile_body.sl.Hs4'_1 tile_body.sl.v95 tile_body.sl.v102 tile_body.sl.v111 tile_body.sl.v120 tile_body.sl.v129
        tile_body.sl.v138 tile_body.sl.v147
      rw [ReadAs.apply_same, read_writes_s16]
      dsimp only
      exact accRow_of_loads (F := F) (s3V).view _ (s2V).view _
    rw [o0_written, e1, hB, View.read_write_univ, read_xAllK, gatherPayload_fetched, hread]
    rfl
  have hv1 : ∀ y : S16.Idx, ((o1RowK L).view.writes (Elt F) o0 [⟨Rect.whole S16, tile_body.sl.dma25_1 d L xf tp mp f1 f2 f3 f5 hin'⟩]) (oIx 1 (wL L) y)
      = maccOut (wL L) mp y := by
    intro y
    have e2 : tile_body.sl.dma25_1 d L xf tp mp f1 f2 f3 f5 hin'
        = Spec.maccRow (F := F) ((s2V).view.read (Elt F) (View.write (Elt F) (s2V).view f2 (tile_body.sl.dma0_1 d L mp) Finset.univ)) := by
      unfold tile_body.sl.dma25_1 tile_body.sl.Hs5'_1
      rw [ReadAs.apply_same, read_writes_s16]
      dsimp only
      exact maccRow_of_loads (F := F) (s2V).view _
    rw [o1_written, e2, hB]
    rfl
  sl_step
  isplitl [Hx' Ht' Hk' Ho0' Ho1']
  · isplitl [Hx']; · iexact Hx'
    isplitl [Ht']; · iexact Ht'
    isplitl [Hk']; · iexact Hk'
    isplitl [Ho0']
    · iexists _; isplitr
      · ipureintro; exact ⟨_, hv0⟩
      · iapply (Entails.of_eq (pts_o0RowK (F := F) d L _)); iexact Ho0'
    · iexists _; isplitr
      · ipureintro; exact hv1
      · iapply (Entails.of_eq (pts_o1RowK (F := F) d L _)); iexact Ho1'
  isplitl [Hs0a Hs1' Hs2' Hs3a Hs4' Hs5' Hbufs]
  · isplitl [Hs0a]; · iexists _; iexact Hs0a
    isplitl [Hs1']; · iexists _; iexact Hs1'
    isplitl [Hs2']; · iexists _; iexact Hs2'
    isplitl [Hs3a]; · iexists _; iexact Hs3a
    isplitl [Hs4']; · iexists _; iexact Hs4'
    isplitl [Hs5']; · iexists _; iexact Hs5'
    iexact Hbufs
  isplitl [Hsem0 Hsem1 Hsem2 Hsem3 Hsem4 Hsems]
  · isplitl [Hsem0]; · iexact Hsem0
    isplitl [Hsem1]; · iexact Hsem1
    isplitl [Hsem2]; · iexact Hsem2
    isplitl [Hsem3]; · iexact Hsem3
    isplitl [Hsem4]; · iexact Hsem4
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

/-- The same with the two rows' contents forgotten. -/
theorem tile_body_frame (hF : (K (F := F)).Facts) (d : Dev nD) (L : grid0.Coords)
    (xf : Buf (Elt F) (xLoc d)) (tp : Buf (Elt F) (tLoc d)) (mp : Buf (Elt F) (kLoc d)) (o0 : Buf (Elt F) (oLoc d))
    (qx qt qk : PosShare TreeShare)
    (hin : ∀ (i0 : S112.Idx → Elt F .i32) (k : S112.Idx), (Spec.idxRow (F := F) L i0 (rowOf (wL L) tp) k).toNat < 32000000)
    (O : CellTallies nD τ sig (HIx 1)) (W : Waits sig (HIx 1)) (hO : ∀ g, O g none = 0) :
    (iprop(levAts (K (F := F)).L (K (F := F)).lev ∗ emp
        ∗ ((xLoc d ↦{qx} xf) ∗ (tLoc d ↦{qt} tp) ∗ (kLoc d ↦{qk} mp) ∗ (oLoc d ↦[oSet 0 (wL L)]{fullShare} o0) ∗ (oLoc d ↦[oSet 1 (wL L)]{fullShare} o0))
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc0_k L xV (Memref.isWhole_whole _) tV (Memref.isWhole_whole _) kV (Memref.isWhole_whole _) oV (Memref.isWhole_whole _)
            s0V (Memref.isWhole_whole _) s1V (Memref.isWhole_whole _) s2V (Memref.isWhole_whole _) s3V (Memref.isWhole_whole _)
            s4V (Memref.isWhole_whole _) s5V (Memref.isWhole_whole _) cc0_scoped0 cc0_scoped1 cc0_scoped2 cc0_scoped3 cc0_scoped4)
          fun _ => iprop(((xLoc d ↦{qx} xf) ∗ (tLoc d ↦{qt} tp) ∗ (kLoc d ↦{qk} mp)
              ∗ (∃ f, oLoc d ↦[oSet 0 (wL L)]{fullShare} f)
              ∗ (∃ f, oLoc d ↦[oSet 1 (wL L)]{fullShare} f))
            ∗ scopedBufs (V d (cV L) (jV L)) ∗ scopedSems0 (V d (cV L) (jV L))
            ∗ ∃ W', ⌜∀ p ∈ W', p ∈ W ∨ p.2 = none⌝ ∗ owes (V d (cV L) (jV L)) O W') :=
  (tile_body hF d L xf tp mp o0 qx qt qk hin O W hO).trans (wp_mono frame _ _ fun _ => by
    iintro ⟨⟨Hx, Ht, Hk, ⟨%f, %_hf, Ho0⟩, ⟨%g, %_hg, Ho1⟩⟩, Hb, Hs, HW⟩
    isplitl [Hx Ht Hk Ho0 Ho1]
    · isplitl [Hx]; · iexact Hx
      isplitl [Ht]; · iexact Ht
      isplitl [Hk]; · iexact Hk
      isplitl [Ho0]
      · iexists f; iexact Ho0
      · iexists g; iexact Ho1
    isplitl [Hb]; · iexact Hb
    isplitl [Hs]; · iexact Hs
    iexact HW)

end Cert.Proof.KB

end
-- ==== Proof.IndexRowB.lean ====
/-
  The flat positions a vector subcore forms, as natural numbers: entry k of the index row of worker
  w = 2·tile + core is min(10000·(112·w + k) + target k, 31999999). All 32-bit arithmetic stays below 2^31
  (the largest value is 10000·3583 + 9999 = 35839999), so the words' natural-number values add and multiply
  without wrapping and the signed minimum is the minimum of the values.
-/
import proofs.«209899_g60301340836213_cont_9to1c4b_660_2_alg».proof.Proof.SpecB
import Idealize.ShloMosaic.Lib.Pipeline.Value

noncomputable section

namespace Cert.Kernel.Spec

open Idealize.ShloMosaic Idealize.ShloMosaic.ValueIdx Cert.Kernel Cert.Kernel.Gen

variable {F : FTy → Type} [FloatOps F]

/-- The signed minimum of two words below 2^31 is the minimum of their values. -/
theorem minsi_toNat (x y : BitVec 32) (hx : x.toNat < 2 ^ 31) (hy : y.toNat < 2 ^ 31) :
    (IntOp.minsi x y).toNat = min x.toNat y.toNat := by
  unfold IntOp.minsi
  have hxi : x.toInt = (x.toNat : Int) := by rw [BitVec.toInt_eq_toNat_cond]; split <;> omega
  have hyi : y.toInt = (y.toNat : Int) := by rw [BitVec.toInt_eq_toNat_cond]; split <;> omega
  by_cases h : x.slt y
  · rw [if_pos h]
    have : x.toInt < y.toInt := by simpa [BitVec.slt] using h
    omega
  · rw [if_neg h]
    have : ¬ x.toInt < y.toInt := by simpa [BitVec.slt] using h
    omega

/-- One entry of a block of the index row: the block starts at row position `o`, the lane is `yv`, the target `t`. -/
def entry (b t : BitVec 32) (yv : Nat) : BitVec 32 :=
  IntOp.minsi (IntOp.addi (IntOp.muli (IntOp.addi b (BitVec.ofNat 32 yv)) 10000#32) t) 31999999#32

/-- The value of the first position of a subcore's row. -/
theorem base_toNat (L : grid0.Coords) : (base L).toNat = 112 * (2 * (L 1).val + (L 0).val) := by
  have h0 : (L 0).val < 2 := (L 0).isLt
  have h1 : (L 1).val < 16 := (L 1).isLt
  unfold base Scalar.muli Scalar.addi IntOp.muli IntOp.addi
  simp only [BitVec.toNat_mul, BitVec.toNat_add, BitVec.toNat_ofNat]
  omega

/-- The value of one entry. -/
theorem entry_toNat (b t : BitVec 32) (o yv : Nat) (B : Nat) (hb : b.toNat = B) (hB : B ≤ 3472) (ho : o ≤ 96) (hy : yv < 16)
    (ht : t.toNat ≤ 9999) :
    (entry (IntOp.addi b (BitVec.ofNat 32 o)) t yv).toNat = min (10000 * (B + o + yv) + t.toNat) 31999999 := by
  unfold entry
  have e : (IntOp.addi (IntOp.muli (IntOp.addi (IntOp.addi b (BitVec.ofNat 32 o)) (BitVec.ofNat 32 yv)) 10000#32) t).toNat
      = 10000 * (B + o + yv) + t.toNat := by
    unfold IntOp.muli IntOp.addi
    simp only [BitVec.toNat_mul, BitVec.toNat_add, BitVec.toNat_ofNat, hb]
    omega
  rw [minsi_toNat _ _ (by rw [e]; omega) (by decide), e]
  rfl

/-! ## The seven blocks' payloads at a lane -/

theorem lanes_apply (y : S16.Idx) : lanes y = BitVec.ofNat 32 (y 0).val := by
  unfold lanes; exact iota_single_apply _ _ _ _ _ y

theorem pay3_apply (L : grid0.Coords) (v : Vec F S16 .i32) (y : S16.Idx) :
    k0_pay3 (F := F) L v y = entry (IntOp.addi (base L) (BitVec.ofNat 32 0)) (v y) (y 0).val := by
  simp only [k0_pay3, shapeCast_self]
  show IntOp.minsi (IntOp.addi (IntOp.muli (IntOp.addi _ (iota .scVector S16 32 [0] iota_S16_d0_w32_scVector y)) _) _) _ = _
  rw [iota_single_apply]; rfl

theorem pay4_apply (L : grid0.Coords) (v : Vec F S16 .i32) (y : S16.Idx) :
    k0_pay4 (F := F) L v y = entry (IntOp.addi (base L) (BitVec.ofNat 32 16)) (v y) (y 0).val := by
  simp only [k0_pay4, shapeCast_self]
  show IntOp.minsi (IntOp.addi (IntOp.muli (IntOp.addi _ (iota .scVector S16 32 [0] iota_S16_d0_w32_scVector y)) _) _) _ = _
  rw [iota_single_apply]; rfl

theorem pay5_apply (L : grid0.Coords) (v : Vec F S16 .i32) (y : S16.Idx) :
    k0_pay5 (F := F) lanes (Scalar.addi (base L) 32#32) v y = entry (IntOp.addi (base L) (BitVec.ofNat 32 32)) (v y) (y 0).val := by
  simp only [k0_pay5, shapeCast_self]
  show IntOp.minsi (IntOp.addi (IntOp.muli (IntOp.addi _ (lanes y)) _) _) _ = _
  rw [lanes_apply]; rfl

theorem pay6_apply (L : grid0.Coords) (v : Vec F S16 .i32) (y : S16.Idx) :
    k0_pay6 (F := F) (base L) lanes v y = entry (IntOp.addi (base L) (BitVec.ofNat 32 48)) (v y) (y 0).val := by
  simp only [k0_pay6, shapeCast_self]
  show IntOp.minsi (IntOp.addi (IntOp.muli (IntOp.addi _ (lanes y)) _) _) _ = _
  rw [lanes_apply]; rfl

theorem pay7_apply (L : grid0.Coords) (v : Vec F S16 .i32) (y : S16.Idx) :
    k0_pay7 (F := F) (base L) lanes v y = entry (IntOp.addi (base L) (BitVec.ofNat 32 64)) (v y) (y 0).val := by
  simp only [k0_pay7, shapeCast_self]
  show IntOp.minsi (IntOp.addi (IntOp.muli (IntOp.addi _ (lanes y)) _) _) _ = _
  rw [lanes_apply]; rfl

theorem pay9_apply (L : grid0.Coords) (v : Vec F S16 .i32) (y : S16.Idx) :
    k0_pay9 (F := F) (k0_pay8 (base L) lanes) 10000#32 v y = entry (IntOp.addi (base L) (BitVec.ofNat 32 80)) (v y) (y 0).val := by
  simp only [k0_pay9, k0_pay8, shapeCast_self]
  show IntOp.minsi (IntOp.addi (IntOp.muli (IntOp.addi _ (lanes y)) _) _) _ = _
  rw [lanes_apply]; rfl

theorem pay10_apply (L : grid0.Coords) (v : Vec F S16 .i32) (y : S16.Idx) :
    k0_pay10 (F := F) (base L) lanes v y = entry (IntOp.addi (base L) (BitVec.ofNat 32 96)) (v y) (y 0).val := by
  simp only [k0_pay10, shapeCast_self]
  show IntOp.minsi (IntOp.addi (IntOp.muli (IntOp.addi _ (lanes y)) _) _) _ = _
  rw [lanes_apply]; rfl

/-- A block of a row read at a lane is the row at the block's start plus the lane. -/
theorem chunk_sub {α : Type} (o : Nat) (ho : o + 16 ≤ 112) (f : S112.Idx → α) (k : S112.Idx) (h1 : o ≤ (k 0).val)
    (h2 : (k 0).val < o + 16) : chunk o ho f (ix1 ⟨(k 0).val - o, by omega⟩) = f k := by
  unfold chunk lane
  refine congrArg f (funext fun d => ?_)
  match d with
  | ⟨0, _⟩ => exact Fin.ext (by show o + ((k 0).val - o) = (k 0).val; omega)

/-- Entry `k` of the index row, as a natural number. -/
theorem idxRow_toNat (L : grid0.Coords) (i0 tr : Vec F S112 .i32) (ht : ∀ k, (tr k).toNat ≤ 9999) (k : S112.Idx) :
    (idxRow (F := F) L i0 tr k).toNat
      = min (10000 * (112 * (2 * (L 1).val + (L 0).val) + (k 0).val) + (tr k).toNat) 31999999 := by
  have h0 : (L 0).val < 2 := (L 0).isLt
  have h1 : (L 1).val < 16 := (L 1).isLt
  have hk : (k 0).val < 112 := (k 0).isLt
  have hB := base_toNat L
  have key : ∀ (o : Nat) (ho : o + 16 ≤ 112) (h1 : o ≤ (k 0).val) (h2 : (k 0).val < o + 16),
      (entry (IntOp.addi (base L) (BitVec.ofNat 32 o)) (chunk o ho tr (ix1 ⟨(k 0).val - o, by omega⟩)) ((k 0).val - o)).toNat
        = min (10000 * (112 * (2 * (L 1).val + (L 0).val) + (k 0).val) + (tr k).toNat) 31999999 := by
    intro o ho h1 h2
    rw [chunk_sub o ho tr k h1 h2, entry_toNat (base L) (tr k) o ((k 0).val - o) _ hB (by omega) (by omega) (by omega) (ht k)]
    congr 2
    omega
  unfold idxRow
  simp only [put]
  split_ifs with c6 c5 c4 c3 c2 c1 c0
  · rw [pay10_apply]; exact key 96 (by omega) c6.1 c6.2
  · rw [pay9_apply]; exact key 80 (by omega) c5.1 c5.2
  · rw [pay7_apply]; exact key 64 (by omega) c4.1 c4.2
  · rw [pay6_apply]; exact key 48 (by omega) c3.1 c3.2
  · rw [pay5_apply]; exact key 32 (by omega) c2.1 c2.2
  · rw [pay4_apply]; exact key 16 (by omega) c1.1 c1.2
  · rw [pay3_apply]; exact key 0 (by omega) c0.1 c0.2
  · exfalso; omega

/-- Every entry of the index row is a position of the flattened input. -/
theorem idxRow_lt (L : grid0.Coords) (i0 tr : Vec F S112 .i32) (ht : ∀ k, (tr k).toNat ≤ 9999) (k : S112.Idx) :
    (idxRow (F := F) L i0 tr k).toNat < 32000000 := by
  rw [idxRow_toNat L i0 tr ht k]; omega

end Cert.Kernel.Spec

end
-- ==== Proof.HostArraysB.lean ====
/-
  The arrays the host prepares, read at a position: the flattened input is the input at the position's three
  coordinates; a padded 3200-array is the 64 × 50 array at the position's two coordinates below 3200 and the padding
  value from there on.
-/
import proofs.«209899_g60301340836213_cont_9to1c4b_660_2_alg».proof.Proof.Gen.Kernel.Skeleton
import Idealize.ShloMosaic.Lib.KernelVsHost

noncomputable section

namespace Cert.Kernel.Spec

open Idealize.ShloMosaic Idealize.ShloMosaic.ValueIdx Cert.Kernel Cert.Kernel.Gen

variable {α : Type}

/-- Entry `n` of the flattened input. -/
theorem flat_apply (x : S64x50x10000.Idx → α) (n : Nat) (hn : n < 32000000) :
    shapeCast S32000000 x shapeCasts_S64x50x10000_S32000000 (ix1 ⟨n, hn⟩)
      = x (ix3 (⟨n / 500000, by omega⟩ : Fin 64) (⟨n / 10000 % 50, by omega⟩ : Fin 50) (⟨n % 10000, by omega⟩ : Fin 10000)) := by
  refine shapeCast_apply x _ _ _ ?_
  rw [Shape.rowMajor_val_three, Shape.rowMajor_val_one]
  show (n / 500000 * 50 + n / 10000 % 50) * 10000 + n % 10000 = n
  omega

/-- Entry `g` of a flattened 64 × 50 array. -/
theorem flat2_apply (t : S64x50.Idx → α) (g : Nat) (hg : g < 3200) :
    shapeCast S3200 t shapeCasts_S64x50_S3200 (ix1 ⟨g, hg⟩) = t (ix2 (⟨g / 50, by omega⟩ : Fin 64) (⟨g % 50, by omega⟩ : Fin 50)) := by
  refine shapeCast_apply t _ _ _ ?_
  rw [Shape.rowMajor_val_two, Shape.rowMajor_val_one]
  show g / 50 * 50 + g % 50 = g
  omega

/-- Entry `g` of a 64 × 50 array flattened and padded to 3584 entries with the one entry of `c`. -/
theorem padded_apply (t : S64x50.Idx → α) (c : S_.Idx → α) (g : Nat) (hg : g < 3584) :
    pad S3584 ![0] ![384] ![0] (shapeCast S3200 t shapeCasts_S64x50_S3200) c pads_S3200_S3584_03840 h_S_ (ix1 ⟨g, hg⟩)
      = if h : g < 3200 then t (ix2 (⟨g / 50, by omega⟩ : Fin 64) (⟨g % 50, by omega⟩ : Fin 50)) else c ix0 := by
  by_cases h : g < 3200
  · rw [dif_pos h, ← flat2_apply t g h]
    refine pad_apply_of_inside _ _ _ _ c _ _ _ (ix1 (⟨g, h⟩ : Fin 3200)) fun a => ?_
    match a with
    | ⟨0, _⟩ => show g = 0 + g * (0 + 1); omega
  · rw [dif_neg h]
    refine (pad_apply_of_not_inside _ _ _ _ c pads_S3200_S3584_03840 h_S_ _ (0 : Fin 1) ?_).trans (congrArg c (eq_ix0 _))
    show ¬(0 ≤ g ∧ (g - 0) % (0 + 1) = 0 ∧ (g - 0) / (0 + 1) < 3200)
    omega

/-- The targets' padding value is the zero word. -/
theorem padWord_apply : id (constantI S_ 32 0#32) ix0 = 0#32 := rfl

end Cert.Kernel.Spec

end
-- ==== Proof.HostValuesB.lean ====
/-
  What the host line leaves in the three arrays the workers read: the input flattened, the targets and the mask
  flattened and padded to 3584 entries with zeros.
-/
import proofs.«209899_g60301340836213_cont_9to1c4b_660_2_alg».proof.Proof.MainRunB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ)

theorem Xf_eq (d : Dev nD) :
    Xf m d = shapeCast S32000000 (m ((SparseCore.T d).loc main_arg0)) shapeCasts_S64x50x10000_S32000000 := by
  show StableHlo.after (hostOps (F := F)) (V0 m d) (Proc.devRef .tc main_v0) = _
  unfold hostOps
  after_results
  rfl

theorem Tp_eq (d : Dev nD) :
    Tp m d = pad S3584 ![0] ![384] ![0] (shapeCast S3200 (m ((SparseCore.T d).loc main_arg5)) shapeCasts_S64x50_S3200)
      (id (constantI S_ 32 0#32)) pads_S3200_S3584_03840 h_S_ := by
  show StableHlo.after (hostOps (F := F)) (V0 m d) (Proc.devRef .tc main_v2) = _
  unfold hostOps
  after_results
  rfl

theorem Mp_eq (d : Dev nD) :
    Mp m d = pad S3584 ![0] ![384] ![0] (shapeCast S3200 (m ((SparseCore.T d).loc main_arg6)) shapeCasts_S64x50_S3200)
      (sitofp .f32 (constantI S_ 32 0#32)) pads_S3200_S3584_03840 h_S_ := by
  show StableHlo.after (hostOps (F := F)) (V0 m d) (Proc.devRef .tc main_v4) = _
  unfold hostOps
  after_results
  rfl

end Cert.Proof.KB

end
-- ==== Proof.RegionB.lean ====
/-
  The one step of the main program that runs on the TensorCore after the vector subcores have finished: a
  kernel region without a grid. Its single input window brings the whole partial-sum array (2 × 32 × 16)
  into vector memory, the body adds up each of its two halves, stores (0 − first sum) / second sum into a
  one-word scalar buffer, and the single output window writes that word back to a one-element array.
  Stated here: what the region needs of the launch element (the two staging cells' ghost state and duty
  tokens), the funding of it, and the step itself: from the partial-sum array and the result array held
  whole, the region boundary and the core's account of what it owes, the region call runs to the same
  holdings with the result array at the computed word.
-/
import proofs.«209899_g60301340836213_cont_9to1c4b_660_2_alg».proof.Proof.CommonB
import proofs.«209899_g60301340836213_cont_9to1c4b_660_2_alg».proof.Proof.Gen.Kernel.Launch
import proofs.«209899_g60301340836213_cont_9to1c4b_660_2_alg».proof.Proof.Gen.Kernel.Points
import Idealize.ShloMosaic.Lib.Pipeline.Regions

noncomputable section

namespace Cert.Proof.KB

open Cert.Kernel Cert.Kernel.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 1) (Elt F) ℕ UU ℕ

/-! ## The body, run once at symbolic contents -/

/-- Memref `M`'s buffer on core `c`: its contents type, and it held whole at `f`. -/
abbrev tcBf (c : Dev nD) {sp : Space} {S : Shape} {e : EltTy} (M : Memref sig .tc sp S e) : Type := Buf (Elt F) (M.view.loc (c : Thread nD τ))
abbrev tcPt (c : Dev nD) {sp : Space} {S : Shape} {e : EltTy} (M : Memref sig .tc sp S e) (f : tcBf (F := F) c M) : sProp 𝕄 :=
  M.view.loc (c : Thread nD τ) ↦{fullShare} f

/-- The word the body computes from the staged array: (0 − Σ half 0) / Σ half 1, the halves as the two loads read them. -/
def tcOut (c : Dev nD) (g : tcBf (F := F) c (Memref.whole cc1_stg0_0)) : Elt F .f32 :=
  k1_pay1 (F := F)
    (View.readAt (Elt F) (Memref.whole cc1_stg0_0).view (Rect.unit (s := S2x32x16) ![0, 0, 0] S1x32x16.size inb_S2x32x16_S1x32x16_0_0_0).toLoadRect g)
    (View.readAt (Elt F) (Memref.whole cc1_stg0_0).view (Rect.unit (s := S2x32x16) ![1, 0, 0] S1x32x16.size inb_S2x32x16_S1x32x16_1_0_0).toLoadRect g)

/-- A one-word buffer written whole holds the word written, whatever it held. -/
theorem writes_word (c : Dev nD) (g6 : tcBf (F := F) c (Memref.whole cc1_stg1_0)) (v : Elt F .f32) :
    (Memref.whole cc1_stg1_0).view.writes (Elt F) g6 [⟨Rect.unit (s := S1) ![0] S1.size inb_S1_S1_0, fun _ => v⟩] = fun _ => v := by
  have hall : ∀ i : S1.Idx, i ∈ (Rect.unit (s := S1) ![0] S1.size inb_S1_S1_0).set := by decide
  funext i
  obtain ⟨x, rfl⟩ := (Rect.unit (s := S1) ![0] S1.size inb_S1_S1_0).exists_idx_of_mem (hall i)
  have h := View.read_writes_cons_emb (Memref.whole cc1_stg1_0).view g6 (Rect.unit (s := S1) ![0] S1.size inb_S1_S1_0) (fun _ => v) [] x
  simp only [Memref.view_whole, View.read_whole] at h
  exact h

/-- From the staged array and the one-word buffer held whole: the body runs to its return, the array as it was, the
    word at what it computes. -/
theorem tcBodyRun (c : Dev nD) (g5 : tcBf (F := F) c (Memref.whole cc1_stg0_0)) (g6 : tcBf (F := F) c (Memref.whole cc1_stg1_0)) (Q : PUnit → sProp 𝕄) :
    iprop(tcPt c (Memref.whole cc1_stg0_0) g5 ∗ tcPt c (Memref.whole cc1_stg1_0) g6
      ∗ (iprop(tcPt c (Memref.whole cc1_stg0_0) g5 ∗ tcPt c (Memref.whole cc1_stg1_0) (fun _ => tcOut c g5)) -∗ Q ⟨⟩))
    ⊢ wp frame (wpE (defs₀ (F := F)) Variants.none c none) Set.univ
        (cc1_body (F := F) (Memref.whole cc1_stg0_0) (hstage1_0 0) (Memref.whole cc1_stg1_0) (hstage1_1 0)) Q := by
  iintro ⟨H5, H6, Hk⟩
  rw [cc1_body_eq_skeleton]; unfold cc1_body_skel
  sl_exec
  sl_step
  iapply Hk
  isplitl [H5]; · iexact H5
  rw [← writes_word c g6 (tcOut c g5)]; unfold tcOut
  iexact H6

/-! ## The proof data -/

/-- No prefetched table. -/
abbrev tcAdm : (p : Fin 1) → (pcfgs (F := F) p).Adm := fun p => (cfgs p).toPCfg_adm

/-- What the fetch stages: the partial-sum array's block, which is all of it. -/
abbrev stg5 (c : Dev nD) (f : Buf (Elt F) (oLoc c)) : (cfg1.win 0).block.Idx → Elt F (cfg1.win 0).elt :=
  ((cfg1.win 0).blk t1_0).view.read (Elt F) f

/-- The result array's location. -/
abbrev resLoc (d : Dev nD) : Loc nD τ sig := (SparseCore.T d).loc main_v6

/-- The proof data on core `c`: the two arrays at their entry contents; after the body the input's staging buffer as
    fetched and the output's at the word computed; no invariant of the body's own; nothing owed; every recorded wait at
    or below the level the handshakes of the one call left them. -/
def tcDats (f5 : (c : Dev nD) → Buf (Elt F) (oLoc c)) (f6 : (c : Dev nD) → Buf (Elt F) (resLoc c))
    (_ : Fin 1) (c : Dev nD) : Dat τ (Elt F) (HIx 1) ℕ UU ℕ cfg1 c where
  A w := match w with
    | ⟨0, _⟩ => f5 c
    | ⟨1, _⟩ => f6 c
    | ⟨_ + 2, h⟩ => absurd h (Nat.not_lt.2 (Nat.le_add_left _ _))
  after w _ := match w with
    | ⟨0, _⟩ => stg5 c (f5 c)
    | ⟨1, _⟩ => fun _ => tcOut c (stg5 c (f5 c))
    | ⟨_ + 2, h⟩ => absurd h (Nat.not_lt.2 (Nat.le_add_left _ _))
  Φ _ := iprop(emp)
  q _ := fullShare
  owed _ := 0
  recorded _ := {p | (K (F := F)).lev (SparseCore.T c, p.1) p.2 ≤ 8}

variable (f5 : (c : Dev nD) → Buf (Elt F) (oLoc c)) (f6 : (c : Dev nD) → Buf (Elt F) (resLoc c))

/-- The fetched window's buffer holds the array's block when the body runs. -/
theorem tcBefore_in (c : Dev nD) (d : (cfg1.win 0).block.Idx → Elt F (cfg1.win 0).elt) :
    (tcDats f5 f6 0 c).before 0 t1_0 d = stg5 c (f5 c) := by
  unfold Dat.before; rw [if_pos (by decide)]; rfl

/-- At the region's one point: from the fetched block in the input's staging buffer and anything in the output's, the
    body runs to the block unchanged and the word computed, owing and recording nothing new. -/
theorem tcBody_obligation (c : Dev nD) : BodyObligation (tcDats f5 f6 0 c) (defs₀ (F := F)) 𝒱₀ (none : HIx 1) Set.univ := fun t => by
  obtain rfl := fin_N1 t
  rw [bigSep_W1, bigSep_W1]
  simp only [owns_whole_eq]
  rw [show (tcDats f5 f6 0 c).Φ t1_0.castSucc = iprop(emp) from rfl, show (tcDats f5 f6 0 c).Φ t1_0.succ = iprop(emp) from rfl]
  unfold Dat.owesAt Pipeline.owesWithin
  iintro ⟨-, ⟨%W, %hW, HO⟩, ⟨%d0, %g5, %hg5, H5⟩, ⟨%d1, %g6, %hg6, H6⟩⟩
  rw [tcBefore_in] at hg5
  subst hg5
  iapply (tcBodyRun c (stg5 c (f5 c)) g6 _)
  isplitl [H5]; · iexact H5
  isplitl [H6]; · iexact H6
  iintro ⟨H5, H6⟩
  isplitr; · iempintro
  isplitl [HO]
  · iexists W; isplitr; · ipureintro; exact hW
    iexact HO
  isplitl [H5]
  · iexists _; isplitr; swap; (· iexact H5); ipureintro; dsimp only [tcDats]
  · iexists _; isplitr; swap; (· iexact H6); ipureintro; rfl

/-! ## The region -/

/-- After the one handshake call the core owes nothing more. -/
theorem Otc_one (d : Dev nD) : (K (F := F)).Otc (nD := nD) d 1 = 0 := by
  unfold SparseCore.Cfg.Otc
  exact Finset.sum_eq_zero fun q _ => if_neg (by have := q.isLt; omega)

/-- What the core owes, and the bound on the waits it has recorded, as the handshakes of the one call leave them. -/
abbrev owesTc (d : Dev nD) : sProp 𝕄 :=
  iprop(∃ W, ⌜(K (F := F)).WBelow (SparseCore.T d) W (8 * 1)⌝ ∗ owes (SparseCore.T d) ((K (F := F)).Otc d 1) W)

/-- What the result array holds after the region: its entry contents overwritten by the one write-back. -/
abbrev res6 (c : Dev nD) : Buf (Elt F) (resLoc c) := (tcDats f5 f6 0 c).arrAt (1 : Fin 2) cfg1.N

/-- The core has no scoped buffer besides the two staging buffers. -/
theorem scopedRest_pin (c : Dev nD) :
    (Pipeline.scopedRest (Ix := HIx 1) (Name := ℕ) (U := UU) (Lvl := ℕ) (Val := Elt F) (Pipeline.pin (pcfgs (F := F)) tcAdm 0).spec c : sProp 𝕄) = BI.emp :=
  scopedRest1_eq c

set_option backward.isDefEq.respectTransparency.types false in
/-- The region's record: its windows' layout, no semaphore of the body's own, the body's triple at its one point, and how
    the two arrays and the core's account enter the region and leave it. -/
def tcReg (lv : GSem nD τ sig → HIx 1 → ℕ) : Pipeline.RegionSeg (pcfgs (F := F)) tcAdm (tcDats f5 f6) (none : HIx 1) defs₀ 𝒱₀ (K (F := F)).L lv 0 where
  win := launch1.win.to₀
  block_pos := launch1.block_pos
  stage_whole := launch1.stage_whole
  K := PEmpty
  osem k := k.elim
  ho := Pipeline.OwnSemFacts.none _
  hbody c := (tcBody_obligation f5 f6 c).loose
  hwaits := Pipeline.hwaits_of_owed_zero _ _ _ _ (K (F := F)).L lv 0 fun _ _ => rfl
  pre c := iprop((oLoc c ↦{fullShare} f5 c) ∗ (resLoc c ↦{fullShare} f6 c) ∗ owesTc c)
  post c := iprop((oLoc c ↦{fullShare} f5 c) ∗ (resLoc c ↦{fullShare} res6 f5 f6 c) ∗ owesTc c)
  X _ := iprop(emp)
  Y _ := iprop(emp)
  Z _ := iprop(emp)
  hentry c := by
    rw [Pipeline.arrays_eq (Pipeline.pin (pcfgs (F := F)) tcAdm) (tcDats f5 f6) 0 c launch1.arr_whole ((tcDats f5 f6 0 c).share_full fun _ => rfl), bigSep_W1]
    iintro ⟨⟨H5, H6, HO⟩, -, -⟩
    imodintro
    isplitl [H5 H6]
    · isplitl [H5]; · iexact H5
      iexact H6
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩
      rw [Otc_one]
      iexists W; isplitr
      · ipureintro; intro p hp; exact Or.inl (hW p (Finset.mem_coe.mp hp))
      iexact HO
    isplitr <;> iempintro
  hin c := by
    rw [show (tcDats f5 f6 0 c).Φ 0 = iprop(emp) from rfl]
    iintro -; iempintro
  hout c := by
    rw [Pipeline.ownSems0_none, scopedRest_pin]
    iintro -
    isplitr; · iempintro
    isplitr <;> iempintro
  hexit c := by
    rw [Pipeline.arrays_eq (Pipeline.pin (pcfgs (F := F)) tcAdm) (tcDats f5 f6) 0 c launch1.arr_whole ((tcDats f5 f6 0 c).share_full fun _ => rfl), bigSep_W1]
    iintro ⟨⟨H5, H6⟩, HO, -, -⟩
    imodintro
    isplitl [H5]
    · rw [(tcDats f5 f6 0 c).arrAt_in 0 rfl]
      iexact H5
    isplitl [H6]; · iexact H6
    unfold Pipeline.Dat.owesAt Pipeline.owesWithin
    icases HO with ⟨%W, %hW, HO⟩
    unfold owesTc
    rw [Otc_one]; iexists W; isplitr
    · ipureintro; intro p hp
      rcases hW (Finset.mem_coe.mpr hp) with h | ⟨w, s, rfl⟩
      · exact h
      · exact Nat.zero_le _
    iexact HO

/-! ## What the region needs of the launch element, and its funding -/

/-- The launch element of the region's component of the algebra: the two staging cells at round zero, and a duty token
    for each of the two transfers the region issues (the fetch and the write-back). -/
def uP : UP := initOf (Pipeline.cells cfgs cellOf_inj) (Pipeline.launchToks cfgs cellOf_inj)

/-- What the region on device `d` needs of it: its staging cells' ghost state and its transfers' duty tokens. -/
def G (d : Dev nD) : sProp 𝕄 :=
  iprop(Pipeline.cellsGhost (Pipeline.pin (pcfgs (F := F)) tcAdm) (EP (F := F)) 0 d
    ∗ Pipeline.toksInit (Pipeline.pin (pcfgs (F := F)) tcAdm) (EP (F := F)) 0 d)

theorem fund_G : (BI.own ((EP (F := F)) uP) : sProp 𝕄) ⊢ |={Set.univ}=> bigSep Finset.univ (G (F := F)) := by
  have h1 : ∀ Φ : Dev nD → Fin 1 → sProp 𝕄, (bigSep Finset.univ fun c => bigSep Finset.univ fun p => Φ c p) = bigSep Finset.univ fun c => Φ c 0 :=
    fun Φ => bigSep_congr fun c _ => bigSep_univ_eq_bigSepL [(0 : Fin 1)] (by decide) (by decide) (Φ c)
  have hg : iprop((bigSep Finset.univ fun c : Dev nD => bigSep Finset.univ fun p => Pipeline.cellsGhost cfgs (EP (F := F)) p c)
        ∗ (bigSep Finset.univ fun c : Dev nD => bigSep Finset.univ fun p => (Pipeline.toksInit cfgs (EP (F := F)) p c : sProp 𝕄)))
      ⊢ bigSep Finset.univ (G (F := F)) := by
    unfold G; rw [bigSep_sep']
    exact BI.sep_mono (Entails.of_eq (h1 _)) (Entails.of_eq (h1 _))
  unfold uP
  iintro Hu
  imod (Pipeline.fund_ghost cfgs (EP (F := F)) cellOf_inj) $$ Hu with H
  imodintro
  iapply hg; iexact H

/-! ## The step -/

/-- The region call, under a continuation, is the lifted call of the region's entry followed by the continuation. -/
theorem call_eq {α : Type} (k : PUnit → Prog (TpuEff nD τ sig (Elt F) (SparseCore.Sig (ΛP (F := F)) 1) .tc) α) :
    (Prog.op (.customCall (SparseCore.inner (Pipeline.entry 0)) ()) k : Prog (TpuEff nD τ sig (Elt F) (SparseCore.Sig (ΛP (F := F)) 1) .tc) α)
      = (SparseCore.liftProg (Q := 1) (Prog.op (.customCall (Pipeline.entry 0) ()) (fun _ => Prog.ret ⟨⟩) : Prog (TpuEff nD τ sig (Elt F) (ΛP (F := F)) .tc) PUnit)) >>= k := rfl

set_option backward.isDefEq.respectTransparency.types false in
/-- The region call as a step of the main program on the TensorCore of `d`, under any continuation `k`: from the
    handshakes' context, the region's share of the launch element, the region boundary, the partial-sum array and the
    result array held whole and the core's account, it runs, and the continuation is entered with the boundary, the
    partial-sum array as it was, the result array at what the one write-back leaves, and the account again. -/
theorem region_step (P : (K (F := F)).Pay (nD := nD) (Val := Elt F) (Name := ℕ) (U := UU)) (κ : GSem nD τ sig → ℕ) (lv : GSem nD τ sig → HIx 1 → ℕ) (d : Dev nD)
    {α : Type} (k : PUnit → Prog (TpuEff nD τ sig (Elt F) (SparseCore.Sig (ΛP (F := F)) 1) .tc) α) (Φ : α → sProp 𝕄) :
    iprop((K (F := F)).ctx EH P κ lv ∗ G d ∗ boundary (SparseCore.T d) ∗ (oLoc d ↦{fullShare} f5 d) ∗ (resLoc d ↦{fullShare} f6 d) ∗ owesTc d
      ∗ (iprop(boundary (SparseCore.T d) ∗ (oLoc d ↦{fullShare} f5 d) ∗ (resLoc d ↦{fullShare} res6 f5 f6 d) ∗ owesTc d)
          -∗ wp frame (wpE ((K (F := F)).defs (D (F := F))) 𝒱 (SparseCore.T d) none) Set.univ (k ⟨⟩) Φ))
    ⊢ wp frame (wpE ((K (F := F)).defs (D (F := F))) 𝒱 (SparseCore.T d) none) Set.univ
        (.op (.customCall (SparseCore.inner (Pipeline.entry 0)) ()) k) Φ := by
  rw [call_eq k, wp_bind]
  iintro ⟨#Hctx, HG, Hbd, H5, H6, HO, Hk⟩
  iapply ((K (F := F)).wp_liftProg (D (F := F)) 𝒱 (SparseCore.T d) Set.univ none _ _)
  ihave #Hla := (SparseCore.Cfg.ctx_levAts κ) $$ Hctx
  unfold G; icases HG with ⟨Hg, Ht⟩
  have hR := Pipeline.RegionSeg.wp (pcfgs (F := F)) tcAdm (tcDats f5 f6) (none : HIx 1) cellOf_inj (EP (F := F)) defs₀ 𝒱₀ (K (F := F)).L lv
    (tcReg f5 f6 lv) d none (fun _ h => nomatch h) (fun _ => Prog.ret ⟨⟩)
    (fun a => wp frame (wpE ((K (F := F)).defs (D (F := F))) 𝒱 (SparseCore.T d) none) Set.univ (k a) Φ)
  rw [show (tcReg f5 f6 lv).post d = iprop((oLoc d ↦{fullShare} f5 d) ∗ (resLoc d ↦{fullShare} res6 f5 f6 d) ∗ owesTc d) from rfl,
    show (tcReg f5 f6 lv).pre d = iprop((oLoc d ↦{fullShare} f5 d) ∗ (resLoc d ↦{fullShare} f6 d) ∗ owesTc d) from rfl] at hR
  iapply hR
  isplitl [Hk]
  · iintro ⟨Hbd, H5, H6, HO⟩
    rw [wp_ret]
    imodintro
    iapply Hk
    isplitl [Hbd]; · iexact Hbd
    isplitl [H5]; · iexact H5
    isplitl [H6]; · iexact H6
    iexact HO
  isplitl [Hbd]; · iexact Hbd
  isplitl [H5 H6 HO]
  · isplitl [H5]; · iexact H5
    isplitl [H6]; · iexact H6
    iexact HO
  isplitr; · iexact Hla
  isplitl [Hg]; · iexact Hg
  iexact Ht

/-! ## The value -/

/-- The staged block is the array itself. -/
theorem stg5_eq (c : Dev nD) (f : Buf (Elt F) (oLoc c)) : stg5 c f = f := by
  funext i
  show (Memref.whole main_v5).view.read (Elt F) f (((cfg1.win 0).rect t1_0).emb i) = f i
  simp only [Memref.view_whole, View.read_whole]
  congr 1
  funext a; apply Fin.ext
  rw [Rect.emb_apply]
  show (cfg1.win 0).index t1_0 a * (cfg1.win 0).size a + 1 * (i a).val = (i a).val
  show 0 * (cfg1.win 0).size a + 1 * (i a).val = (i a).val
  omega

/-- What the one write-back leaves in the result array: the word the body stored. -/
theorem res6_eq (c : Dev nD) : res6 f5 f6 c = fun _ => tcOut c (stg5 c (f5 c)) := by
  have hall : ∀ i : S1.Idx, i ∈ ((cfg1.win 1).rect t1_0).set := by decide
  show (tcDats f5 f6 0 c).arrAt 1 (t1_0.val + 1) = _
  rw [Dat.arrAt_succ (tcDats f5 f6 0 c) 1 t1_0, if_pos (flush1_1 t1_0)]
  funext i
  obtain ⟨x, rfl⟩ := ((cfg1.win 1).rect t1_0).exists_idx_of_mem (hall i)
  have h := View.read_slice_write_emb (v := (Memref.whole main_v6).view) ((cfg1.win 1).rect t1_0) ((tcDats f5 f6 0 c).arrAt 1 t1_0.val) ((tcDats f5 f6 0 c).flushed 1 t1_0) (Finset.mem_univ x)
  simp only [Memref.view_whole, View.read_whole] at h
  exact h

/-- Half `a` of the staged array as the body's load of it reads it. -/
theorem half_eq (c : Dev nD) (g : tcBf (F := F) c (Memref.whole cc1_stg0_0)) :
    View.readAt (Elt F) (Memref.whole cc1_stg0_0).view (Rect.unit (s := S2x32x16) ![0, 0, 0] S1x32x16.size inb_S2x32x16_S1x32x16_0_0_0).toLoadRect g
      = fun i => g (ValueIdx.ix3 0 (i 1) (i 2)) := by
  funext i
  rw [View.readAt_apply]
  simp only [Memref.view_whole, View.read_whole]
  congr 1
  funext a; apply Fin.ext
  have h0 : (i 0).val < 1 := (i 0).isLt
  match a with
  | ⟨0, _⟩ => simp; omega
  | ⟨1, _⟩ => simp
  | ⟨2, _⟩ => simp; rfl

theorem half1_eq (c : Dev nD) (g : tcBf (F := F) c (Memref.whole cc1_stg0_0)) :
    View.readAt (Elt F) (Memref.whole cc1_stg0_0).view (Rect.unit (s := S2x32x16) ![1, 0, 0] S1x32x16.size inb_S2x32x16_S1x32x16_1_0_0).toLoadRect g
      = fun i => g (ValueIdx.ix3 1 (i 1) (i 2)) := by
  funext i
  rw [View.readAt_apply]
  simp only [Memref.view_whole, View.read_whole]
  congr 1
  funext a; apply Fin.ext
  have h0 : (i 0).val < 1 := (i 0).isLt
  match a with
  | ⟨0, _⟩ => simp; omega
  | ⟨1, _⟩ => simp
  | ⟨2, _⟩ => simp; rfl

/-- The word the body computes, over the array's two halves. -/
theorem tcOut_eq (c : Dev nD) (g : tcBf (F := F) c (Memref.whole cc1_stg0_0)) :
    tcOut c g = k1_pay1 (F := F) (fun i => g (ValueIdx.ix3 0 (i 1) (i 2))) (fun i => g (ValueIdx.ix3 1 (i 1) (i 2))) := by
  unfold tcOut; rw [half_eq, half1_eq]; rfl

/-- What the region leaves in the result array, over the partial-sum array it was entered with. -/
theorem res6_val (c : Dev nD) :
    res6 f5 f6 c = fun _ => k1_pay1 (F := F) (fun i => f5 c (ValueIdx.ix3 0 (i 1) (i 2))) (fun i => f5 c (ValueIdx.ix3 1 (i 1) (i 2))) := by
  rw [res6_eq, stg5_eq, tcOut_eq]

/-! ## The step at one device's contents -/

/-- A family of contents, one per device, that is `f` at `d`. -/
def famAt (d : Dev nD) {ℓ : Dev nD → Loc nD τ sig} (f : Buf (Elt F) (ℓ d)) : (c : Dev nD) → Buf (Elt F) (ℓ c) :=
  fun c => if h : c = d then h ▸ f else fun _ => Classical.arbitrary _

theorem famAt_self (d : Dev nD) {ℓ : Dev nD → Loc nD τ sig} (f : Buf (Elt F) (ℓ d)) : famAt d f d = f := by
  unfold famAt; rw [dif_pos rfl]

/-- The step with the two arrays' contents given at the device alone, the result array's final contents spelt out: the
    word (0 − Σ half 0) / Σ half 1 of the partial-sum array. -/
theorem region_step_at (P : (K (F := F)).Pay (nD := nD) (Val := Elt F) (Name := ℕ) (U := UU)) (κ : GSem nD τ sig → ℕ) (lv : GSem nD τ sig → HIx 1 → ℕ) (d : Dev nD)
    (g5 : Buf (Elt F) (oLoc d)) (g6 : Buf (Elt F) (resLoc d))
    {α : Type} (k : PUnit → Prog (TpuEff nD τ sig (Elt F) (SparseCore.Sig (ΛP (F := F)) 1) .tc) α) (Φ : α → sProp 𝕄) :
    iprop((K (F := F)).ctx EH P κ lv ∗ G d ∗ boundary (SparseCore.T d) ∗ (oLoc d ↦{fullShare} g5) ∗ (resLoc d ↦{fullShare} g6) ∗ owesTc d
      ∗ (iprop(boundary (SparseCore.T d) ∗ (oLoc d ↦{fullShare} g5)
            ∗ (resLoc d ↦{fullShare} fun _ => k1_pay1 (F := F) (fun i => g5 (ValueIdx.ix3 0 (i 1) (i 2))) (fun i => g5 (ValueIdx.ix3 1 (i 1) (i 2))))
            ∗ owesTc d)
          -∗ wp frame (wpE ((K (F := F)).defs (D (F := F))) 𝒱 (SparseCore.T d) none) Set.univ (k ⟨⟩) Φ))
    ⊢ wp frame (wpE ((K (F := F)).defs (D (F := F))) 𝒱 (SparseCore.T d) none) Set.univ
        (.op (.customCall (SparseCore.inner (Pipeline.entry 0)) ()) k) Φ := by
  have h := region_step (famAt (ℓ := oLoc) d g5) (famAt (ℓ := resLoc) d g6) P κ lv d k Φ
  rw [res6_val, famAt_self, famAt_self] at h
  exact h

/-- The same, the call written as the main program writes it: the lifted operation bound to its continuation. -/
theorem region_step_bind (P : (K (F := F)).Pay (nD := nD) (Val := Elt F) (Name := ℕ) (U := UU)) (κ : GSem nD τ sig → ℕ) (lv : GSem nD τ sig → HIx 1 → ℕ) (d : Dev nD)
    (g5 : Buf (Elt F) (oLoc d)) (g6 : Buf (Elt F) (resLoc d))
    {α : Type} (k : PUnit → Prog (TpuEff nD τ sig (Elt F) (SparseCore.Sig (ΛP (F := F)) 1) .tc) α) (Φ : α → sProp 𝕄) :
    iprop((K (F := F)).ctx EH P κ lv ∗ G d ∗ boundary (SparseCore.T d) ∗ (oLoc d ↦{fullShare} g5) ∗ (resLoc d ↦{fullShare} g6) ∗ owesTc d
      ∗ (iprop(boundary (SparseCore.T d) ∗ (oLoc d ↦{fullShare} g5)
            ∗ (resLoc d ↦{fullShare} fun _ => k1_pay1 (F := F) (fun i => g5 (ValueIdx.ix3 0 (i 1) (i 2))) (fun i => g5 (ValueIdx.ix3 1 (i 1) (i 2))))
            ∗ owesTc d)
          -∗ wp frame (wpE ((K (F := F)).defs (D (F := F))) 𝒱 (SparseCore.T d) none) Set.univ (k ⟨⟩) Φ))
    ⊢ wp frame (wpE ((K (F := F)).defs (D (F := F))) 𝒱 (SparseCore.T d) none) Set.univ
        (Prog.lift (.customCall (SparseCore.inner (Pipeline.entry 0)) ()) >>= k) Φ :=
  region_step_at P κ lv d g5 g6 k Φ

end Cert.Proof.KB

end
-- ==== Proof.RegionGlueB.lean ====
/-
  The finishing region as the step @main's run takes it: the region rule at the core's handshake state after the
  one call, its result array at the finishing value of the partial sums.
-/
import proofs.«209899_g60301340836213_cont_9to1c4b_660_2_alg».proof.Proof.RunB
import proofs.«209899_g60301340836213_cont_9to1c4b_660_2_alg».proof.Proof.RegionB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-- The core's handshake state after the one call is what it owes and the rest; the region borrows the first. -/
theorem region_frame (κ : GSem nD τ sig → ℕ) (d : Dev nD) (f5 : Buf (Elt F) (oLoc d)) (f6 : Buf (Elt F) (v6Loc d)) (Φ : PUnit → sProp 𝕄) :
    iprop((K (F := F)).ctx EH (PP m) κ ∗ (K (F := F)).tcSt EH d 1 ∗ G d ∗ boundary (SparseCore.T d)
        ∗ (oLoc d ↦{fullShare} f5) ∗ (v6Loc d ↦{fullShare} f6)
        ∗ (((K (F := F)).tcSt EH d 1 ∗ boundary (SparseCore.T d) ∗ (oLoc d ↦{fullShare} f5)
            ∗ (v6Loc d ↦{fullShare} fun _ => finishOf (F := F) f5)) -∗ Φ ⟨⟩))
      ⊢ iprop((K (F := F)).ctx EH (PP m) κ ∗ G d ∗ boundary (SparseCore.T d) ∗ (oLoc d ↦{fullShare} f5) ∗ (resLoc d ↦{fullShare} f6) ∗ owesTc d
      ∗ (iprop(boundary (SparseCore.T d) ∗ (oLoc d ↦{fullShare} f5)
            ∗ (resLoc d ↦{fullShare} fun _ => k1_pay1 (F := F) (fun i => f5 (ValueIdx.ix3 0 (i 1) (i 2))) (fun i => f5 (ValueIdx.ix3 1 (i 1) (i 2))))
            ∗ owesTc d)
          -∗ wp frame (wpE ((K (F := F)).defs (D (F := F))) 𝒱 (SparseCore.T d) none) Set.univ (Prog.ret PUnit.unit) Φ)) := by
  unfold SparseCore.Cfg.tcSt
  iintro ⟨#Hctx, ⟨Howes, Hrest⟩, HG, Hb, Ho, Hv6, Hk⟩
  isplitr; · iexact Hctx
  isplitl [HG]; · iexact HG
  isplitl [Hb]; · iexact Hb
  isplitl [Ho]; · iexact Ho
  isplitl [Hv6]; · iexact Hv6
  isplitl [Howes]; · iexact Howes
  iintro ⟨Hb, Ho, Hv6, Howes⟩
  rw [wp_ret]; imodintro
  iapply Hk
  isplitl [Howes Hrest]
  · isplitl [Howes]; · iexact Howes
    iexact Hrest
  isplitl [Hb]; · iexact Hb
  isplitl [Ho]; · iexact Ho
  iexact Hv6

theorem regionStep : RegionStep m (G (F := F)) := by
  intro κ d f5 f6 Φ
  have h := region_step_bind (F := F) (PP m) κ (K (F := F)).lev d f5 f6 (fun u => Prog.ret u) Φ
  rw [show (Prog.lift (.customCall (SparseCore.inner (Pipeline.entry 0)) ()) >>= fun u => Prog.ret u)
      = (Prog.lift (.customCall (SparseCore.inner (Pipeline.entry 0)) ()) :
          Prog (TpuEff nD τ sig (Elt F) (SparseCore.Sig (ΛP (F := F)) 1) .tc) PUnit) from bind_pure _] at h
  exact (region_frame m κ d f5 f6 Φ).trans h

end Cert.Proof.KB

end
-- ==== Proof.WholeB.lean ====
/-
  One worker's body as the launch theorem's obligation, and the program's run. The padded targets stay within
  0 … 9999 (the padding is zero), so every flat position a worker forms is an entry of the flattened input.
-/
import proofs.«209899_g60301340836213_cont_9to1c4b_660_2_alg».proof.Proof.RunB
import proofs.«209899_g60301340836213_cont_9to1c4b_660_2_alg».proof.Proof.TileB
import proofs.«209899_g60301340836213_cont_9to1c4b_660_2_alg».proof.Proof.IndexRowB
import proofs.«209899_g60301340836213_cont_9to1c4b_660_2_alg».proof.Proof.HostArraysB
import proofs.«209899_g60301340836213_cont_9to1c4b_660_2_alg».proof.Proof.HostValuesB
import proofs.«209899_g60301340836213_cont_9to1c4b_660_2_alg».proof.Proof.RegionGlueB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-- What the run asks of the launch memory: every target is at most 9999 as an unsigned word. -/
def PreOK : Prop := ∀ (d : Dev nD) (j : S64x50.Idx), (m ((SparseCore.T d).loc main_arg5) j).toNat ≤ 9999

theorem Tp_le (hpre : PreOK m) (d : Dev nD) (g : S3584.Idx) : (Tp m d g).toNat ≤ 9999 := by
  rw [Tp_eq]
  obtain ⟨g0, rfl⟩ : ∃ g0 : Fin 3584, g = ValueIdx.ix1 g0 := ⟨g 0, ValueIdx.eq_ix1 g⟩
  rw [show (ValueIdx.ix1 g0 : S3584.Idx) = ValueIdx.ix1 ⟨g0.val, g0.isLt⟩ from rfl, Spec.padded_apply]
  split
  · exact hpre d _
  · rw [Spec.padWord_apply]; decide

theorem defs₀_vector (c : Fin τ.nSC) (s : Fin τ.nSub) :
    defs₀ (F := F) (.scVector c s) 0 ()
      = SparseCore.onTile hcore0 hsub0 (fun c s => cc0_k (coordsV c s)
          (Memref.whole main_v0_scv) (Memref.isWhole_whole _) (Memref.whole main_v2_scv) (Memref.isWhole_whole _)
          (Memref.whole main_v4_scv) (Memref.isWhole_whole _) (Memref.whole main_v5_scv) (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _)
          (Memref.whole cc0_scratch4) (Memref.isWhole_whole _) (Memref.whole cc0_scratch5) (Memref.isWhole_whole _)
          cc0_scoped0 cc0_scoped1 cc0_scoped2 cc0_scoped3 cc0_scoped4) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (PP m) v₀ 0 := by
  intro d c i O W hO _ _
  simp only [show (PP m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body hF d (coordsV ⟨_, hci.1⟩ ⟨_, hci.2⟩) (Xf m d) (Tp m d) (Mp m d) (O0 m d) _ _ _
    (fun i0 k => Spec.idxRow_lt _ i0 _ (fun k' => Tp_le m hpre d _) k) O W hO).trans (wp_mono frame _ _ fun _ => obl_post)

/-- The program's run: every weakly fair execution ends, the arguments unchanged, the result at the finishing value
    of an array holding every worker's partial sums. -/
theorem run [∀ e, Nonempty (Elt F e)] (hpre : PreOK m) :
    θ_run (Cert.Kernel.defs (F := F)) (Cert.Kernel.threads (F := F)) ⟨m, fun _ => 0, ρ⟩ (QC m) :=
  run_main m ρ (G (F := F)) uP fund_G (regionStep m) (tileObl m facts hpre)

end Cert.Proof.KB

end
-- ==== Proof.LaneSums.lean ====
/-
  The two partial sums a vector subcore leaves per lane, read at a lane: the sum over the seven blocks of fetched
  value times mask, and of the mask, each added left to right, in the float operations of any instance.
-/
import proofs.«209899_g60301340836213_cont_9to1c4b_660_2_alg».proof.Proof.Spec
import Idealize.ShloMosaic.Lib.Pipeline.Value

noncomputable section

namespace Cert.KernelIdeal.Spec

open Idealize.ShloMosaic Idealize.ShloMosaic.ValueIdx Cert.KernelIdeal Cert.KernelIdeal.Gen

section AnyInstance
variable {F : FTy → Type} [FloatOps F]

/-- Per lane, value times mask over the seven blocks, added left to right. -/
theorem accRow_apply (vals mrow : Vec F S112 .f32) (y : S16.Idx) :
    accRow (F := F) vals mrow y =
      FloatOps.addf (FloatOps.addf (FloatOps.addf (FloatOps.addf (FloatOps.addf (FloatOps.addf
        (FloatOps.mulf (vals (lane 0 (by omega) y)) (mrow (lane 0 (by omega) y)))
        (FloatOps.mulf (vals (lane 16 (by omega) y)) (mrow (lane 16 (by omega) y))))
        (FloatOps.mulf (vals (lane 32 (by omega) y)) (mrow (lane 32 (by omega) y))))
        (FloatOps.mulf (vals (lane 48 (by omega) y)) (mrow (lane 48 (by omega) y))))
        (FloatOps.mulf (vals (lane 64 (by omega) y)) (mrow (lane 64 (by omega) y))))
        (FloatOps.mulf (vals (lane 80 (by omega) y)) (mrow (lane 80 (by omega) y))))
        (FloatOps.mulf (vals (lane 96 (by omega) y)) (mrow (lane 96 (by omega) y))) := by
  simp only [accRow, k0_pay1, k0_pay15, k0_pay12, shapeCast_self]
  rfl

/-- Per lane, the mask over the seven blocks, added left to right. -/
theorem maccRow_apply (mrow : Vec F S112 .f32) (y : S16.Idx) :
    maccRow (F := F) mrow y =
      FloatOps.addf (FloatOps.addf (FloatOps.addf (FloatOps.addf (FloatOps.addf (FloatOps.addf
        (mrow (lane 0 (by omega) y)) (mrow (lane 16 (by omega) y))) (mrow (lane 32 (by omega) y)))
        (mrow (lane 48 (by omega) y))) (mrow (lane 64 (by omega) y))) (mrow (lane 80 (by omega) y)))
        (mrow (lane 96 (by omega) y)) := by
  simp only [maccRow, k0_pay2, k0_pay14, k0_pay11, k0_pay13, k0_pay16, shapeCast_self]
  rfl

end AnyInstance

end Cert.KernelIdeal.Spec

end
-- ==== Proof.LaneSumsIdeal.lean ====
/-
  The two per-lane partial sums at the extended reals: left-to-right sums of products, and of mask entries.
-/
import proofs.«209899_g60301340836213_cont_9to1c4b_660_2_alg».proof.Proof.LaneSums

noncomputable section

namespace Cert.KernelIdeal.Spec

open Idealize.ShloMosaic Idealize.ShloMosaic.ValueIdx Cert.KernelIdeal Cert.KernelIdeal.Gen

/-- At the extended reals: the left-to-right sum of the seven products. -/
theorem accRow_apply_ideal (vals mrow : Vec Ideal S112 .f32) (y : S16.Idx) :
    (accRow (F := Ideal) vals mrow y : EReal) =
      ((((((vals (lane 0 (by omega) y) : EReal) * mrow (lane 0 (by omega) y)
        + vals (lane 16 (by omega) y) * mrow (lane 16 (by omega) y))
        + vals (lane 32 (by omega) y) * mrow (lane 32 (by omega) y))
        + vals (lane 48 (by omega) y) * mrow (lane 48 (by omega) y))
        + vals (lane 64 (by omega) y) * mrow (lane 64 (by omega) y))
        + vals (lane 80 (by omega) y) * mrow (lane 80 (by omega) y))
        + vals (lane 96 (by omega) y) * mrow (lane 96 (by omega) y) := by
  rw [accRow_apply]; rfl

/-- At the extended reals: the left-to-right sum of the seven mask entries. -/
theorem maccRow_apply_ideal (mrow : Vec Ideal S112 .f32) (y : S16.Idx) :
    (maccRow (F := Ideal) mrow y : EReal) =
      ((((((mrow (lane 0 (by omega) y) : EReal) + mrow (lane 16 (by omega) y)) + mrow (lane 32 (by omega) y))
        + mrow (lane 48 (by omega) y)) + mrow (lane 64 (by omega) y)) + mrow (lane 80 (by omega) y))
        + mrow (lane 96 (by omega) y) := by
  rw [maccRow_apply]; rfl

end Cert.KernelIdeal.Spec

end
-- ==== Proof.Finish.lean ====
/-
  The finishing step at the extended reals: from the two 32 × 16 arrays of partial sums, (0 − the sum of the first)
  divided by the sum of the second. The sum over a 1 × 32 × 16 array is the double sum over its last two coordinates.
-/
import proofs.«209899_g60301340836213_cont_9to1c4b_660_2_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.Spec

open Idealize.ShloMosaic Idealize.ShloMosaic.ValueIdx Cert.KernelIdeal Cert.KernelIdeal.Gen

/-- A 1 × 32 × 16 index set is the product of its last two coordinate ranges. -/
def idxEquiv132 : S1x32x16.Idx ≃ Fin 32 × Fin 16 where
  toFun i := (i 1, i 2)
  invFun p := ix3 (0 : Fin 1) p.1 p.2
  left_inv i := by
    have h0 : i 0 = (0 : Fin 1) := Fin.ext (by have h : (i 0).val < 1 := (i 0).isLt; show (i 0).val = 0; omega)
    have e := eq_ix3 i
    rw [h0] at e
    exact e.symm
  right_inv _ := rfl

/-- So a sum over it is the double sum over them. -/
theorem sum_idx132 (f : S1x32x16.Idx → EReal) :
    ∑ i, f i = ∑ w : Fin 32, ∑ l : Fin 16, f (ix3 (0 : Fin 1) w l) := by
  rw [← Equiv.sum_comp idxEquiv132.symm f, Fintype.sum_prod_type]
  rfl

/-- The scalar the finishing body stores. -/
theorem finish_apply (v0 v6 : S1x32x16.Idx → EReal) :
    k1_pay1 (F := Ideal) v0 v6
      = Ideal.div ((0 : EReal) - ∑ w : Fin 32, ∑ l : Fin 16, v0 (ix3 (0 : Fin 1) w l))
          (∑ w : Fin 32, ∑ l : Fin 16, v6 (ix3 (0 : Fin 1) w l)) := by
  have e : ∀ (v : S1x32x16.Idx → EReal) (j : S1.Idx),
      multiReduction (F := Ideal) (φ := .f32) .add [1, 2] S1 v 0x00000000#32 reduces_S1x32x16_S1 (.inl rfl) rfl j
        = ∑ w : Fin 32, ∑ l : Fin 16, v (ix3 (0 : Fin 1) w l) := fun v j => by
    rw [← sum_idx132]
    exact Ideal.multiReduction_add_total (φ := .f32) v _ _ (by decide) _ _ j
  simp only [k1_pay1, shapeCast_shapeCast]
  show Ideal.div (Ideal.ofBits .f32 0x00000000#32
      - multiReduction (F := Ideal) (φ := .f32) .add [1, 2] S1 v0 0x00000000#32 reduces_S1x32x16_S1 (.inl rfl) rfl _)
      (multiReduction (F := Ideal) (φ := .f32) .add [1, 2] S1 v6 0x00000000#32 reduces_S1x32x16_S1 (.inl rfl) rfl _) = _
  rw [e v0, e v6, Ideal.ofBits_zero_f32]

/-- The mask's padding value is zero. -/
theorem padZero_apply : (sitofp .f32 (constantI S_ 32 0#32) : FVec Ideal S_ .f32) ix0 = (0 : EReal) := by
  show (((0#32 : BitVec 32).toInt : ℝ) : EReal) = 0
  simp

end Cert.KernelIdeal.Spec

end
-- ==== Proof.Assembly.lean ====
/-
  The stored scalar as one closed form over positions counted in natural numbers: with the thirty-two workers'
  partial sums in place, the finishing step yields (0 − Σ_w Σ_l Σ_j x(min(10000·g + t(g), 31999999)) · m(g)) divided by
  Σ_w Σ_l Σ_j m(g), g = 112·w + 16·j + l, each inner sum of seven added left to right; and the host's three arrays
  as functions of the position.
-/
import proofs.«209899_g60301340836213_cont_9to1c4b_660_2_alg».proof.Proof.Common
import proofs.«209899_g60301340836213_cont_9to1c4b_660_2_alg».proof.Proof.IndexRow
import proofs.«209899_g60301340836213_cont_9to1c4b_660_2_alg».proof.Proof.LaneSumsIdeal
import proofs.«209899_g60301340836213_cont_9to1c4b_660_2_alg».proof.Proof.Finish
import proofs.«209899_g60301340836213_cont_9to1c4b_660_2_alg».proof.Proof.HostArrays

noncomputable section

open scoped BigOperators

namespace Cert.Proof.Assembly

open Idealize.ShloMosaic Idealize.ShloMosaic.ValueIdx Cert.KernelIdeal Cert.KernelIdeal.Gen Cert.KernelIdeal.Spec Cert.Proof.KI

/-- Position of lane `l` of block `j` of worker `w`. -/
def posOf (w j l : ℕ) : ℕ := 112 * w + 16 * j + l

/-- Fetched value times mask at position `g`. -/
def prodAt (xf : ℕ → EReal) (tpn : ℕ → ℕ) (mp : ℕ → EReal) (g : ℕ) : EReal :=
  xf (min (10000 * g + tpn g) 31999999) * mp g

/-- The kernel's value over position-indexed arrays. -/
def rowsVal (xf : ℕ → EReal) (tpn : ℕ → ℕ) (mp : ℕ → EReal) : EReal :=
  Ideal.div
    ((0 : EReal) - ∑ w : Fin 32, ∑ l : Fin 16,
      ((((((prodAt xf tpn mp (posOf w.val 0 l.val) + prodAt xf tpn mp (posOf w.val 1 l.val))
        + prodAt xf tpn mp (posOf w.val 2 l.val)) + prodAt xf tpn mp (posOf w.val 3 l.val))
        + prodAt xf tpn mp (posOf w.val 4 l.val)) + prodAt xf tpn mp (posOf w.val 5 l.val))
        + prodAt xf tpn mp (posOf w.val 6 l.val)))
    (∑ w : Fin 32, ∑ l : Fin 16,
      ((((((mp (posOf w.val 0 l.val) + mp (posOf w.val 1 l.val)) + mp (posOf w.val 2 l.val)) + mp (posOf w.val 3 l.val))
        + mp (posOf w.val 4 l.val)) + mp (posOf w.val 5 l.val)) + mp (posOf w.val 6 l.val)))

/-- The padded targets as a function of the position. -/
def tpAt (tp : S3584.Idx → Elt Ideal .i32) (g : ℕ) : ℕ := if h : g < 3584 then (tp (ix1 ⟨g, h⟩)).toNat else 0

/-- The padded mask as a function of the position. -/
def mpAt (mp : S3584.Idx → Elt Ideal .f32) (g : ℕ) : EReal := if h : g < 3584 then mp (ix1 ⟨g, h⟩) else 0

/-- A worker's row at a lane of a block is the padded array at that position. -/
theorem rowOf_lane {α : Type} (w : Fin 32) (a : S3584.Idx → α) (o : ℕ) (ho : o + 16 ≤ 112) (l : Fin 16) (g : ℕ)
    (hg : g = 112 * w.val + o + l.val) (hlt : g < 3584) : rowOf w a (lane o ho (ix1 l)) = a (ix1 ⟨g, hlt⟩) := by
  subst hg
  unfold rowOf
  exact congrArg (fun q => a (ix1 q)) (Fin.ext (by show 112 * w.val + (o + l.val) = 112 * w.val + o + l.val; omega))

theorem posOf_lt (w : Fin 32) (j : ℕ) (hj : j < 7) (l : Fin 16) : posOf w.val j l.val < 3584 := by
  unfold posOf; omega

/-- One term of a worker's value-times-mask sum. -/
theorem term_eq (L : grid0.Coords) (w : Fin 32) (hw : w.val = 2 * (L 1).val + (L 0).val)
    (xf : S32000000.Idx → Elt Ideal .f32) (tp : S3584.Idx → Elt Ideal .i32) (mp : S3584.Idx → Elt Ideal .f32)
    (i0 : S112.Idx → Elt Ideal .i32) (ht : ∀ g, (tp g).toNat ≤ 9999) (j : ℕ) (hj : j < 7) (o : ℕ) (ho : o + 16 ≤ 112)
    (hoj : o = 16 * j) (l : Fin 16) :
    (fetched (F := Ideal) xf (idxRow (F := Ideal) L i0 (rowOf w tp)) (lane o ho (ix1 l)) : EReal) * rowOf w mp (lane o ho (ix1 l))
      = prodAt (fun n => xfAt (F := Ideal) xf n) (tpAt tp) (mpAt mp) (posOf w.val j l.val) := by
  have hlt := posOf_lt w j hj l
  have hg : posOf w.val j l.val = 112 * w.val + o + l.val := by unfold posOf; omega
  have hpos : 112 * (2 * (L 1).val + (L 0).val) + ((lane o ho (ix1 l)) 0).val = posOf w.val j l.val := by
    show 112 * (2 * (L 1).val + (L 0).val) + (o + l.val) = _
    unfold posOf; omega
  unfold fetched prodAt
  rw [idxRow_toNat L i0 (rowOf w tp) (fun k => ht _), hpos, rowOf_lane w tp o ho l _ hg hlt, rowOf_lane w mp o ho l _ hg hlt]
  unfold tpAt mpAt
  rw [dif_pos hlt, dif_pos hlt]

/-- One term of a worker's mask sum. -/
theorem mterm_eq (w : Fin 32) (mp : S3584.Idx → Elt Ideal .f32) (j : ℕ) (hj : j < 7) (o : ℕ) (ho : o + 16 ≤ 112)
    (hoj : o = 16 * j) (l : Fin 16) : (rowOf w mp (lane o ho (ix1 l)) : EReal) = mpAt mp (posOf w.val j l.val) := by
  have hlt := posOf_lt w j hj l
  have hg : posOf w.val j l.val = 112 * w.val + o + l.val := by unfold posOf; omega
  rw [rowOf_lane w mp o ho l _ hg hlt]
  unfold mpAt
  rw [dif_pos hlt]

/-- With the workers' partial sums in place, the finishing step stores the kernel's value. -/
theorem finish_eq_rowsVal (xf : S32000000.Idx → Elt Ideal .f32) (tp : S3584.Idx → Elt Ideal .i32) (mp : S3584.Idx → Elt Ideal .f32)
    (ht : ∀ g, (tp g).toNat ≤ 9999) (Lc : Fin 32 → grid0.Coords) (hL : ∀ w, w.val = 2 * (Lc w 1).val + (Lc w 0).val)
    (i0 : Fin 32 → S112.Idx → Elt Ideal .i32) (v0 v6 : S1x32x16.Idx → EReal)
    (h0 : ∀ (w : Fin 32) (l : Fin 16), v0 (ix3 (0 : Fin 1) w l) = accOut (F := Ideal) (Lc w) w xf tp mp (i0 w) (ix1 l))
    (h6 : ∀ (w : Fin 32) (l : Fin 16), v6 (ix3 (0 : Fin 1) w l) = maccOut (F := Ideal) w mp (ix1 l)) :
    k1_pay1 (F := Ideal) v0 v6 = rowsVal (fun n => xfAt (F := Ideal) xf n) (tpAt tp) (mpAt mp) := by
  rw [finish_apply]
  unfold rowsVal
  refine congrArg₂ Ideal.div (congrArg (fun s : EReal => (0 : EReal) - s)
    (Finset.sum_congr rfl fun w _ => Finset.sum_congr rfl fun l _ => ?_))
    (Finset.sum_congr rfl fun w _ => Finset.sum_congr rfl fun l _ => ?_)
  · rw [h0 w l]
    unfold accOut
    rw [accRow_apply_ideal,
      term_eq (Lc w) w (hL w) xf tp mp (i0 w) ht 0 (by omega) 0 _ rfl l,
      term_eq (Lc w) w (hL w) xf tp mp (i0 w) ht 1 (by omega) 16 _ rfl l,
      term_eq (Lc w) w (hL w) xf tp mp (i0 w) ht 2 (by omega) 32 _ rfl l,
      term_eq (Lc w) w (hL w) xf tp mp (i0 w) ht 3 (by omega) 48 _ rfl l,
      term_eq (Lc w) w (hL w) xf tp mp (i0 w) ht 4 (by omega) 64 _ rfl l,
      term_eq (Lc w) w (hL w) xf tp mp (i0 w) ht 5 (by omega) 80 _ rfl l,
      term_eq (Lc w) w (hL w) xf tp mp (i0 w) ht 6 (by omega) 96 _ rfl l]
  · rw [h6 w l]
    unfold maccOut
    rw [maccRow_apply_ideal,
      mterm_eq w mp 0 (by omega) 0 _ rfl l, mterm_eq w mp 1 (by omega) 16 _ rfl l, mterm_eq w mp 2 (by omega) 32 _ rfl l,
      mterm_eq w mp 3 (by omega) 48 _ rfl l, mterm_eq w mp 4 (by omega) 64 _ rfl l, mterm_eq w mp 5 (by omega) 80 _ rfl l,
      mterm_eq w mp 6 (by omega) 96 _ rfl l]

/-! ## The host's three arrays as functions of the position -/

/-- The flattened input at a position below its length. -/
theorem xfAt_host (x : S64x50x10000.Idx → Elt Ideal .f32) (n : ℕ) (hn : n < 32000000) :
    xfAt (F := Ideal) (shapeCast S32000000 x shapeCasts_S64x50x10000_S32000000) n
      = x (ix3 (⟨n / 500000, by omega⟩ : Fin 64) (⟨n / 10000 % 50, by omega⟩ : Fin 50) (⟨n % 10000, by omega⟩ : Fin 10000)) := by
  unfold xfAt
  rw [dif_pos hn, flat_apply]

/-- The padded targets at a position: the target below 3200, zero from there on. -/
theorem tpAt_host (t : S64x50.Idx → Elt Ideal .i32) (g : ℕ) :
    tpAt (pad S3584 ![0] ![384] ![0] (shapeCast S3200 t shapeCasts_S64x50_S3200) (id (constantI S_ 32 0#32))
        pads_S3200_S3584_03840 h_S_) g
      = if h : g < 3200 then (t (ix2 (⟨g / 50, by omega⟩ : Fin 64) (⟨g % 50, by omega⟩ : Fin 50))).toNat else 0 := by
  unfold tpAt
  by_cases h : g < 3200
  · rw [dif_pos (show g < 3584 by omega), padded_apply, dif_pos h, dif_pos h]
  · rw [dif_neg h]
    by_cases h' : g < 3584
    · rw [dif_pos h', padded_apply, dif_neg h]; rfl
    · rw [dif_neg h']

/-- The padded mask at a position: the mask below 3200, zero from there on. -/
theorem mpAt_host (mk : S64x50.Idx → Elt Ideal .f32) (g : ℕ) :
    mpAt (pad S3584 ![0] ![384] ![0] (shapeCast S3200 mk shapeCasts_S64x50_S3200)
        (sitofp .f32 (constantI S_ 32 0#32) : FVec Ideal S_ .f32) pads_S3200_S3584_03840 h_S_) g
      = if h : g < 3200 then (mk (ix2 (⟨g / 50, by omega⟩ : Fin 64) (⟨g % 50, by omega⟩ : Fin 50)) : EReal) else 0 := by
  unfold mpAt
  by_cases h : g < 3200
  · rw [dif_pos (show g < 3584 by omega), padded_apply, dif_pos h, dif_pos h]
  · rw [dif_neg h]
    by_cases h' : g < 3584
    · rw [dif_pos h', padded_apply, dif_neg h, padZero_apply]
    · rw [dif_neg h']

/-- Padded targets stay within the classes when the targets do. -/
theorem padded_le (t : S64x50.Idx → Elt Ideal .i32) (htt : ∀ i, (t i).toNat ≤ 9999) (g : S3584.Idx) :
    ((pad S3584 ![0] ![384] ![0] (shapeCast S3200 t shapeCasts_S64x50_S3200) (id (constantI S_ 32 0#32))
        pads_S3200_S3584_03840 h_S_) g).toNat ≤ 9999 := by
  have e := padded_apply t (id (constantI S_ 32 0#32)) (g 0).val (g 0).isLt
  have hg : (ix1 (⟨(g 0).val, (g 0).isLt⟩ : Fin 3584) : S3584.Idx) = g := by
    funext d
    match d with
    | ⟨0, _⟩ => rfl
  rw [hg] at e
  rw [e]
  by_cases h : (g 0).val < 3200
  · rw [dif_pos h]; exact htt _
  · rw [dif_neg h]; show (0#32 : BitVec 32).toNat ≤ 9999; decide

end Cert.Proof.Assembly

end
-- ==== Proof.MaskedMean.lean ====
/-
  One masked mean written two ways, as extended reals.
  `refVal`: the sum over the 64 · 50 positions (b, s) of −x[b, s, t[b, s]] · mask[b, s], divided by the sum of the mask.
  `kerVal`: the same quantity as thirty-two rows of sixteen lanes compute it. Row w, lane l adds left to right the
  seven products value · mask at the positions g = 112·w + 16·j + l (j = 0 … 6) of the arrays padded with zeros from 3200
  to 3584, the value being entry min(10000·g + target g, 31999999) of the flattened input; the 512 partial sums are
  summed, the total is subtracted from zero and divided by the sum of the 512 partial sums of the mask.
  `xfN`, `tpN`, `mpN`: the flattened input and the padded targets and mask as functions of a natural number.
-/
import Idealize.ShloMosaic.PureOps.Ideal
import Idealize.ShloMosaic.Lib.ValueIdx

noncomputable section

namespace Cert.Proof.Math

open Idealize.ShloMosaic

/-- The masked mean of the negated selected entries: Σ −x[b, s, t[b, s]] · mask[b, s] over Σ mask[b, s]. (The
    remainder only makes the last coordinate total; for a target below 10000 it is the target.) -/
def refVal (x : FVec Ideal ⟨3, ![64, 50, 10000]⟩ .f32) (t : IVec ⟨2, ![64, 50]⟩ 32) (mk : FVec Ideal ⟨2, ![64, 50]⟩ .f32) : EReal :=
  Ideal.div
    (∑ b : Fin 64, ∑ s : Fin 50,
      (-(x (ValueIdx.ix3 b s ⟨(t (ValueIdx.ix2 b s)).toNat % 10000, Nat.mod_lt _ (by norm_num)⟩))) * mk (ValueIdx.ix2 b s))
    (∑ b : Fin 64, ∑ s : Fin 50, mk (ValueIdx.ix2 b s))

/-- Entry n of the input flattened row-major: n = 500000·b + 10000·s + k. -/
def xfN (x : FVec Ideal ⟨3, ![64, 50, 10000]⟩ .f32) (n : ℕ) : EReal :=
  x (ValueIdx.ix3 ⟨n / 500000 % 64, Nat.mod_lt _ (by norm_num)⟩ ⟨n / 10000 % 50, Nat.mod_lt _ (by norm_num)⟩
    ⟨n % 10000, Nat.mod_lt _ (by norm_num)⟩)

/-- The targets flattened row-major and continued by zeros. -/
def tpN (t : IVec ⟨2, ![64, 50]⟩ 32) (g : ℕ) : ℕ :=
  if h : g < 3200 then (t (ValueIdx.ix2 ⟨g / 50, by omega⟩ ⟨g % 50, Nat.mod_lt _ (by norm_num)⟩)).toNat else 0

/-- The mask flattened row-major and continued by zeros. -/
def mpN (mk : FVec Ideal ⟨2, ![64, 50]⟩ .f32) (g : ℕ) : EReal :=
  if h : g < 3200 then mk (ValueIdx.ix2 ⟨g / 50, by omega⟩ ⟨g % 50, Nat.mod_lt _ (by norm_num)⟩) else 0

/-- The position row w, block j, lane l holds. -/
def gpos (w : Fin 32) (j : Fin 7) (l : Fin 16) : ℕ := 112 * w.val + 16 * j.val + l.val

/-- The product value · mask at a position. -/
def kerP (xf : ℕ → EReal) (tpn : ℕ → ℕ) (mp : ℕ → EReal) (w : Fin 32) (j : Fin 7) (l : Fin 16) : EReal :=
  xf (min (10000 * gpos w j l + tpn (gpos w j l)) 31999999) * mp (gpos w j l)

/-- The mask at a position. -/
def kerM (mp : ℕ → EReal) (w : Fin 32) (j : Fin 7) (l : Fin 16) : EReal := mp (gpos w j l)

/-- Zero minus the sum of the 512 left-to-right partial sums of the products, over the sum of those of the mask. -/
def kerVal (xf : ℕ → EReal) (tpn : ℕ → ℕ) (mp : ℕ → EReal) : EReal :=
  Ideal.div
    ((0 : EReal) - ∑ w : Fin 32, ∑ l : Fin 16,
      ((((((kerP xf tpn mp w 0 l + kerP xf tpn mp w 1 l) + kerP xf tpn mp w 2 l) + kerP xf tpn mp w 3 l)
        + kerP xf tpn mp w 4 l) + kerP xf tpn mp w 5 l) + kerP xf tpn mp w 6 l))
    (∑ w : Fin 32, ∑ l : Fin 16,
      ((((((kerM mp w 0 l + kerM mp w 1 l) + kerM mp w 2 l) + kerM mp w 3 l) + kerM mp w 4 l) + kerM mp w 5 l) + kerM mp w 6 l))

end Cert.Proof.Math

end
-- ==== Proof.AssemblyHost.lean ====
/-
  The stored scalar at the host's own arrays, in the masked mean's spelling: the flattened input, and the targets and
  the mask flattened and padded with zeros, as functions of the position; the rows' arrangement of the mean reads the
  flattened input only below its length.
-/
import proofs.«209899_g60301340836213_cont_9to1c4b_660_2_alg».proof.Proof.Assembly
import proofs.«209899_g60301340836213_cont_9to1c4b_660_2_alg».proof.Proof.MaskedMean

noncomputable section

open scoped BigOperators

namespace Cert.Proof.Assembly

open Idealize.ShloMosaic Idealize.ShloMosaic.ValueIdx Cert.KernelIdeal Cert.KernelIdeal.Gen Cert.KernelIdeal.Spec Cert.Proof.KI

/-- The flattened input. -/
abbrev hostX (x : S64x50x10000.Idx → Elt Ideal .f32) : S32000000.Idx → Elt Ideal .f32 :=
  shapeCast S32000000 x shapeCasts_S64x50x10000_S32000000

/-- The targets flattened and padded with the zero word. -/
abbrev hostT (t : S64x50.Idx → Elt Ideal .i32) : S3584.Idx → Elt Ideal .i32 :=
  pad S3584 ![0] ![384] ![0] (shapeCast S3200 t shapeCasts_S64x50_S3200) (id (constantI S_ 32 0#32)) pads_S3200_S3584_03840 h_S_

/-- The mask flattened and padded with zero. -/
abbrev hostM (mk : S64x50.Idx → Elt Ideal .f32) : S3584.Idx → Elt Ideal .f32 :=
  pad S3584 ![0] ![384] ![0] (shapeCast S3200 mk shapeCasts_S64x50_S3200)
    (sitofp .f32 (constantI S_ 32 0#32) : FVec Ideal S_ .f32) pads_S3200_S3584_03840 h_S_

/-- The kernel's value reads its first array only at positions up to 31999999. -/
theorem rowsVal_congr (xf xf' : ℕ → EReal) (tpn : ℕ → ℕ) (mp : ℕ → EReal) (h : ∀ n, n ≤ 31999999 → xf n = xf' n) :
    rowsVal xf tpn mp = rowsVal xf' tpn mp := by
  have h' : ∀ a, xf (min a 31999999) = xf' (min a 31999999) := fun a => h _ (Nat.min_le_right _ _)
  unfold rowsVal prodAt
  simp only [h']

/-- The two spellings of the kernel's value are one. -/
theorem rowsVal_eq_math (xf : ℕ → EReal) (tpn : ℕ → ℕ) (mp : ℕ → EReal) : rowsVal xf tpn mp = Math.kerVal xf tpn mp := rfl

/-- Below its length the flattened input is the input at the position's coordinates. -/
theorem xfAt_host_eq (x : S64x50x10000.Idx → Elt Ideal .f32) (n : ℕ) (hn : n ≤ 31999999) :
    xfAt (F := Ideal) (hostX x) n = Math.xfN x n := by
  rw [xfAt_host x n (by omega)]
  unfold Math.xfN
  refine congrArg x (funext fun d => ?_)
  match d with
  | ⟨0, _⟩ => exact Fin.ext (show n / 500000 = n / 500000 % 64 by omega)
  | ⟨1, _⟩ => rfl
  | ⟨2, _⟩ => rfl

theorem tpN_host_eq (t : S64x50.Idx → Elt Ideal .i32) : tpAt (hostT t) = Math.tpN t :=
  funext fun g => (tpAt_host t g).trans rfl

theorem mpN_host_eq (mk : S64x50.Idx → Elt Ideal .f32) : mpAt (hostM mk) = Math.mpN mk :=
  funext fun g => (mpAt_host mk g).trans rfl

/-- With the workers' partial sums of the host's arrays in place, the finishing step stores the masked mean in the
    rows' arrangement. -/
theorem finish_eq_kerVal_host (x : S64x50x10000.Idx → Elt Ideal .f32) (t : S64x50.Idx → Elt Ideal .i32)
    (mk : S64x50.Idx → Elt Ideal .f32) (htt : ∀ j, (t j).toNat ≤ 9999)
    (Lc : Fin 32 → grid0.Coords) (hL : ∀ w, w.val = 2 * (Lc w 1).val + (Lc w 0).val)
    (i0 : Fin 32 → S112.Idx → Elt Ideal .i32) (v0 v6 : S1x32x16.Idx → EReal)
    (h0 : ∀ (w : Fin 32) (l : Fin 16),
      v0 (ix3 (0 : Fin 1) w l) = accOut (F := Ideal) (Lc w) w (hostX x) (hostT t) (hostM mk) (i0 w) (ix1 l))
    (h6 : ∀ (w : Fin 32) (l : Fin 16), v6 (ix3 (0 : Fin 1) w l) = maccOut (F := Ideal) w (hostM mk) (ix1 l)) :
    k1_pay1 (F := Ideal) v0 v6 = Math.kerVal (Math.xfN x) (Math.tpN t) (Math.mpN mk) := by
  rw [finish_eq_rowsVal (hostX x) (hostT t) (hostM mk) (padded_le t htt) Lc hL i0 v0 v6 h0 h6,
    rowsVal_congr _ (Math.xfN x) _ _ (fun n hn => xfAt_host_eq x n hn), tpN_host_eq, mpN_host_eq, rowsVal_eq_math]

end Cert.Proof.Assembly

end
-- ==== Proof.SumLaws.lean ====
/-
  Laws of finite sums over the extended reals used to compare two arrangements of one masked sum.
  Addition on the extended reals is a commutative monoid, so re-indexing a sum needs no finiteness: a sum over
  32 · 16 · 7 positions 112·w + 16·j + l is the sum over the 3584 positions, and a sum over 3584 positions whose
  terms vanish from 3200 on is the sum over the 64 · 50 positions 50·b + s. Negation does not distribute over
  addition at ⊤ + ⊥, so the law 0 − Σ v·m = Σ (−v)·m is stated for real families, through the coercion.
-/
import Mathlib.Data.EReal.Inv
import Mathlib.Algebra.BigOperators.Fin
import Mathlib.Logic.Equiv.Fin.Basic

namespace Cert.Proof.Math

open scoped BigOperators

/-- A double sum over a · n + b is the sum over the product range. -/
theorem sum_fin_mul {M : Type*} [AddCommMonoid M] (m n : ℕ) (f : ℕ → M) :
    ∑ a : Fin m, ∑ b : Fin n, f (n * a.val + b.val) = ∑ g : Fin (m * n), f g.val := by
  rw [← Fintype.sum_prod_type']
  exact Fintype.sum_equiv finProdFinEquiv _ _ (fun p => congrArg f (Nat.add_comm _ _))

/-- The thirty-two rows of seven blocks of sixteen lanes cover the 3584 positions once each. -/
theorem sum_workers (f : ℕ → EReal) :
    ∑ w : Fin 32, ∑ l : Fin 16, ∑ j : Fin 7, f (112 * w.val + 16 * j.val + l.val) = ∑ g : Fin 3584, f g.val := by
  have h1 : ∀ w : Fin 32, ∑ l : Fin 16, ∑ j : Fin 7, f (112 * w.val + 16 * j.val + l.val)
      = ∑ k : Fin 112, f (112 * w.val + k.val) := by
    intro w
    rw [Finset.sum_comm]
    have h := sum_fin_mul 7 16 (fun k => f (112 * w.val + k))
    simp only [← Nat.add_assoc] at h
    exact h
  rw [Finset.sum_congr rfl (fun w _ => h1 w)]
  exact sum_fin_mul 32 112 f

/-- A sum over 3584 positions whose terms vanish from 3200 on is the sum over 64 rows of 50. -/
theorem sum_padded (f : ℕ → EReal) (h0 : ∀ g, 3200 ≤ g → f g = 0) :
    ∑ g : Fin 3584, f g.val = ∑ b : Fin 64, ∑ s : Fin 50, f (50 * b.val + s.val) := by
  rw [sum_fin_mul 64 50 f]
  have h := Fin.sum_univ_add (a := 3200) (b := 384) (fun g => f g.val)
  refine h.trans ?_
  have hz : ∑ i : Fin 384, f (Fin.natAdd 3200 i).val = 0 :=
    Finset.sum_eq_zero (fun i _ => h0 _ (by simp [Fin.natAdd]))
  rw [hz, add_zero]
  rfl

/-- Seven terms added left to right are their sum. -/
theorem seven_left (p : Fin 7 → EReal) : ((((((p 0 + p 1) + p 2) + p 3) + p 4) + p 5) + p 6) = ∑ j : Fin 7, p j :=
  (Fin.sum_univ_seven p).symm

/-- The coercion of the reals commutes with finite sums. -/
theorem coe_sum {ι : Type} (s : Finset ι) (g : ι → ℝ) : ((∑ i ∈ s, g i : ℝ) : EReal) = ∑ i ∈ s, ((g i : ℝ) : EReal) := by
  classical
  induction s using Finset.induction_on with
  | empty => simp
  | insert a s ha ih => rw [Finset.sum_insert ha, Finset.sum_insert ha, EReal.coe_add, ih]

/-- For real families, the negated sum of products is the sum of the products with the negated factors. -/
theorem zero_sub_sum_mul {ι : Type} [Fintype ι] (v m : ι → ℝ) :
    (0 : EReal) - ∑ i, ((v i : ℝ) : EReal) * ((m i : ℝ) : EReal) = ∑ i, (-((v i : ℝ) : EReal)) * ((m i : ℝ) : EReal) := by
  simp only [← EReal.coe_mul, ← EReal.coe_neg, ← coe_sum, ← EReal.coe_zero, ← EReal.coe_sub]
  congr 1
  simp [Finset.sum_neg_distrib]

end Cert.Proof.Math
-- ==== Proof.Bridge.lean ====
/-
  The two arrangements of the masked mean agree: `kerVal` at the flattened input and the padded targets and mask
  is `refVal`, for real-valued inputs and targets in [0, 9999].
  The 32 · 16 left-to-right partial sums are re-indexed to a sum over the 3584 positions; the terms from 3200 on
  vanish with the mask (0 · anything = 0 on the extended reals), which leaves the 64 · 50 positions 50·b + s; there the
  flat position 10000·(50·b + s) + t[b, s] is not clamped and is entry (b, s, t[b, s]) of the input. Zero minus the sum of
  the products is the sum of the products with the negated values because every term is real.
-/
import proofs.«209899_g60301340836213_cont_9to1c4b_660_2_alg».proof.Proof.MaskedMean
import proofs.«209899_g60301340836213_cont_9to1c4b_660_2_alg».proof.Proof.SumLaws

noncomputable section

namespace Cert.Proof.Math

open Idealize.ShloMosaic

/-- The law for real families over two indices. -/
theorem zero_sub_sum_mul₂ {ι κ : Type} [Fintype ι] [Fintype κ] (v m : ι → κ → ℝ) :
    (0 : EReal) - ∑ i, ∑ k, ((v i k : ℝ) : EReal) * ((m i k : ℝ) : EReal)
      = ∑ i, ∑ k, (-((v i k : ℝ) : EReal)) * ((m i k : ℝ) : EReal) := by
  have h := zero_sub_sum_mul (fun p : ι × κ => v p.1 p.2) (fun p : ι × κ => m p.1 p.2)
  simp only [Fintype.sum_prod_type] at h
  exact h

theorem ix2_eq {a a' : Fin 64} {c c' : Fin 50} (h1 : a.val = a'.val) (h2 : c.val = c'.val) :
    (ValueIdx.ix2 a c : (⟨2, ![64, 50]⟩ : Shape).Idx) = ValueIdx.ix2 a' c' := by
  rw [Fin.ext h1, Fin.ext h2]

theorem ix3_eq {a a' : Fin 64} {c c' : Fin 50} {k k' : Fin 10000} (h1 : a.val = a'.val) (h2 : c.val = c'.val) (h3 : k.val = k'.val) :
    (ValueIdx.ix3 a c k : (⟨3, ![64, 50, 10000]⟩ : Shape).Idx) = ValueIdx.ix3 a' c' k' := by
  rw [Fin.ext h1, Fin.ext h2, Fin.ext h3]

/-- Seven products added left to right are their sum. -/
theorem kerP_sum (xf : ℕ → EReal) (tpn : ℕ → ℕ) (mp : ℕ → EReal) (w : Fin 32) (l : Fin 16) :
    ((((((kerP xf tpn mp w 0 l + kerP xf tpn mp w 1 l) + kerP xf tpn mp w 2 l) + kerP xf tpn mp w 3 l)
        + kerP xf tpn mp w 4 l) + kerP xf tpn mp w 5 l) + kerP xf tpn mp w 6 l) = ∑ j : Fin 7, kerP xf tpn mp w j l :=
  seven_left (fun j => kerP xf tpn mp w j l)

theorem kerM_sum (mp : ℕ → EReal) (w : Fin 32) (l : Fin 16) :
    ((((((kerM mp w 0 l + kerM mp w 1 l) + kerM mp w 2 l) + kerM mp w 3 l) + kerM mp w 4 l) + kerM mp w 5 l) + kerM mp w 6 l)
      = ∑ j : Fin 7, kerM mp w j l :=
  seven_left (fun j => kerM mp w j l)

variable (x : FVec Ideal ⟨3, ![64, 50, 10000]⟩ .f32) (t : IVec ⟨2, ![64, 50]⟩ 32) (mk : FVec Ideal ⟨2, ![64, 50]⟩ .f32)

/-- The product value · mask at position g of the padded arrays. -/
def term (g : ℕ) : EReal := xfN x (min (10000 * g + tpN t g) 31999999) * mpN mk g

theorem kerP_eq_term (w : Fin 32) (j : Fin 7) (l : Fin 16) :
    kerP (xfN x) (tpN t) (mpN mk) w j l = term x t mk (112 * w.val + 16 * j.val + l.val) := rfl

theorem kerM_eq (w : Fin 32) (j : Fin 7) (l : Fin 16) : kerM (mpN mk) w j l = mpN mk (112 * w.val + 16 * j.val + l.val) := rfl

theorem mpN_pad (g : ℕ) (h : 3200 ≤ g) : mpN mk g = 0 := by
  unfold mpN; rw [dif_neg (by omega)]

theorem term_pad (g : ℕ) (h : 3200 ≤ g) : term x t mk g = 0 := by
  unfold term; rw [mpN_pad mk g h, mul_zero]

theorem mpN_at (b : Fin 64) (s : Fin 50) : mpN mk (50 * b.val + s.val) = mk (ValueIdx.ix2 b s) := by
  have hb := b.isLt
  have hs := s.isLt
  unfold mpN
  rw [dif_pos (by omega)]
  exact congrArg mk (ix2_eq (by show (50 * b.val + s.val) / 50 = b.val; omega) (by show (50 * b.val + s.val) % 50 = s.val; omega))

theorem tpN_at (b : Fin 64) (s : Fin 50) : tpN t (50 * b.val + s.val) = (t (ValueIdx.ix2 b s)).toNat := by
  have hb := b.isLt
  have hs := s.isLt
  unfold tpN
  rw [dif_pos (by omega)]
  exact congrArg (fun j => (t j).toNat)
    (ix2_eq (by show (50 * b.val + s.val) / 50 = b.val; omega) (by show (50 * b.val + s.val) % 50 = s.val; omega))

/-- At position 50·b + s the product is x[b, s, t[b, s]] · mask[b, s]: the flat position is not clamped. -/
theorem term_at (hr : ∀ j, (t j).toNat ≤ 9999) (b : Fin 64) (s : Fin 50) :
    term x t mk (50 * b.val + s.val)
      = x (ValueIdx.ix3 b s ⟨(t (ValueIdx.ix2 b s)).toNat % 10000, Nat.mod_lt _ (by norm_num)⟩) * mk (ValueIdx.ix2 b s) := by
  have hb := b.isLt
  have hs := s.isLt
  have ht := hr (ValueIdx.ix2 b s)
  unfold term
  rw [mpN_at, tpN_at, min_eq_left (by omega)]
  congr 1
  unfold xfN
  exact congrArg x (ix3_eq
    (by show (10000 * (50 * b.val + s.val) + (t (ValueIdx.ix2 b s)).toNat) / 500000 % 64 = b.val; omega)
    (by show (10000 * (50 * b.val + s.val) + (t (ValueIdx.ix2 b s)).toNat) / 10000 % 50 = s.val; omega)
    (by show (10000 * (50 * b.val + s.val) + (t (ValueIdx.ix2 b s)).toNat) % 10000 = (t (ValueIdx.ix2 b s)).toNat % 10000; omega))

/-- THE BRIDGE: the rows' arrangement of the masked mean is the reference's. -/
theorem kerVal_eq_refVal (hx : ∀ i, ∃ r : ℝ, x i = (r : EReal)) (hm : ∀ j, ∃ r : ℝ, mk j = (r : EReal))
    (hr : ∀ j, (t j).toNat ≤ 9999) :
    kerVal (xfN x) (tpN t) (mpN mk) = refVal x t mk := by
  choose rx hrx using hx
  choose rm hrm using hm
  unfold kerVal
  simp only [kerP_sum, kerM_sum]
  simp only [kerP_eq_term, kerM_eq]
  rw [sum_workers (term x t mk), sum_workers (mpN mk), sum_padded _ (term_pad x t mk), sum_padded _ (mpN_pad mk)]
  simp only [term_at x t mk hr, mpN_at]
  unfold refVal
  congr 1
  simp only [hrx, hrm]
  exact zero_sub_sum_mul₂ _ _

end Cert.Proof.Math

end
-- ==== Proof.Value.lean ====
/-
  The result at the extended reals. With every worker's partial sums in place the finishing value is the masked mean
  in the workers' arrangement — thirty-two rows of sixteen lanes of seven products each —, which for finite inputs
  and in-range targets is the reference's sum over the 64 × 50 positions: the padding positions carry mask zero, and
  −(a + b) = −a + −b on real numbers.
-/
import proofs.«209899_g60301340836213_cont_9to1c4b_660_2_alg».proof.Proof.HostValues
import proofs.«209899_g60301340836213_cont_9to1c4b_660_2_alg».proof.Proof.AssemblyHost
import proofs.«209899_g60301340836213_cont_9to1c4b_660_2_alg».proof.Proof.Bridge

noncomputable section

namespace Cert.Proof.KI

open Cert.KernelIdeal Cert.KernelIdeal.Gen
open Idealize.ShloMosaic Idealize.ShloMosaic.ValueIdx

variable (m : (ℓ : Loc nD τ sig) → Buf (Elt Ideal) ℓ)

theorem res7_eq (d : Dev nD) (g : Buf (Elt Ideal) (oLoc d)) (hg : agree (Xf m) (Tp m) (Mp m) d g)
    (hr : ∀ j, (m ((SparseCore.T d).loc main_arg5) j).toNat ≤ 9999)
    (hx : ∀ i, ∃ r : ℝ, m ((SparseCore.T d).loc main_arg0) i = (r : EReal))
    (hm : ∀ j, ∃ r : ℝ, m ((SparseCore.T d).loc main_arg6) j = (r : EReal)) :
    res7 (F := Ideal) d g = fun _ => Math.refVal (m ((SparseCore.T d).loc main_arg0)) (m ((SparseCore.T d).loc main_arg5))
      (m ((SparseCore.T d).loc main_arg6)) := by
  funext i
  have hsc : res7 (F := Ideal) d g i = finishOf (F := Ideal) g := rfl
  rw [hsc]
  unfold finishOf
  choose i0 hi0 using fun w => (hg w).1
  have hX : Xf m d = Assembly.hostX (m ((SparseCore.T d).loc main_arg0)) := Xf_eq m d
  have hT : Tp m d = Assembly.hostT (m ((SparseCore.T d).loc main_arg5)) := Tp_eq m d
  have hM : Mp m d = Assembly.hostM (m ((SparseCore.T d).loc main_arg6)) := Mp_eq m d
  rw [hX, hT, hM] at hi0
  have h6 := fun w => (hg w).2
  rw [hM] at h6
  rw [Assembly.finish_eq_kerVal_host (m ((SparseCore.T d).loc main_arg0)) (m ((SparseCore.T d).loc main_arg5))
      (m ((SparseCore.T d).loc main_arg6)) hr Lw (fun w => by show w.val = 2 * (w.val / 2) + w.val % 2; omega) i0 _ _
      (fun w l => hi0 w (ix1 l)) (fun w l => h6 w (ix1 l)),
    Math.kerVal_eq_refVal _ _ _ hx hm hr]

end Cert.Proof.KI

end
-- ==== Proof.RefValue.lean ====
/-
  The value of the reference program at the extended reals, for targets in range.
  The reference selects x[b, s, t[b, s]] by a gather along the last axis: it first adds 10000 to a negative index,
  gathers at the index clamped into [0, 9999], and keeps the gathered entry where the index lies in [0, 9999] (else a
  NaN). For 0 ≤ t ≤ 9999 the index is the target itself, the clamp is the identity and the entry is kept; the program then
  negates, multiplies by the mask, sums over the 64 · 50 positions and divides by the sum of the mask: `refVal`.
-/
import proofs.«209899_g60301340836213_cont_9to1c4b_660_2_alg».proof.Proof.Gen.ReferenceIdeal.Read
import proofs.«209899_g60301340836213_cont_9to1c4b_660_2_alg».proof.Proof.MaskedMean
import Idealize.ShloMosaic.Lib.ValueIdx
import Idealize.ShloMosaic.Lib.ReduceAll

noncomputable section

namespace Cert.Proof.RefMath

open Idealize.ShloMosaic Cert.ReferenceIdeal Cert.ReferenceIdeal.Gen Cert.ReferenceIdeal.Read

/-! ## Words in [0, 9999] -/

/-- A 32-bit word at most 9999 is its own value as a signed integer. -/
theorem toInt_of_small (a : BitVec 32) (h : a.toNat ≤ 9999) : a.toInt = (a.toNat : Int) := by
  rw [BitVec.toInt_eq_toNat_cond]
  split
  · rfl
  · rename_i hn; simp only [Nat.reducePow] at hn; omega

/-- Adding 10000 to a negative index leaves an index in [0, 9999] as it is. -/
theorem normalise (a : BitVec 32) (h : a.toNat ≤ 9999) :
    Scalar.select (IntOp.cmpi .slt a 0#32) (IntOp.addi a 10000#32) a = a := by
  have z : (0#32 : BitVec 32).toInt = 0 := by decide
  have h0 : IntOp.cmpi .slt a 0#32 = 0#1 := ValueIdx.eq_zero_of_ne_one (fun h1 => by
    rw [IntOp.cmpi_slt, toInt_of_small a h, z] at h1; omega)
  rw [h0, ValueIdx.select_zero]

/-- An index in [0, 9999] passes the range test. -/
theorem in_range (a : BitVec 32) (h : a.toNat ≤ 9999) :
    IntOp.andi (IntOp.cmpi .sge a 0#32) (IntOp.cmpi .sle a 9999#32) = 1#1 := by
  have z : (0#32 : BitVec 32).toInt = 0 := by decide
  have n : (9999#32 : BitVec 32).toInt = 9999 := by decide
  refine IntOp.andi_eq_one.2 ⟨IntOp.cmpi_sge.2 ?_, IntOp.cmpi_sle.2 ?_⟩
  · rw [z, toInt_of_small a h]; omega
  · rw [n, toInt_of_small a h]; omega

/-- A left fold by `and` from 1 over words that are all 1 is 1. -/
theorem foldl_andi_ones {ι : Type} (f : ι → BitVec 1) (hf : ∀ n, f n = 1#1) :
    ∀ l : List ι, l.foldl (fun r n => IntOp.andi r (f n)) 1#1 = 1#1
  | [] => rfl
  | a :: l => by
    have e : IntOp.andi 1#1 1#1 = 1#1 := by decide
    rw [List.foldl_cons, hf a, e]
    exact foldl_andi_ones f hf l

/-! ## The gather along the last axis, read at an index -/

/-- The reference's gather: batched over the first two axes, one start index along the third. -/
abbrev G : GatherDims S64x50x10000 S64x50x1x1 S64x50x1 := gather_S64x50x10000_S64x50x1x1_S64x50x1_n_2_01_01_2_3_111

theorem G_si (i : S64x50x1.Idx) (h : List.idxOf (2 : Fin 3) G.startIndexMap < G.startIndexMap.length) :
    G.siIdx i ⟨List.idxOf (2 : Fin 3) G.startIndexMap, h⟩ = ValueIdx.ix4 (i 0) (i 1) (i 2) 0 := by
  funext b; refine Fin.ext ?_
  match b with
  | ⟨0, _⟩ => rfl
  | ⟨1, _⟩ => rfl
  | ⟨2, _⟩ => rfl
  | ⟨3, _⟩ => rfl

/-- At (b, s, 0) the gather reads the operand at (b, s, k), k the start index at (b, s, 0, 0) read signed and clamped
    into [0, 9999]. -/
theorem gather_apply {α : Type} {w : Nat} (x : S64x50x10000.Idx → α) (idx : IVec S64x50x1x1 w) (i : S64x50x1.Idx) :
    Host.gather G x idx i
      = x (ValueIdx.ix3 (i 0) (i 1) ⟨min (idx (ValueIdx.ix4 (i 0) (i 1) (i 2) 0)).toInt.toNat 9999, by omega⟩) := by
  unfold Host.gather
  congr 1
  funext a
  refine Fin.ext ?_
  have m0 : (0 : Fin 3) ∈ G.operandBatchingDims := show (0 : Fin 3) ∈ [0, 1] by decide
  have m1 : (1 : Fin 3) ∈ G.operandBatchingDims := show (1 : Fin 3) ∈ [0, 1] by decide
  have m2 : (2 : Fin 3) ∉ G.operandBatchingDims := show (2 : Fin 3) ∉ [0, 1] by decide
  have c2 : (2 : Fin 3) ∈ G.collapsedSliceDims := show (2 : Fin 3) ∈ [2] by decide
  have s2 : (2 : Fin 3) ∈ G.startIndexMap := show (2 : Fin 3) ∈ [2] by decide
  match a with
  | ⟨0, _⟩ =>
    show G.start i idx 0 + G.batchCoord i 0 + G.offCoord i 0 = (i 0).val
    rw [G.start_batching i idx 0 m0, G.offCoord_eq_zero i 0 (fun h => ((G.mem_sKept 0).1 h).2 m0)]
    simp only [Nat.zero_add, Nat.add_zero]
    unfold GatherDims.batchCoord
    rw [dif_pos m0]
    rfl
  | ⟨1, _⟩ =>
    show G.start i idx 1 + G.batchCoord i 1 + G.offCoord i 1 = (i 1).val
    rw [G.start_batching i idx 1 m1, G.offCoord_eq_zero i 1 (fun h => ((G.mem_sKept 1).1 h).2 m1)]
    simp only [Nat.zero_add, Nat.add_zero]
    unfold GatherDims.batchCoord
    rw [dif_pos m1]
    rfl
  | ⟨2, _⟩ =>
    show G.start i idx 2 + G.batchCoord i 2 + G.offCoord i 2 = min (idx (ValueIdx.ix4 (i 0) (i 1) (i 2) 0)).toInt.toNat 9999
    rw [G.batchCoord_eq_zero i 2 m2, G.offCoord_eq_zero i 2 (fun h => ((G.mem_sKept 2).1 h).1 c2)]
    simp only [Nat.add_zero]
    unfold GatherDims.start
    rw [dif_pos s2, G_si]
    rfl

/-! ## The stages of the selection, for targets in [0, 9999] -/

variable (x : FVec Ideal S64x50x10000 .f32) (t : IVec S64x50 32) (mk : FVec Ideal S64x50 .f32)

/-- The normalised index at (b, s, 0, 0) is the target at (b, s). -/
theorem index_apply (hr : ∀ j, (t j).toNat ≤ 9999) (i : S64x50x1x1.Idx) :
    val_main_call0_v5 (F := Ideal) t i = t (ValueIdx.ix2 (i 0) (i 1)) := by
  have hk : idx_main_v0 (idx_main_call0_v5 i) = ValueIdx.ix2 (i 0) (i 1) := by
    funext a
    have h0 : (i 0).val < 64 := (i 0).isLt
    have h1 : (i 1).val < 50 := (i 1).isLt
    have h2 : (i 2).val < 1 := (i 2).isLt
    have h3 : (i 3).val < 1 := (i 3).isLt
    match a with
    | ⟨0, _⟩ => exact Fin.ext (by show ((((i 0).val * 50 + (i 1).val) * 1 + (i 2).val) * 1 + (i 3).val) / 50 = (i 0).val; omega)
    | ⟨1, _⟩ => exact Fin.ext (by show ((((i 0).val * 50 + (i 1).val) * 1 + (i 2).val) * 1 + (i 3).val) / 1 % 50 = (i 1).val; omega)
  rw [val_main_call0_v5_apply, val_main_call0_v4_apply, val_main_call0_v1_apply, val_main_call0_v3_apply,
    val_main_call0_v0_apply, val_main_call0_c_apply, val_main_call0_v2_apply, val_main_call0_c_0_apply, val_main_v0_apply, hk]
  exact normalise _ (hr _)

/-- Every index passes the range test. -/
theorem test_apply (hr : ∀ j, (t j).toNat ≤ 9999) (i : S64x50x1x1.Idx) : val_main_call0_v11 (F := Ideal) t i = 1#1 := by
  rw [val_main_call0_v11_apply, val_main_call0_v7_apply, val_main_call0_v10_apply, val_main_call0_v6_apply,
    val_main_call0_c_2_apply, val_main_call0_v9_apply, val_main_call0_v8_apply, val_main_call0_c_1_apply, index_apply t hr]
  exact in_range _ (hr _)

/-- … so its conjunction over the unit axis is 1 everywhere. -/
theorem all_apply (hr : ∀ j, (t j).toNat ≤ 9999) (i : S64x50x1.Idx) : val_main_call0_v12 (F := Ideal) t i = 1#1 := by
  unfold val_main_call0_v12
  rw [Host.reduce_eq_foldl]
  exact foldl_andi_ones _ (test_apply t hr) _

/-- The selected entry at (b, s) is x[b, s, t[b, s]]. -/
theorem selected_apply (hr : ∀ j, (t j).toNat ≤ 9999) (b : Fin 64) (s : Fin 50) :
    val_main_v2 (F := Ideal) x t (ValueIdx.ix2 b s)
      = x (ValueIdx.ix3 b s ⟨(t (ValueIdx.ix2 b s)).toNat % 10000, Nat.mod_lt _ (by norm_num)⟩) := by
  have hk : idx_main_v2 (ValueIdx.ix2 b s) = ValueIdx.ix3 b s 0 := by
    funext a
    have h0 := b.isLt
    have h1 := s.isLt
    match a with
    | ⟨0, _⟩ => exact Fin.ext (by show (b.val * 50 + s.val) / 50 = b.val; omega)
    | ⟨1, _⟩ => exact Fin.ext (by show (b.val * 50 + s.val) / 1 % 50 = s.val; omega)
    | ⟨2, _⟩ => rfl
  rw [val_main_v2_apply, hk, val_main_v1_apply, all_apply t hr, ValueIdx.select_one]
  unfold val_main_call0_v13
  rw [gather_apply]
  have ht := hr (ValueIdx.ix2 b s)
  refine congrArg x (funext fun a => Fin.ext ?_)
  match a with
  | ⟨0, _⟩ => rfl
  | ⟨1, _⟩ => rfl
  | ⟨2, _⟩ =>
    show min (val_main_call0_v5 (F := Ideal) t (ValueIdx.ix4 b s 0 0)).toInt.toNat 9999 = (t (ValueIdx.ix2 b s)).toNat % 10000
    rw [index_apply t hr]
    show min (t (ValueIdx.ix2 b s)).toInt.toNat 9999 = (t (ValueIdx.ix2 b s)).toNat % 10000
    have := toInt_of_small _ ht
    omega

/-- THE REFERENCE'S VALUE: for targets in [0, 9999] its result is the masked mean `refVal`. -/
theorem ref_value (hr : ∀ j, (t j).toNat ≤ 9999) :
    val_main_v7 (F := Ideal) x t mk = fun _ => Math.refVal x t mk := by
  funext i
  have hnum : ∑ j : S64x50.Idx, val_main_v4 (F := Ideal) x t mk j
      = ∑ b : Fin 64, ∑ s : Fin 50,
          (-(x (ValueIdx.ix3 b s ⟨(t (ValueIdx.ix2 b s)).toNat % 10000, Nat.mod_lt _ (by norm_num)⟩))) * mk (ValueIdx.ix2 b s) := by
    rw [ValueIdx.sum_idx2]
    refine Finset.sum_congr rfl fun b _ => Finset.sum_congr rfl fun s _ => ?_
    rw [val_main_v4_apply, val_main_v3_apply, selected_apply x t hr]
    simp only [Ideal.mulf_def, Ideal.hostNegf_def, Ideal.negf_def]
  have hden : ∑ j : S64x50.Idx, mk j = ∑ b : Fin 64, ∑ s : Fin 50, mk (ValueIdx.ix2 b s) := ValueIdx.sum_idx2 mk
  rw [val_main_v7_apply, val_main_v5_apply, val_main_v6_apply, val_main_cst_apply, val_main_cst_0_apply, hnum, hden]
  simp only [Ideal.hostDivf_def, Ideal.ofBits_def, Ideal.ofBits_zero_f32, zero_add]
  rfl

end Cert.Proof.RefMath

end
-- ==== Proof.PreFacts.lean ====
/-
  From the precondition to the hypotheses of the comparison.
  The precondition is the conjunction, over the eleven arguments, of "every entry has absolute value below +∞" (for the
  float arrays) and "every target lies in [0, 9999]" (signed compares), each an `and`-reduction over the whole array.
  Read back: every target, as an unsigned word, is at most 9999 (any float instance); and at the extended reals
  every entry of the input and of the mask is a real number, since |a| < ⊤ excludes ⊤ and ⊥.
-/
import proofs.«209899_g60301340836213_cont_9to1c4b_660_2_alg».proof.Proof.Gen.Pre_input_domain
import Idealize.ShloMosaic.Lib.ReduceAll
import Idealize.ShloMosaic.Lib.ValueIdx
import Idealize.ShloMosaic.PureOps.Ideal.Laws

noncomputable section

namespace Cert.Proof.PreMath

open Idealize.ShloMosaic Cert.Pre_input_domain Cert.Pre_input_domain.Gen

instance : Subsingleton S_.Idx := ⟨fun a b => funext fun d => d.elim0⟩

/-- A 32-bit word between 0 and 9999 as a signed integer is at most 9999 as an unsigned one. -/
theorem toNat_le_of_range (a : BitVec 32) (h0 : (0#32 : BitVec 32).toInt ≤ a.toInt) (h1 : a.toInt ≤ (9999#32 : BitVec 32).toInt) :
    a.toNat ≤ 9999 := by
  have z : (0#32 : BitVec 32).toInt = 0 := by decide
  have n : (9999#32 : BitVec 32).toInt = 9999 := by decide
  rw [z] at h0
  rw [n] at h1
  have hc := BitVec.toInt_eq_toNat_cond a
  have hlt : a.toNat < 2 ^ 32 := a.isLt
  by_cases h2 : 2 * a.toNat < 2 ^ 32
  · rw [if_pos h2] at hc; omega
  · rw [if_neg h2] at hc
    simp only [Nat.reducePow] at hc hlt
    omega

/-- An extended real whose absolute value is below the pattern of +∞ is a real number. -/
theorem real_of_abs_lt (a : EReal) (h : Ideal.cmp .olt (max a (-a)) (Ideal.ofBits .f32 0x7F800000#32) = 1#1) :
    ∃ r : ℝ, a = (r : EReal) := by
  have htop : Ideal.ofBits .f32 0x7F800000#32 = ⊤ := by simp [Ideal.ofBits, Ideal.ieee]
  rw [htop] at h
  induction a using EReal.rec with
  | bot => simp [Ideal.cmp] at h
  | coe r => exact ⟨r, rfl⟩
  | top => simp [Ideal.cmp] at h

variable {F : FTy → Type} [FloatOps F]

/-- The precondition's conjuncts about the input, the mask and the targets, entry by entry. -/
theorem pre_parts (a0 : FVec F S64x50x10000 .f32) (a1 a2 a3 a4 : FVec F S0 .f32) (a5 : IVec S64x50 32) (a6 : FVec F S64x50 .f32)
    (a7 a8 a9 a10 : FVec F S0 .f32) (h : fn (F := F) a0 a1 a2 a3 a4 a5 a6 a7 a8 a9 a10 = fun _ => 1#1) :
    (∀ i, FloatOps.cmpf .olt (FloatOps.hostAbsf (a0 i)) (FloatOps.ofBits .f32 0x7F800000#32) = 1#1)
    ∧ (∀ j, FloatOps.cmpf .olt (FloatOps.hostAbsf (a6 j)) (FloatOps.ofBits .f32 0x7F800000#32) = 1#1)
    ∧ (∀ j, IntOp.andi (IntOp.cmpi .sge (a5 j) 0#32) (IntOp.cmpi .sle (a5 j) 9999#32) = 1#1) := by
  have h0 : fn (F := F) a0 a1 a2 a3 a4 a5 a6 a7 a8 a9 a10 ValueIdx.ix0 = 1#1 := congrFun h ValueIdx.ix0
  obtain ⟨h48, h54⟩ := IntOp.andi_eq_one.1 h0
  obtain ⟨h43, -⟩ := IntOp.andi_eq_one.1 h48
  obtain ⟨h38, -⟩ := IntOp.andi_eq_one.1 h43
  obtain ⟨h33, -⟩ := IntOp.andi_eq_one.1 h38
  obtain ⟨h28, -⟩ := IntOp.andi_eq_one.1 h33
  obtain ⟨h23, h27⟩ := IntOp.andi_eq_one.1 h28
  obtain ⟨h18, -⟩ := IntOp.andi_eq_one.1 h23
  obtain ⟨h13, -⟩ := IntOp.andi_eq_one.1 h18
  obtain ⟨h8, -⟩ := IntOp.andi_eq_one.1 h13
  obtain ⟨h3, -⟩ := IntOp.andi_eq_one.1 h8
  exact ⟨fun i => Host.reduce_andi_all _ _ _ _ _ h3 i, fun j => Host.reduce_andi_all _ _ _ _ _ h27 j,
    fun j => Host.reduce_andi_all _ _ _ _ _ h54 j⟩

/-- Every target is at most 9999 as an unsigned word. -/
theorem pre_range (a0 : FVec F S64x50x10000 .f32) (a1 a2 a3 a4 : FVec F S0 .f32) (a5 : IVec S64x50 32) (a6 : FVec F S64x50 .f32)
    (a7 a8 a9 a10 : FVec F S0 .f32) (h : fn (F := F) a0 a1 a2 a3 a4 a5 a6 a7 a8 a9 a10 = fun _ => 1#1) :
    ∀ j, (a5 j).toNat ≤ 9999 := fun j => by
  obtain ⟨hge, hle⟩ := IntOp.andi_eq_one.1 ((pre_parts a0 a1 a2 a3 a4 a5 a6 a7 a8 a9 a10 h).2.2 j)
  exact toNat_le_of_range _ (IntOp.cmpi_sge.1 hge) (IntOp.cmpi_sle.1 hle)

/-- At the extended reals every entry of the input is a real number … -/
theorem pre_real_input (a0 : FVec Ideal S64x50x10000 .f32) (a1 a2 a3 a4 : FVec Ideal S0 .f32) (a5 : IVec S64x50 32)
    (a6 : FVec Ideal S64x50 .f32) (a7 a8 a9 a10 : FVec Ideal S0 .f32)
    (h : fn (F := Ideal) a0 a1 a2 a3 a4 a5 a6 a7 a8 a9 a10 = fun _ => 1#1) : ∀ i, ∃ r : ℝ, a0 i = (r : EReal) :=
  fun i => real_of_abs_lt _ ((pre_parts a0 a1 a2 a3 a4 a5 a6 a7 a8 a9 a10 h).1 i)

/-- … and so is every entry of the mask. -/
theorem pre_real_mask (a0 : FVec Ideal S64x50x10000 .f32) (a1 a2 a3 a4 : FVec Ideal S0 .f32) (a5 : IVec S64x50 32)
    (a6 : FVec Ideal S64x50 .f32) (a7 a8 a9 a10 : FVec Ideal S0 .f32)
    (h : fn (F := Ideal) a0 a1 a2 a3 a4 a5 a6 a7 a8 a9 a10 = fun _ => 1#1) : ∀ j, ∃ r : ℝ, a6 j = (r : EReal) :=
  fun j => real_of_abs_lt _ ((pre_parts a0 a1 a2 a3 a4 a5 a6 a7 a8 a9 a10 h).2.1 j)

end Cert.Proof.PreMath

end
-- ==== Proof.lean ====
/-
  The certificate's claim. The kernel flattens the input, pads the flattened targets and mask with zeros to
  3584 = 32 · 112 entries, has each of thirty-two SparseCore vector subcores fetch the 112 input entries its targets
  name and add value · mask and mask per lane, and finishes on the TensorCore with (0 − Σ) / Σ over the 2 × 32 × 16
  partial sums; the reference takes the targets' entries along the last axis and divides Σ (−value) · mask by Σ mask.
  Frames: both programs run to the end from any memory that meets the precondition (the targets within 0 … 9999 make
  every flat position an entry of the flattened input), nothing faulting, the arguments unchanged. At the extended
  reals the two results are equal: padding positions carry mask zero, the sums are regrouped (addition is
  commutative and associative), and for finite inputs 0 − Σ v·m = Σ (−v)·m.
-/
import proofs.«209899_g60301340836213_cont_9to1c4b_660_2_alg».proof.Defs
import proofs.«209899_g60301340836213_cont_9to1c4b_660_2_alg».proof.Proof.Gen.Kernel
import proofs.«209899_g60301340836213_cont_9to1c4b_660_2_alg».proof.Proof.Gen.Kernel.Skeleton
import proofs.«209899_g60301340836213_cont_9to1c4b_660_2_alg».proof.Proof.Gen.Kernel.Launch
import proofs.«209899_g60301340836213_cont_9to1c4b_660_2_alg».proof.Proof.Gen.Kernel.Points
import proofs.«209899_g60301340836213_cont_9to1c4b_660_2_alg».proof.Proof.Gen.KernelIdeal
import proofs.«209899_g60301340836213_cont_9to1c4b_660_2_alg».proof.Proof.Gen.KernelIdeal.Skeleton
import proofs.«209899_g60301340836213_cont_9to1c4b_660_2_alg».proof.Proof.Gen.KernelIdeal.Launch
import proofs.«209899_g60301340836213_cont_9to1c4b_660_2_alg».proof.Proof.Gen.KernelIdeal.Points
import proofs.«209899_g60301340836213_cont_9to1c4b_660_2_alg».proof.Proof.Gen.ReferenceIdeal
import proofs.«209899_g60301340836213_cont_9to1c4b_660_2_alg».proof.Proof.Gen.ReferenceIdeal.Run
import proofs.«209899_g60301340836213_cont_9to1c4b_660_2_alg».proof.Proof.Gen.ReferenceIdeal.Read
import proofs.«209899_g60301340836213_cont_9to1c4b_660_2_alg».proof.Proof.Gen.Pre_input_domain
import proofs.«209899_g60301340836213_cont_9to1c4b_660_2_alg».proof.Proof.Whole
import proofs.«209899_g60301340836213_cont_9to1c4b_660_2_alg».proof.Proof.WholeB
import proofs.«209899_g60301340836213_cont_9to1c4b_660_2_alg».proof.Proof.Value
import proofs.«209899_g60301340836213_cont_9to1c4b_660_2_alg».proof.Proof.RefValue
import proofs.«209899_g60301340836213_cont_9to1c4b_660_2_alg».proof.Proof.PreFacts
import Idealize.ShloMosaic.Adequacy
import Idealize.ShloMosaic.Init

noncomputable section

namespace Cert.Proof

open Idealize.ShloMosaic Idealize.SL.Sem

/-- The word-level kernel's frame: its run, the values dropped. -/
theorem frame_k : Cert.frame_Kernel := fun m ρ hpre =>
  (θ_run Cert.Kernel.defs _ _).mono (fun _ h c => (h c).1)
    (KB.run (F := Bits) m ρ (fun d j => PreMath.pre_range _ _ _ _ _ _ _ _ _ _ _ (hpre d) j))

/-- The idealized kernel's frame, likewise. -/
theorem frame_ki : Cert.frame_KernelIdeal := fun m ρ hpre =>
  (θ_run Cert.KernelIdeal.defs _ _).mono (fun _ h c => (h c).1)
    (KI.run (F := Ideal) m ρ (fun d j => PreMath.pre_range _ _ _ _ _ _ _ _ _ _ _ (hpre d) j))

/-- The reference's frame: its run, the result dropped. -/
theorem frame_ri : Cert.frame_ReferenceIdeal := fun m ρ _ =>
  (θ_run Cert.ReferenceIdeal.defs _ _).mono (fun _ h c => (h c).2.2.2.2) (Cert.ReferenceIdeal.Value.run (F := Ideal) m ρ)

/-- The reference's masked mean of device `c`'s arguments. -/
def meanOf (m : (ℓ : Loc Cert.KernelIdeal.nD Cert.KernelIdeal.τ Cert.KernelIdeal.sig) → Buf (Elt Ideal) ℓ) (c : Dev Cert.KernelIdeal.nD) : EReal :=
  Math.refVal (m ((c.tc : Thread Cert.KernelIdeal.nD Cert.KernelIdeal.τ).loc Cert.KernelIdeal.main_arg0))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))

/-- At the extended reals both programs end at the reference's masked mean of the arguments. -/
theorem algebraic : Cert.algebraic_KernelIdeal_ReferenceIdeal := by
  intro m ρ m' ρ' hpre hagree
  have hr := fun d => PreMath.pre_range _ _ _ _ _ _ _ _ _ _ _ (hpre d)
  have hx := fun d => PreMath.pre_real_input _ _ _ _ _ _ _ _ _ _ _ (hpre d)
  have hm := fun d => PreMath.pre_real_mask _ _ _ _ _ _ _ _ _ _ _ (hpre d)
  refine ⟨fun c _ => meanOf m c, fun c _ => meanOf m c, fun c _ => meanOf m c, fun c _ => meanOf m c, ?_, ?_⟩
  · refine (θ_run Cert.KernelIdeal.defs _ _).mono (fun r h c => ?_) (KI.run (F := Ideal) m ρ (fun d j => hr d j))
    obtain ⟨hargs, g, hg, hv⟩ := h c
    have e := hv.trans (KI.res7_eq m c g hg (hr c) (hx c) (hm c))
    exact ⟨e, e, e, e, hargs⟩
  · refine (θ_run Cert.ReferenceIdeal.defs _ _).mono (fun r h c => ?_) (Cert.ReferenceIdeal.Value.run (F := Ideal) m' ρ')
    obtain ⟨h1, -, -, -, hargs⟩ := h c
    have e := h1.trans ((Cert.ReferenceIdeal.Read.val_main_v7_eq _ _ _).trans
      (RefMath.ref_value _ _ _ (by rw [(hagree c).2.2.2.2.2.1]; exact hr c)))
    rw [(hagree c).1, (hagree c).2.2.2.2.2.1, (hagree c).2.2.2.2.2.2.1] at e
    exact ⟨e, e, e, e, hargs⟩

theorem claim : Cert.Claim :=
  ⟨Cert.Kernel.Gen.facts, Cert.KernelIdeal.Gen.facts, Cert.ReferenceIdeal.Gen.facts, Cert.Pre_input_domain.Gen.facts,
    frame_k, frame_ki, frame_ri, trivial, algebraic⟩

end Cert.Proof

end
